-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x2048 : Shape := ⟨3, ![4096, 2, 2048]⟩
abbrev S12288x4096 : Shape := ⟨2, ![12288, 4096]⟩
abbrev S12288 : Shape := ⟨1, ![12288]⟩
abbrev S1x4096 : Shape := ⟨2, ![1, 4096]⟩
abbrev S1 : Shape := ⟨1, ![1]⟩
abbrev S_ : Shape := ⟨0, ![]⟩

class Facts : Prop where
  bcast_S_S4096x2x2048 : S_.BroadcastsInDim S4096x2x2048 (![] : Fin 0 → Fin S4096x2x2048.rank)
  reducesTo_S4096x2x2048_S_d0_1_2 : S4096x2x2048.ReducesTo [0, 1, 2] S_
  h_S_ : 0 < S_.numel
  bcast_S_S12288x4096 : S_.BroadcastsInDim S12288x4096 (![] : Fin 0 → Fin S12288x4096.rank)
  reducesTo_S12288x4096_S_d0_1 : S12288x4096.ReducesTo [0, 1] S_
  bcast_S_S12288 : S_.BroadcastsInDim S12288 (![] : Fin 0 → Fin S12288.rank)
  reducesTo_S12288_S_d0 : S12288.ReducesTo [0] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S12288 .f32) (main_arg5 : FVec F S1x4096 .f32) (main_arg6 : FVec F S1 .f32) (main_v13 : IVec S_ 1) (main_v16 : IVec S12288x4096 1) : IVec S_ 1 :=
  let main_c_5 : IVec S_ 1 := constantI S_ 1 1#1
  let main_v17 : IVec S_ 1 := (fun x v => Host.reduce IntOp.andi x v reducesTo_S12288x4096_S_d0_1 h_S_) main_v16 main_c_5
  let main_v18 : IVec S_ 1 := andi main_v13 main_v17
  let main_v19 : FVec F S12288 .f32 := Host.absf main_arg4
  let main_cst_6 : FVec F S_ .f32 := constant S_ .f32 0x7F800000#32
  let main_v20 : FVec F S12288 .f32 := broadcastInDim S12288 ![] bcast_S_S12288 main_cst_6
  let main_v21 : IVec S12288 1 := cmpf .olt main_v19 main_v20
  let main_c_7 : IVec S_ 1 := constantI S_ 1 1#1
  let main_v22 : IVec S_ 1 := (fun x v => Host.reduce IntOp.andi x v reducesTo_S12288_S_d0 h_S_) main_v21 main_c_7
  let main_v23 : IVec S_ 1 := andi main_v18 main_v22
  let main_v24 : FVec F S1x4096 .f32 := Host.absf main_arg5
  let main_cst_8 : FVec F S_ .f32 := constant S_ .f32 0x7F800000#32
  let main_v25 : FVec F S1x4096 .f32 := broadcastInDim S1x4096 ![] bcast_S_S1x4096 main_cst_8
  let main_v26 : IVec S1x4096 1 := cmpf .olt main_v24 main_v25
  let main_c_9 : IVec S_ 1 := constantI S_ 1 1#1
  let main_v27 : IVec S_ 1 := (fun x v => Host.reduce IntOp.andi x v reducesTo_S1x4096_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4096x2x2048 .f32) (main_arg1 : FVec F S12288x4096 .f32) (main_arg2 : FVec F S12288 .f32) (main_arg3 : FVec F S12288x4096 .f32) (main_arg4 : FVec F S12288 .f32) (main_arg5 : FVec F S1x4096 .f32) (main_arg6 : FVec F S1 .f32) : IVec S_ 1 :=
  let main_v0 : FVec F S4096x2x2048 .f32 := Host.absf main_arg0
  let main_cst : FVec F S_ .f32 := constant S_ .f32 0x7F800000#32
  let main_v1 : FVec F S4096x2x2048 .f32 := broadcastInDim S4096x2x2048 ![] bcast_S_S4096x2x2048 main_cst
  let main_v2 : IVec S4096x2x2048 1 := cmpf .olt main_v0 main_v1
  let main_c : IVec S_ 1 := constantI S_ 1 1#1
  let main_v3 : IVec S_ 1 := (fun x v => Host.reduce IntOp.andi x v reducesTo_S4096x2x2048_S_d0_1_2 h_S_) main_v2 main_c
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_c_1 : IVec S_ 1 := constantI S_ 1 1#1
  let main_v7 : IVec S_ 1 := (fun x v => Host.reduce IntOp.andi x v reducesTo_S12288x4096_S_d0_1 h_S_) main_v6 main_c_1
  let main_v8 : IVec S_ 1 := andi main_v3 main_v7
  let main_v9 : FVec F S12288 .f32 := Host.absf main_arg2
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  let main_v14 : FVec F S12288x4096 .f32 := Host.absf main_arg3
  let main_cst_4 : FVec F S_ .f32 := constant S_ .f32 0x7F800000#32
  let main_v15 : FVec F S12288x4096 .f32 := broadcastInDim S12288x4096 ![] bcast_S_S12288x4096 main_cst_4
  let main_v16 : IVec S12288x4096 1 := cmpf .olt main_v14 main_v15
  fn_part1 (F := F) main_arg4 main_arg5 main_arg6 main_v13 main_v16
-- ==== Kernel.lean ====
abbrev S4096x2x2048 : Shape := ⟨3, ![4096, 2, 2048]⟩
abbrev S12288x4096 : Shape := ⟨2, ![12288, 4096]⟩
abbrev S12288 : Shape := ⟨1, ![12288]⟩
abbrev S1x4096 : Shape := ⟨2, ![1, 4096]⟩
abbrev S1 : Shape := ⟨1, ![1]⟩
abbrev S4096x4096 : Shape := ⟨2, ![4096, 4096]⟩
abbrev S12288x2048 : Shape := ⟨2, ![12288, 2048]⟩
abbrev S8192x4096 : Shape := ⟨2, ![8192, 4096]⟩
abbrev S1x4096x4096 : Shape := ⟨3, ![1, 4096, 4096]⟩
abbrev S4x4096x4096 : Shape := ⟨3, ![4, 4096, 4096]⟩
abbrev S8192 : Shape := ⟨1, ![8192]⟩
abbrev S4096 : Shape := ⟨1, ![4096]⟩
abbrev S4x4096 : Shape := ⟨2, ![4, 4096]⟩
abbrev S2048x1024 : Shape := ⟨2, ![2048, 1024]⟩
abbrev S2048x512 : Shape := ⟨2, ![2048, 512]⟩
abbrev S4x512x1024 : Shape := ⟨3, ![4, 512, 1024]⟩
abbrev S4x512 : Shape := ⟨2, ![4, 512]⟩
abbrev S1x512x1024 : Shape := ⟨3, ![1, 512, 1024]⟩
abbrev S512x1024 : Shape := ⟨2, ![512, 1024]⟩
abbrev S1x512 : Shape := ⟨2, ![1, 512]⟩
abbrev S512 : Shape := ⟨1, ![512]⟩
abbrev S4096x1 : Shape := ⟨2, ![4096, 1]⟩
abbrev S1x1 : Shape := ⟨2, ![1, 1]⟩

abbrev nBuf : Space → Nat
  | .hbm => 45
  | .vmem => 28
  | .smem => 0
  | _ => 0

abbrev bufTy : (tb : Table) → Fin (tcTables nBuf tb) → BufTy
  | .hbm, ⟨0, _⟩ => ⟨S4096x2x2048, .f32⟩
  | .hbm, ⟨1, _⟩ => ⟨S12288x4096, .f32⟩
  | .hbm, ⟨2, _⟩ => ⟨S12288, .f32⟩
  | .hbm, ⟨3, _⟩ => ⟨S12288x4096, .f32⟩
  | .hbm, ⟨4, _⟩ => ⟨S12288, .f32⟩
  | .hbm, ⟨5, _⟩ => ⟨S1x4096, .f32⟩
  | .hbm, ⟨6, _⟩ => ⟨S1, .f32⟩
  | .hbm, ⟨7, _⟩ => ⟨S4096x4096, .f32⟩
  | .hbm, ⟨8, _⟩ => ⟨S12288x2048, .f32⟩
  | .hbm, ⟨9, _⟩ => ⟨S12288x2048, .f32⟩
  | .hbm, ⟨10, _⟩ => ⟨S12288x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S1x4096x4096, .f32⟩
  | .hbm, ⟨19, _⟩ => ⟨S1x4096x4096, .f32⟩
  | .hbm, ⟨20, _⟩ => ⟨S1x4096x4096, .f32⟩
  | .hbm, ⟨21, _⟩ => ⟨S1x4096x4096, .f32⟩
  | .hbm, ⟨22, _⟩ => ⟨S4x4096x4096, .f32⟩
  | .hbm, ⟨23, _⟩ => ⟨S4x4096x4096, .bf16⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S4x4096, .f32⟩
  | .hbm, ⟨36, _⟩ => ⟨S4096x4096, .bf16⟩
  | .hbm, ⟨37, _⟩ => ⟨S4096x4096, .f32⟩
  | .hbm, ⟨38, _⟩ => ⟨S4096x4096, .bf16⟩
  | .hbm, ⟨39, _⟩ => ⟨S4096x4096, .f32⟩
  | .hbm, ⟨40, _⟩ => ⟨S4096x1, .f32⟩
  | .hbm, ⟨41, _⟩ => ⟨S4096x1, .f32⟩
  | .hbm, ⟨42, _⟩ => ⟨S1x1, .f32⟩
  | .hbm, ⟨43, _⟩ => ⟨S4096x1, .f32⟩
  | .hbm, ⟨44, _⟩ => ⟨S4096x1, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S4x512x1024, .bf16⟩
  | .local _ .vmem, ⟨5, _⟩ => ⟨S4x512x1024, .bf16⟩
  | .local _ .vmem, ⟨6, _⟩ => ⟨S4x512, .f32⟩
  | .local _ .vmem, ⟨7, _⟩ => ⟨S4x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S2048x1024, .bf16⟩
  | .local _ .vmem, ⟨15, _⟩ => ⟨S2048x1024, .bf16⟩
  | .local _ .vmem, ⟨16, _⟩ => ⟨S2048x512, .f32⟩
  | .local _ .vmem, ⟨17, _⟩ => ⟨S2048x512, .f32⟩
  | .local _ .vmem, ⟨18, _⟩ => ⟨S4x512x1024, .bf16⟩
  | .local _ .vmem, ⟨19, _⟩ => ⟨S4x512x1024, .bf16⟩
  | .local _ .vmem, ⟨20, _⟩ => ⟨S4x512, .f32⟩
  | .local _ .vmem, ⟨21, _⟩ => ⟨S4x512, .f32⟩
  | .local _ .vmem, ⟨22, _⟩ => ⟨S2048x512, .f32⟩
  | .local _ .vmem, ⟨23, _⟩ => ⟨S2048x512, .f32⟩
  | .local _ .vmem, ⟨24, _⟩ => ⟨S2048x512, .f32⟩
  | .local _ .vmem, ⟨25, _⟩ => ⟨S2048x512, .f32⟩
  | .local _ .vmem, ⟨26, _⟩ => ⟨S2048x512, .f32⟩
  | .local _ .vmem, ⟨27, _⟩ => ⟨S2048x512, .f32⟩
  | _, _ => ⟨S4096x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc1_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v37 : BitVec 1 := Scalar.cmpi .eq arg2 c3_i32
  let v38 : BitVec 32 := Scalar.extui v37
  let c0_i32_30 : BitVec 32 := 0#32
  let v39 : BitVec 1 := Scalar.cmpi .ne v38 c0_i32_30
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![2, 8, 4], ![false, false, false]⟩

def k1_cond2 (i : grid1.Coords) : BitVec 1 :=
  let arg2 : BitVec 32 := BitVec.ofNat 32 (i 2).val
  let c3_i32 : BitVec 32 := 3#32
  let v37 : BitVec 1 := Scalar.cmpi .eq arg2 c3_i32
  let v38 : BitVec 32 := Scalar.extui v37
  let c0_i32_30 : BitVec 32 := 0#32
  let v39 : BitVec 1 := Scalar.cmpi .ne v38 c0_i32_30
  v39

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S4x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S4x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4096x2x2048_S4096x4096 : S4096x2x2048.ShapeCasts S4096x4096
  slices_S12288x4096_S12288x2048_0_2048 : S12288x4096.Slices ![0, 2048] S12288x2048
  slices_S12288x4096_S12288x2048_0_0 : S12288x4096.Slices ![0, 0] S12288x2048
  concatenates_S12288x2048_S12288x2048_S12288x4096_d1 : Shape.Concatenates [S12288x2048, S12288x2048] S12288x4096 1
  slices_S12288x4096_S8192x4096_0_0 : S12288x4096.Slices ![0, 0] S8192x4096
  slices_S8192x4096_S4096x4096_0_0 : S8192x4096.Slices ![0, 0] S4096x4096
  slices_S8192x4096_S4096x4096_4096_0 : S8192x4096.Slices ![4096, 0] S4096x4096
  slices_S12288x4096_S4096x4096_8192_0 : S12288x4096.Slices ![8192, 0] S4096x4096
  bcast_S4096x4096_S1x4096x4096_1_2 : S4096x4096.BroadcastsInDim S1x4096x4096 (![1, 2] : Fin 2 → Fin S1x4096x4096.rank)
  concatenates_S1x4096x4096_S1x4096x4096_S1x4096x4096_S1x4096x4096_S4x4096x4096_d0 : Shape.Concatenates [S1x4096x4096, S1x4096x4096, S1x4096x4096, S1x4096x4096] S4x4096x4096 0
  bitsLt_bf16_f32 : FTy.bits .bf16 < FTy.bits .f32
  slices_S12288_S8192_0 : S12288.Slices ![0] S8192
  slices_S8192_S4096_0 : S8192.Slices ![0] S4096
  slices_S8192_S4096_4096 : S8192.Slices ![4096] S4096
  slices_S12288_S4096_8192 : S12288.Slices ![8192] S4096
  bcast_S4096_S1x4096_1 : S4096.BroadcastsInDim S1x4096 (![1] : Fin 1 → Fin S1x4096.rank)
  concatenates_S1x4096_S1x4096_S1x4096_S1x4096_S4x4096_d0 : Shape.Concatenates [S1x4096, S1x4096, S1x4096, S1x4096] S4x4096 0
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S4x512x1024_S1x512x1024_0_0_0 : ∀ a, (![0, 0, 0] : Fin 3 → Nat) a + S1x512x1024.size a ≤ S4x512x1024.size a
  h_S1x512x1024 : 0 < S1x512x1024.numel
  shapeCasts_S1x512x1024_S512x1024 : S1x512x1024.ShapeCasts S512x1024
  inb_S4x512x1024_S1x512x1024_1_0_0 : ∀ a, (![1, 0, 0] : Fin 3 → Nat) a + S1x512x1024.size a ≤ S4x512x1024.size a
  inb_S4x512x1024_S1x512x1024_2_0_0 : ∀ a, (![2, 0, 0] : Fin 3 → Nat) a + S1x512x1024.size a ≤ S4x512x1024.size a
  inb_S4x512x1024_S1x512x1024_3_0_0 : ∀ a, (![3, 0, 0] : Fin 3 → Nat) a + S1x512x1024.size a ≤ S4x512x1024.size a
  inb_S4x512_S1x512_0_0 : ∀ a, (![0, 0] : Fin 2 → Nat) a + S1x512.size a ≤ S4x512.size a
  h_S1x512 : 0 < S1x512.numel
  shapeCasts_S1x512_S512 : S1x512.ShapeCasts S512
  shapeCasts_S512_S1x512 : S512.ShapeCasts S1x512
  inb_S4x512_S1x512_1_0 : ∀ a, (![1, 0] : Fin 2 → Nat) a + S1x512.size a ≤ S4x512.size a
  inb_S4x512_S1x512_2_0 : ∀ a, (![2, 0] : Fin 2 → Nat) a + S1x512.size a ≤ S4x512.size a
  inb_S4x512_S1x512_3_0 : ∀ a, (![3, 0] : Fin 2 → Nat) a + S1x512.size a ≤ S4x512.size a
  broadcasts_S1x512_S2048x512 : S1x512.Broadcasts S2048x512
  transposes_S1x4096_S4096x1_1_0 : S1x4096.Transposes [1, 0] S4096x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S2048x1024_S512x1024_S2048x512_1_1_0_0_n_n_wf : DotDims.WF S2048x1024 S512x1024 S2048x512 [1] [1] [0] [0] [] []
  dot_S4096x4096_S4096x1_S4096x1_1_0_0_1_n_n_wf : DotDims.WF S4096x4096 S4096x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x4096.size a
  hwx0_0 : ∀ i : grid0.Coords, EltTy.bits .bf16 = 32 ∨ (Rect.block (s := S4096x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .f32 = 32 ∨ (Rect.block (s := S4096x4096) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1024.size a ≤ S4x4096x4096.size a
  hwx0_2 : ∀ i : grid0.Coords, EltTy.bits .bf16 = 32 ∨ (Rect.block (s := S4x4096x4096) S4x512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x4096.size a
  hwx0_3 : ∀ i : grid0.Coords, EltTy.bits .f32 = 32 ∨ (Rect.block (s := S4x4096) S4x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S4096x4096.size a
  hwx0_4 : ∀ i : grid0.Coords, EltTy.bits .f32 = 32 ∨ (Rect.block (s := S4096x4096) S2048x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x4096.size a
  hwx1_0 : ∀ i : grid1.Coords, EltTy.bits .bf16 = 32 ∨ (Rect.block (s := S4096x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .f32 = 32 ∨ (Rect.block (s := S4096x4096) S2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512x1024.size a ≤ S4x4096x4096.size a
  hwx1_2 : ∀ i : grid1.Coords, EltTy.bits .bf16 = 32 ∨ (Rect.block (s := S4x4096x4096) S4x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x512.size a ≤ S4x4096.size a
  hwx1_3 : ∀ i : grid1.Coords, EltTy.bits .f32 = 32 ∨ (Rect.block (s := S4x4096) S4x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S4096x4096.size a
  hwx1_4 : ∀ i : grid1.Coords, EltTy.bits .f32 = 32 ∨ (Rect.block (s := S4096x4096) S2048x512.size (cc1_transform_4 i) (hinb1_4 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf
def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf

abbrev win0_0 : Pipeline.Window sig grid0 :=
  Pipeline.Window.ofSpec (Memref.whole main_v29) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S4x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v31) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S4x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S4x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32) S2048x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x2x2048 : Shape := ⟨3, ![4096, 2, 2048]⟩
abbrev S12288x4096 : Shape := ⟨2, ![12288, 4096]⟩
abbrev S12288 : Shape := ⟨1, ![12288]⟩
abbrev S1x4096 : Shape := ⟨2, ![1, 4096]⟩
abbrev S1 : Shape := ⟨1, ![1]⟩
abbrev S4096x4096 : Shape := ⟨2, ![4096, 4096]⟩
abbrev S4096x2048 : Shape := ⟨2, ![4096, 2048]⟩
abbrev S4096x12288 : Shape := ⟨2, ![4096, 12288]⟩
abbrev S1x12288 : Shape := ⟨2, ![1, 12288]⟩
abbrev S_ : Shape := ⟨0, ![]⟩
abbrev S4096x1 : Shape := ⟨2, ![4096, 1]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S4096x2x2048, .f32⟩
  | .hbm, ⟨1, _⟩ => ⟨S12288x4096, .f32⟩
  | .hbm, ⟨2, _⟩ => ⟨S12288, .f32⟩
  | .hbm, ⟨3, _⟩ => ⟨S12288x4096, .f32⟩
  | .hbm, ⟨4, _⟩ => ⟨S12288, .f32⟩
  | .hbm, ⟨5, _⟩ => ⟨S1x4096, .f32⟩
  | .hbm, ⟨6, _⟩ => ⟨S1, .f32⟩
  | .hbm, ⟨7, _⟩ => ⟨S4096x4096, .f32⟩
  | .hbm, ⟨8, _⟩ => ⟨S4096x2048, .f32⟩
  | .hbm, ⟨9, _⟩ => ⟨S4096x2048, .f32⟩
  | .hbm, ⟨10, _⟩ => ⟨S4096x4096, .f32⟩
  | .hbm, ⟨11, _⟩ => ⟨S4096x12288, .f32⟩
  | .hbm, ⟨12, _⟩ => ⟨S4096x12288, .f32⟩
  | .hbm, ⟨13, _⟩ => ⟨S1x12288, .f32⟩
  | .hbm, ⟨14, _⟩ => ⟨S4096x12288, .f32⟩
  | .hbm, ⟨15, _⟩ => ⟨S4096x12288, .f32⟩
  | .hbm, ⟨16, _⟩ => ⟨S4096x12288, .f32⟩
  | .hbm, ⟨17, _⟩ => ⟨S4096x12288, .f32⟩
  | .hbm, ⟨18, _⟩ => ⟨S1x12288, .f32⟩
  | .hbm, ⟨19, _⟩ => ⟨S4096x12288, .f32⟩
  | .hbm, ⟨20, _⟩ => ⟨S4096x12288, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x2048, .f32⟩
  | .hbm, ⟨55, _⟩ => ⟨S4096x2048, .f32⟩
  | .hbm, ⟨56, _⟩ => ⟨S4096x4096, .f32⟩
  | .hbm, ⟨57, _⟩ => ⟨S4096x12288, .f32⟩
  | .hbm, ⟨58, _⟩ => ⟨S4096x12288, .f32⟩
  | .hbm, ⟨59, _⟩ => ⟨S1x12288, .f32⟩
  | .hbm, ⟨60, _⟩ => ⟨S4096x12288, .f32⟩
  | .hbm, ⟨61, _⟩ => ⟨S4096x12288, .f32⟩
  | .hbm, ⟨62, _⟩ => ⟨S4096x12288, .f32⟩
  | .hbm, ⟨63, _⟩ => ⟨S4096x12288, .f32⟩
  | .hbm, ⟨64, _⟩ => ⟨S1x12288, .f32⟩
  | .hbm, ⟨65, _⟩ => ⟨S4096x12288, .f32⟩
  | .hbm, ⟨66, _⟩ => ⟨S4096x12288, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S4096x4096, .f32⟩
  | .hbm, ⟨76, _⟩ => ⟨S_, .f32⟩
  | .hbm, ⟨77, _⟩ => ⟨S4096x4096, .f32⟩
  | .hbm, ⟨78, _⟩ => ⟨S4096x4096, .f32⟩
  | .hbm, ⟨79, _⟩ => ⟨S_, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S4096x4096, .f32⟩
  | .hbm, ⟨85, _⟩ => ⟨S_, .f32⟩
  | .hbm, ⟨86, _⟩ => ⟨S4096x4096, .f32⟩
  | .hbm, ⟨87, _⟩ => ⟨S4096x4096, .f32⟩
  | .hbm, ⟨88, _⟩ => ⟨S_, .f32⟩
  | .hbm, ⟨89, _⟩ => ⟨S4096x4096, .f32⟩
  | .hbm, ⟨90, _⟩ => ⟨S4096x4096, .f32⟩
  | .hbm, ⟨91, _⟩ => ⟨S4096x4096, .f32⟩
  | .hbm, ⟨92, _⟩ => ⟨S4096x4096, .f32⟩
  | .hbm, ⟨93, _⟩ => ⟨S4096x4096, .f32⟩
  | .hbm, ⟨94, _⟩ => ⟨S_, .f32⟩
  | .hbm, ⟨95, _⟩ => ⟨S4096x4096, .f32⟩
  | .hbm, ⟨96, _⟩ => ⟨S4096x4096, .f32⟩
  | .hbm, ⟨97, _⟩ => ⟨S4096x4096, .f32⟩
  | .hbm, ⟨98, _⟩ => ⟨S4096x4096, .f32⟩
  | .hbm, ⟨99, _⟩ => ⟨S4096x4096, .f32⟩
  | .hbm, ⟨100, _⟩ => ⟨S4096x1, .f32⟩
  | .hbm, ⟨101, _⟩ => ⟨S4096x1, .f32⟩
  | .hbm, ⟨102, _⟩ => ⟨S1x1, .f32⟩
  | .hbm, ⟨103, _⟩ => ⟨S4096x1, .f32⟩
  | .hbm, ⟨104, _⟩ => ⟨S4096x1, .f32⟩
  | _, _ => ⟨S4096x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_4 : Ref sig .tc := ⟨.hbm, 76, rfl⟩
abbrev main_v64 : Ref sig .tc := ⟨.hbm, 77, rfl⟩
abbrev main_v65 : Ref sig .tc := ⟨.hbm, 78, rfl⟩
abbrev main_cst_5 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_6 : Ref sig .tc := ⟨.hbm, 85, rfl⟩
abbrev main_v71 : Ref sig .tc := ⟨.hbm, 86, rfl⟩
abbrev main_v72 : Ref sig .tc := ⟨.hbm, 87, rfl⟩
abbrev main_cst_7 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_8 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩

abbrev nD : Nat := 1
abbrev τ : Topo := Topo.v7x

variable {F : FTy → Type} [FloatOps F]

class Facts₀ : Prop where
  shapeCasts_S4096x2x2048_S4096x4096 : S4096x2x2048.ShapeCasts S4096x4096
  slices_S4096x4096_S4096x2048_0_2048 : S4096x4096.Slices ![0, 2048] S4096x2048
  slices_S4096x4096_S4096x2048_0_0 : S4096x4096.Slices ![0, 0] S4096x2048
  concatenates_S4096x2048_S4096x2048_S4096x4096_d1 : Shape.Concatenates [S4096x2048, S4096x2048] S4096x4096 1
  transposes_S12288x4096_S4096x12288_1_0 : S12288x4096.Transposes [1, 0] S4096x12288
  bcast_S12288_S1x12288_1 : S12288.BroadcastsInDim S1x12288 (![1] : Fin 1 → Fin S1x12288.rank)
  bcast_S1x12288_S4096x12288_0_1 : S1x12288.BroadcastsInDim S4096x12288 (![0, 1] : Fin 2 → Fin S4096x12288.rank)
  slices_S4096x12288_S4096x4096_0_0 : S4096x12288.Slices ![0, 0] S4096x4096
  slices_S4096x12288_S4096x4096_0_4096 : S4096x12288.Slices ![0, 4096] S4096x4096
  slices_S4096x12288_S4096x4096_0_8192 : S4096x12288.Slices ![0, 8192] S4096x4096
  bcast_S_S4096x4096 : S_.BroadcastsInDim S4096x4096 (![] : Fin 0 → Fin S4096x4096.rank)
  transposes_S1x4096_S4096x1_1_0 : S1x4096.Transposes [1, 0] S4096x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x4096_S4096x12288_S4096x12288_1_0_0_1_n_n_wf : DotDims.WF S4096x4096 S4096x12288 S4096x12288 [1] [0] [0] [1] [] []
  dot_S4096x4096_S4096x1_S4096x1_1_0_0_1_n_n_wf : DotDims.WF S4096x4096 S4096x1 S4096x1 [1] [0] [0] [1] [] []

variable [Facts₀]

def dot_S4096x4096_S4096x12288_S4096x12288_1_0_0_1_n_n : DotDims S4096x4096 S4096x12288 S4096x12288 where
  lhsContracting := [1]
  rhsContracting := [0]
  lhsNonContracting := [0]
  rhsNonContracting := [1]
  lhsBatch := []
  rhsBatch := []
  wf := dot_S4096x4096_S4096x12288_S4096x12288_1_0_0_1_n_n_wf
def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf

class Facts : Prop extends Facts₀ where

variable [Facts]
-- ==== Proof.K.R0Runs.lean ====
import proofs.«119031_j6846177870362_2_alg».proof.Proof.Gen.Kernel.Launch
import proofs.«119031_j6846177870362_2_alg».proof.Proof.Gen.Kernel.Skeleton
import proofs.«119031_j6846177870362_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # One round's kernel region (pallas call 0): what its runs share

The region is entered with the core's buffers at contents `V`. The grid has 2 × 8 × 4 points, the last axis the
reduction over the four 1024-wide slabs of the contraction; a point is first / inner / last of its group of four
according to `t % 4`. -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetched it or the
    block index has not moved since the point that did: the window is uncut and never idle. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetched it or the
    block index has not moved since the point that did: the window is uncut and never idle. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetched it or the
    block index has not moved since the point that did: the window is uncut and never idle. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetched it or the
    block index has not moved since the point that did: the window is uncut and never idle. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, decided over the grid -/

/-- "This is the first slab of the contraction" (the accumulators are zeroed), from the grid coordinates. -/
abbrev cond_0 (i : grid0.Coords) : Prop := (Scalar.cmpi .ne (Scalar.extui (Scalar.cmpi .eq (BitVec.ofNat 32 (i 2).val) 0#32)) 0#32) = 1#1
theorem hcond_0 : ∀ t : Fin cfg0.N, cond_0 (grid0.coords t) ↔ t.val % 4 = 0 :=
  (by decide +kernel : ∀ t : Fin grid0.N, cond_0 (grid0.coords t) ↔ t.val % 4 = 0)

/-- "This is the last slab of the contraction" (the gates are applied and the new state stored). -/
abbrev cond_1 (i : grid0.Coords) : Prop := k0_cond2 i = 1#1
theorem hcond_1 : ∀ t : Fin cfg0.N, cond_1 (grid0.coords t) ↔ t.val % 4 = 3 :=
  (by decide +kernel : ∀ t : Fin grid0.N, cond_1 (grid0.coords t) ↔ t.val % 4 = 3)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- At a first slab the output window is idle and not written back. -/
theorem idleAt_4_A : ∀ t : Fin cfg0.N, cond_0 (grid0.coords t) → ¬cond_1 (grid0.coords t) → cfg0.idle 4 (grid0.coords t) = true := by decide +kernel
theorem noFlush_4_A : ∀ t : Fin cfg0.N, cond_0 (grid0.coords t) → ¬cond_1 (grid0.coords t) → (cfg0.win 4).flush t = false := by decide +kernel
/-- At an inner slab too. -/
theorem idleAt_4_B : ∀ t : Fin cfg0.N, ¬cond_0 (grid0.coords t) → ¬cond_1 (grid0.coords t) → cfg0.idle 4 (grid0.coords t) = true := by decide +kernel
theorem noFlush_4_B : ∀ t : Fin cfg0.N, ¬cond_0 (grid0.coords t) → ¬cond_1 (grid0.coords t) → (cfg0.win 4).flush t = false := by decide +kernel
/-- At a last slab it is live: the body stores the new state into it. -/
theorem liveAt_4_C : ∀ t : Fin cfg0.N, ¬cond_0 (grid0.coords t) → cond_1 (grid0.coords t) → cfg0.idle 4 (grid0.coords t) = false := by decide +kernel

/-! ## The memrefs the body is called with -/

/-- One staging buffer of the output window, through which its contents are stated. -/
abbrev VO_4 : View sig .tc .vmem S2048x512 .f32 := (Memref.whole cc0_stg4_0 : Memref sig .tc .vmem S2048x512 .f32).view
abbrev ms_0 (t : Fin cfg0.N) : Memref sig .tc .vmem S2048x1024 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x512 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S4x512x1024 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S4x512 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2048x512 .f32 := win0_4.stage (cfg0.slots t 4)
abbrev hs_4 (t : Fin cfg0.N) : (ms_4 t).IsWhole := hstage0_4 ((cfg0.slots t 4).cast nbuf0_4)
/-- The four gate accumulators: whole scoped buffers of the kernel's own, carried from point to point. -/
abbrev scM_0 : Memref sig .tc .vmem S2048x512 .f32 := Memref.whole cc0_scratch0
abbrev VS_0 : View sig .tc .vmem S2048x512 .f32 := scM_0.view
abbrev scM_1 : Memref sig .tc .vmem S2048x512 .f32 := Memref.whole cc0_scratch1
abbrev VS_1 : View sig .tc .vmem S2048x512 .f32 := scM_1.view
abbrev scM_2 : Memref sig .tc .vmem S2048x512 .f32 := Memref.whole cc0_scratch2
abbrev VS_2 : View sig .tc .vmem S2048x512 .f32 := scM_2.view
abbrev scM_3 : Memref sig .tc .vmem S2048x512 .f32 := Memref.whole cc0_scratch3
abbrev VS_3 : View sig .tc .vmem S2048x512 .f32 := scM_3.view

/-- The scoped buffers of the core that this kernel neither stages through nor accumulates in, each at some contents. -/
def rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))

/-- The region's invariant as the launch hands it over: the accumulators and the other scoped buffers at some
    contents, the generator register at some state. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d) ∗ rest c) ∗ (∃ r, prngReg c r)) := by
  unfold Pipeline.ΦA rest; rw [scopedRest0_eq]; simp only [scM_0, scM_1, scM_2, scM_3, owns_whole]; try rfl

/-- Everything of the invariant but the accumulators. -/
def restAll (c : Dev nD) : sProp 𝕄 := iprop(rest c ∗ (∃ r, prngReg c r))

/-- The launch's invariant with the four accumulators set apart, -/
theorem PhiA_split (c : Dev nD) :
    (Pipeline.ΦA spec0 c : sProp 𝕄) ⊢ iprop(((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d)) ∗ restAll c) := by
  rw [PhiA_eq]; unfold restAll
  iintro ⟨⟨H0, H1, H2, H3, HR⟩, Hg⟩
  isplitl [H0 H1 H2 H3]
  · isplitl [H0]; · iexact H0
    isplitl [H1]; · iexact H1
    isplitl [H2]; · iexact H2
    iexact H3
  isplitl [HR]; · iexact HR
  iexact Hg

/-- and put back. -/
theorem PhiA_join (c : Dev nD) :
    (iprop(((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d)) ∗ restAll c) : sProp 𝕄) ⊢ Pipeline.ΦA spec0 c := by
  rw [PhiA_eq]; unfold restAll
  iintro ⟨⟨H0, H1, H2, H3⟩, HR, Hg⟩
  isplitl [H0 H1 H2 H3 HR]
  · isplitl [H0]; · iexact H0
    isplitl [H1]; · iexact H1
    isplitl [H2]; · iexact H2
    isplitl [H3]; · iexact H3
    iexact HR
  iexact Hg

end Cert.Kernel.Rgn0

end
-- ==== Proof.K.R0RunA.lean ====
import proofs.«119031_j6846177870362_2_alg».proof.Proof.K.R0Runs

set_option maxRecDepth 16384

noncomputable section

namespace Cert.Kernel.Rgn0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large
set_option maxHeartbeats 4000000 in
/-- The body at a first slab (the accumulators are zeroed, then added to; nothing is stored into the output): the pieces its stores leave in the output's and the accumulators' memrefs (last first), with the
    proof that on whole memrefs — the four inputs at their contents, the output at contents handed back untouched, the accumulators at anything —
    the body runs to the continuation holding the inputs as they were and each buffer it stored into with those pieces written. -/
noncomputable def kernelRun_A (c : Dev nD) (i : grid0.Coords) (arg3 : Memref sig .tc .vmem S2048x1024 .bf16) (harg3 : arg3.IsWhole) (arg4 : Memref sig .tc .vmem S2048x512 .f32) (harg4 : arg4.IsWhole) (arg5 : Memref sig .tc .vmem S4x512x1024 .bf16) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (hc0 : cond_0 i) (hc1 : ¬cond_1 i)
    (x0 : Vec F S2048x1024 .bf16) (x1 : Vec F S2048x512 .f32) (x2 : Vec F S4x512x1024 .bf16) (x3 : Vec F S4x512 .f32) :
    Σ' (L4 : List (View.Piece (Elt F) S2048x512 .f32)) (LS0 : List (View.Piece (Elt F) S2048x512 .f32)) (LS1 : List (View.Piece (Elt F) S2048x512 .f32)) (LS2 : List (View.Piece (Elt F) S2048x512 .f32)), { LS3 : List (View.Piece (Elt F) S2048x512 .f32) //
      ∀ (xi4 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__gru_round_kernel i arg3 harg3 arg4 harg4 arg5 harg5 arg6 harg6 arg7 harg7 arg8 harg8 arg9 harg9 arg10 harg10 arg11 harg11) K } := by
  refine ⟨[], ?_, ?_, ?_, ?_, fun xi4 E K => ?run⟩
  case run =>
    simp only [cc0__gru_round_kernel_eq_skeleton]; unfold cc0__gru_round_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.Kernel.Rgn0

end
-- ==== Proof.K.R0RunB.lean ====
import proofs.«119031_j6846177870362_2_alg».proof.Proof.K.R0RunA

set_option maxRecDepth 16384

noncomputable section

namespace Cert.Kernel.Rgn0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large
set_option maxHeartbeats 4000000 in
/-- The body at an inner slab (the accumulators are added to; nothing is stored into the output): the pieces its stores leave in the output's and the accumulators' memrefs (last first), with the
    proof that on whole memrefs — the four inputs at their contents, the output at contents handed back untouched, the accumulators at what the point before left —
    the body runs to the continuation holding the inputs as they were and each buffer it stored into with those pieces written. -/
noncomputable def kernelRun_B (c : Dev nD) (i : grid0.Coords) (arg3 : Memref sig .tc .vmem S2048x1024 .bf16) (harg3 : arg3.IsWhole) (arg4 : Memref sig .tc .vmem S2048x512 .f32) (harg4 : arg4.IsWhole) (arg5 : Memref sig .tc .vmem S4x512x1024 .bf16) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (hc0 : ¬cond_0 i) (hc1 : ¬cond_1 i)
    (x0 : Vec F S2048x1024 .bf16) (x1 : Vec F S2048x512 .f32) (x2 : Vec F S4x512x1024 .bf16) (x3 : Vec F S4x512 .f32) (xs0 : Vec F S2048x512 .f32) (xs1 : Vec F S2048x512 .f32) (xs2 : Vec F S2048x512 .f32) (xs3 : Vec F S2048x512 .f32) :
    Σ' (L4 : List (View.Piece (Elt F) S2048x512 .f32)) (LS0 : List (View.Piece (Elt F) S2048x512 .f32)) (LS1 : List (View.Piece (Elt F) S2048x512 .f32)) (LS2 : List (View.Piece (Elt F) S2048x512 .f32)), { LS3 : List (View.Piece (Elt F) S2048x512 .f32) //
      ∀ (xi4 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__gru_round_kernel i arg3 harg3 arg4 harg4 arg5 harg5 arg6 harg6 arg7 harg7 arg8 harg8 arg9 harg9 arg10 harg10 arg11 harg11) K } := by
  refine ⟨[], ?_, ?_, ?_, ?_, fun xi4 E K => ?run⟩
  case run =>
    simp only [cc0__gru_round_kernel_eq_skeleton]; unfold cc0__gru_round_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.Kernel.Rgn0

end
-- ==== Proof.K.R0RunC.lean ====
import proofs.«119031_j6846177870362_2_alg».proof.Proof.K.R0RunB

set_option maxRecDepth 16384

noncomputable section

namespace Cert.Kernel.Rgn0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large
set_option maxHeartbeats 4000000 in
/-- The body at a last slab (the accumulators are added to, the gates applied, and the new state stored into the output): the pieces its stores leave in the output's and the accumulators' memrefs (last first), with the
    proof that on whole memrefs — the four inputs at their contents, the output at anything, the accumulators at what the point before left —
    the body runs to the continuation holding the inputs as they were and each buffer it stored into with those pieces written. -/
noncomputable def kernelRun_C (c : Dev nD) (i : grid0.Coords) (arg3 : Memref sig .tc .vmem S2048x1024 .bf16) (harg3 : arg3.IsWhole) (arg4 : Memref sig .tc .vmem S2048x512 .f32) (harg4 : arg4.IsWhole) (arg5 : Memref sig .tc .vmem S4x512x1024 .bf16) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (hc0 : ¬cond_0 i) (hc1 : cond_1 i)
    (x0 : Vec F S2048x1024 .bf16) (x1 : Vec F S2048x512 .f32) (x2 : Vec F S4x512x1024 .bf16) (x3 : Vec F S4x512 .f32) (xs0 : Vec F S2048x512 .f32) (xs1 : Vec F S2048x512 .f32) (xs2 : Vec F S2048x512 .f32) (xs3 : Vec F S2048x512 .f32) :
    Σ' (L4 : List (View.Piece (Elt F) S2048x512 .f32)) (LS0 : List (View.Piece (Elt F) S2048x512 .f32)) (LS1 : List (View.Piece (Elt F) S2048x512 .f32)) (LS2 : List (View.Piece (Elt F) S2048x512 .f32)), { LS3 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__gru_round_kernel i arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__gru_round_kernel_eq_skeleton]; unfold cc0__gru_round_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.Kernel.Rgn0

end
-- ==== Proof.K.R0Frame.lean ====
import proofs.«119031_j6846177870362_2_alg».proof.Proof.K.R0RunC

set_option maxRecDepth 16384

noncomputable section

namespace Cert.Kernel.Rgn0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # One round's kernel region (pallas call 0): what the buffers hold point by point, the proof data, the body obligation -/

/-- What a point leaves: the output's staging buffer, then the four gate accumulators. -/
abbrev St (F : FTy → Type) [FloatOps F] : Type := Vec F S2048x512 .f32 × Vec F S2048x512 .f32 × Vec F S2048x512 .f32 × Vec F S2048x512 .f32 × Vec F S2048x512 .f32

/-- The three runs at a grid point, on the memrefs and input blocks the pipeline passes there. -/
abbrev runA (c : Dev nD) (t : Fin cfg0.N) (h0 : cond_0 (grid0.coords t)) (h1 : ¬cond_1 (grid0.coords t)) :=
  kernelRun_A (F := F) c (grid0.coords t) (ms_0 t) (hs_0 t) (ms_1 t) (hs_1 t) (ms_2 t) (hs_2 t) (ms_3 t) (hs_3 t) (ms_4 t) (hs_4 t) scM_0 (Memref.isWhole_whole _) scM_1 (Memref.isWhole_whole _) scM_2 (Memref.isWhole_whole _) scM_3 (Memref.isWhole_whole _) h0 h1 (iblk V c 0 t) (iblk V c 1 t) (iblk V c 2 t) (iblk V c 3 t)
abbrev runB (c : Dev nD) (t : Fin cfg0.N) (h0 : ¬cond_0 (grid0.coords t)) (h1 : ¬cond_1 (grid0.coords t)) (xs : St F) :=
  kernelRun_B (F := F) c (grid0.coords t) (ms_0 t) (hs_0 t) (ms_1 t) (hs_1 t) (ms_2 t) (hs_2 t) (ms_3 t) (hs_3 t) (ms_4 t) (hs_4 t) scM_0 (Memref.isWhole_whole _) scM_1 (Memref.isWhole_whole _) scM_2 (Memref.isWhole_whole _) scM_3 (Memref.isWhole_whole _) h0 h1 (iblk V c 0 t) (iblk V c 1 t) (iblk V c 2 t) (iblk V c 3 t) xs.2.1 xs.2.2.1 xs.2.2.2.1 xs.2.2.2.2
abbrev runC (c : Dev nD) (t : Fin cfg0.N) (h0 : ¬cond_0 (grid0.coords t)) (h1 : cond_1 (grid0.coords t)) (xs : St F) :=
  kernelRun_C (F := F) c (grid0.coords t) (ms_0 t) (hs_0 t) (ms_1 t) (hs_1 t) (ms_2 t) (hs_2 t) (ms_3 t) (hs_3 t) (ms_4 t) (hs_4 t) scM_0 (Memref.isWhole_whole _) scM_1 (Memref.isWhole_whole _) scM_2 (Memref.isWhole_whole _) scM_3 (Memref.isWhole_whole _) h0 h1 (iblk V c 0 t) (iblk V c 1 t) (iblk V c 2 t) (iblk V c 3 t) xs.2.1 xs.2.2.1 xs.2.2.2.1 xs.2.2.2.2

/-! ## Every run's stores cover the buffers they go to -/

theorem scover_A_0 (c : Dev nD) (t : Fin cfg0.N) (h0 : cond_0 (grid0.coords t)) (h1 : ¬cond_1 (grid0.coords t)) (y : S2048x512.Idx) :
    ∃ pc ∈ (runA V c t h0 h1).2.1, y ∈ pc.1.set :=
  View.cover_of_tiledL (runA V c t h0 h1).2.1 S2048x512.size (by sl_kernel_rfl) y
theorem scover_A_1 (c : Dev nD) (t : Fin cfg0.N) (h0 : cond_0 (grid0.coords t)) (h1 : ¬cond_1 (grid0.coords t)) (y : S2048x512.Idx) :
    ∃ pc ∈ (runA V c t h0 h1).2.2.1, y ∈ pc.1.set :=
  View.cover_of_tiledL (runA V c t h0 h1).2.2.1 S2048x512.size (by sl_kernel_rfl) y
theorem scover_A_2 (c : Dev nD) (t : Fin cfg0.N) (h0 : cond_0 (grid0.coords t)) (h1 : ¬cond_1 (grid0.coords t)) (y : S2048x512.Idx) :
    ∃ pc ∈ (runA V c t h0 h1).2.2.2.1, y ∈ pc.1.set :=
  View.cover_of_tiledL (runA V c t h0 h1).2.2.2.1 S2048x512.size (by sl_kernel_rfl) y
theorem scover_A_3 (c : Dev nD) (t : Fin cfg0.N) (h0 : cond_0 (grid0.coords t)) (h1 : ¬cond_1 (grid0.coords t)) (y : S2048x512.Idx) :
    ∃ pc ∈ (runA V c t h0 h1).2.2.2.2.1, y ∈ pc.1.set :=
  View.cover_of_tiledL (runA V c t h0 h1).2.2.2.2.1 S2048x512.size (by sl_kernel_rfl) y

theorem scover_B_0 (c : Dev nD) (t : Fin cfg0.N) (h0 : ¬cond_0 (grid0.coords t)) (h1 : ¬cond_1 (grid0.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.1, y ∈ pc.1.set :=
  View.cover_of_tiledL (runB V c t h0 h1 xs).2.1 S2048x512.size (by sl_kernel_rfl) y
theorem scover_B_1 (c : Dev nD) (t : Fin cfg0.N) (h0 : ¬cond_0 (grid0.coords t)) (h1 : ¬cond_1 (grid0.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.2.1, y ∈ pc.1.set :=
  View.cover_of_tiledL (runB V c t h0 h1 xs).2.2.1 S2048x512.size (by sl_kernel_rfl) y
theorem scover_B_2 (c : Dev nD) (t : Fin cfg0.N) (h0 : ¬cond_0 (grid0.coords t)) (h1 : ¬cond_1 (grid0.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.2.2.1, y ∈ pc.1.set :=
  View.cover_of_tiledL (runB V c t h0 h1 xs).2.2.2.1 S2048x512.size (by sl_kernel_rfl) y
theorem scover_B_3 (c : Dev nD) (t : Fin cfg0.N) (h0 : ¬cond_0 (grid0.coords t)) (h1 : ¬cond_1 (grid0.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.2.2.2.1, y ∈ pc.1.set :=
  View.cover_of_tiledL (runB V c t h0 h1 xs).2.2.2.2.1 S2048x512.size (by sl_kernel_rfl) y

theorem scover_C_0 (c : Dev nD) (t : Fin cfg0.N) (h0 : ¬cond_0 (grid0.coords t)) (h1 : cond_1 (grid0.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.1, y ∈ pc.1.set :=
  View.cover_of_tiledL (runC V c t h0 h1 xs).2.1 S2048x512.size (by sl_kernel_rfl) y
theorem scover_C_1 (c : Dev nD) (t : Fin cfg0.N) (h0 : ¬cond_0 (grid0.coords t)) (h1 : cond_1 (grid0.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.2.1, y ∈ pc.1.set :=
  View.cover_of_tiledL (runC V c t h0 h1 xs).2.2.1 S2048x512.size (by sl_kernel_rfl) y
theorem scover_C_2 (c : Dev nD) (t : Fin cfg0.N) (h0 : ¬cond_0 (grid0.coords t)) (h1 : cond_1 (grid0.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.2.2.1, y ∈ pc.1.set :=
  View.cover_of_tiledL (runC V c t h0 h1 xs).2.2.2.1 S2048x512.size (by sl_kernel_rfl) y
theorem scover_C_3 (c : Dev nD) (t : Fin cfg0.N) (h0 : ¬cond_0 (grid0.coords t)) (h1 : cond_1 (grid0.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.2.2.2.1, y ∈ pc.1.set :=
  View.cover_of_tiledL (runC V c t h0 h1 xs).2.2.2.2.1 S2048x512.size (by sl_kernel_rfl) y

theorem cover_C_4 (c : Dev nD) (t : Fin cfg0.N) (h0 : ¬cond_0 (grid0.coords t)) (h1 : cond_1 (grid0.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).1, y ∈ pc.1.set :=
  View.cover_of_tiledL (runC V c t h0 h1 xs).1 S2048x512.size (by sl_kernel_rfl) y

/-! ## What each kind of point leaves -/

/-- A first slab: the accumulators at their pieces read back; the output untouched (a placeholder nothing consults:
    the window is idle there and not written back). -/
def stA (c : Dev nD) (t : Fin cfg0.N) (h0 : cond_0 (grid0.coords t)) (h1 : ¬cond_1 (grid0.coords t)) : St F :=
  (VO_4.read (Elt F) VO_4.junk, VS_0.read (Elt F) (VS_0.writes (Elt F) VS_0.junk (runA V c t h0 h1).2.1), VS_1.read (Elt F) (VS_1.writes (Elt F) VS_1.junk (runA V c t h0 h1).2.2.1), VS_2.read (Elt F) (VS_2.writes (Elt F) VS_2.junk (runA V c t h0 h1).2.2.2.1), VS_3.read (Elt F) (VS_3.writes (Elt F) VS_3.junk (runA V c t h0 h1).2.2.2.2.1))
/-- An inner slab, over what the point before left. -/
def stB (c : Dev nD) (t : Fin cfg0.N) (h0 : ¬cond_0 (grid0.coords t)) (h1 : ¬cond_1 (grid0.coords t)) (xs : St F) : St F :=
  (VO_4.read (Elt F) VO_4.junk, VS_0.read (Elt F) (VS_0.writes (Elt F) VS_0.junk (runB V c t h0 h1 xs).2.1), VS_1.read (Elt F) (VS_1.writes (Elt F) VS_1.junk (runB V c t h0 h1 xs).2.2.1), VS_2.read (Elt F) (VS_2.writes (Elt F) VS_2.junk (runB V c t h0 h1 xs).2.2.2.1), VS_3.read (Elt F) (VS_3.writes (Elt F) VS_3.junk (runB V c t h0 h1 xs).2.2.2.2.1))
/-- A last slab, over what the point before left: the output at its pieces read back. -/
def stC (c : Dev nD) (t : Fin cfg0.N) (h0 : ¬cond_0 (grid0.coords t)) (h1 : cond_1 (grid0.coords t)) (xs : St F) : St F :=
  (VO_4.read (Elt F) (VO_4.writes (Elt F) VO_4.junk (runC V c t h0 h1 xs).1), VS_0.read (Elt F) (VS_0.writes (Elt F) VS_0.junk (runC V c t h0 h1 xs).2.1), VS_1.read (Elt F) (VS_1.writes (Elt F) VS_1.junk (runC V c t h0 h1 xs).2.2.1), VS_2.read (Elt F) (VS_2.writes (Elt F) VS_2.junk (runC V c t h0 h1 xs).2.2.2.1), VS_3.read (Elt F) (VS_3.writes (Elt F) VS_3.junk (runC V c t h0 h1 xs).2.2.2.2.1))

/-- THE ACCUMULATION: what the output's staging buffer and the four accumulators hold after the body at position `n`,
    by recursion on the position — the kind of point is read off `n % 4`. -/
def outsAt (c : Dev nD) : (n : ℕ) → n < cfg0.N → St F
  | 0, hn => stA V c ⟨0, hn⟩ ((hcond_0 ⟨0, hn⟩).mpr (Nat.zero_mod _)) (fun h => (fun h => by (try dsimp only at h); omega) ((hcond_1 ⟨0, hn⟩).mp h))
  | n + 1, hn =>
    if h0 : (n + 1) % 4 = 0 then
      if h1 : (n + 1) % 4 = 3 then
        False.elim (by omega)
      else
        stA V c ⟨n + 1, hn⟩ ((hcond_0 ⟨n + 1, hn⟩).mpr h0) (fun h => h1 ((hcond_1 ⟨n + 1, hn⟩).mp h))
    else
      if h1 : (n + 1) % 4 = 3 then
        stC V c ⟨n + 1, hn⟩ (fun h => h0 ((hcond_0 ⟨n + 1, hn⟩).mp h)) ((hcond_1 ⟨n + 1, hn⟩).mpr h1) (outsAt c n (Nat.lt_of_succ_lt hn))
      else
        stB V c ⟨n + 1, hn⟩ (fun h => h0 ((hcond_0 ⟨n + 1, hn⟩).mp h)) (fun h => h1 ((hcond_1 ⟨n + 1, hn⟩).mp h)) (outsAt c n (Nat.lt_of_succ_lt hn))

theorem outsAt_A (c : Dev nD) (t : Fin cfg0.N) (h0 : t.val % 4 = 0) (h1 : ¬t.val % 4 = 3) :
    outsAt V c t.val t.isLt = stA V c t ((hcond_0 t).mpr h0) (fun h => h1 ((hcond_1 t).mp h)) := by
  obtain ⟨n, hn⟩ := t
  cases n with
  | zero => exact rfl
  | succ n => exact (dif_pos h0).trans ((dif_neg h1).trans rfl)

theorem outsAt_B (c : Dev nD) (t : Fin cfg0.N) (h0 : ¬t.val % 4 = 0) (h1 : ¬t.val % 4 = 3) :
    outsAt V c t.val t.isLt = stB V c t (fun h => h0 ((hcond_0 t).mp h)) (fun h => h1 ((hcond_1 t).mp h))
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 4 = 0) (h1 : t.val % 4 = 3) :
    outsAt V c t.val t.isLt = stC V c t (fun h => h0 ((hcond_0 t).mp h)) ((hcond_1 t).mpr h1)
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before position `n`: at the first point what the launch hands over (the accumulators at anything); afterwards the
    accumulators at what the point before left in them, the other scoped buffers and the generator register at some state. -/
def PhiS (c : Dev nD) : (n : ℕ) → n ≤ cfg0.N → sProp 𝕄
  | 0, _ => Pipeline.ΦA spec0 c
  | n + 1, hn => iprop((owns (c : Thread nD τ) scM_0 fullShare ((outsAt V c n hn).2.1) ∗ owns (c : Thread nD τ) scM_1 fullShare ((outsAt V c n hn).2.2.1)
      ∗ owns (c : Thread nD τ) scM_2 fullShare ((outsAt V c n hn).2.2.2.1) ∗ owns (c : Thread nD τ) scM_3 fullShare ((outsAt V c n hn).2.2.2.2)) ∗ restAll c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM_0 fullShare ((outsAt V c n hn).2.1) ∗ owns (c : Thread nD τ) scM_1 fullShare ((outsAt V c n hn).2.2.1)
      ∗ owns (c : Thread nD τ) scM_2 fullShare ((outsAt V c n hn).2.2.2.1) ∗ owns (c : Thread nD τ) scM_3 fullShare ((outsAt V c n hn).2.2.2.2)) ∗ restAll c) := rfl

theorem PhiS_pos (c : Dev nD) (n : ℕ) (h : n ≤ cfg0.N) (hz : n ≠ 0) :
    PhiS V c n h = iprop((owns (c : Thread nD τ) scM_0 fullShare ((outsAt V c (n - 1) (by omega)).2.1) ∗ owns (c : Thread nD τ) scM_1 fullShare ((outsAt V c (n - 1) (by omega)).2.2.1)
      ∗ owns (c : Thread nD τ) scM_2 fullShare ((outsAt V c (n - 1) (by omega)).2.2.2.1) ∗ owns (c : Thread nD τ) scM_3 fullShare ((outsAt V c (n - 1) (by omega)).2.2.2.2)) ∗ restAll c) := by
  cases n with
  | zero => exact absurd rfl hz
  | succ n => rfl

/-! ## The proof data -/

/-- The region's proof data on core `c`: the arrays as the region finds them; after the body at point `t` each input's
    buffer at its block and the output's at `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the inputs' memrefs hold their blocks; `t % 4` says which kind of point it is; the invariant
    hands the body the accumulators at what the point before left (at anything at the very first point) and takes them
    back at this point's contents, every store set covering its buffer; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [Dat.leavesExact_idle (dat V c) 4 t (idleAt_4_A t ((hcond_0 t).mpr h0) (fun h => h1 ((hcond_1 t).mp h))) (noFlush_4_A t ((hcond_0 t).mpr h0) (fun h => h1 ((hcond_1 t).mp h)))]
      rw [outsAt_A V c t h0 h1]
      unfold stA; (try dsimp only)
      by_cases hz : t.val = 0
      · rw [PhiS_castSucc V c t, PhiS_zero V c _ _ hz]
        iintro ⟨HF, Ho, ⟨%d0, H0⟩, ⟨%d1, H1⟩, ⟨%d2, H2⟩, ⟨%d3, H3⟩, ⟨%d4, H4⟩⟩
        ihave HF' := (PhiA_split c) $$ HF
        icases HF' with ⟨⟨HS0, HS1, HS2, HS3⟩, HR⟩
        iapply ((runA V c t ((hcond_0 t).mpr h0) (fun h => h1 ((hcond_1 t).mp h))).2.2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 HR]
        · isplitl [HS0 HS1 HS2 HS3]
          · isplitl [HS0]
            · unfold owns; iexists _; isplitr
              swap; · iexact HS0
              ipureintro; exact View.read_writes_of_cover _ _ _ _ _ (scover_A_0 V c t _ _)
            isplitl [HS1]
            · unfold owns; iexists _; isplitr
              swap; · iexact HS1
              ipureintro; exact View.read_writes_of_cover _ _ _ _ _ (scover_A_1 V c t _ _)
            isplitl [HS2]
            · unfold owns; iexists _; isplitr
              swap; · iexact HS2
              ipureintro; exact View.read_writes_of_cover _ _ _ _ _ (scover_A_2 V c t _ _)
            unfold owns; iexists _; isplitr
            swap; · iexact HS3
            ipureintro; exact View.read_writes_of_cover _ _ _ _ _ (scover_A_3 V c t _ _)
          iexact HR
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HS1, HS2, HS3⟩, HR⟩, Ho, ⟨%d0, H0⟩, ⟨%d1, H1⟩, ⟨%d2, H2⟩, ⟨%d3, H3⟩, ⟨%d4, H4⟩⟩
        iapply ((runA V c t ((hcond_0 t).mpr h0) (fun h => h1 ((hcond_1 t).mp h))).2.2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [HS0 HS1 HS2 HS3 HR]
        · isplitl [HS0 HS1 HS2 HS3]
          · isplitl [HS0]
            · unfold owns; iexists _; isplitr
              swap; · iexact HS0
              ipureintro; exact View.read_writes_of_cover _ _ _ _ _ (scover_A_0 V c t _ _)
            isplitl [HS1]
            · unfold owns; iexists _; isplitr
              swap; · iexact HS1
              ipureintro; exact View.read_writes_of_cover _ _ _ _ _ (scover_A_1 V c t _ _)
            isplitl [HS2]
            · unfold owns; iexists _; isplitr
              swap; · iexact HS2
              ipureintro; exact View.read_writes_of_cover _ _ _ _ _ (scover_A_2 V c t _ _)
            unfold owns; iexists _; isplitr
            swap; · iexact HS3
            ipureintro; exact View.read_writes_of_cover _ _ _ _ _ (scover_A_3 V c t _ _)
          iexact HR
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4_C t (fun h => h0 ((hcond_0 t).mp h)) ((hcond_1 t).mpr h1)], after_4]
      rw [outsAt_C V c t h0 h1]
      unfold stC; (try dsimp only)
      have hz : t.val ≠ 0 := by omega
      rw [PhiS_castSucc V c t, PhiS_pos V c _ _ hz]
      iintro ⟨⟨⟨HS0, HS1, HS2, HS3⟩, HR⟩, Ho, ⟨%d0, H0⟩, ⟨%d1, H1⟩, ⟨%d2, H2⟩, ⟨%d3, H3⟩, ⟨%d4, H4⟩⟩
      iapply ((runC V c t (fun h => h0 ((hcond_0 t).mp h)) ((hcond_1 t).mpr h1) _).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, ⟨%es3, HS3⟩⟩
      isplitl [HS0 HS1 HS2 HS3 HR]
      · isplitl [HS0 HS1 HS2 HS3]
        · isplitl [HS0]
          · unfold owns; iexists _; isplitr
            swap; · iexact HS0
            ipureintro; exact View.read_writes_of_cover _ _ _ _ _ (scover_C_0 V c t _ _ _)
          isplitl [HS1]
          · unfold owns; iexists _; isplitr
            swap; · iexact HS1
            ipureintro; exact View.read_writes_of_cover _ _ _ _ _ (scover_C_1 V c t _ _ _)
          isplitl [HS2]
          · unfold owns; iexists _; isplitr
            swap; · iexact HS2
            ipureintro; exact View.read_writes_of_cover _ _ _ _ _ (scover_C_2 V c t _ _ _)
          unfold owns; iexists _; isplitr
          swap; · iexact HS3
          ipureintro; exact View.read_writes_of_cover _ _ _ _ _ (scover_C_3 V c t _ _ _)
        iexact HR
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_C_4 V c t _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [Dat.leavesExact_idle (dat V c) 4 t (idleAt_4_B t (fun h => h0 ((hcond_0 t).mp h)) (fun h => h1 ((hcond_1 t).mp h))) (noFlush_4_B t (fun h => h0 ((hcond_0 t).mp h)) (fun h => h1 ((hcond_1 t).mp h)))]
      rw [outsAt_B V c t h0 h1]
      unfold stB; (try dsimp only)
      have hz : t.val ≠ 0 := by omega
      rw [PhiS_castSucc V c t, PhiS_pos V c _ _ hz]
      iintro ⟨⟨⟨HS0, HS1, HS2, HS3⟩, HR⟩, Ho, ⟨%d0, H0⟩, ⟨%d1, H1⟩, ⟨%d2, H2⟩, ⟨%d3, H3⟩, ⟨%d4, H4⟩⟩
      iapply ((runB V c t (fun h => h0 ((hcond_0 t).mp h)) (fun h => h1 ((hcond_1 t).mp h)) _).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 HR]
      · isplitl [HS0 HS1 HS2 HS3]
        · isplitl [HS0]
          · unfold owns; iexists _; isplitr
            swap; · iexact HS0
            ipureintro; exact View.read_writes_of_cover _ _ _ _ _ (scover_B_0 V c t _ _ _)
          isplitl [HS1]
          · unfold owns; iexists _; isplitr
            swap; · iexact HS1
            ipureintro; exact View.read_writes_of_cover _ _ _ _ _ (scover_B_1 V c t _ _ _)
          isplitl [HS2]
          · unfold owns; iexists _; isplitr
            swap; · iexact HS2
            ipureintro; exact View.read_writes_of_cover _ _ _ _ _ (scover_B_2 V c t _ _ _)
          unfold owns; iexists _; isplitr
          swap; · iexact HS3
          ipureintro; exact View.read_writes_of_cover _ _ _ _ _ (scover_B_3 V c t _ _ _)
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's form back: the accumulators' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht]
  iintro ⟨⟨HS0, HS1, HS2, HS3⟩, HR⟩
  iapply (PhiA_join c)
  isplitl [HS0 HS1 HS2 HS3]
  · isplitl [HS0]; · iexists _; iexact HS0
    isplitl [HS1]; · iexists _; iexact HS1
    isplitl [HS2]; · iexists _; iexact HS2
    iexists _; iexact HS3
  iexact HR

theorem hout (c : Dev nD) : (dat V c).Φ (Fin.last cfg0.N) ⊢ Pipeline.ΦA spec0 c :=
  Phi_out V c _ (by rw [Fin.val_last]; have : cfg0.N = 64 := N_0; omega)

/-- The same two, with the launch's form spelt out: the scoped buffers and the generator register. -/
theorem hin' (c : Dev nD) :
    (iprop(Pipeline.scopedRest (Ix := Unit) (Name := ℕ) (U := UR sig nD τ) (Lvl := ℕ) (Val := Elt F) spec0 c ∗ ∃ r, prngReg c r) : sProp 𝕄) ⊢ (dat V c).Φ 0 := by
  have h := hin V c; unfold Pipeline.ΦA at h; exact h
theorem hout' (c : Dev nD) :
    (dat V c).Φ (Fin.last cfg0.N) ⊢ (iprop(Pipeline.scopedRest (Ix := Unit) (Name := ℕ) (U := UR sig nD τ) (Lvl := ℕ) (Val := Elt F) spec0 c ∗ ∃ r, prngReg c r) : sProp 𝕄) := by
  have h := hout V c; unfold Pipeline.ΦA at h; exact h

end Cert.Kernel.Rgn0

end
-- ==== Proof.K.R1Runs.lean ====
import proofs.«119031_j6846177870362_2_alg».proof.Proof.Gen.Kernel.Launch
import proofs.«119031_j6846177870362_2_alg».proof.Proof.Gen.Kernel.Skeleton
import proofs.«119031_j6846177870362_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # One round's kernel region (pallas call 1): what its runs share

The region is entered with the core's buffers at contents `V`. The grid has 2 × 8 × 4 points, the last axis the
reduction over the four 1024-wide slabs of the contraction; a point is first / inner / last of its group of four
according to `t % 4`. -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or the
    block index has not moved since the point that did: the window is uncut and never idle. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetched it or the
    block index has not moved since the point that did: the window is uncut and never idle. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetched it or the
    block index has not moved since the point that did: the window is uncut and never idle. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetched it or the
    block index has not moved since the point that did: the window is uncut and never idle. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, decided over the grid -/

/-- "This is the first slab of the contraction" (the accumulators are zeroed), from the grid coordinates. -/
abbrev cond_0 (i : grid1.Coords) : Prop := (Scalar.cmpi .ne (Scalar.extui (Scalar.cmpi .eq (BitVec.ofNat 32 (i 2).val) 0#32)) 0#32) = 1#1
theorem hcond_0 : ∀ t : Fin cfg1.N, cond_0 (grid1.coords t) ↔ t.val % 4 = 0 :=
  (by decide +kernel : ∀ t : Fin grid1.N, cond_0 (grid1.coords t) ↔ t.val % 4 = 0)

/-- "This is the last slab of the contraction" (the gates are applied and the new state stored). -/
abbrev cond_1 (i : grid1.Coords) : Prop := k1_cond2 i = 1#1
theorem hcond_1 : ∀ t : Fin cfg1.N, cond_1 (grid1.coords t) ↔ t.val % 4 = 3 :=
  (by decide +kernel : ∀ t : Fin grid1.N, cond_1 (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
/-- At a first slab the output window is idle and not written back. -/
theorem idleAt_4_A : ∀ t : Fin cfg1.N, cond_0 (grid1.coords t) → ¬cond_1 (grid1.coords t) → cfg1.idle 4 (grid1.coords t) = true := by decide +kernel
theorem noFlush_4_A : ∀ t : Fin cfg1.N, cond_0 (grid1.coords t) → ¬cond_1 (grid1.coords t) → (cfg1.win 4).flush t = false := by decide +kernel
/-- At an inner slab too. -/
theorem idleAt_4_B : ∀ t : Fin cfg1.N, ¬cond_0 (grid1.coords t) → ¬cond_1 (grid1.coords t) → cfg1.idle 4 (grid1.coords t) = true := by decide +kernel
theorem noFlush_4_B : ∀ t : Fin cfg1.N, ¬cond_0 (grid1.coords t) → ¬cond_1 (grid1.coords t) → (cfg1.win 4).flush t = false := by decide +kernel
/-- At a last slab it is live: the body stores the new state into it. -/
theorem liveAt_4_C : ∀ t : Fin cfg1.N, ¬cond_0 (grid1.coords t) → cond_1 (grid1.coords t) → cfg1.idle 4 (grid1.coords t) = false := by decide +kernel

/-! ## The memrefs the body is called with -/

/-- One staging buffer of the output window, through which its contents are stated. -/
abbrev VO_4 : View sig .tc .vmem S2048x512 .f32 := (Memref.whole cc1_stg4_0 : Memref sig .tc .vmem S2048x512 .f32).view
abbrev ms_0 (t : Fin cfg1.N) : Memref sig .tc .vmem S2048x1024 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x512 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S4x512x1024 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S4x512 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S2048x512 .f32 := win1_4.stage (cfg1.slots t 4)
abbrev hs_4 (t : Fin cfg1.N) : (ms_4 t).IsWhole := hstage1_4 ((cfg1.slots t 4).cast nbuf1_4)
/-- The four gate accumulators: whole scoped buffers of the kernel's own, carried from point to point. -/
abbrev scM_0 : Memref sig .tc .vmem S2048x512 .f32 := Memref.whole cc1_scratch0
abbrev VS_0 : View sig .tc .vmem S2048x512 .f32 := scM_0.view
abbrev scM_1 : Memref sig .tc .vmem S2048x512 .f32 := Memref.whole cc1_scratch1
abbrev VS_1 : View sig .tc .vmem S2048x512 .f32 := scM_1.view
abbrev scM_2 : Memref sig .tc .vmem S2048x512 .f32 := Memref.whole cc1_scratch2
abbrev VS_2 : View sig .tc .vmem S2048x512 .f32 := scM_2.view
abbrev scM_3 : Memref sig .tc .vmem S2048x512 .f32 := Memref.whole cc1_scratch3
abbrev VS_3 : View sig .tc .vmem S2048x512 .f32 := scM_3.view

/-- The scoped buffers of the core that this kernel neither stages through nor accumulates in, each at some contents. -/
def rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

/-- The region's invariant as the launch hands it over: the accumulators and the other scoped buffers at some
    contents, the generator register at some state. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d)) ∗ (∃ r, prngReg c r)) := by
  unfold Pipeline.ΦA; rw [scopedRest1_eq]; simp only [scM_0, scM_1, scM_2, scM_3, owns_whole]; try rfl

/-- Everything of the invariant but the accumulators. -/
def restAll (c : Dev nD) : sProp 𝕄 := iprop(rest c ∗ (∃ r, prngReg c r))

/-- The launch's invariant with the four accumulators set apart, -/
theorem PhiA_split (c : Dev nD) :
    (Pipeline.ΦA spec1 c : sProp 𝕄) ⊢ iprop(((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d)) ∗ restAll c) := by
  rw [PhiA_eq]; unfold restAll rest
  iintro ⟨⟨HB0, HB1, HB2, HB3, HB4, HB5, HB6, HB7, HB8, HB9, HB10, HB11, HB12, HB13, H0, H1, H2, H3⟩, Hg⟩
  isplitl [H0 H1 H2 H3]
  · isplitl [H0]; · iexact H0
    isplitl [H1]; · iexact H1
    isplitl [H2]; · iexact H2
    iexact H3
  isplitl [HB0 HB1 HB2 HB3 HB4 HB5 HB6 HB7 HB8 HB9 HB10 HB11 HB12 HB13]
  · isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [HB12]; · iexact HB12
    iexact HB13
  iexact Hg

/-- and put back. -/
theorem PhiA_join (c : Dev nD) :
    (iprop(((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d)) ∗ restAll c) : sProp 𝕄) ⊢ Pipeline.ΦA spec1 c := by
  rw [PhiA_eq]; unfold restAll rest
  iintro ⟨⟨H0, H1, H2, H3⟩, ⟨HB0, HB1, HB2, HB3, HB4, HB5, HB6, HB7, HB8, HB9, HB10, HB11, HB12, HB13⟩, Hg⟩
  isplitl [H0 H1 H2 H3 HB0 HB1 HB2 HB3 HB4 HB5 HB6 HB7 HB8 HB9 HB10 HB11 HB12 HB13]
  · isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [HB12]; · iexact HB12
    isplitl [HB13]; · iexact HB13
    isplitl [H0]; · iexact H0
    isplitl [H1]; · iexact H1
    isplitl [H2]; · iexact H2
    iexact H3
  iexact Hg

end Cert.Kernel.Rgn1

end
-- ==== Proof.K.R1RunA.lean ====
import proofs.«119031_j6846177870362_2_alg».proof.Proof.K.R1Runs

set_option maxRecDepth 16384

noncomputable section

namespace Cert.Kernel.Rgn1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large
set_option maxHeartbeats 4000000 in
/-- The body at a first slab (the accumulators are zeroed, then added to; nothing is stored into the output): the pieces its stores leave in the output's and the accumulators' memrefs (last first), with the
    proof that on whole memrefs — the four inputs at their contents, the output at contents handed back untouched, the accumulators at anything —
    the body runs to the continuation holding the inputs as they were and each buffer it stored into with those pieces written. -/
noncomputable def kernelRun_A (c : Dev nD) (i : grid1.Coords) (arg3 : Memref sig .tc .vmem S2048x1024 .bf16) (harg3 : arg3.IsWhole) (arg4 : Memref sig .tc .vmem S2048x512 .f32) (harg4 : arg4.IsWhole) (arg5 : Memref sig .tc .vmem S4x512x1024 .bf16) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (hc0 : cond_0 i) (hc1 : ¬cond_1 i)
    (x0 : Vec F S2048x1024 .bf16) (x1 : Vec F S2048x512 .f32) (x2 : Vec F S4x512x1024 .bf16) (x3 : Vec F S4x512 .f32) :
    Σ' (L4 : List (View.Piece (Elt F) S2048x512 .f32)) (LS0 : List (View.Piece (Elt F) S2048x512 .f32)) (LS1 : List (View.Piece (Elt F) S2048x512 .f32)) (LS2 : List (View.Piece (Elt F) S2048x512 .f32)), { LS3 : List (View.Piece (Elt F) S2048x512 .f32) //
      ∀ (xi4 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__gru_round_kernel i arg3 harg3 arg4 harg4 arg5 harg5 arg6 harg6 arg7 harg7 arg8 harg8 arg9 harg9 arg10 harg10 arg11 harg11) K } := by
  refine ⟨[], ?_, ?_, ?_, ?_, fun xi4 E K => ?run⟩
  case run =>
    simp only [cc1__gru_round_kernel_eq_skeleton]; unfold cc1__gru_round_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.Kernel.Rgn1

end
-- ==== Proof.K.R1RunB.lean ====
import proofs.«119031_j6846177870362_2_alg».proof.Proof.K.R1RunA

set_option maxRecDepth 16384

noncomputable section

namespace Cert.Kernel.Rgn1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large
set_option maxHeartbeats 4000000 in
/-- The body at an inner slab (the accumulators are added to; nothing is stored into the output): the pieces its stores leave in the output's and the accumulators' memrefs (last first), with the
    proof that on whole memrefs — the four inputs at their contents, the output at contents handed back untouched, the accumulators at what the point before left —
    the body runs to the continuation holding the inputs as they were and each buffer it stored into with those pieces written. -/
noncomputable def kernelRun_B (c : Dev nD) (i : grid1.Coords) (arg3 : Memref sig .tc .vmem S2048x1024 .bf16) (harg3 : arg3.IsWhole) (arg4 : Memref sig .tc .vmem S2048x512 .f32) (harg4 : arg4.IsWhole) (arg5 : Memref sig .tc .vmem S4x512x1024 .bf16) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (hc0 : ¬cond_0 i) (hc1 : ¬cond_1 i)
    (x0 : Vec F S2048x1024 .bf16) (x1 : Vec F S2048x512 .f32) (x2 : Vec F S4x512x1024 .bf16) (x3 : Vec F S4x512 .f32) (xs0 : Vec F S2048x512 .f32) (xs1 : Vec F S2048x512 .f32) (xs2 : Vec F S2048x512 .f32) (xs3 : Vec F S2048x512 .f32) :
    Σ' (L4 : List (View.Piece (Elt F) S2048x512 .f32)) (LS0 : List (View.Piece (Elt F) S2048x512 .f32)) (LS1 : List (View.Piece (Elt F) S2048x512 .f32)) (LS2 : List (View.Piece (Elt F) S2048x512 .f32)), { LS3 : List (View.Piece (Elt F) S2048x512 .f32) //
      ∀ (xi4 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__gru_round_kernel i arg3 harg3 arg4 harg4 arg5 harg5 arg6 harg6 arg7 harg7 arg8 harg8 arg9 harg9 arg10 harg10 arg11 harg11) K } := by
  refine ⟨[], ?_, ?_, ?_, ?_, fun xi4 E K => ?run⟩
  case run =>
    simp only [cc1__gru_round_kernel_eq_skeleton]; unfold cc1__gru_round_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.Kernel.Rgn1

end
-- ==== Proof.K.R1RunC.lean ====
import proofs.«119031_j6846177870362_2_alg».proof.Proof.K.R1RunB

set_option maxRecDepth 16384

noncomputable section

namespace Cert.Kernel.Rgn1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large
set_option maxHeartbeats 4000000 in
/-- The body at a last slab (the accumulators are added to, the gates applied, and the new state stored into the output): the pieces its stores leave in the output's and the accumulators' memrefs (last first), with the
    proof that on whole memrefs — the four inputs at their contents, the output at anything, the accumulators at what the point before left —
    the body runs to the continuation holding the inputs as they were and each buffer it stored into with those pieces written. -/
noncomputable def kernelRun_C (c : Dev nD) (i : grid1.Coords) (arg3 : Memref sig .tc .vmem S2048x1024 .bf16) (harg3 : arg3.IsWhole) (arg4 : Memref sig .tc .vmem S2048x512 .f32) (harg4 : arg4.IsWhole) (arg5 : Memref sig .tc .vmem S4x512x1024 .bf16) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (hc0 : ¬cond_0 i) (hc1 : cond_1 i)
    (x0 : Vec F S2048x1024 .bf16) (x1 : Vec F S2048x512 .f32) (x2 : Vec F S4x512x1024 .bf16) (x3 : Vec F S4x512 .f32) (xs0 : Vec F S2048x512 .f32) (xs1 : Vec F S2048x512 .f32) (xs2 : Vec F S2048x512 .f32) (xs3 : Vec F S2048x512 .f32) :
    Σ' (L4 : List (View.Piece (Elt F) S2048x512 .f32)) (LS0 : List (View.Piece (Elt F) S2048x512 .f32)) (LS1 : List (View.Piece (Elt F) S2048x512 .f32)) (LS2 : List (View.Piece (Elt F) S2048x512 .f32)), { LS3 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__gru_round_kernel i arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__gru_round_kernel_eq_skeleton]; unfold cc1__gru_round_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.Kernel.Rgn1

end
-- ==== Proof.K.R1Frame.lean ====
import proofs.«119031_j6846177870362_2_alg».proof.Proof.K.R1RunC

set_option maxRecDepth 16384

noncomputable section

namespace Cert.Kernel.Rgn1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # One round's kernel region (pallas call 1): what the buffers hold point by point, the proof data, the body obligation -/

/-- What a point leaves: the output's staging buffer, then the four gate accumulators. -/
abbrev St (F : FTy → Type) [FloatOps F] : Type := Vec F S2048x512 .f32 × Vec F S2048x512 .f32 × Vec F S2048x512 .f32 × Vec F S2048x512 .f32 × Vec F S2048x512 .f32

/-- The three runs at a grid point, on the memrefs and input blocks the pipeline passes there. -/
abbrev runA (c : Dev nD) (t : Fin cfg1.N) (h0 : cond_0 (grid1.coords t)) (h1 : ¬cond_1 (grid1.coords t)) :=
  kernelRun_A (F := F) c (grid1.coords t) (ms_0 t) (hs_0 t) (ms_1 t) (hs_1 t) (ms_2 t) (hs_2 t) (ms_3 t) (hs_3 t) (ms_4 t) (hs_4 t) scM_0 (Memref.isWhole_whole _) scM_1 (Memref.isWhole_whole _) scM_2 (Memref.isWhole_whole _) scM_3 (Memref.isWhole_whole _) h0 h1 (iblk V c 0 t) (iblk V c 1 t) (iblk V c 2 t) (iblk V c 3 t)
abbrev runB (c : Dev nD) (t : Fin cfg1.N) (h0 : ¬cond_0 (grid1.coords t)) (h1 : ¬cond_1 (grid1.coords t)) (xs : St F) :=
  kernelRun_B (F := F) c (grid1.coords t) (ms_0 t) (hs_0 t) (ms_1 t) (hs_1 t) (ms_2 t) (hs_2 t) (ms_3 t) (hs_3 t) (ms_4 t) (hs_4 t) scM_0 (Memref.isWhole_whole _) scM_1 (Memref.isWhole_whole _) scM_2 (Memref.isWhole_whole _) scM_3 (Memref.isWhole_whole _) h0 h1 (iblk V c 0 t) (iblk V c 1 t) (iblk V c 2 t) (iblk V c 3 t) xs.2.1 xs.2.2.1 xs.2.2.2.1 xs.2.2.2.2
abbrev runC (c : Dev nD) (t : Fin cfg1.N) (h0 : ¬cond_0 (grid1.coords t)) (h1 : cond_1 (grid1.coords t)) (xs : St F) :=
  kernelRun_C (F := F) c (grid1.coords t) (ms_0 t) (hs_0 t) (ms_1 t) (hs_1 t) (ms_2 t) (hs_2 t) (ms_3 t) (hs_3 t) (ms_4 t) (hs_4 t) scM_0 (Memref.isWhole_whole _) scM_1 (Memref.isWhole_whole _) scM_2 (Memref.isWhole_whole _) scM_3 (Memref.isWhole_whole _) h0 h1 (iblk V c 0 t) (iblk V c 1 t) (iblk V c 2 t) (iblk V c 3 t) xs.2.1 xs.2.2.1 xs.2.2.2.1 xs.2.2.2.2

/-! ## Every run's stores cover the buffers they go to -/

theorem scover_A_0 (c : Dev nD) (t : Fin cfg1.N) (h0 : cond_0 (grid1.coords t)) (h1 : ¬cond_1 (grid1.coords t)) (y : S2048x512.Idx) :
    ∃ pc ∈ (runA V c t h0 h1).2.1, y ∈ pc.1.set :=
  View.cover_of_tiledL (runA V c t h0 h1).2.1 S2048x512.size (by sl_kernel_rfl) y
theorem scover_A_1 (c : Dev nD) (t : Fin cfg1.N) (h0 : cond_0 (grid1.coords t)) (h1 : ¬cond_1 (grid1.coords t)) (y : S2048x512.Idx) :
    ∃ pc ∈ (runA V c t h0 h1).2.2.1, y ∈ pc.1.set :=
  View.cover_of_tiledL (runA V c t h0 h1).2.2.1 S2048x512.size (by sl_kernel_rfl) y
theorem scover_A_2 (c : Dev nD) (t : Fin cfg1.N) (h0 : cond_0 (grid1.coords t)) (h1 : ¬cond_1 (grid1.coords t)) (y : S2048x512.Idx) :
    ∃ pc ∈ (runA V c t h0 h1).2.2.2.1, y ∈ pc.1.set :=
  View.cover_of_tiledL (runA V c t h0 h1).2.2.2.1 S2048x512.size (by sl_kernel_rfl) y
theorem scover_A_3 (c : Dev nD) (t : Fin cfg1.N) (h0 : cond_0 (grid1.coords t)) (h1 : ¬cond_1 (grid1.coords t)) (y : S2048x512.Idx) :
    ∃ pc ∈ (runA V c t h0 h1).2.2.2.2.1, y ∈ pc.1.set :=
  View.cover_of_tiledL (runA V c t h0 h1).2.2.2.2.1 S2048x512.size (by sl_kernel_rfl) y

theorem scover_B_0 (c : Dev nD) (t : Fin cfg1.N) (h0 : ¬cond_0 (grid1.coords t)) (h1 : ¬cond_1 (grid1.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.1, y ∈ pc.1.set :=
  View.cover_of_tiledL (runB V c t h0 h1 xs).2.1 S2048x512.size (by sl_kernel_rfl) y
theorem scover_B_1 (c : Dev nD) (t : Fin cfg1.N) (h0 : ¬cond_0 (grid1.coords t)) (h1 : ¬cond_1 (grid1.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.2.1, y ∈ pc.1.set :=
  View.cover_of_tiledL (runB V c t h0 h1 xs).2.2.1 S2048x512.size (by sl_kernel_rfl) y
theorem scover_B_2 (c : Dev nD) (t : Fin cfg1.N) (h0 : ¬cond_0 (grid1.coords t)) (h1 : ¬cond_1 (grid1.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.2.2.1, y ∈ pc.1.set :=
  View.cover_of_tiledL (runB V c t h0 h1 xs).2.2.2.1 S2048x512.size (by sl_kernel_rfl) y
theorem scover_B_3 (c : Dev nD) (t : Fin cfg1.N) (h0 : ¬cond_0 (grid1.coords t)) (h1 : ¬cond_1 (grid1.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.2.2.2.1, y ∈ pc.1.set :=
  View.cover_of_tiledL (runB V c t h0 h1 xs).2.2.2.2.1 S2048x512.size (by sl_kernel_rfl) y

theorem scover_C_0 (c : Dev nD) (t : Fin cfg1.N) (h0 : ¬cond_0 (grid1.coords t)) (h1 : cond_1 (grid1.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.1, y ∈ pc.1.set :=
  View.cover_of_tiledL (runC V c t h0 h1 xs).2.1 S2048x512.size (by sl_kernel_rfl) y
theorem scover_C_1 (c : Dev nD) (t : Fin cfg1.N) (h0 : ¬cond_0 (grid1.coords t)) (h1 : cond_1 (grid1.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.2.1, y ∈ pc.1.set :=
  View.cover_of_tiledL (runC V c t h0 h1 xs).2.2.1 S2048x512.size (by sl_kernel_rfl) y
theorem scover_C_2 (c : Dev nD) (t : Fin cfg1.N) (h0 : ¬cond_0 (grid1.coords t)) (h1 : cond_1 (grid1.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.2.2.1, y ∈ pc.1.set :=
  View.cover_of_tiledL (runC V c t h0 h1 xs).2.2.2.1 S2048x512.size (by sl_kernel_rfl) y
theorem scover_C_3 (c : Dev nD) (t : Fin cfg1.N) (h0 : ¬cond_0 (grid1.coords t)) (h1 : cond_1 (grid1.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.2.2.2.1, y ∈ pc.1.set :=
  View.cover_of_tiledL (runC V c t h0 h1 xs).2.2.2.2.1 S2048x512.size (by sl_kernel_rfl) y

theorem cover_C_4 (c : Dev nD) (t : Fin cfg1.N) (h0 : ¬cond_0 (grid1.coords t)) (h1 : cond_1 (grid1.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).1, y ∈ pc.1.set :=
  View.cover_of_tiledL (runC V c t h0 h1 xs).1 S2048x512.size (by sl_kernel_rfl) y

/-! ## What each kind of point leaves -/

/-- A first slab: the accumulators at their pieces read back; the output untouched (a placeholder nothing consults:
    the window is idle there and not written back). -/
def stA (c : Dev nD) (t : Fin cfg1.N) (h0 : cond_0 (grid1.coords t)) (h1 : ¬cond_1 (grid1.coords t)) : St F :=
  (VO_4.read (Elt F) VO_4.junk, VS_0.read (Elt F) (VS_0.writes (Elt F) VS_0.junk (runA V c t h0 h1).2.1), VS_1.read (Elt F) (VS_1.writes (Elt F) VS_1.junk (runA V c t h0 h1).2.2.1), VS_2.read (Elt F) (VS_2.writes (Elt F) VS_2.junk (runA V c t h0 h1).2.2.2.1), VS_3.read (Elt F) (VS_3.writes (Elt F) VS_3.junk (runA V c t h0 h1).2.2.2.2.1))
/-- An inner slab, over what the point before left. -/
def stB (c : Dev nD) (t : Fin cfg1.N) (h0 : ¬cond_0 (grid1.coords t)) (h1 : ¬cond_1 (grid1.coords t)) (xs : St F) : St F :=
  (VO_4.read (Elt F) VO_4.junk, VS_0.read (Elt F) (VS_0.writes (Elt F) VS_0.junk (runB V c t h0 h1 xs).2.1), VS_1.read (Elt F) (VS_1.writes (Elt F) VS_1.junk (runB V c t h0 h1 xs).2.2.1), VS_2.read (Elt F) (VS_2.writes (Elt F) VS_2.junk (runB V c t h0 h1 xs).2.2.2.1), VS_3.read (Elt F) (VS_3.writes (Elt F) VS_3.junk (runB V c t h0 h1 xs).2.2.2.2.1))
/-- A last slab, over what the point before left: the output at its pieces read back. -/
def stC (c : Dev nD) (t : Fin cfg1.N) (h0 : ¬cond_0 (grid1.coords t)) (h1 : cond_1 (grid1.coords t)) (xs : St F) : St F :=
  (VO_4.read (Elt F) (VO_4.writes (Elt F) VO_4.junk (runC V c t h0 h1 xs).1), VS_0.read (Elt F) (VS_0.writes (Elt F) VS_0.junk (runC V c t h0 h1 xs).2.1), VS_1.read (Elt F) (VS_1.writes (Elt F) VS_1.junk (runC V c t h0 h1 xs).2.2.1), VS_2.read (Elt F) (VS_2.writes (Elt F) VS_2.junk (runC V c t h0 h1 xs).2.2.2.1), VS_3.read (Elt F) (VS_3.writes (Elt F) VS_3.junk (runC V c t h0 h1 xs).2.2.2.2.1))

/-- THE ACCUMULATION: what the output's staging buffer and the four accumulators hold after the body at position `n`,
    by recursion on the position — the kind of point is read off `n % 4`. -/
def outsAt (c : Dev nD) : (n : ℕ) → n < cfg1.N → St F
  | 0, hn => stA V c ⟨0, hn⟩ ((hcond_0 ⟨0, hn⟩).mpr (Nat.zero_mod _)) (fun h => (fun h => by (try dsimp only at h); omega) ((hcond_1 ⟨0, hn⟩).mp h))
  | n + 1, hn =>
    if h0 : (n + 1) % 4 = 0 then
      if h1 : (n + 1) % 4 = 3 then
        False.elim (by omega)
      else
        stA V c ⟨n + 1, hn⟩ ((hcond_0 ⟨n + 1, hn⟩).mpr h0) (fun h => h1 ((hcond_1 ⟨n + 1, hn⟩).mp h))
    else
      if h1 : (n + 1) % 4 = 3 then
        stC V c ⟨n + 1, hn⟩ (fun h => h0 ((hcond_0 ⟨n + 1, hn⟩).mp h)) ((hcond_1 ⟨n + 1, hn⟩).mpr h1) (outsAt c n (Nat.lt_of_succ_lt hn))
      else
        stB V c ⟨n + 1, hn⟩ (fun h => h0 ((hcond_0 ⟨n + 1, hn⟩).mp h)) (fun h => h1 ((hcond_1 ⟨n + 1, hn⟩).mp h)) (outsAt c n (Nat.lt_of_succ_lt hn))

theorem outsAt_A (c : Dev nD) (t : Fin cfg1.N) (h0 : t.val % 4 = 0) (h1 : ¬t.val % 4 = 3) :
    outsAt V c t.val t.isLt = stA V c t ((hcond_0 t).mpr h0) (fun h => h1 ((hcond_1 t).mp h)) := by
  obtain ⟨n, hn⟩ := t
  cases n with
  | zero => exact rfl
  | succ n => exact (dif_pos h0).trans ((dif_neg h1).trans rfl)

theorem outsAt_B (c : Dev nD) (t : Fin cfg1.N) (h0 : ¬t.val % 4 = 0) (h1 : ¬t.val % 4 = 3) :
    outsAt V c t.val t.isLt = stB V c t (fun h => h0 ((hcond_0 t).mp h)) (fun h => h1 ((hcond_1 t).mp h))
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 4 = 0) (h1 : t.val % 4 = 3) :
    outsAt V c t.val t.isLt = stC V c t (fun h => h0 ((hcond_0 t).mp h)) ((hcond_1 t).mpr h1)
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before position `n`: at the first point what the launch hands over (the accumulators at anything); afterwards the
    accumulators at what the point before left in them, the other scoped buffers and the generator register at some state. -/
def PhiS (c : Dev nD) : (n : ℕ) → n ≤ cfg1.N → sProp 𝕄
  | 0, _ => Pipeline.ΦA spec1 c
  | n + 1, hn => iprop((owns (c : Thread nD τ) scM_0 fullShare ((outsAt V c n hn).2.1) ∗ owns (c : Thread nD τ) scM_1 fullShare ((outsAt V c n hn).2.2.1)
      ∗ owns (c : Thread nD τ) scM_2 fullShare ((outsAt V c n hn).2.2.2.1) ∗ owns (c : Thread nD τ) scM_3 fullShare ((outsAt V c n hn).2.2.2.2)) ∗ restAll c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) scM_0 fullShare ((outsAt V c n hn).2.1) ∗ owns (c : Thread nD τ) scM_1 fullShare ((outsAt V c n hn).2.2.1)
      ∗ owns (c : Thread nD τ) scM_2 fullShare ((outsAt V c n hn).2.2.2.1) ∗ owns (c : Thread nD τ) scM_3 fullShare ((outsAt V c n hn).2.2.2.2)) ∗ restAll c) := rfl

theorem PhiS_pos (c : Dev nD) (n : ℕ) (h : n ≤ cfg1.N) (hz : n ≠ 0) :
    PhiS V c n h = iprop((owns (c : Thread nD τ) scM_0 fullShare ((outsAt V c (n - 1) (by omega)).2.1) ∗ owns (c : Thread nD τ) scM_1 fullShare ((outsAt V c (n - 1) (by omega)).2.2.1)
      ∗ owns (c : Thread nD τ) scM_2 fullShare ((outsAt V c (n - 1) (by omega)).2.2.2.1) ∗ owns (c : Thread nD τ) scM_3 fullShare ((outsAt V c (n - 1) (by omega)).2.2.2.2)) ∗ restAll c) := by
  cases n with
  | zero => exact absurd rfl hz
  | succ n => rfl

/-! ## The proof data -/

/-- The region's proof data on core `c`: the arrays as the region finds them; after the body at point `t` each input's
    buffer at its block and the output's at `outsAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the inputs' memrefs hold their blocks; `t % 4` says which kind of point it is; the invariant
    hands the body the accumulators at what the point before left (at anything at the very first point) and takes them
    back at this point's contents, every store set covering its buffer; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 4 = 0
  · by_cases h1 : t.val % 4 = 3
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [Dat.leavesExact_idle (dat V c) 4 t (idleAt_4_A t ((hcond_0 t).mpr h0) (fun h => h1 ((hcond_1 t).mp h))) (noFlush_4_A t ((hcond_0 t).mpr h0) (fun h => h1 ((hcond_1 t).mp h)))]
      rw [outsAt_A V c t h0 h1]
      unfold stA; (try dsimp only)
      by_cases hz : t.val = 0
      · rw [PhiS_castSucc V c t, PhiS_zero V c _ _ hz]
        iintro ⟨HF, Ho, ⟨%d0, H0⟩, ⟨%d1, H1⟩, ⟨%d2, H2⟩, ⟨%d3, H3⟩, ⟨%d4, H4⟩⟩
        ihave HF' := (PhiA_split c) $$ HF
        icases HF' with ⟨⟨HS0, HS1, HS2, HS3⟩, HR⟩
        iapply ((runA V c t ((hcond_0 t).mpr h0) (fun h => h1 ((hcond_1 t).mp h))).2.2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 HR]
        · isplitl [HS0 HS1 HS2 HS3]
          · isplitl [HS0]
            · unfold owns; iexists _; isplitr
              swap; · iexact HS0
              ipureintro; exact View.read_writes_of_cover _ _ _ _ _ (scover_A_0 V c t _ _)
            isplitl [HS1]
            · unfold owns; iexists _; isplitr
              swap; · iexact HS1
              ipureintro; exact View.read_writes_of_cover _ _ _ _ _ (scover_A_1 V c t _ _)
            isplitl [HS2]
            · unfold owns; iexists _; isplitr
              swap; · iexact HS2
              ipureintro; exact View.read_writes_of_cover _ _ _ _ _ (scover_A_2 V c t _ _)
            unfold owns; iexists _; isplitr
            swap; · iexact HS3
            ipureintro; exact View.read_writes_of_cover _ _ _ _ _ (scover_A_3 V c t _ _)
          iexact HR
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HS1, HS2, HS3⟩, HR⟩, Ho, ⟨%d0, H0⟩, ⟨%d1, H1⟩, ⟨%d2, H2⟩, ⟨%d3, H3⟩, ⟨%d4, H4⟩⟩
        iapply ((runA V c t ((hcond_0 t).mpr h0) (fun h => h1 ((hcond_1 t).mp h))).2.2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [HS0 HS1 HS2 HS3 HR]
        · isplitl [HS0 HS1 HS2 HS3]
          · isplitl [HS0]
            · unfold owns; iexists _; isplitr
              swap; · iexact HS0
              ipureintro; exact View.read_writes_of_cover _ _ _ _ _ (scover_A_0 V c t _ _)
            isplitl [HS1]
            · unfold owns; iexists _; isplitr
              swap; · iexact HS1
              ipureintro; exact View.read_writes_of_cover _ _ _ _ _ (scover_A_1 V c t _ _)
            isplitl [HS2]
            · unfold owns; iexists _; isplitr
              swap; · iexact HS2
              ipureintro; exact View.read_writes_of_cover _ _ _ _ _ (scover_A_2 V c t _ _)
            unfold owns; iexists _; isplitr
            swap; · iexact HS3
            ipureintro; exact View.read_writes_of_cover _ _ _ _ _ (scover_A_3 V c t _ _)
          iexact HR
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4_C t (fun h => h0 ((hcond_0 t).mp h)) ((hcond_1 t).mpr h1)], after_4]
      rw [outsAt_C V c t h0 h1]
      unfold stC; (try dsimp only)
      have hz : t.val ≠ 0 := by omega
      rw [PhiS_castSucc V c t, PhiS_pos V c _ _ hz]
      iintro ⟨⟨⟨HS0, HS1, HS2, HS3⟩, HR⟩, Ho, ⟨%d0, H0⟩, ⟨%d1, H1⟩, ⟨%d2, H2⟩, ⟨%d3, H3⟩, ⟨%d4, H4⟩⟩
      iapply ((runC V c t (fun h => h0 ((hcond_0 t).mp h)) ((hcond_1 t).mpr h1) _).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, ⟨%es3, HS3⟩⟩
      isplitl [HS0 HS1 HS2 HS3 HR]
      · isplitl [HS0 HS1 HS2 HS3]
        · isplitl [HS0]
          · unfold owns; iexists _; isplitr
            swap; · iexact HS0
            ipureintro; exact View.read_writes_of_cover _ _ _ _ _ (scover_C_0 V c t _ _ _)
          isplitl [HS1]
          · unfold owns; iexists _; isplitr
            swap; · iexact HS1
            ipureintro; exact View.read_writes_of_cover _ _ _ _ _ (scover_C_1 V c t _ _ _)
          isplitl [HS2]
          · unfold owns; iexists _; isplitr
            swap; · iexact HS2
            ipureintro; exact View.read_writes_of_cover _ _ _ _ _ (scover_C_2 V c t _ _ _)
          unfold owns; iexists _; isplitr
          swap; · iexact HS3
          ipureintro; exact View.read_writes_of_cover _ _ _ _ _ (scover_C_3 V c t _ _ _)
        iexact HR
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_C_4 V c t _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [Dat.leavesExact_idle (dat V c) 4 t (idleAt_4_B t (fun h => h0 ((hcond_0 t).mp h)) (fun h => h1 ((hcond_1 t).mp h))) (noFlush_4_B t (fun h => h0 ((hcond_0 t).mp h)) (fun h => h1 ((hcond_1 t).mp h)))]
      rw [outsAt_B V c t h0 h1]
      unfold stB; (try dsimp only)
      have hz : t.val ≠ 0 := by omega
      rw [PhiS_castSucc V c t, PhiS_pos V c _ _ hz]
      iintro ⟨⟨⟨HS0, HS1, HS2, HS3⟩, HR⟩, Ho, ⟨%d0, H0⟩, ⟨%d1, H1⟩, ⟨%d2, H2⟩, ⟨%d3, H3⟩, ⟨%d4, H4⟩⟩
      iapply ((runB V c t (fun h => h0 ((hcond_0 t).mp h)) (fun h => h1 ((hcond_1 t).mp h)) _).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 HR]
      · isplitl [HS0 HS1 HS2 HS3]
        · isplitl [HS0]
          · unfold owns; iexists _; isplitr
            swap; · iexact HS0
            ipureintro; exact View.read_writes_of_cover _ _ _ _ _ (scover_B_0 V c t _ _ _)
          isplitl [HS1]
          · unfold owns; iexists _; isplitr
            swap; · iexact HS1
            ipureintro; exact View.read_writes_of_cover _ _ _ _ _ (scover_B_1 V c t _ _ _)
          isplitl [HS2]
          · unfold owns; iexists _; isplitr
            swap; · iexact HS2
            ipureintro; exact View.read_writes_of_cover _ _ _ _ _ (scover_B_2 V c t _ _ _)
          unfold owns; iexists _; isplitr
          swap; · iexact HS3
          ipureintro; exact View.read_writes_of_cover _ _ _ _ _ (scover_B_3 V c t _ _ _)
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's form back: the accumulators' named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht]
  iintro ⟨⟨HS0, HS1, HS2, HS3⟩, HR⟩
  iapply (PhiA_join c)
  isplitl [HS0 HS1 HS2 HS3]
  · isplitl [HS0]; · iexists _; iexact HS0
    isplitl [HS1]; · iexists _; iexact HS1
    isplitl [HS2]; · iexists _; iexact HS2
    iexists _; iexact HS3
  iexact HR

theorem hout (c : Dev nD) : (dat V c).Φ (Fin.last cfg1.N) ⊢ Pipeline.ΦA spec1 c :=
  Phi_out V c _ (by rw [Fin.val_last]; have : cfg1.N = 64 := N_1; omega)

/-- The same two, with the launch's form spelt out: the scoped buffers and the generator register. -/
theorem hin' (c : Dev nD) :
    (iprop(Pipeline.scopedRest (Ix := Unit) (Name := ℕ) (U := UR sig nD τ) (Lvl := ℕ) (Val := Elt F) spec1 c ∗ ∃ r, prngReg c r) : sProp 𝕄) ⊢ (dat V c).Φ 0 := by
  have h := hin V c; unfold Pipeline.ΦA at h; exact h
theorem hout' (c : Dev nD) :
    (dat V c).Φ (Fin.last cfg1.N) ⊢ (iprop(Pipeline.scopedRest (Ix := Unit) (Name := ℕ) (U := UR sig nD τ) (Lvl := ℕ) (Val := Elt F) spec1 c ∗ ∃ r, prngReg c r) : sProp 𝕄) := by
  have h := hout V c; unfold Pipeline.ΦA at h; exact h

end Cert.Kernel.Rgn1

end
-- ==== Proof.K.MainRun.lean ====
import proofs.«119031_j6846177870362_2_alg».proof.Proof.K.R0Frame
import proofs.«119031_j6846177870362_2_alg».proof.Proof.K.R1Frame
import proofs.«119031_j6846177870362_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program: host operations, round 1's region, a host operation, round 2's region, host operations

The buffers' contents at each boundary are a fold from the launch memory: a host stretch's operations applied in order,
a region's arrays at what its write-backs leave. -/

abbrev W0 : Dev nD → Valuation τ sig (Elt F) := fun c b => (s₀ m ρ).mem ((c : Dev nD), b)
/-- After the host operations that build the fused weights and biases (round 1's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After round 1: its arrays at what the pipeline leaves, every other buffer as entered. -/
def W2 (c : Dev nD) : Valuation τ sig (Elt F) :=
  Pipeline.withArrays spec0 c (W1 m ρ c) fun w => (Rgn0.dat (V1 m ρ) c).arrAt w cfg0.N
theorem W2_arr (c : Dev nD) (w : Fin cfg0.W) :
    W2 m ρ c (Proc.devRef .tc (Pipeline.arrRef spec0 w)) = (Rgn0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Rgn0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the change of format of the new state (round 2's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After round 2. -/
def W4 (c : Dev nD) : Valuation τ sig (Elt F) :=
  Pipeline.withArrays spec1 c (W3 m ρ c) fun w => (Rgn1.dat (V3 m ρ) c).arrAt w cfg1.N
theorem W4_arr (c : Dev nD) (w : Fin cfg1.W) :
    W4 m ρ c (Proc.devRef .tc (Pipeline.arrRef spec1 w)) = (Rgn1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Rgn1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the read-out's host operations: the end. -/
abbrev W5 : Dev nD → Valuation τ sig (Elt F) := fun c => StableHlo.after hostOps2 (W4 m ρ c)

/-! ### The arguments end as launched: no host operation writes one and no region has one among its arrays -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => Rgn0.dat (V1 m ρ) c
  | ⟨1, _⟩ => fun c => Rgn1.dat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Round 1's kernel region over the thread state: entered from every unscoped buffer at `W1`, left at `W2`. Its
    arrays are split out of the unscoped buffers and put back at the exit contents; the generator register and the scoped
    buffers go into the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Rgn0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (Rgn0.dat (V1 m ρ) c).Φ 0 from rfl]
    iintro ⟨Hp, -, Hr⟩
    iapply (Rgn0.hin' (V1 m ρ) c)
    isplitl [Hr]; · iexact Hr
    iexact Hp
  hout c := by
    rw [Pipeline.ownSems0_none, show (pdats m ρ 0 c).Φ (Fin.last _) = (Rgn0.dat (V1 m ρ) c).Φ (Fin.last cfg0.N) from rfl]
    iintro H
    ihave H' := (Rgn0.hout' (V1 m ρ) c) $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Round 2's kernel region over the thread state: entered from every unscoped buffer at `W3`, left at `W4`. Its
    arrays are split out of the unscoped buffers and put back at the exit contents; the generator register and the scoped
    buffers go into the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Rgn1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (Rgn1.dat (V3 m ρ) c).Φ 0 from rfl]
    iintro ⟨Hp, -, Hr⟩
    iapply (Rgn1.hin' (V3 m ρ) c)
    isplitl [Hr]; · iexact Hr
    iexact Hp
  hout c := by
    rw [Pipeline.ownSems0_none, show (pdats m ρ 1 c).Φ (Fin.last _) = (Rgn1.dat (V3 m ρ) c).Φ (Fin.last cfg1.N) from rfl]
    iintro H
    ihave H' := (Rgn1.hout' (V3 m ρ) c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    in every final state every unscoped buffer holds what the fold `W5` says: in particular the result buffer, and each
    argument as launched. -/
theorem run : θ_run defs (onTc (τ := τ) (main (F := F))) ⟨m, fun _ => 0, ρ⟩ (fun r => ∀ c : Dev nD,
      r.2.mem ((c.tc : Thread nD τ).loc main_v37) = W5 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v37 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

/-- The frame claim: the run, its statement about the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run m ρ)

end Cert.Kernel.Whole

end
-- ==== Proof.KI.R0Runs.lean ====
import proofs.«119031_j6846177870362_2_alg».proof.Proof.Gen.KernelIdeal.Launch
import proofs.«119031_j6846177870362_2_alg».proof.Proof.Gen.KernelIdeal.Skeleton
import proofs.«119031_j6846177870362_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # One round's kernel region (pallas call 0): what its runs share

The region is entered with the core's buffers at contents `V`. The grid has 2 × 8 × 4 points, the last axis the
reduction over the four 1024-wide slabs of the contraction; a point is first / inner / last of its group of four
according to `t % 4`. -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetched it or the
    block index has not moved since the point that did: the window is uncut and never idle. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetched it or the
    block index has not moved since the point that did: the window is uncut and never idle. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetched it or the
    block index has not moved since the point that did: the window is uncut and never idle. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetched it or the
    block index has not moved since the point that did: the window is uncut and never idle. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, decided over the grid -/

/-- "This is the first slab of the contraction" (the accumulators are zeroed), from the grid coordinates. -/
abbrev cond_0 (i : grid0.Coords) : Prop := (Scalar.cmpi .ne (Scalar.extui (Scalar.cmpi .eq (BitVec.ofNat 32 (i 2).val) 0#32)) 0#32) = 1#1
theorem hcond_0 : ∀ t : Fin cfg0.N, cond_0 (grid0.coords t) ↔ t.val % 4 = 0 :=
  (by decide +kernel : ∀ t : Fin grid0.N, cond_0 (grid0.coords t) ↔ t.val % 4 = 0)

/-- "This is the last slab of the contraction" (the gates are applied and the new state stored). -/
abbrev cond_1 (i : grid0.Coords) : Prop := k0_cond2 i = 1#1
theorem hcond_1 : ∀ t : Fin cfg0.N, cond_1 (grid0.coords t) ↔ t.val % 4 = 3 :=
  (by decide +kernel : ∀ t : Fin grid0.N, cond_1 (grid0.coords t) ↔ t.val % 4 = 3)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- At a first slab the output window is idle and not written back. -/
theorem idleAt_4_A : ∀ t : Fin cfg0.N, cond_0 (grid0.coords t) → ¬cond_1 (grid0.coords t) → cfg0.idle 4 (grid0.coords t) = true := by decide +kernel
theorem noFlush_4_A : ∀ t : Fin cfg0.N, cond_0 (grid0.coords t) → ¬cond_1 (grid0.coords t) → (cfg0.win 4).flush t = false := by decide +kernel
/-- At an inner slab too. -/
theorem idleAt_4_B : ∀ t : Fin cfg0.N, ¬cond_0 (grid0.coords t) → ¬cond_1 (grid0.coords t) → cfg0.idle 4 (grid0.coords t) = true := by decide +kernel
theorem noFlush_4_B : ∀ t : Fin cfg0.N, ¬cond_0 (grid0.coords t) → ¬cond_1 (grid0.coords t) → (cfg0.win 4).flush t = false := by decide +kernel
/-- At a last slab it is live: the body stores the new state into it. -/
theorem liveAt_4_C : ∀ t : Fin cfg0.N, ¬cond_0 (grid0.coords t) → cond_1 (grid0.coords t) → cfg0.idle 4 (grid0.coords t) = false := by decide +kernel

/-! ## The memrefs the body is called with -/

/-- One staging buffer of the output window, through which its contents are stated. -/
abbrev VO_4 : View sig .tc .vmem S2048x512 .f32 := (Memref.whole cc0_stg4_0 : Memref sig .tc .vmem S2048x512 .f32).view
abbrev ms_0 (t : Fin cfg0.N) : Memref sig .tc .vmem S2048x1024 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x512 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S4x512x1024 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S4x512 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2048x512 .f32 := win0_4.stage (cfg0.slots t 4)
abbrev hs_4 (t : Fin cfg0.N) : (ms_4 t).IsWhole := hstage0_4 ((cfg0.slots t 4).cast nbuf0_4)
/-- The four gate accumulators: whole scoped buffers of the kernel's own, carried from point to point. -/
abbrev scM_0 : Memref sig .tc .vmem S2048x512 .f32 := Memref.whole cc0_scratch0
abbrev VS_0 : View sig .tc .vmem S2048x512 .f32 := scM_0.view
abbrev scM_1 : Memref sig .tc .vmem S2048x512 .f32 := Memref.whole cc0_scratch1
abbrev VS_1 : View sig .tc .vmem S2048x512 .f32 := scM_1.view
abbrev scM_2 : Memref sig .tc .vmem S2048x512 .f32 := Memref.whole cc0_scratch2
abbrev VS_2 : View sig .tc .vmem S2048x512 .f32 := scM_2.view
abbrev scM_3 : Memref sig .tc .vmem S2048x512 .f32 := Memref.whole cc0_scratch3
abbrev VS_3 : View sig .tc .vmem S2048x512 .f32 := scM_3.view

/-- The scoped buffers of the core that this kernel neither stages through nor accumulates in, each at some contents. -/
def rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))

/-- The region's invariant as the launch hands it over: the accumulators and the other scoped buffers at some
    contents, the generator register at some state. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d) ∗ rest c) ∗ (∃ r, prngReg c r)) := by
  unfold Pipeline.ΦA rest; rw [scopedRest0_eq]; simp only [scM_0, scM_1, scM_2, scM_3, owns_whole]; try rfl

/-- Everything of the invariant but the accumulators. -/
def restAll (c : Dev nD) : sProp 𝕄 := iprop(rest c ∗ (∃ r, prngReg c r))

/-- The launch's invariant with the four accumulators set apart, -/
theorem PhiA_split (c : Dev nD) :
    (Pipeline.ΦA spec0 c : sProp 𝕄) ⊢ iprop(((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d)) ∗ restAll c) := by
  rw [PhiA_eq]; unfold restAll
  iintro ⟨⟨H0, H1, H2, H3, HR⟩, Hg⟩
  isplitl [H0 H1 H2 H3]
  · isplitl [H0]; · iexact H0
    isplitl [H1]; · iexact H1
    isplitl [H2]; · iexact H2
    iexact H3
  isplitl [HR]; · iexact HR
  iexact Hg

/-- and put back. -/
theorem PhiA_join (c : Dev nD) :
    (iprop(((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d)) ∗ restAll c) : sProp 𝕄) ⊢ Pipeline.ΦA spec0 c := by
  rw [PhiA_eq]; unfold restAll
  iintro ⟨⟨H0, H1, H2, H3⟩, HR, Hg⟩
  isplitl [H0 H1 H2 H3 HR]
  · isplitl [H0]; · iexact H0
    isplitl [H1]; · iexact H1
    isplitl [H2]; · iexact H2
    isplitl [H3]; · iexact H3
    iexact HR
  iexact Hg

end Cert.KernelIdeal.Rgn0

end
-- ==== Proof.KI.R0RunA.lean ====
import proofs.«119031_j6846177870362_2_alg».proof.Proof.KI.R0Runs

set_option maxRecDepth 16384

noncomputable section

namespace Cert.KernelIdeal.Rgn0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large
set_option maxHeartbeats 4000000 in
/-- The body at a first slab (the accumulators are zeroed, then added to; nothing is stored into the output): the pieces its stores leave in the output's and the accumulators' memrefs (last first), with the
    proof that on whole memrefs — the four inputs at their contents, the output at contents handed back untouched, the accumulators at anything —
    the body runs to the continuation holding the inputs as they were and each buffer it stored into with those pieces written. -/
noncomputable def kernelRun_A (c : Dev nD) (i : grid0.Coords) (arg3 : Memref sig .tc .vmem S2048x1024 .bf16) (harg3 : arg3.IsWhole) (arg4 : Memref sig .tc .vmem S2048x512 .f32) (harg4 : arg4.IsWhole) (arg5 : Memref sig .tc .vmem S4x512x1024 .bf16) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (hc0 : cond_0 i) (hc1 : ¬cond_1 i)
    (x0 : Vec F S2048x1024 .bf16) (x1 : Vec F S2048x512 .f32) (x2 : Vec F S4x512x1024 .bf16) (x3 : Vec F S4x512 .f32) :
    Σ' (L4 : List (View.Piece (Elt F) S2048x512 .f32)) (LS0 : List (View.Piece (Elt F) S2048x512 .f32)) (LS1 : List (View.Piece (Elt F) S2048x512 .f32)) (LS2 : List (View.Piece (Elt F) S2048x512 .f32)), { LS3 : List (View.Piece (Elt F) S2048x512 .f32) //
      ∀ (xi4 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__gru_round_kernel i arg3 harg3 arg4 harg4 arg5 harg5 arg6 harg6 arg7 harg7 arg8 harg8 arg9 harg9 arg10 harg10 arg11 harg11) K } := by
  refine ⟨[], ?_, ?_, ?_, ?_, fun xi4 E K => ?run⟩
  case run =>
    simp only [cc0__gru_round_kernel_eq_skeleton]; unfold cc0__gru_round_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.KernelIdeal.Rgn0

end
-- ==== Proof.KI.R0RunB.lean ====
import proofs.«119031_j6846177870362_2_alg».proof.Proof.KI.R0RunA

set_option maxRecDepth 16384

noncomputable section

namespace Cert.KernelIdeal.Rgn0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large
set_option maxHeartbeats 4000000 in
/-- The body at an inner slab (the accumulators are added to; nothing is stored into the output): the pieces its stores leave in the output's and the accumulators' memrefs (last first), with the
    proof that on whole memrefs — the four inputs at their contents, the output at contents handed back untouched, the accumulators at what the point before left —
    the body runs to the continuation holding the inputs as they were and each buffer it stored into with those pieces written. -/
noncomputable def kernelRun_B (c : Dev nD) (i : grid0.Coords) (arg3 : Memref sig .tc .vmem S2048x1024 .bf16) (harg3 : arg3.IsWhole) (arg4 : Memref sig .tc .vmem S2048x512 .f32) (harg4 : arg4.IsWhole) (arg5 : Memref sig .tc .vmem S4x512x1024 .bf16) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (hc0 : ¬cond_0 i) (hc1 : ¬cond_1 i)
    (x0 : Vec F S2048x1024 .bf16) (x1 : Vec F S2048x512 .f32) (x2 : Vec F S4x512x1024 .bf16) (x3 : Vec F S4x512 .f32) (xs0 : Vec F S2048x512 .f32) (xs1 : Vec F S2048x512 .f32) (xs2 : Vec F S2048x512 .f32) (xs3 : Vec F S2048x512 .f32) :
    Σ' (L4 : List (View.Piece (Elt F) S2048x512 .f32)) (LS0 : List (View.Piece (Elt F) S2048x512 .f32)) (LS1 : List (View.Piece (Elt F) S2048x512 .f32)) (LS2 : List (View.Piece (Elt F) S2048x512 .f32)), { LS3 : List (View.Piece (Elt F) S2048x512 .f32) //
      ∀ (xi4 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__gru_round_kernel i arg3 harg3 arg4 harg4 arg5 harg5 arg6 harg6 arg7 harg7 arg8 harg8 arg9 harg9 arg10 harg10 arg11 harg11) K } := by
  refine ⟨[], ?_, ?_, ?_, ?_, fun xi4 E K => ?run⟩
  case run =>
    simp only [cc0__gru_round_kernel_eq_skeleton]; unfold cc0__gru_round_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.KernelIdeal.Rgn0

end
-- ==== Proof.KI.R0RunC.lean ====
import proofs.«119031_j6846177870362_2_alg».proof.Proof.KI.R0RunB

set_option maxRecDepth 16384

noncomputable section

namespace Cert.KernelIdeal.Rgn0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large
set_option maxHeartbeats 4000000 in
/-- The body at a last slab (the accumulators are added to, the gates applied, and the new state stored into the output): the pieces its stores leave in the output's and the accumulators' memrefs (last first), with the
    proof that on whole memrefs — the four inputs at their contents, the output at anything, the accumulators at what the point before left —
    the body runs to the continuation holding the inputs as they were and each buffer it stored into with those pieces written. -/
noncomputable def kernelRun_C (c : Dev nD) (i : grid0.Coords) (arg3 : Memref sig .tc .vmem S2048x1024 .bf16) (harg3 : arg3.IsWhole) (arg4 : Memref sig .tc .vmem S2048x512 .f32) (harg4 : arg4.IsWhole) (arg5 : Memref sig .tc .vmem S4x512x1024 .bf16) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (hc0 : ¬cond_0 i) (hc1 : cond_1 i)
    (x0 : Vec F S2048x1024 .bf16) (x1 : Vec F S2048x512 .f32) (x2 : Vec F S4x512x1024 .bf16) (x3 : Vec F S4x512 .f32) (xs0 : Vec F S2048x512 .f32) (xs1 : Vec F S2048x512 .f32) (xs2 : Vec F S2048x512 .f32) (xs3 : Vec F S2048x512 .f32) :
    Σ' (L4 : List (View.Piece (Elt F) S2048x512 .f32)) (LS0 : List (View.Piece (Elt F) S2048x512 .f32)) (LS1 : List (View.Piece (Elt F) S2048x512 .f32)) (LS2 : List (View.Piece (Elt F) S2048x512 .f32)), { LS3 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__gru_round_kernel i arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__gru_round_kernel_eq_skeleton]; unfold cc0__gru_round_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Rgn0

end
-- ==== Proof.KI.R0Frame.lean ====
import proofs.«119031_j6846177870362_2_alg».proof.Proof.KI.R0RunC

set_option maxRecDepth 16384

noncomputable section

namespace Cert.KernelIdeal.Rgn0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # One round's kernel region (pallas call 0): what the buffers hold point by point, the proof data, the body obligation -/

/-- What a point leaves: the output's staging buffer, then the four gate accumulators. -/
abbrev St (F : FTy → Type) [FloatOps F] : Type := Vec F S2048x512 .f32 × Vec F S2048x512 .f32 × Vec F S2048x512 .f32 × Vec F S2048x512 .f32 × Vec F S2048x512 .f32

/-- The three runs at a grid point, on the memrefs and input blocks the pipeline passes there. -/
abbrev runA (c : Dev nD) (t : Fin cfg0.N) (h0 : cond_0 (grid0.coords t)) (h1 : ¬cond_1 (grid0.coords t)) :=
  kernelRun_A (F := F) c (grid0.coords t) (ms_0 t) (hs_0 t) (ms_1 t) (hs_1 t) (ms_2 t) (hs_2 t) (ms_3 t) (hs_3 t) (ms_4 t) (hs_4 t) scM_0 (Memref.isWhole_whole _) scM_1 (Memref.isWhole_whole _) scM_2 (Memref.isWhole_whole _) scM_3 (Memref.isWhole_whole _) h0 h1 (iblk V c 0 t) (iblk V c 1 t) (iblk V c 2 t) (iblk V c 3 t)
abbrev runB (c : Dev nD) (t : Fin cfg0.N) (h0 : ¬cond_0 (grid0.coords t)) (h1 : ¬cond_1 (grid0.coords t)) (xs : St F) :=
  kernelRun_B (F := F) c (grid0.coords t) (ms_0 t) (hs_0 t) (ms_1 t) (hs_1 t) (ms_2 t) (hs_2 t) (ms_3 t) (hs_3 t) (ms_4 t) (hs_4 t) scM_0 (Memref.isWhole_whole _) scM_1 (Memref.isWhole_whole _) scM_2 (Memref.isWhole_whole _) scM_3 (Memref.isWhole_whole _) h0 h1 (iblk V c 0 t) (iblk V c 1 t) (iblk V c 2 t) (iblk V c 3 t) xs.2.1 xs.2.2.1 xs.2.2.2.1 xs.2.2.2.2
abbrev runC (c : Dev nD) (t : Fin cfg0.N) (h0 : ¬cond_0 (grid0.coords t)) (h1 : cond_1 (grid0.coords t)) (xs : St F) :=
  kernelRun_C (F := F) c (grid0.coords t) (ms_0 t) (hs_0 t) (ms_1 t) (hs_1 t) (ms_2 t) (hs_2 t) (ms_3 t) (hs_3 t) (ms_4 t) (hs_4 t) scM_0 (Memref.isWhole_whole _) scM_1 (Memref.isWhole_whole _) scM_2 (Memref.isWhole_whole _) scM_3 (Memref.isWhole_whole _) h0 h1 (iblk V c 0 t) (iblk V c 1 t) (iblk V c 2 t) (iblk V c 3 t) xs.2.1 xs.2.2.1 xs.2.2.2.1 xs.2.2.2.2

/-! ## Every run's stores cover the buffers they go to -/

theorem scover_A_0 (c : Dev nD) (t : Fin cfg0.N) (h0 : cond_0 (grid0.coords t)) (h1 : ¬cond_1 (grid0.coords t)) (y : S2048x512.Idx) :
    ∃ pc ∈ (runA V c t h0 h1).2.1, y ∈ pc.1.set :=
  View.cover_of_tiledL (runA V c t h0 h1).2.1 S2048x512.size (by sl_kernel_rfl) y
theorem scover_A_1 (c : Dev nD) (t : Fin cfg0.N) (h0 : cond_0 (grid0.coords t)) (h1 : ¬cond_1 (grid0.coords t)) (y : S2048x512.Idx) :
    ∃ pc ∈ (runA V c t h0 h1).2.2.1, y ∈ pc.1.set :=
  View.cover_of_tiledL (runA V c t h0 h1).2.2.1 S2048x512.size (by sl_kernel_rfl) y
theorem scover_A_2 (c : Dev nD) (t : Fin cfg0.N) (h0 : cond_0 (grid0.coords t)) (h1 : ¬cond_1 (grid0.coords t)) (y : S2048x512.Idx) :
    ∃ pc ∈ (runA V c t h0 h1).2.2.2.1, y ∈ pc.1.set :=
  View.cover_of_tiledL (runA V c t h0 h1).2.2.2.1 S2048x512.size (by sl_kernel_rfl) y
theorem scover_A_3 (c : Dev nD) (t : Fin cfg0.N) (h0 : cond_0 (grid0.coords t)) (h1 : ¬cond_1 (grid0.coords t)) (y : S2048x512.Idx) :
    ∃ pc ∈ (runA V c t h0 h1).2.2.2.2.1, y ∈ pc.1.set :=
  View.cover_of_tiledL (runA V c t h0 h1).2.2.2.2.1 S2048x512.size (by sl_kernel_rfl) y

theorem scover_B_0 (c : Dev nD) (t : Fin cfg0.N) (h0 : ¬cond_0 (grid0.coords t)) (h1 : ¬cond_1 (grid0.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.1, y ∈ pc.1.set :=
  View.cover_of_tiledL (runB V c t h0 h1 xs).2.1 S2048x512.size (by sl_kernel_rfl) y
theorem scover_B_1 (c : Dev nD) (t : Fin cfg0.N) (h0 : ¬cond_0 (grid0.coords t)) (h1 : ¬cond_1 (grid0.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.2.1, y ∈ pc.1.set :=
  View.cover_of_tiledL (runB V c t h0 h1 xs).2.2.1 S2048x512.size (by sl_kernel_rfl) y
theorem scover_B_2 (c : Dev nD) (t : Fin cfg0.N) (h0 : ¬cond_0 (grid0.coords t)) (h1 : ¬cond_1 (grid0.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.2.2.1, y ∈ pc.1.set :=
  View.cover_of_tiledL (runB V c t h0 h1 xs).2.2.2.1 S2048x512.size (by sl_kernel_rfl) y
theorem scover_B_3 (c : Dev nD) (t : Fin cfg0.N) (h0 : ¬cond_0 (grid0.coords t)) (h1 : ¬cond_1 (grid0.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.2.2.2.1, y ∈ pc.1.set :=
  View.cover_of_tiledL (runB V c t h0 h1 xs).2.2.2.2.1 S2048x512.size (by sl_kernel_rfl) y

theorem scover_C_0 (c : Dev nD) (t : Fin cfg0.N) (h0 : ¬cond_0 (grid0.coords t)) (h1 : cond_1 (grid0.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.1, y ∈ pc.1.set :=
  View.cover_of_tiledL (runC V c t h0 h1 xs).2.1 S2048x512.size (by sl_kernel_rfl) y
theorem scover_C_1 (c : Dev nD) (t : Fin cfg0.N) (h0 : ¬cond_0 (grid0.coords t)) (h1 : cond_1 (grid0.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.2.1, y ∈ pc.1.set :=
  View.cover_of_tiledL (runC V c t h0 h1 xs).2.2.1 S2048x512.size (by sl_kernel_rfl) y
theorem scover_C_2 (c : Dev nD) (t : Fin cfg0.N) (h0 : ¬cond_0 (grid0.coords t)) (h1 : cond_1 (grid0.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.2.2.1, y ∈ pc.1.set :=
  View.cover_of_tiledL (runC V c t h0 h1 xs).2.2.2.1 S2048x512.size (by sl_kernel_rfl) y
theorem scover_C_3 (c : Dev nD) (t : Fin cfg0.N) (h0 : ¬cond_0 (grid0.coords t)) (h1 : cond_1 (grid0.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.2.2.2.1, y ∈ pc.1.set :=
  View.cover_of_tiledL (runC V c t h0 h1 xs).2.2.2.2.1 S2048x512.size (by sl_kernel_rfl) y

theorem cover_C_4 (c : Dev nD) (t : Fin cfg0.N) (h0 : ¬cond_0 (grid0.coords t)) (h1 : cond_1 (grid0.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).1, y ∈ pc.1.set :=
  View.cover_of_tiledL (runC V c t h0 h1 xs).1 S2048x512.size (by sl_kernel_rfl) y

/-! ## What each kind of point leaves -/

/-- A first slab: the accumulators at their pieces read back; the output untouched (a placeholder nothing consults:
    the window is idle there and not written back). -/
def stA (c : Dev nD) (t : Fin cfg0.N) (h0 : cond_0 (grid0.coords t)) (h1 : ¬cond_1 (grid0.coords t)) : St F :=
  (VO_4.read (Elt F) VO_4.junk, VS_0.read (Elt F) (VS_0.writes (Elt F) VS_0.junk (runA V c t h0 h1).2.1), VS_1.read (Elt F) (VS_1.writes (Elt F) VS_1.junk (runA V c t h0 h1).2.2.1), VS_2.read (Elt F) (VS_2.writes (Elt F) VS_2.junk (runA V c t h0 h1).2.2.2.1), VS_3.read (Elt F) (VS_3.writes (Elt F) VS_3.junk (runA V c t h0 h1).2.2.2.2.1))
/-- An inner slab, over what the point before left. -/
def stB (c : Dev nD) (t : Fin cfg0.N) (h0 : ¬cond_0 (grid0.coords t)) (h1 : ¬cond_1 (grid0.coords t)) (xs : St F) : St F :=
  (VO_4.read (Elt F) VO_4.junk, VS_0.read (Elt F) (VS_0.writes (Elt F) VS_0.junk (runB V c t h0 h1 xs).2.1), VS_1.read (Elt F) (VS_1.writes (Elt F) VS_1.junk (runB V c t h0 h1 xs).2.2.1), VS_2.read (Elt F) (VS_2.writes (Elt F) VS_2.junk (runB V c t h0 h1 xs).2.2.2.1), VS_3.read (Elt F) (VS_3.writes (Elt F) VS_3.junk (runB V c t h0 h1 xs).2.2.2.2.1))
/-- A last slab, over what the point before left: the output at its pieces read back. -/
def stC (c : Dev nD) (t : Fin cfg0.N) (h0 : ¬cond_0 (grid0.coords t)) (h1 : cond_1 (grid0.coords t)) (xs : St F) : St F :=
  (VO_4.read (Elt F) (VO_4.writes (Elt F) VO_4.junk (runC V c t h0 h1 xs).1), VS_0.read (Elt F) (VS_0.writes (Elt F) VS_0.junk (runC V c t h0 h1 xs).2.1), VS_1.read (Elt F) (VS_1.writes (Elt F) VS_1.junk (runC V c t h0 h1 xs).2.2.1), VS_2.read (Elt F) (VS_2.writes (Elt F) VS_2.junk (runC V c t h0 h1 xs).2.2.2.1), VS_3.read (Elt F) (VS_3.writes (Elt F) VS_3.junk (runC V c t h0 h1 xs).2.2.2.2.1))

/-- THE ACCUMULATION: what the output's staging buffer and the four accumulators hold after the body at position `n`,
    by recursion on the position — the kind of point is read off `n % 4`. -/
def outsAt (c : Dev nD) : (n : ℕ) → n < cfg0.N → St F
  | 0, hn => stA V c ⟨0, hn⟩ ((hcond_0 ⟨0, hn⟩).mpr (Nat.zero_mod _)) (fun h => (fun h => by (try dsimp only at h); omega) ((hcond_1 ⟨0, hn⟩).mp h))
  | n + 1, hn =>
    if h0 : (n + 1) % 4 = 0 then
      if h1 : (n + 1) % 4 = 3 then
        False.elim (by omega)
      else
        stA V c ⟨n + 1, hn⟩ ((hcond_0 ⟨n + 1, hn⟩).mpr h0) (fun h => h1 ((hcond_1 ⟨n + 1, hn⟩).mp h))
    else
      if h1 : (n + 1) % 4 = 3 then
        stC V c ⟨n + 1, hn⟩ (fun h => h0 ((hcond_0 ⟨n + 1, hn⟩).mp h)) ((hcond_1 ⟨n + 1, hn⟩).mpr h1) (outsAt c n (Nat.lt_of_succ_lt hn))
      else
        stB V c ⟨n + 1, hn⟩ (fun h => h0 ((hcond_0 ⟨n + 1, hn⟩).mp h)) (fun h => h1 ((hcond_1 ⟨n + 1, hn⟩).mp h)) (outsAt c n (Nat.lt_of_succ_lt hn))

theorem outsAt_A (c : Dev nD) (t : Fin cfg0.N) (h0 : t.val % 4 = 0) (h1 : ¬t.val % 4 = 3) :
    outsAt V c t.val t.isLt = stA V c t ((hcond_0 t).mpr h0) (fun h => h1 ((hcond_1 t).mp h)) := by
  obtain ⟨n, hn⟩ := t
  cases n with
  | zero => exact rfl
  | succ n => exact (dif_pos h0).trans ((dif_neg h1).trans rfl)

theorem outsAt_B (c : Dev nD) (t : Fin cfg0.N) (h0 : ¬t.val % 4 = 0) (h1 : ¬t.val % 4 = 3) :
    outsAt V c t.val t.isLt = stB V c t (fun h => h0 ((hcond_0 t).mp h)) (fun h => h1 ((hcond_1 t).mp h))
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 4 = 0) (h1 : t.val % 4 = 3) :
    outsAt V c t.val t.isLt = stC V c t (fun h => h0 ((hcond_0 t).mp h)) ((hcond_1 t).mpr h1)
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before position `n`: at the first point what the launch hands over (the accumulators at anything); afterwards the
    accumulators at what the point before left in them, the other scoped buffers and the generator register at some state. -/
def PhiS (c : Dev nD) : (n : ℕ) → n ≤ cfg0.N → sProp 𝕄
  | 0, _ => Pipeline.ΦA spec0 c
  | n + 1, hn => iprop((owns (c : Thread nD τ) scM_0 fullShare ((outsAt V c n hn).2.1) ∗ owns (c : Thread nD τ) scM_1 fullShare ((outsAt V c n hn).2.2.1)
      ∗ owns (c : Thread nD τ) scM_2 fullShare ((outsAt V c n hn).2.2.2.1) ∗ owns (c : Thread nD τ) scM_3 fullShare ((outsAt V c n hn).2.2.2.2)) ∗ restAll c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM_0 fullShare ((outsAt V c n hn).2.1) ∗ owns (c : Thread nD τ) scM_1 fullShare ((outsAt V c n hn).2.2.1)
      ∗ owns (c : Thread nD τ) scM_2 fullShare ((outsAt V c n hn).2.2.2.1) ∗ owns (c : Thread nD τ) scM_3 fullShare ((outsAt V c n hn).2.2.2.2)) ∗ restAll c) := rfl

theorem PhiS_pos (c : Dev nD) (n : ℕ) (h : n ≤ cfg0.N) (hz : n ≠ 0) :
    PhiS V c n h = iprop((owns (c : Thread nD τ) scM_0 fullShare ((outsAt V c (n - 1) (by omega)).2.1) ∗ owns (c : Thread nD τ) scM_1 fullShare ((outsAt V c (n - 1) (by omega)).2.2.1)
      ∗ owns (c : Thread nD τ) scM_2 fullShare ((outsAt V c (n - 1) (by omega)).2.2.2.1) ∗ owns (c : Thread nD τ) scM_3 fullShare ((outsAt V c (n - 1) (by omega)).2.2.2.2)) ∗ restAll c) := by
  cases n with
  | zero => exact absurd rfl hz
  | succ n => rfl

/-! ## The proof data -/

/-- The region's proof data on core `c`: the arrays as the region finds them; after the body at point `t` each input's
    buffer at its block and the output's at `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the inputs' memrefs hold their blocks; `t % 4` says which kind of point it is; the invariant
    hands the body the accumulators at what the point before left (at anything at the very first point) and takes them
    back at this point's contents, every store set covering its buffer; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [Dat.leavesExact_idle (dat V c) 4 t (idleAt_4_A t ((hcond_0 t).mpr h0) (fun h => h1 ((hcond_1 t).mp h))) (noFlush_4_A t ((hcond_0 t).mpr h0) (fun h => h1 ((hcond_1 t).mp h)))]
      rw [outsAt_A V c t h0 h1]
      unfold stA; (try dsimp only)
      by_cases hz : t.val = 0
      · rw [PhiS_castSucc V c t, PhiS_zero V c _ _ hz]
        iintro ⟨HF, Ho, ⟨%d0, H0⟩, ⟨%d1, H1⟩, ⟨%d2, H2⟩, ⟨%d3, H3⟩, ⟨%d4, H4⟩⟩
        ihave HF' := (PhiA_split c) $$ HF
        icases HF' with ⟨⟨HS0, HS1, HS2, HS3⟩, HR⟩
        iapply ((runA V c t ((hcond_0 t).mpr h0) (fun h => h1 ((hcond_1 t).mp h))).2.2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 HR]
        · isplitl [HS0 HS1 HS2 HS3]
          · isplitl [HS0]
            · unfold owns; iexists _; isplitr
              swap; · iexact HS0
              ipureintro; exact View.read_writes_of_cover _ _ _ _ _ (scover_A_0 V c t _ _)
            isplitl [HS1]
            · unfold owns; iexists _; isplitr
              swap; · iexact HS1
              ipureintro; exact View.read_writes_of_cover _ _ _ _ _ (scover_A_1 V c t _ _)
            isplitl [HS2]
            · unfold owns; iexists _; isplitr
              swap; · iexact HS2
              ipureintro; exact View.read_writes_of_cover _ _ _ _ _ (scover_A_2 V c t _ _)
            unfold owns; iexists _; isplitr
            swap; · iexact HS3
            ipureintro; exact View.read_writes_of_cover _ _ _ _ _ (scover_A_3 V c t _ _)
          iexact HR
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HS1, HS2, HS3⟩, HR⟩, Ho, ⟨%d0, H0⟩, ⟨%d1, H1⟩, ⟨%d2, H2⟩, ⟨%d3, H3⟩, ⟨%d4, H4⟩⟩
        iapply ((runA V c t ((hcond_0 t).mpr h0) (fun h => h1 ((hcond_1 t).mp h))).2.2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [HS0 HS1 HS2 HS3 HR]
        · isplitl [HS0 HS1 HS2 HS3]
          · isplitl [HS0]
            · unfold owns; iexists _; isplitr
              swap; · iexact HS0
              ipureintro; exact View.read_writes_of_cover _ _ _ _ _ (scover_A_0 V c t _ _)
            isplitl [HS1]
            · unfold owns; iexists _; isplitr
              swap; · iexact HS1
              ipureintro; exact View.read_writes_of_cover _ _ _ _ _ (scover_A_1 V c t _ _)
            isplitl [HS2]
            · unfold owns; iexists _; isplitr
              swap; · iexact HS2
              ipureintro; exact View.read_writes_of_cover _ _ _ _ _ (scover_A_2 V c t _ _)
            unfold owns; iexists _; isplitr
            swap; · iexact HS3
            ipureintro; exact View.read_writes_of_cover _ _ _ _ _ (scover_A_3 V c t _ _)
          iexact HR
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4_C t (fun h => h0 ((hcond_0 t).mp h)) ((hcond_1 t).mpr h1)], after_4]
      rw [outsAt_C V c t h0 h1]
      unfold stC; (try dsimp only)
      have hz : t.val ≠ 0 := by omega
      rw [PhiS_castSucc V c t, PhiS_pos V c _ _ hz]
      iintro ⟨⟨⟨HS0, HS1, HS2, HS3⟩, HR⟩, Ho, ⟨%d0, H0⟩, ⟨%d1, H1⟩, ⟨%d2, H2⟩, ⟨%d3, H3⟩, ⟨%d4, H4⟩⟩
      iapply ((runC V c t (fun h => h0 ((hcond_0 t).mp h)) ((hcond_1 t).mpr h1) _).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, ⟨%es3, HS3⟩⟩
      isplitl [HS0 HS1 HS2 HS3 HR]
      · isplitl [HS0 HS1 HS2 HS3]
        · isplitl [HS0]
          · unfold owns; iexists _; isplitr
            swap; · iexact HS0
            ipureintro; exact View.read_writes_of_cover _ _ _ _ _ (scover_C_0 V c t _ _ _)
          isplitl [HS1]
          · unfold owns; iexists _; isplitr
            swap; · iexact HS1
            ipureintro; exact View.read_writes_of_cover _ _ _ _ _ (scover_C_1 V c t _ _ _)
          isplitl [HS2]
          · unfold owns; iexists _; isplitr
            swap; · iexact HS2
            ipureintro; exact View.read_writes_of_cover _ _ _ _ _ (scover_C_2 V c t _ _ _)
          unfold owns; iexists _; isplitr
          swap; · iexact HS3
          ipureintro; exact View.read_writes_of_cover _ _ _ _ _ (scover_C_3 V c t _ _ _)
        iexact HR
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_C_4 V c t _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [Dat.leavesExact_idle (dat V c) 4 t (idleAt_4_B t (fun h => h0 ((hcond_0 t).mp h)) (fun h => h1 ((hcond_1 t).mp h))) (noFlush_4_B t (fun h => h0 ((hcond_0 t).mp h)) (fun h => h1 ((hcond_1 t).mp h)))]
      rw [outsAt_B V c t h0 h1]
      unfold stB; (try dsimp only)
      have hz : t.val ≠ 0 := by omega
      rw [PhiS_castSucc V c t, PhiS_pos V c _ _ hz]
      iintro ⟨⟨⟨HS0, HS1, HS2, HS3⟩, HR⟩, Ho, ⟨%d0, H0⟩, ⟨%d1, H1⟩, ⟨%d2, H2⟩, ⟨%d3, H3⟩, ⟨%d4, H4⟩⟩
      iapply ((runB V c t (fun h => h0 ((hcond_0 t).mp h)) (fun h => h1 ((hcond_1 t).mp h)) _).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 HR]
      · isplitl [HS0 HS1 HS2 HS3]
        · isplitl [HS0]
          · unfold owns; iexists _; isplitr
            swap; · iexact HS0
            ipureintro; exact View.read_writes_of_cover _ _ _ _ _ (scover_B_0 V c t _ _ _)
          isplitl [HS1]
          · unfold owns; iexists _; isplitr
            swap; · iexact HS1
            ipureintro; exact View.read_writes_of_cover _ _ _ _ _ (scover_B_1 V c t _ _ _)
          isplitl [HS2]
          · unfold owns; iexists _; isplitr
            swap; · iexact HS2
            ipureintro; exact View.read_writes_of_cover _ _ _ _ _ (scover_B_2 V c t _ _ _)
          unfold owns; iexists _; isplitr
          swap; · iexact HS3
          ipureintro; exact View.read_writes_of_cover _ _ _ _ _ (scover_B_3 V c t _ _ _)
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's form back: the accumulators' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht]
  iintro ⟨⟨HS0, HS1, HS2, HS3⟩, HR⟩
  iapply (PhiA_join c)
  isplitl [HS0 HS1 HS2 HS3]
  · isplitl [HS0]; · iexists _; iexact HS0
    isplitl [HS1]; · iexists _; iexact HS1
    isplitl [HS2]; · iexists _; iexact HS2
    iexists _; iexact HS3
  iexact HR

theorem hout (c : Dev nD) : (dat V c).Φ (Fin.last cfg0.N) ⊢ Pipeline.ΦA spec0 c :=
  Phi_out V c _ (by rw [Fin.val_last]; have : cfg0.N = 64 := N_0; omega)

/-- The same two, with the launch's form spelt out: the scoped buffers and the generator register. -/
theorem hin' (c : Dev nD) :
    (iprop(Pipeline.scopedRest (Ix := Unit) (Name := ℕ) (U := UR sig nD τ) (Lvl := ℕ) (Val := Elt F) spec0 c ∗ ∃ r, prngReg c r) : sProp 𝕄) ⊢ (dat V c).Φ 0 := by
  have h := hin V c; unfold Pipeline.ΦA at h; exact h
theorem hout' (c : Dev nD) :
    (dat V c).Φ (Fin.last cfg0.N) ⊢ (iprop(Pipeline.scopedRest (Ix := Unit) (Name := ℕ) (U := UR sig nD τ) (Lvl := ℕ) (Val := Elt F) spec0 c ∗ ∃ r, prngReg c r) : sProp 𝕄) := by
  have h := hout V c; unfold Pipeline.ΦA at h; exact h

end Cert.KernelIdeal.Rgn0

end
-- ==== Proof.KI.R1Runs.lean ====
import proofs.«119031_j6846177870362_2_alg».proof.Proof.Gen.KernelIdeal.Launch
import proofs.«119031_j6846177870362_2_alg».proof.Proof.Gen.KernelIdeal.Skeleton
import proofs.«119031_j6846177870362_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # One round's kernel region (pallas call 1): what its runs share

The region is entered with the core's buffers at contents `V`. The grid has 2 × 8 × 4 points, the last axis the
reduction over the four 1024-wide slabs of the contraction; a point is first / inner / last of its group of four
according to `t % 4`. -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or the
    block index has not moved since the point that did: the window is uncut and never idle. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetched it or the
    block index has not moved since the point that did: the window is uncut and never idle. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetched it or the
    block index has not moved since the point that did: the window is uncut and never idle. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetched it or the
    block index has not moved since the point that did: the window is uncut and never idle. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, decided over the grid -/

/-- "This is the first slab of the contraction" (the accumulators are zeroed), from the grid coordinates. -/
abbrev cond_0 (i : grid1.Coords) : Prop := (Scalar.cmpi .ne (Scalar.extui (Scalar.cmpi .eq (BitVec.ofNat 32 (i 2).val) 0#32)) 0#32) = 1#1
theorem hcond_0 : ∀ t : Fin cfg1.N, cond_0 (grid1.coords t) ↔ t.val % 4 = 0 :=
  (by decide +kernel : ∀ t : Fin grid1.N, cond_0 (grid1.coords t) ↔ t.val % 4 = 0)

/-- "This is the last slab of the contraction" (the gates are applied and the new state stored). -/
abbrev cond_1 (i : grid1.Coords) : Prop := k1_cond2 i = 1#1
theorem hcond_1 : ∀ t : Fin cfg1.N, cond_1 (grid1.coords t) ↔ t.val % 4 = 3 :=
  (by decide +kernel : ∀ t : Fin grid1.N, cond_1 (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
/-- At a first slab the output window is idle and not written back. -/
theorem idleAt_4_A : ∀ t : Fin cfg1.N, cond_0 (grid1.coords t) → ¬cond_1 (grid1.coords t) → cfg1.idle 4 (grid1.coords t) = true := by decide +kernel
theorem noFlush_4_A : ∀ t : Fin cfg1.N, cond_0 (grid1.coords t) → ¬cond_1 (grid1.coords t) → (cfg1.win 4).flush t = false := by decide +kernel
/-- At an inner slab too. -/
theorem idleAt_4_B : ∀ t : Fin cfg1.N, ¬cond_0 (grid1.coords t) → ¬cond_1 (grid1.coords t) → cfg1.idle 4 (grid1.coords t) = true := by decide +kernel
theorem noFlush_4_B : ∀ t : Fin cfg1.N, ¬cond_0 (grid1.coords t) → ¬cond_1 (grid1.coords t) → (cfg1.win 4).flush t = false := by decide +kernel
/-- At a last slab it is live: the body stores the new state into it. -/
theorem liveAt_4_C : ∀ t : Fin cfg1.N, ¬cond_0 (grid1.coords t) → cond_1 (grid1.coords t) → cfg1.idle 4 (grid1.coords t) = false := by decide +kernel

/-! ## The memrefs the body is called with -/

/-- One staging buffer of the output window, through which its contents are stated. -/
abbrev VO_4 : View sig .tc .vmem S2048x512 .f32 := (Memref.whole cc1_stg4_0 : Memref sig .tc .vmem S2048x512 .f32).view
abbrev ms_0 (t : Fin cfg1.N) : Memref sig .tc .vmem S2048x1024 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x512 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S4x512x1024 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S4x512 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S2048x512 .f32 := win1_4.stage (cfg1.slots t 4)
abbrev hs_4 (t : Fin cfg1.N) : (ms_4 t).IsWhole := hstage1_4 ((cfg1.slots t 4).cast nbuf1_4)
/-- The four gate accumulators: whole scoped buffers of the kernel's own, carried from point to point. -/
abbrev scM_0 : Memref sig .tc .vmem S2048x512 .f32 := Memref.whole cc1_scratch0
abbrev VS_0 : View sig .tc .vmem S2048x512 .f32 := scM_0.view
abbrev scM_1 : Memref sig .tc .vmem S2048x512 .f32 := Memref.whole cc1_scratch1
abbrev VS_1 : View sig .tc .vmem S2048x512 .f32 := scM_1.view
abbrev scM_2 : Memref sig .tc .vmem S2048x512 .f32 := Memref.whole cc1_scratch2
abbrev VS_2 : View sig .tc .vmem S2048x512 .f32 := scM_2.view
abbrev scM_3 : Memref sig .tc .vmem S2048x512 .f32 := Memref.whole cc1_scratch3
abbrev VS_3 : View sig .tc .vmem S2048x512 .f32 := scM_3.view

/-- The scoped buffers of the core that this kernel neither stages through nor accumulates in, each at some contents. -/
def rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

/-- The region's invariant as the launch hands it over: the accumulators and the other scoped buffers at some
    contents, the generator register at some state. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d)) ∗ (∃ r, prngReg c r)) := by
  unfold Pipeline.ΦA; rw [scopedRest1_eq]; simp only [scM_0, scM_1, scM_2, scM_3, owns_whole]; try rfl

/-- Everything of the invariant but the accumulators. -/
def restAll (c : Dev nD) : sProp 𝕄 := iprop(rest c ∗ (∃ r, prngReg c r))

/-- The launch's invariant with the four accumulators set apart, -/
theorem PhiA_split (c : Dev nD) :
    (Pipeline.ΦA spec1 c : sProp 𝕄) ⊢ iprop(((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d)) ∗ restAll c) := by
  rw [PhiA_eq]; unfold restAll rest
  iintro ⟨⟨HB0, HB1, HB2, HB3, HB4, HB5, HB6, HB7, HB8, HB9, HB10, HB11, HB12, HB13, H0, H1, H2, H3⟩, Hg⟩
  isplitl [H0 H1 H2 H3]
  · isplitl [H0]; · iexact H0
    isplitl [H1]; · iexact H1
    isplitl [H2]; · iexact H2
    iexact H3
  isplitl [HB0 HB1 HB2 HB3 HB4 HB5 HB6 HB7 HB8 HB9 HB10 HB11 HB12 HB13]
  · isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [HB12]; · iexact HB12
    iexact HB13
  iexact Hg

/-- and put back. -/
theorem PhiA_join (c : Dev nD) :
    (iprop(((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d)) ∗ restAll c) : sProp 𝕄) ⊢ Pipeline.ΦA spec1 c := by
  rw [PhiA_eq]; unfold restAll rest
  iintro ⟨⟨H0, H1, H2, H3⟩, ⟨HB0, HB1, HB2, HB3, HB4, HB5, HB6, HB7, HB8, HB9, HB10, HB11, HB12, HB13⟩, Hg⟩
  isplitl [H0 H1 H2 H3 HB0 HB1 HB2 HB3 HB4 HB5 HB6 HB7 HB8 HB9 HB10 HB11 HB12 HB13]
  · isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [HB12]; · iexact HB12
    isplitl [HB13]; · iexact HB13
    isplitl [H0]; · iexact H0
    isplitl [H1]; · iexact H1
    isplitl [H2]; · iexact H2
    iexact H3
  iexact Hg

end Cert.KernelIdeal.Rgn1

end
-- ==== Proof.KI.R1RunA.lean ====
import proofs.«119031_j6846177870362_2_alg».proof.Proof.KI.R1Runs

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large
set_option maxHeartbeats 4000000 in
/-- The body at a first slab (the accumulators are zeroed, then added to; nothing is stored into the output): the pieces its stores leave in the output's and the accumulators' memrefs (last first), with the
    proof that on whole memrefs — the four inputs at their contents, the output at contents handed back untouched, the accumulators at anything —
    the body runs to the continuation holding the inputs as they were and each buffer it stored into with those pieces written. -/
noncomputable def kernelRun_A (c : Dev nD) (i : grid1.Coords) (arg3 : Memref sig .tc .vmem S2048x1024 .bf16) (harg3 : arg3.IsWhole) (arg4 : Memref sig .tc .vmem S2048x512 .f32) (harg4 : arg4.IsWhole) (arg5 : Memref sig .tc .vmem S4x512x1024 .bf16) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (hc0 : cond_0 i) (hc1 : ¬cond_1 i)
    (x0 : Vec F S2048x1024 .bf16) (x1 : Vec F S2048x512 .f32) (x2 : Vec F S4x512x1024 .bf16) (x3 : Vec F S4x512 .f32) :
    Σ' (L4 : List (View.Piece (Elt F) S2048x512 .f32)) (LS0 : List (View.Piece (Elt F) S2048x512 .f32)) (LS1 : List (View.Piece (Elt F) S2048x512 .f32)) (LS2 : List (View.Piece (Elt F) S2048x512 .f32)), { LS3 : List (View.Piece (Elt F) S2048x512 .f32) //
      ∀ (xi4 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__gru_round_kernel i arg3 harg3 arg4 harg4 arg5 harg5 arg6 harg6 arg7 harg7 arg8 harg8 arg9 harg9 arg10 harg10 arg11 harg11) K } := by
  refine ⟨[], ?_, ?_, ?_, ?_, fun xi4 E K => ?run⟩
  case run =>
    simp only [cc1__gru_round_kernel_eq_skeleton]; unfold cc1__gru_round_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.KernelIdeal.Rgn1

end
-- ==== Proof.KI.R1RunB.lean ====
import proofs.«119031_j6846177870362_2_alg».proof.Proof.KI.R1RunA

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large
set_option maxHeartbeats 4000000 in
/-- The body at an inner slab (the accumulators are added to; nothing is stored into the output): the pieces its stores leave in the output's and the accumulators' memrefs (last first), with the
    proof that on whole memrefs — the four inputs at their contents, the output at contents handed back untouched, the accumulators at what the point before left —
    the body runs to the continuation holding the inputs as they were and each buffer it stored into with those pieces written. -/
noncomputable def kernelRun_B (c : Dev nD) (i : grid1.Coords) (arg3 : Memref sig .tc .vmem S2048x1024 .bf16) (harg3 : arg3.IsWhole) (arg4 : Memref sig .tc .vmem S2048x512 .f32) (harg4 : arg4.IsWhole) (arg5 : Memref sig .tc .vmem S4x512x1024 .bf16) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (hc0 : ¬cond_0 i) (hc1 : ¬cond_1 i)
    (x0 : Vec F S2048x1024 .bf16) (x1 : Vec F S2048x512 .f32) (x2 : Vec F S4x512x1024 .bf16) (x3 : Vec F S4x512 .f32) (xs0 : Vec F S2048x512 .f32) (xs1 : Vec F S2048x512 .f32) (xs2 : Vec F S2048x512 .f32) (xs3 : Vec F S2048x512 .f32) :
    Σ' (L4 : List (View.Piece (Elt F) S2048x512 .f32)) (LS0 : List (View.Piece (Elt F) S2048x512 .f32)) (LS1 : List (View.Piece (Elt F) S2048x512 .f32)) (LS2 : List (View.Piece (Elt F) S2048x512 .f32)), { LS3 : List (View.Piece (Elt F) S2048x512 .f32) //
      ∀ (xi4 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__gru_round_kernel i arg3 harg3 arg4 harg4 arg5 harg5 arg6 harg6 arg7 harg7 arg8 harg8 arg9 harg9 arg10 harg10 arg11 harg11) K } := by
  refine ⟨[], ?_, ?_, ?_, ?_, fun xi4 E K => ?run⟩
  case run =>
    simp only [cc1__gru_round_kernel_eq_skeleton]; unfold cc1__gru_round_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.KernelIdeal.Rgn1

end
-- ==== Proof.KI.R1RunC.lean ====
import proofs.«119031_j6846177870362_2_alg».proof.Proof.KI.R1RunB

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large
set_option maxHeartbeats 4000000 in
/-- The body at a last slab (the accumulators are added to, the gates applied, and the new state stored into the output): the pieces its stores leave in the output's and the accumulators' memrefs (last first), with the
    proof that on whole memrefs — the four inputs at their contents, the output at anything, the accumulators at what the point before left —
    the body runs to the continuation holding the inputs as they were and each buffer it stored into with those pieces written. -/
noncomputable def kernelRun_C (c : Dev nD) (i : grid1.Coords) (arg3 : Memref sig .tc .vmem S2048x1024 .bf16) (harg3 : arg3.IsWhole) (arg4 : Memref sig .tc .vmem S2048x512 .f32) (harg4 : arg4.IsWhole) (arg5 : Memref sig .tc .vmem S4x512x1024 .bf16) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (hc0 : ¬cond_0 i) (hc1 : cond_1 i)
    (x0 : Vec F S2048x1024 .bf16) (x1 : Vec F S2048x512 .f32) (x2 : Vec F S4x512x1024 .bf16) (x3 : Vec F S4x512 .f32) (xs0 : Vec F S2048x512 .f32) (xs1 : Vec F S2048x512 .f32) (xs2 : Vec F S2048x512 .f32) (xs3 : Vec F S2048x512 .f32) :
    Σ' (L4 : List (View.Piece (Elt F) S2048x512 .f32)) (LS0 : List (View.Piece (Elt F) S2048x512 .f32)) (LS1 : List (View.Piece (Elt F) S2048x512 .f32)) (LS2 : List (View.Piece (Elt F) S2048x512 .f32)), { LS3 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__gru_round_kernel i arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__gru_round_kernel_eq_skeleton]; unfold cc1__gru_round_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Rgn1

end
-- ==== Proof.KI.R1Frame.lean ====
import proofs.«119031_j6846177870362_2_alg».proof.Proof.KI.R1RunC

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # One round's kernel region (pallas call 1): what the buffers hold point by point, the proof data, the body obligation -/

/-- What a point leaves: the output's staging buffer, then the four gate accumulators. -/
abbrev St (F : FTy → Type) [FloatOps F] : Type := Vec F S2048x512 .f32 × Vec F S2048x512 .f32 × Vec F S2048x512 .f32 × Vec F S2048x512 .f32 × Vec F S2048x512 .f32

/-- The three runs at a grid point, on the memrefs and input blocks the pipeline passes there. -/
abbrev runA (c : Dev nD) (t : Fin cfg1.N) (h0 : cond_0 (grid1.coords t)) (h1 : ¬cond_1 (grid1.coords t)) :=
  kernelRun_A (F := F) c (grid1.coords t) (ms_0 t) (hs_0 t) (ms_1 t) (hs_1 t) (ms_2 t) (hs_2 t) (ms_3 t) (hs_3 t) (ms_4 t) (hs_4 t) scM_0 (Memref.isWhole_whole _) scM_1 (Memref.isWhole_whole _) scM_2 (Memref.isWhole_whole _) scM_3 (Memref.isWhole_whole _) h0 h1 (iblk V c 0 t) (iblk V c 1 t) (iblk V c 2 t) (iblk V c 3 t)
abbrev runB (c : Dev nD) (t : Fin cfg1.N) (h0 : ¬cond_0 (grid1.coords t)) (h1 : ¬cond_1 (grid1.coords t)) (xs : St F) :=
  kernelRun_B (F := F) c (grid1.coords t) (ms_0 t) (hs_0 t) (ms_1 t) (hs_1 t) (ms_2 t) (hs_2 t) (ms_3 t) (hs_3 t) (ms_4 t) (hs_4 t) scM_0 (Memref.isWhole_whole _) scM_1 (Memref.isWhole_whole _) scM_2 (Memref.isWhole_whole _) scM_3 (Memref.isWhole_whole _) h0 h1 (iblk V c 0 t) (iblk V c 1 t) (iblk V c 2 t) (iblk V c 3 t) xs.2.1 xs.2.2.1 xs.2.2.2.1 xs.2.2.2.2
abbrev runC (c : Dev nD) (t : Fin cfg1.N) (h0 : ¬cond_0 (grid1.coords t)) (h1 : cond_1 (grid1.coords t)) (xs : St F) :=
  kernelRun_C (F := F) c (grid1.coords t) (ms_0 t) (hs_0 t) (ms_1 t) (hs_1 t) (ms_2 t) (hs_2 t) (ms_3 t) (hs_3 t) (ms_4 t) (hs_4 t) scM_0 (Memref.isWhole_whole _) scM_1 (Memref.isWhole_whole _) scM_2 (Memref.isWhole_whole _) scM_3 (Memref.isWhole_whole _) h0 h1 (iblk V c 0 t) (iblk V c 1 t) (iblk V c 2 t) (iblk V c 3 t) xs.2.1 xs.2.2.1 xs.2.2.2.1 xs.2.2.2.2

/-! ## Every run's stores cover the buffers they go to -/

theorem scover_A_0 (c : Dev nD) (t : Fin cfg1.N) (h0 : cond_0 (grid1.coords t)) (h1 : ¬cond_1 (grid1.coords t)) (y : S2048x512.Idx) :
    ∃ pc ∈ (runA V c t h0 h1).2.1, y ∈ pc.1.set :=
  View.cover_of_tiledL (runA V c t h0 h1).2.1 S2048x512.size (by sl_kernel_rfl) y
theorem scover_A_1 (c : Dev nD) (t : Fin cfg1.N) (h0 : cond_0 (grid1.coords t)) (h1 : ¬cond_1 (grid1.coords t)) (y : S2048x512.Idx) :
    ∃ pc ∈ (runA V c t h0 h1).2.2.1, y ∈ pc.1.set :=
  View.cover_of_tiledL (runA V c t h0 h1).2.2.1 S2048x512.size (by sl_kernel_rfl) y
theorem scover_A_2 (c : Dev nD) (t : Fin cfg1.N) (h0 : cond_0 (grid1.coords t)) (h1 : ¬cond_1 (grid1.coords t)) (y : S2048x512.Idx) :
    ∃ pc ∈ (runA V c t h0 h1).2.2.2.1, y ∈ pc.1.set :=
  View.cover_of_tiledL (runA V c t h0 h1).2.2.2.1 S2048x512.size (by sl_kernel_rfl) y
theorem scover_A_3 (c : Dev nD) (t : Fin cfg1.N) (h0 : cond_0 (grid1.coords t)) (h1 : ¬cond_1 (grid1.coords t)) (y : S2048x512.Idx) :
    ∃ pc ∈ (runA V c t h0 h1).2.2.2.2.1, y ∈ pc.1.set :=
  View.cover_of_tiledL (runA V c t h0 h1).2.2.2.2.1 S2048x512.size (by sl_kernel_rfl) y

theorem scover_B_0 (c : Dev nD) (t : Fin cfg1.N) (h0 : ¬cond_0 (grid1.coords t)) (h1 : ¬cond_1 (grid1.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.1, y ∈ pc.1.set :=
  View.cover_of_tiledL (runB V c t h0 h1 xs).2.1 S2048x512.size (by sl_kernel_rfl) y
theorem scover_B_1 (c : Dev nD) (t : Fin cfg1.N) (h0 : ¬cond_0 (grid1.coords t)) (h1 : ¬cond_1 (grid1.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.2.1, y ∈ pc.1.set :=
  View.cover_of_tiledL (runB V c t h0 h1 xs).2.2.1 S2048x512.size (by sl_kernel_rfl) y
theorem scover_B_2 (c : Dev nD) (t : Fin cfg1.N) (h0 : ¬cond_0 (grid1.coords t)) (h1 : ¬cond_1 (grid1.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.2.2.1, y ∈ pc.1.set :=
  View.cover_of_tiledL (runB V c t h0 h1 xs).2.2.2.1 S2048x512.size (by sl_kernel_rfl) y
theorem scover_B_3 (c : Dev nD) (t : Fin cfg1.N) (h0 : ¬cond_0 (grid1.coords t)) (h1 : ¬cond_1 (grid1.coords t)) (xs : Vec F S2048x512 .f32 × Vec F S2048x512 .f32 × Vec F S2048x512 .f32 × Vec F S2048x512 .f32 × Vec F S2048x512 .f32) (y : S2048x512.Idx) :
    ∃ pc ∈ (runB V c t h0 h1 xs).2.2.2.2.1, y ∈ pc.1.set :=
  View.cover_of_tiledL (runB V c t h0 h1 xs).2.2.2.2.1 S2048x512.size (by sl_kernel_rfl) y

theorem scover_C_0 (c : Dev nD) (t : Fin cfg1.N) (h0 : ¬cond_0 (grid1.coords t)) (h1 : cond_1 (grid1.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.1, y ∈ pc.1.set :=
  View.cover_of_tiledL (runC V c t h0 h1 xs).2.1 S2048x512.size (by sl_kernel_rfl) y
theorem scover_C_1 (c : Dev nD) (t : Fin cfg1.N) (h0 : ¬cond_0 (grid1.coords t)) (h1 : cond_1 (grid1.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.2.1, y ∈ pc.1.set :=
  View.cover_of_tiledL (runC V c t h0 h1 xs).2.2.1 S2048x512.size (by sl_kernel_rfl) y
theorem scover_C_2 (c : Dev nD) (t : Fin cfg1.N) (h0 : ¬cond_0 (grid1.coords t)) (h1 : cond_1 (grid1.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.2.2.1, y ∈ pc.1.set :=
  View.cover_of_tiledL (runC V c t h0 h1 xs).2.2.2.1 S2048x512.size (by sl_kernel_rfl) y
theorem scover_C_3 (c : Dev nD) (t : Fin cfg1.N) (h0 : ¬cond_0 (grid1.coords t)) (h1 : cond_1 (grid1.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).2.2.2.2.1, y ∈ pc.1.set :=
  View.cover_of_tiledL (runC V c t h0 h1 xs).2.2.2.2.1 S2048x512.size (by sl_kernel_rfl) y

theorem cover_C_4 (c : Dev nD) (t : Fin cfg1.N) (h0 : ¬cond_0 (grid1.coords t)) (h1 : cond_1 (grid1.coords t)) (xs : Vec F S2048x512 .f32 × Vec F S2048x512 .f32 × Vec F S2048x512 .f32 × Vec F S2048x512 .f32 × Vec F S2048x512 .f32) (y : S2048x512.Idx) :
    ∃ pc ∈ (runC V c t h0 h1 xs).1, y ∈ pc.1.set :=
  View.cover_of_tiledL (runC V c t h0 h1 xs).1 S2048x512.size (by sl_kernel_rfl) y

/-! ## What each kind of point leaves -/

/-- A first slab: the accumulators at their pieces read back; the output untouched (a placeholder nothing consults:
    the window is idle there and not written back). -/
def stA (c : Dev nD) (t : Fin cfg1.N) (h0 : cond_0 (grid1.coords t)) (h1 : ¬cond_1 (grid1.coords t)) : St F :=
  (VO_4.read (Elt F) VO_4.junk, VS_0.read (Elt F) (VS_0.writes (Elt F) VS_0.junk (runA V c t h0 h1).2.1), VS_1.read (Elt F) (VS_1.writes (Elt F) VS_1.junk (runA V c t h0 h1).2.2.1), VS_2.read (Elt F) (VS_2.writes (Elt F) VS_2.junk (runA V c t h0 h1).2.2.2.1), VS_3.read (Elt F) (VS_3.writes (Elt F) VS_3.junk (runA V c t h0 h1).2.2.2.2.1))
/-- An inner slab, over what the point before left. -/
def stB (c : Dev nD) (t : Fin cfg1.N) (h0 : ¬cond_0 (grid1.coords t)) (h1 : ¬cond_1 (grid1.coords t)) (xs : St F) : St F :=
  (VO_4.read (Elt F) VO_4.junk, VS_0.read (Elt F) (VS_0.writes (Elt F) VS_0.junk (runB V c t h0 h1 xs).2.1), VS_1.read (Elt F) (VS_1.writes (Elt F) VS_1.junk (runB V c t h0 h1 xs).2.2.1), VS_2.read (Elt F) (VS_2.writes (Elt F) VS_2.junk (runB V c t h0 h1 xs).2.2.2.1), VS_3.read (Elt F) (VS_3.writes (Elt F) VS_3.junk (runB V c t h0 h1 xs).2.2.2.2.1))
/-- A last slab, over what the point before left: the output at its pieces read back. -/
def stC (c : Dev nD) (t : Fin cfg1.N) (h0 : ¬cond_0 (grid1.coords t)) (h1 : cond_1 (grid1.coords t)) (xs : St F) : St F :=
  (VO_4.read (Elt F) (VO_4.writes (Elt F) VO_4.junk (runC V c t h0 h1 xs).1), VS_0.read (Elt F) (VS_0.writes (Elt F) VS_0.junk (runC V c t h0 h1 xs).2.1), VS_1.read (Elt F) (VS_1.writes (Elt F) VS_1.junk (runC V c t h0 h1 xs).2.2.1), VS_2.read (Elt F) (VS_2.writes (Elt F) VS_2.junk (runC V c t h0 h1 xs).2.2.2.1), VS_3.read (Elt F) (VS_3.writes (Elt F) VS_3.junk (runC V c t h0 h1 xs).2.2.2.2.1))

/-- THE ACCUMULATION: what the output's staging buffer and the four accumulators hold after the body at position `n`,
    by recursion on the position — the kind of point is read off `n % 4`. -/
def outsAt (c : Dev nD) : (n : ℕ) → n < cfg1.N → St F
  | 0, hn => stA V c ⟨0, hn⟩ ((hcond_0 ⟨0, hn⟩).mpr (Nat.zero_mod _)) (fun h => (fun h => by (try dsimp only at h); omega) ((hcond_1 ⟨0, hn⟩).mp h))
  | n + 1, hn =>
    if h0 : (n + 1) % 4 = 0 then
      if h1 : (n + 1) % 4 = 3 then
        False.elim (by omega)
      else
        stA V c ⟨n + 1, hn⟩ ((hcond_0 ⟨n + 1, hn⟩).mpr h0) (fun h => h1 ((hcond_1 ⟨n + 1, hn⟩).mp h))
    else
      if h1 : (n + 1) % 4 = 3 then
        stC V c ⟨n + 1, hn⟩ (fun h => h0 ((hcond_0 ⟨n + 1, hn⟩).mp h)) ((hcond_1 ⟨n + 1, hn⟩).mpr h1) (outsAt c n (Nat.lt_of_succ_lt hn))
      else
        stB V c ⟨n + 1, hn⟩ (fun h => h0 ((hcond_0 ⟨n + 1, hn⟩).mp h)) (fun h => h1 ((hcond_1 ⟨n + 1, hn⟩).mp h)) (outsAt c n (Nat.lt_of_succ_lt hn))

theorem outsAt_A (c : Dev nD) (t : Fin cfg1.N) (h0 : t.val % 4 = 0) (h1 : ¬t.val % 4 = 3) :
    outsAt V c t.val t.isLt = stA V c t ((hcond_0 t).mpr h0) (fun h => h1 ((hcond_1 t).mp h)) := by
  obtain ⟨n, hn⟩ := t
  cases n with
  | zero => exact rfl
  | succ n => exact (dif_pos h0).trans ((dif_neg h1).trans rfl)

theorem outsAt_B (c : Dev nD) (t : Fin cfg1.N) (h0 : ¬t.val % 4 = 0) (h1 : ¬t.val % 4 = 3) :
    outsAt V c t.val t.isLt = stB V c t (fun h => h0 ((hcond_0 t).mp h)) (fun h => h1 ((hcond_1 t).mp h))
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 4 = 0) (h1 : t.val % 4 = 3) :
    outsAt V c t.val t.isLt = stC V c t (fun h => h0 ((hcond_0 t).mp h)) ((hcond_1 t).mpr h1)
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before position `n`: at the first point what the launch hands over (the accumulators at anything); afterwards the
    accumulators at what the point before left in them, the other scoped buffers and the generator register at some state. -/
def PhiS (c : Dev nD) : (n : ℕ) → n ≤ cfg1.N → sProp 𝕄
  | 0, _ => Pipeline.ΦA spec1 c
  | n + 1, hn => iprop((owns (c : Thread nD τ) scM_0 fullShare ((outsAt V c n hn).2.1) ∗ owns (c : Thread nD τ) scM_1 fullShare ((outsAt V c n hn).2.2.1)
      ∗ owns (c : Thread nD τ) scM_2 fullShare ((outsAt V c n hn).2.2.2.1) ∗ owns (c : Thread nD τ) scM_3 fullShare ((outsAt V c n hn).2.2.2.2)) ∗ restAll c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) scM_0 fullShare ((outsAt V c n hn).2.1) ∗ owns (c : Thread nD τ) scM_1 fullShare ((outsAt V c n hn).2.2.1)
      ∗ owns (c : Thread nD τ) scM_2 fullShare ((outsAt V c n hn).2.2.2.1) ∗ owns (c : Thread nD τ) scM_3 fullShare ((outsAt V c n hn).2.2.2.2)) ∗ restAll c) := rfl

theorem PhiS_pos (c : Dev nD) (n : ℕ) (h : n ≤ cfg1.N) (hz : n ≠ 0) :
    PhiS V c n h = iprop((owns (c : Thread nD τ) scM_0 fullShare ((outsAt V c (n - 1) (by omega)).2.1) ∗ owns (c : Thread nD τ) scM_1 fullShare ((outsAt V c (n - 1) (by omega)).2.2.1)
      ∗ owns (c : Thread nD τ) scM_2 fullShare ((outsAt V c (n - 1) (by omega)).2.2.2.1) ∗ owns (c : Thread nD τ) scM_3 fullShare ((outsAt V c (n - 1) (by omega)).2.2.2.2)) ∗ restAll c) := by
  cases n with
  | zero => exact absurd rfl hz
  | succ n => rfl

/-! ## The proof data -/

/-- The region's proof data on core `c`: the arrays as the region finds them; after the body at point `t` each input's
    buffer at its block and the output's at `outsAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the inputs' memrefs hold their blocks; `t % 4` says which kind of point it is; the invariant
    hands the body the accumulators at what the point before left (at anything at the very first point) and takes them
    back at this point's contents, every store set covering its buffer; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 4 = 0
  · by_cases h1 : t.val % 4 = 3
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [Dat.leavesExact_idle (dat V c) 4 t (idleAt_4_A t ((hcond_0 t).mpr h0) (fun h => h1 ((hcond_1 t).mp h))) (noFlush_4_A t ((hcond_0 t).mpr h0) (fun h => h1 ((hcond_1 t).mp h)))]
      rw [outsAt_A V c t h0 h1]
      unfold stA; (try dsimp only)
      by_cases hz : t.val = 0
      · rw [PhiS_castSucc V c t, PhiS_zero V c _ _ hz]
        iintro ⟨HF, Ho, ⟨%d0, H0⟩, ⟨%d1, H1⟩, ⟨%d2, H2⟩, ⟨%d3, H3⟩, ⟨%d4, H4⟩⟩
        ihave HF' := (PhiA_split c) $$ HF
        icases HF' with ⟨⟨HS0, HS1, HS2, HS3⟩, HR⟩
        iapply ((runA V c t ((hcond_0 t).mpr h0) (fun h => h1 ((hcond_1 t).mp h))).2.2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 HR]
        · isplitl [HS0 HS1 HS2 HS3]
          · isplitl [HS0]
            · unfold owns; iexists _; isplitr
              swap; · iexact HS0
              ipureintro; exact View.read_writes_of_cover _ _ _ _ _ (scover_A_0 V c t _ _)
            isplitl [HS1]
            · unfold owns; iexists _; isplitr
              swap; · iexact HS1
              ipureintro; exact View.read_writes_of_cover _ _ _ _ _ (scover_A_1 V c t _ _)
            isplitl [HS2]
            · unfold owns; iexists _; isplitr
              swap; · iexact HS2
              ipureintro; exact View.read_writes_of_cover _ _ _ _ _ (scover_A_2 V c t _ _)
            unfold owns; iexists _; isplitr
            swap; · iexact HS3
            ipureintro; exact View.read_writes_of_cover _ _ _ _ _ (scover_A_3 V c t _ _)
          iexact HR
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HS1, HS2, HS3⟩, HR⟩, Ho, ⟨%d0, H0⟩, ⟨%d1, H1⟩, ⟨%d2, H2⟩, ⟨%d3, H3⟩, ⟨%d4, H4⟩⟩
        iapply ((runA V c t ((hcond_0 t).mpr h0) (fun h => h1 ((hcond_1 t).mp h))).2.2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [HS0 HS1 HS2 HS3 HR]
        · isplitl [HS0 HS1 HS2 HS3]
          · isplitl [HS0]
            · unfold owns; iexists _; isplitr
              swap; · iexact HS0
              ipureintro; exact View.read_writes_of_cover _ _ _ _ _ (scover_A_0 V c t _ _)
            isplitl [HS1]
            · unfold owns; iexists _; isplitr
              swap; · iexact HS1
              ipureintro; exact View.read_writes_of_cover _ _ _ _ _ (scover_A_1 V c t _ _)
            isplitl [HS2]
            · unfold owns; iexists _; isplitr
              swap; · iexact HS2
              ipureintro; exact View.read_writes_of_cover _ _ _ _ _ (scover_A_2 V c t _ _)
            unfold owns; iexists _; isplitr
            swap; · iexact HS3
            ipureintro; exact View.read_writes_of_cover _ _ _ _ _ (scover_A_3 V c t _ _)
          iexact HR
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4_C t (fun h => h0 ((hcond_0 t).mp h)) ((hcond_1 t).mpr h1)], after_4]
      rw [outsAt_C V c t h0 h1]
      unfold stC; (try dsimp only)
      have hz : t.val ≠ 0 := by omega
      rw [PhiS_castSucc V c t, PhiS_pos V c _ _ hz]
      iintro ⟨⟨⟨HS0, HS1, HS2, HS3⟩, HR⟩, Ho, ⟨%d0, H0⟩, ⟨%d1, H1⟩, ⟨%d2, H2⟩, ⟨%d3, H3⟩, ⟨%d4, H4⟩⟩
      iapply ((runC V c t (fun h => h0 ((hcond_0 t).mp h)) ((hcond_1 t).mpr h1) _).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, ⟨%es3, HS3⟩⟩
      isplitl [HS0 HS1 HS2 HS3 HR]
      · isplitl [HS0 HS1 HS2 HS3]
        · isplitl [HS0]
          · unfold owns; iexists _; isplitr
            swap; · iexact HS0
            ipureintro; exact View.read_writes_of_cover _ _ _ _ _ (scover_C_0 V c t _ _ _)
          isplitl [HS1]
          · unfold owns; iexists _; isplitr
            swap; · iexact HS1
            ipureintro; exact View.read_writes_of_cover _ _ _ _ _ (scover_C_1 V c t _ _ _)
          isplitl [HS2]
          · unfold owns; iexists _; isplitr
            swap; · iexact HS2
            ipureintro; exact View.read_writes_of_cover _ _ _ _ _ (scover_C_2 V c t _ _ _)
          unfold owns; iexists _; isplitr
          swap; · iexact HS3
          ipureintro; exact View.read_writes_of_cover _ _ _ _ _ (scover_C_3 V c t _ _ _)
        iexact HR
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_C_4 V c t _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [Dat.leavesExact_idle (dat V c) 4 t (idleAt_4_B t (fun h => h0 ((hcond_0 t).mp h)) (fun h => h1 ((hcond_1 t).mp h))) (noFlush_4_B t (fun h => h0 ((hcond_0 t).mp h)) (fun h => h1 ((hcond_1 t).mp h)))]
      rw [outsAt_B V c t h0 h1]
      unfold stB; (try dsimp only)
      have hz : t.val ≠ 0 := by omega
      rw [PhiS_castSucc V c t, PhiS_pos V c _ _ hz]
      iintro ⟨⟨⟨HS0, HS1, HS2, HS3⟩, HR⟩, Ho, ⟨%d0, H0⟩, ⟨%d1, H1⟩, ⟨%d2, H2⟩, ⟨%d3, H3⟩, ⟨%d4, H4⟩⟩
      iapply ((runB V c t (fun h => h0 ((hcond_0 t).mp h)) (fun h => h1 ((hcond_1 t).mp h)) _).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 HR]
      · isplitl [HS0 HS1 HS2 HS3]
        · isplitl [HS0]
          · unfold owns; iexists _; isplitr
            swap; · iexact HS0
            ipureintro; exact View.read_writes_of_cover _ _ _ _ _ (scover_B_0 V c t _ _ _)
          isplitl [HS1]
          · unfold owns; iexists _; isplitr
            swap; · iexact HS1
            ipureintro; exact View.read_writes_of_cover _ _ _ _ _ (scover_B_1 V c t _ _ _)
          isplitl [HS2]
          · unfold owns; iexists _; isplitr
            swap; · iexact HS2
            ipureintro; exact View.read_writes_of_cover _ _ _ _ _ (scover_B_2 V c t _ _ _)
          unfold owns; iexists _; isplitr
          swap; · iexact HS3
          ipureintro; exact View.read_writes_of_cover _ _ _ _ _ (scover_B_3 V c t _ _ _)
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's form back: the accumulators' named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht]
  iintro ⟨⟨HS0, HS1, HS2, HS3⟩, HR⟩
  iapply (PhiA_join c)
  isplitl [HS0 HS1 HS2 HS3]
  · isplitl [HS0]; · iexists _; iexact HS0
    isplitl [HS1]; · iexists _; iexact HS1
    isplitl [HS2]; · iexists _; iexact HS2
    iexists _; iexact HS3
  iexact HR

theorem hout (c : Dev nD) : (dat V c).Φ (Fin.last cfg1.N) ⊢ Pipeline.ΦA spec1 c :=
  Phi_out V c _ (by rw [Fin.val_last]; have : cfg1.N = 64 := N_1; omega)

/-- The same two, with the launch's form spelt out: the scoped buffers and the generator register. -/
theorem hin' (c : Dev nD) :
    (iprop(Pipeline.scopedRest (Ix := Unit) (Name := ℕ) (U := UR sig nD τ) (Lvl := ℕ) (Val := Elt F) spec1 c ∗ ∃ r, prngReg c r) : sProp 𝕄) ⊢ (dat V c).Φ 0 := by
  have h := hin V c; unfold Pipeline.ΦA at h; exact h
theorem hout' (c : Dev nD) :
    (dat V c).Φ (Fin.last cfg1.N) ⊢ (iprop(Pipeline.scopedRest (Ix := Unit) (Name := ℕ) (U := UR sig nD τ) (Lvl := ℕ) (Val := Elt F) spec1 c ∗ ∃ r, prngReg c r) : sProp 𝕄) := by
  have h := hout V c; unfold Pipeline.ΦA at h; exact h

end Cert.KernelIdeal.Rgn1

end
-- ==== Proof.KI.MainRun.lean ====
import proofs.«119031_j6846177870362_2_alg».proof.Proof.KI.R0Frame
import proofs.«119031_j6846177870362_2_alg».proof.Proof.KI.R1Frame
import proofs.«119031_j6846177870362_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program: host operations, round 1's region, a host operation, round 2's region, host operations

The buffers' contents at each boundary are a fold from the launch memory: a host stretch's operations applied in order,
a region's arrays at what its write-backs leave. -/

abbrev W0 : Dev nD → Valuation τ sig (Elt F) := fun c b => (s₀ m ρ).mem ((c : Dev nD), b)
/-- After the host operations that build the fused weights and biases (round 1's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After round 1: its arrays at what the pipeline leaves, every other buffer as entered. -/
def W2 (c : Dev nD) : Valuation τ sig (Elt F) :=
  Pipeline.withArrays spec0 c (W1 m ρ c) fun w => (Rgn0.dat (V1 m ρ) c).arrAt w cfg0.N
theorem W2_arr (c : Dev nD) (w : Fin cfg0.W) :
    W2 m ρ c (Proc.devRef .tc (Pipeline.arrRef spec0 w)) = (Rgn0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Rgn0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the change of format of the new state (round 2's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After round 2. -/
def W4 (c : Dev nD) : Valuation τ sig (Elt F) :=
  Pipeline.withArrays spec1 c (W3 m ρ c) fun w => (Rgn1.dat (V3 m ρ) c).arrAt w cfg1.N
theorem W4_arr (c : Dev nD) (w : Fin cfg1.W) :
    W4 m ρ c (Proc.devRef .tc (Pipeline.arrRef spec1 w)) = (Rgn1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Rgn1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the read-out's host operations: the end. -/
abbrev W5 : Dev nD → Valuation τ sig (Elt F) := fun c => StableHlo.after hostOps2 (W4 m ρ c)

/-! ### The arguments end as launched: no host operation writes one and no region has one among its arrays -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => Rgn0.dat (V1 m ρ) c
  | ⟨1, _⟩ => fun c => Rgn1.dat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Round 1's kernel region over the thread state: entered from every unscoped buffer at `W1`, left at `W2`. Its
    arrays are split out of the unscoped buffers and put back at the exit contents; the generator register and the scoped
    buffers go into the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Rgn0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (Rgn0.dat (V1 m ρ) c).Φ 0 from rfl]
    iintro ⟨Hp, -, Hr⟩
    iapply (Rgn0.hin' (V1 m ρ) c)
    isplitl [Hr]; · iexact Hr
    iexact Hp
  hout c := by
    rw [Pipeline.ownSems0_none, show (pdats m ρ 0 c).Φ (Fin.last _) = (Rgn0.dat (V1 m ρ) c).Φ (Fin.last cfg0.N) from rfl]
    iintro H
    ihave H' := (Rgn0.hout' (V1 m ρ) c) $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Round 2's kernel region over the thread state: entered from every unscoped buffer at `W3`, left at `W4`. Its
    arrays are split out of the unscoped buffers and put back at the exit contents; the generator register and the scoped
    buffers go into the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Rgn1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (Rgn1.dat (V3 m ρ) c).Φ 0 from rfl]
    iintro ⟨Hp, -, Hr⟩
    iapply (Rgn1.hin' (V3 m ρ) c)
    isplitl [Hr]; · iexact Hr
    iexact Hp
  hout c := by
    rw [Pipeline.ownSems0_none, show (pdats m ρ 1 c).Φ (Fin.last _) = (Rgn1.dat (V3 m ρ) c).Φ (Fin.last cfg1.N) from rfl]
    iintro H
    ihave H' := (Rgn1.hout' (V3 m ρ) c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    in every final state every unscoped buffer holds what the fold `W5` says: in particular the result buffer, and each
    argument as launched. -/
theorem run : θ_run defs (onTc (τ := τ) (main (F := F))) ⟨m, fun _ => 0, ρ⟩ (fun r => ∀ c : Dev nD,
      r.2.mem ((c.tc : Thread nD τ).loc main_v37) = W5 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v37 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

/-- The frame claim: the run, its statement about the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run m ρ)

end Cert.KernelIdeal.Whole

end
-- ==== Proof.Spec.lean ====
import Idealize.ShloMosaic.PureOps.Ideal
import Idealize.ShloMosaic.Lib.ValueIdx

noncomputable section

/-! # Two rounds of a two-node gated recurrent update, as functions of the argument arrays

Every array is a function from its index to the extended reals. The state of a sample is the two nodes'
feature vectors side by side (4096 = 2 · 2048 numbers); a round feeds each node the other node's vector (the half
swap of the state) through a gated recurrent cell whose three gates' weights are stacked by rows
(row `g · 4096 + c` is gate `g`'s row `c`). Two arrangements of one round are stated: the textbook one
(`refRound`: two matrix products, one on the swapped state, one on the state, then the gates) and the fused one
(`kerRound`: the swap moved onto the input weights' columns, the reset and update gates' two products merged into
one by adding the weights, their biases added beforehand). -/

namespace Cert.Gru

open Idealize.ShloMosaic Idealize.ShloMosaic.ValueIdx

abbrev SF : Shape := ⟨3, ![4096, 2, 2048]⟩
abbrev SW : Shape := ⟨2, ![12288, 4096]⟩
abbrev SB : Shape := ⟨1, ![12288]⟩
abbrev SH : Shape := ⟨2, ![4096, 4096]⟩
abbrev SFW : Shape := ⟨2, ![1, 4096]⟩
abbrev SFB : Shape := ⟨1, ![1]⟩
abbrev SO : Shape := ⟨2, ![4096, 1]⟩

/-- The flattened state: entry `n · 2048 + q` of a sample's row is feature `q` of its node `n`. -/
def flat (f : SF.Idx → EReal) : SH.Idx → EReal := fun i =>
  f (ix3 (i 0) ⟨(i 1).val / 2048, by have h : (i 1).val < 4096 := (i 1).isLt; show (i 1).val / 2048 < 2; omega⟩
    ⟨(i 1).val % 2048, by show (i 1).val % 2048 < 2048; omega⟩)

/-- The half swap of a position in the state: node 0's slots and node 1's slots exchanged. -/
def swp (k : Fin 4096) : Fin 4096 := ⟨(k.val + 2048) % 4096, Nat.mod_lt _ (by norm_num)⟩

/-- Row `c` of gate `g` in a matrix (or bias) of three stacked gates. -/
def grow (g : Fin 3) (c : Fin 4096) : Fin 12288 := ⟨g.val * 4096 + c.val, by have := g.isLt; have := c.isLt; omega⟩

/-- One round, textbook arrangement: `gi = swap(h) · Wihᵀ + bih`, `gh = h · Whhᵀ + bhh`,
    `r = σ(gi₀ + gh₀)`, `z = σ(gi₁ + gh₁)`, `n = tanh(gi₂ + r · gh₂)`, new state `(1 − z) · n + z · h`. -/
def refRound (h : SH.Idx → EReal) (Wih : SW.Idx → EReal) (bih : SB.Idx → EReal) (Whh : SW.Idx → EReal) (bhh : SB.Idx → EReal) :
    SH.Idx → EReal := fun i =>
  let gi (g : Fin 3) : EReal := (∑ k : Fin 4096, h (ix2 (i 0) (swp k)) * Wih (ix2 (grow g (i 1)) k)) + bih (ix1 (grow g (i 1)))
  let gh (g : Fin 3) : EReal := (∑ k : Fin 4096, h (ix2 (i 0) k) * Whh (ix2 (grow g (i 1)) k)) + bhh (ix1 (grow g (i 1)))
  let r := Ideal.logistic (gi 0 + gh 0)
  let z := Ideal.logistic (gi 1 + gh 1)
  let n := Ideal.tanh (gi 2 + r * gh 2)
  (1 - z) * n + z * h i

/-- One round, fused arrangement: the swap on the columns of `Wih`; for the reset and update gates ONE product
    with the sum of the two weights and the sum of the two biases; for the candidate the two products kept apart. -/
def kerRound (h : SH.Idx → EReal) (Wih : SW.Idx → EReal) (bih : SB.Idx → EReal) (Whh : SW.Idx → EReal) (bhh : SB.Idx → EReal) :
    SH.Idx → EReal := fun i =>
  let acc (g : Fin 3) : EReal := ∑ k : Fin 4096, h (ix2 (i 0) k) * (Wih (ix2 (grow g (i 1)) (swp k)) + Whh (ix2 (grow g (i 1)) k))
  let accI : EReal := ∑ k : Fin 4096, h (ix2 (i 0) k) * Wih (ix2 (grow 2 (i 1)) (swp k))
  let accH : EReal := ∑ k : Fin 4096, h (ix2 (i 0) k) * Whh (ix2 (grow 2 (i 1)) k)
  let bsum (g : Fin 3) : EReal := bih (ix1 (grow g (i 1))) + bhh (ix1 (grow g (i 1)))
  let r := Ideal.logistic (acc 0 + bsum 0)
  let z := Ideal.logistic (acc 1 + bsum 1)
  let n := Ideal.tanh (accI + bih (ix1 (grow 2 (i 1))) + r * (accH + bhh (ix1 (grow 2 (i 1)))))
  (1 - z) * n + z * h i

/-- The read-out: one linear unit on the final state. -/
def readout (h : SH.Idx → EReal) (fcw : SFW.Idx → EReal) (fcb : SFB.Idx → EReal) : SO.Idx → EReal := fun i =>
  (∑ k : Fin 4096, h (ix2 (i 0) k) * fcw (ix2 0 k)) + fcb (ix1 0)

/-- The whole computation, textbook arrangement. -/
def refSpec (f : SF.Idx → EReal) (Wih : SW.Idx → EReal) (bih : SB.Idx → EReal) (Whh : SW.Idx → EReal) (bhh : SB.Idx → EReal)
    (fcw : SFW.Idx → EReal) (fcb : SFB.Idx → EReal) : SO.Idx → EReal :=
  readout (refRound (refRound (flat f) Wih bih Whh bhh) Wih bih Whh bhh) fcw fcb

/-- The whole computation, fused arrangement. -/
def kerSpec (f : SF.Idx → EReal) (Wih : SW.Idx → EReal) (bih : SB.Idx → EReal) (Whh : SW.Idx → EReal) (bhh : SB.Idx → EReal)
    (fcw : SFW.Idx → EReal) (fcb : SFB.Idx → EReal) : SO.Idx → EReal :=
  readout (kerRound (kerRound (flat f) Wih bih Whh bhh) Wih bih Whh bhh) fcw fcb

/-- An array all of whose entries are real numbers. -/
def IsReal {S : Shape} (a : S.Idx → EReal) : Prop := ∀ i, ∃ x : ℝ, a i = (x : EReal)

end Cert.Gru

end
-- ==== Proof.SpecK.lean ====
import proofs.«119031_j6846177870362_2_alg».proof.Proof.Spec

noncomputable section

/-! # The fused round as the kernel computes it

The host operations before the first round stack four weight matrices — the reset gate's and the update gate's
summed weights, the candidate's input weights (columns swapped) and its state weights — and the four matching bias
rows; a round then contracts the state with each of the four matrices slab by slab (four slabs of 1024 columns, added
up from zero in order) and applies the gates. -/

namespace Cert.Gru

open Idealize.ShloMosaic Idealize.ShloMosaic.ValueIdx

abbrev SW4 : Shape := ⟨3, ![4, 4096, 4096]⟩
abbrev SB4 : Shape := ⟨2, ![4, 4096]⟩

/-- The four stacked weight matrices. -/
def fusedW (Wih Whh : SW.Idx → EReal) : SW4.Idx → EReal := fun i =>
  if (i 0).val = 0 then Wih (ix2 (grow 0 (i 1)) (swp (i 2))) + Whh (ix2 (grow 0 (i 1)) (i 2))
  else if (i 0).val = 1 then Wih (ix2 (grow 1 (i 1)) (swp (i 2))) + Whh (ix2 (grow 1 (i 1)) (i 2))
  else if (i 0).val = 2 then Wih (ix2 (grow 2 (i 1)) (swp (i 2)))
  else Whh (ix2 (grow 2 (i 1)) (i 2))

/-- The four stacked bias rows. -/
def fusedB (bih bhh : SB.Idx → EReal) : SB4.Idx → EReal := fun i =>
  if (i 0).val = 0 then bih (ix1 (grow 0 (i 1))) + bhh (ix1 (grow 0 (i 1)))
  else if (i 0).val = 1 then bih (ix1 (grow 1 (i 1))) + bhh (ix1 (grow 1 (i 1)))
  else if (i 0).val = 2 then bih (ix1 (grow 2 (i 1)))
  else bhh (ix1 (grow 2 (i 1)))

/-- Column `kk` of slab `kb`. -/
def slabCol (kb : Fin 4) (kk : Fin 1024) : Fin 4096 := ⟨kb.val * 1024 + kk.val, by have := kb.isLt; have := kk.isLt; omega⟩

/-- One slab's contribution to gate `g`'s accumulator at row `b`, column `c`. -/
def slabDot (hb : SH.Idx → EReal) (w4 : SW4.Idx → EReal) (g : Fin 4) (b c : Fin 4096) (kb : Fin 4) : EReal :=
  ∑ kk : Fin 1024, hb (ix2 b (slabCol kb kk)) * w4 (ix3 g c (slabCol kb kk))

/-- Gate `g`'s accumulator after the four slabs, added up from zero in order. -/
def acc4 (hb : SH.Idx → EReal) (w4 : SW4.Idx → EReal) (g : Fin 4) (b c : Fin 4096) : EReal :=
  (((0 + slabDot hb w4 g b c 0) + slabDot hb w4 g b c 1) + slabDot hb w4 g b c 2) + slabDot hb w4 g b c 3

/-- One round as the kernel region computes it from its four operands: the state in the matrix unit's format, the state
    itself, the stacked weights, the stacked biases. -/
def kerRound4 (hb hf : SH.Idx → EReal) (w4 : SW4.Idx → EReal) (b4 : SB4.Idx → EReal) : SH.Idx → EReal := fun i =>
  let r := Ideal.logistic (acc4 hb w4 0 (i 0) (i 1) + b4 (ix2 0 (i 1)))
  let z := Ideal.logistic (acc4 hb w4 1 (i 0) (i 1) + b4 (ix2 1 (i 1)))
  let n := Ideal.tanh (acc4 hb w4 2 (i 0) (i 1) + b4 (ix2 2 (i 1)) + r * (acc4 hb w4 3 (i 0) (i 1) + b4 (ix2 3 (i 1))))
  (1 - z) * n + z * hf i

end Cert.Gru

end
-- ==== Proof.LibHostFold.lean ====
/-
  What a line of host operations leaves in a buffer, computed in one pass — through operations with a family of operands.

  The contents of a buffer after a straight line of host operations is computed by rewriting each operation's result at
  its own result buffer to its function's value of its operands' contents, and at any other buffer to what was there.
  For an operation with a FAMILY of operands (a concatenate of n pieces) the result is the function of
  `fun k => (contents of operand k)`, and the function reads that family at the literal positions 0, 1, …; the pass
  below reads those positions off the literal vector of operand buffers, so that each piece is the contents of a
  literal buffer again.  The pieces sit inside the concatenate's list of (shape, array) pairs, where the pass does not
  rewrite further: each is finished on its own, and `concat9` puts nine finished pieces back together.
-/
import Idealize.ShloMosaic.Lib.StableHlo.Run
import Mathlib.Data.Fin.VecNotation

namespace Cert.HostFold

open Idealize.ShloMosaic Idealize.ShloMosaic.StableHlo Idealize.SL.Sem

/-- The one-pass computation of a buffer's contents after a line of host operations, reading a family of operand
    buffers at its literal positions. -/
macro "after_results_vec" : tactic =>
  `(tactic| (simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]))

/-- Nine pieces that agree one by one concatenate to the same array. -/
theorem concat9 {α : Type} {S' S : Shape} (a : Fin S.rank) (a0 a1 a2 a3 a4 a5 a6 a7 a8 b0 b1 b2 b3 b4 b5 b6 b7 b8 : S'.Idx → α)
    (h : Shape.Concatenates [S', S', S', S', S', S', S', S', S'] S a)
    (e0 : a0 = b0) (e1 : a1 = b1) (e2 : a2 = b2) (e3 : a3 = b3) (e4 : a4 = b4) (e5 : a5 = b5) (e6 : a6 = b6) (e7 : a7 = b7) (e8 : a8 = b8) :
    concatenate S a [⟨S', a0⟩, ⟨S', a1⟩, ⟨S', a2⟩, ⟨S', a3⟩, ⟨S', a4⟩, ⟨S', a5⟩, ⟨S', a6⟩, ⟨S', a7⟩, ⟨S', a8⟩] h
      = concatenate S a [⟨S', b0⟩, ⟨S', b1⟩, ⟨S', b2⟩, ⟨S', b3⟩, ⟨S', b4⟩, ⟨S', b5⟩, ⟨S', b6⟩, ⟨S', b7⟩, ⟨S', b8⟩] h := by
  subst e0 e1 e2 e3 e4 e5 e6 e7 e8; rfl

end Cert.HostFold
-- ==== Proof.KI.HostVals.lean ====
import proofs.«119031_j6846177870362_2_alg».proof.Proof.Gen.KernelIdeal.Launch
import proofs.«119031_j6846177870362_2_alg».proof.Proof.SpecK
import proofs.«119031_j6846177870362_2_alg».proof.Proof.LibHostFold
import Idealize.ShloMosaic.Lib.StableHlo.Run
import Idealize.ShloMosaic.Lib.ValueLayout
import Idealize.ShloMosaic.PureOps.Ideal.Laws

set_option maxRecDepth 16384

noncomputable section

namespace Cert.KernelIdeal.HostVals

open Cert.KernelIdeal Cert.KernelIdeal.Gen
open Idealize.ShloMosaic Idealize.ShloMosaic.TcCoe Idealize.ShloMosaic.ValueIdx
open Idealize.ShloMosaic.StableHlo Idealize.SL.Sem
open Cert.Gru

/-! # The buffers the host operations leave, read index by index

The stacked weights and biases, the flattened state and its copy in the matrix unit's format, the copy of the new state
between the rounds, and the read-out: each is the specification's function of the arguments. A change of float format
is the identity on the extended reals. -/

/-- A row-major position `b · 4096 + k` of the flattened state is node `k / 2048`, feature `k % 2048` of sample `b`. -/
theorem flatten_apply (f : SF.Idx → EReal) (h : SF.ShapeCasts SH) (b k : Fin 4096) :
    shapeCast SH f h (ix2 b k) = Cert.Gru.flat f (ix2 b k) := by
  unfold Cert.Gru.flat
  refine shapeCast_apply f h _ _ ?_
  rw [Shape.rowMajor_val_three, Shape.rowMajor_val_two]
  have hk : k.val < 4096 := k.isLt
  show (b.val * 2 + k.val / 2048) * 2048 + k.val % 2048 = b.val * 4096 + k.val
  omega

theorem v31_eq (V0 : Valuation τ sig (Elt Ideal)) :
    (StableHlo.after (hostOps1 (F := Ideal)) V0 (Proc.devRef .tc main_v31) : SH.Idx → EReal)
      = V0 (Proc.devRef .tc main_v30) := by
  after_results
  rfl

theorem v0_eq (V0 : Valuation τ sig (Elt Ideal)) :
    (StableHlo.after (hostOps0 (F := Ideal)) V0 (Proc.devRef .tc main_v0) : SH.Idx → EReal)
      = Cert.Gru.flat (V0 (Proc.devRef .tc main_arg0)) := by
  after_results
  funext i
  obtain ⟨b, k, rfl⟩ : ∃ (b k : Fin 4096), i = ix2 b k := ⟨i 0, i 1, eq_ix2 i⟩
  exact flatten_apply _ _ b k

theorem v29_eq (V0 : Valuation τ sig (Elt Ideal)) :
    (StableHlo.after (hostOps0 (F := Ideal)) V0 (Proc.devRef .tc main_v29) : SH.Idx → EReal)
      = Cert.Gru.flat (V0 (Proc.devRef .tc main_arg0)) := by
  after_results
  funext i
  obtain ⟨b, k, rfl⟩ : ∃ (b k : Fin 4096), i = ix2 b k := ⟨i 0, i 1, eq_ix2 i⟩
  exact flatten_apply _ _ b k

theorem readout_lhs0 (i : S4096x1.Idx) (q : dot_S4096x4096_S4096x1_S4096x1_1_0_0_1_n_n.contr.Idx) :
    (dot_S4096x4096_S4096x1_S4096x1_1_0_0_1_n_n.lhsIdx i q 0).val = (i 0).val := by
  unfold DotDims.lhsIdx
  rw [dif_neg (show ¬(0 : Fin S4096x4096.rank) ∈ dot_S4096x4096_S4096x1_S4096x1_1_0_0_1_n_n.lhsBatch by decide), dif_pos (show (0 : Fin S4096x4096.rank) ∈ dot_S4096x4096_S4096x1_S4096x1_1_0_0_1_n_n.lhsNonContracting by decide)]
  rfl
theorem readout_rhs1 (i : S4096x1.Idx) (q : dot_S4096x4096_S4096x1_S4096x1_1_0_0_1_n_n.contr.Idx) :
    (dot_S4096x4096_S4096x1_S4096x1_1_0_0_1_n_n.rhsIdx i q 1).val = (i 1).val := by
  unfold DotDims.rhsIdx
  rw [dif_neg (show ¬(1 : Fin S4096x1.rank) ∈ dot_S4096x4096_S4096x1_S4096x1_1_0_0_1_n_n.rhsBatch by decide), dif_pos (show (1 : Fin S4096x1.rank) ∈ dot_S4096x4096_S4096x1_S4096x1_1_0_0_1_n_n.rhsNonContracting by decide)]
  rfl

/-- The read-out's matrix product at a row: the sum over the state's columns. -/
theorem readout_dot (h : SH.Idx → EReal) (y : (⟨2, ![4096, 1]⟩ : Shape).Idx → EReal) (b : Fin 4096) (u : Fin 1) :
    Host.dotGeneral (F := Ideal) (φ₁ := .f32) (φ₂ := .f32) dot_S4096x4096_S4096x1_S4096x1_1_0_0_1_n_n none h y (ix2 b u)
      = ∑ k : Fin 4096, h (ix2 b k) * y (ix2 k u) := by
  simp only [Host.dotGeneral]
  rw [Ideal.dotGeneral_apply, ← Equiv.sum_comp (ValueIdx.contrEquiv1 dot_S4096x4096_S4096x1_S4096x1_1_0_0_1_n_n 4096 rfl rfl).symm]
  refine Finset.sum_congr rfl fun k _ => ?_
  have hk := ValueIdx.contrEquiv1_symm_val dot_S4096x4096_S4096x1_S4096x1_1_0_0_1_n_n 4096 rfl rfl k
  have el : dot_S4096x4096_S4096x1_S4096x1_1_0_0_1_n_n.lhsIdx (ix2 b u) ((ValueIdx.contrEquiv1 dot_S4096x4096_S4096x1_S4096x1_1_0_0_1_n_n 4096 rfl rfl).symm k) = ix2 b k := funext fun a => Fin.ext (by
    match a with
    | ⟨0, _⟩ => exact readout_lhs0 _ _
    | ⟨1, _⟩ => exact (dot_S4096x4096_S4096x1_S4096x1_1_0_0_1_n_n.lhsIdx_val_of_single rfl _ _).trans hk)
  have er : dot_S4096x4096_S4096x1_S4096x1_1_0_0_1_n_n.rhsIdx (ix2 b u) ((ValueIdx.contrEquiv1 dot_S4096x4096_S4096x1_S4096x1_1_0_0_1_n_n 4096 rfl rfl).symm k) = ix2 k u := funext fun a => Fin.ext (by
    match a with
    | ⟨0, _⟩ => exact (dot_S4096x4096_S4096x1_S4096x1_1_0_0_1_n_n.rhsIdx_val_of_single rfl _ _).trans hk
    | ⟨1, _⟩ => exact readout_rhs1 _ _)
  rw [el, er]

/-- The read-out's operations — the weights' row turned into a column, the product, the bias spread over the rows,
    the sum — at an index. -/
theorem readout_ops (h : SH.Idx → EReal) (fcw : SFW.Idx → EReal) (fcb : SFB.Idx → EReal)
    (ht : S1x4096.Transposes [1, 0] S4096x1) (hb1 : S1.BroadcastsInDim S1x1 ![1]) (hb2 : S1x1.BroadcastsInDim S4096x1 ![0, 1]) :
    (addf (F := Ideal) (φ := .f32) (Host.dotGeneral (F := Ideal) (φ₁ := .f32) (φ₂ := .f32) dot_S4096x4096_S4096x1_S4096x1_1_0_0_1_n_n none h
        (transpose S4096x1 [1, 0] fcw ht))
      (broadcastInDim S4096x1 ![0, 1] hb2 (broadcastInDim S1x1 ![1] hb1 fcb)) : SO.Idx → EReal)
      = Cert.Gru.readout h fcw fcb := by
  funext i
  obtain ⟨b, u, rfl⟩ : ∃ (b : Fin 4096) (u : Fin 1), i = ix2 b u := ⟨i 0, i 1, eq_ix2 i⟩
  have hu : u = 0 := Subsingleton.elim _ _
  subst hu
  unfold Cert.Gru.readout
  refine congrArg₂ (· + ·) ?_ ?_
  · refine (readout_dot h _ b 0).trans (Finset.sum_congr rfl fun k _ => congrArg (h (ix2 b k) * ·) ?_)
    exact transpose_ix2_apply fcw ht k 0
  · refine (broadcastInDim_apply _ hb2 _ (ix2 b 0) (ix2 (0 : Fin 1) (0 : Fin 1)) fun a => ?_).trans ?_
    · match a with
      | ⟨0, _⟩ => rfl
      | ⟨1, _⟩ => rfl
    · exact broadcastInDim_apply _ hb1 fcb (ix2 (0 : Fin 1) (0 : Fin 1)) (ix1 0) fun a => (by match a with | ⟨0, _⟩ => rfl)

theorem v37_eq (V0 : Valuation τ sig (Elt Ideal)) :
    (StableHlo.after (hostOps2 (F := Ideal)) V0 (Proc.devRef .tc main_v37) : SO.Idx → EReal)
      = Cert.Gru.readout (V0 (Proc.devRef .tc main_v32)) (V0 (Proc.devRef .tc main_arg5)) (V0 (Proc.devRef .tc main_arg6)) := by
  after_results
  exact readout_ops _ _ _ _ _ _

/-! ## Layout operations of the host stretch, read at an index -/

/-- A vector cut from `o` reads, at `j`, the source at `o + j`. -/
theorem slice1_apply {n m : Nat} (o : Nat) (X : (⟨1, ![n]⟩ : Shape).Idx → EReal)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-- A vector made a one-row matrix reads, at `(u, c)`, the vector at `c`. -/
theorem row_of_vec_apply {n : Nat} (x : (⟨1, ![n]⟩ : Shape).Idx → EReal)
    (h : (⟨1, ![n]⟩ : Shape).BroadcastsInDim ⟨2, ![1, n]⟩ ![1]) (u : Fin 1) (c : Fin n) :
    broadcastInDim ⟨2, ![1, n]⟩ ![1] h x (ix2 u c) = x (ix1 c) :=
  broadcastInDim_apply _ h x _ (ix1 c) fun a => by
    match a with
    | ⟨0, _⟩ =>
      show c.val = if n = 1 then 0 else c.val
      split
      · have := c.isLt; omega
      · rfl

/-- A matrix made a stack of one matrix reads, at `(u, r, k)`, the matrix at `(r, k)`. -/
theorem stack_of_mat_apply {n m : Nat} (x : (⟨2, ![n, m]⟩ : Shape).Idx → EReal)
    (h : (⟨2, ![n, m]⟩ : Shape).BroadcastsInDim ⟨3, ![1, n, m]⟩ ![1, 2]) (u : Fin 1) (r : Fin n) (k : Fin m) :
    broadcastInDim ⟨3, ![1, n, m]⟩ ![1, 2] h x (ix3 u r k) = x (ix2 r k) :=
  broadcastInDim_apply _ h x _ (ix2 r k) fun a => by
    match a with
    | ⟨0, _⟩ =>
      show r.val = if n = 1 then 0 else r.val
      split
      · have := r.isLt; omega
      · rfl
    | ⟨1, _⟩ =>
      show k.val = if m = 1 then 0 else k.val
      split
      · have := k.isLt; omega
      · rfl

/-- Four one-row matrices stacked: row `g` of the stack is the one row of piece `g`. -/
theorem stack4_rows_apply (x0 x1 x2 x3 : S1x4096.Idx → EReal)
    (h : Shape.Concatenates [S1x4096, S1x4096, S1x4096, S1x4096] S4x4096 0) (g : Fin 4) (c : Fin 4096) :
    concatenate S4x4096 0 [⟨S1x4096, x0⟩, ⟨S1x4096, x1⟩, ⟨S1x4096, x2⟩, ⟨S1x4096, x3⟩] h (ix2 g c)
      = if g.val = 0 then x0 (ix2 0 c) else if g.val = 1 then x1 (ix2 0 c) else if g.val = 2 then x2 (ix2 0 c) else x3 (ix2 0 c) := by
  have hoff : ∀ b : Fin S1x4096.rank, b.cast (rfl : S1x4096.rank = S4x4096.rank) ≠ 0 →
      ((ix2 (0 : Fin 1) c : S1x4096.Idx) b).val = ((ix2 g c : S4x4096.Idx) (b.cast rfl)).val := fun b hb => by
    match b with
    | ⟨0, _⟩ => exact absurd rfl hb
    | ⟨1, _⟩ => rfl
  have hg := g.isLt
  by_cases h0 : g.val = 0
  · rw [if_pos h0]
    exact concatenate_apply_piece (t := S4x4096) 0 [⟨S1x4096, x0⟩, ⟨S1x4096, x1⟩, ⟨S1x4096, x2⟩, ⟨S1x4096, x3⟩] h (ix2 g c) 0 (by show (0 : Nat) < 4; omega) S1x4096 x0 rfl rfl 0 rfl (ix2 0 c) hoff (by show 0 + 0 = g.val; omega)
  rw [if_neg h0]
  by_cases h1 : g.val = 1
  · rw [if_pos h1]
    exact concatenate_apply_piece (t := S4x4096) 0 [⟨S1x4096, x0⟩, ⟨S1x4096, x1⟩, ⟨S1x4096, x2⟩, ⟨S1x4096, x3⟩] h (ix2 g c) 1 (by show (1 : Nat) < 4; omega) S1x4096 x1 rfl rfl 1 rfl (ix2 0 c) hoff (by show 1 + 0 = g.val; omega)
  rw [if_neg h1]
  by_cases h2 : g.val = 2
  · rw [if_pos h2]
    exact concatenate_apply_piece (t := S4x4096) 0 [⟨S1x4096, x0⟩, ⟨S1x4096, x1⟩, ⟨S1x4096, x2⟩, ⟨S1x4096, x3⟩] h (ix2 g c) 2 (by show (2 : Nat) < 4; omega) S1x4096 x2 rfl rfl 2 rfl (ix2 0 c) hoff (by show 2 + 0 = g.val; omega)
  rw [if_neg h2]
  exact concatenate_apply_piece (t := S4x4096) 0 [⟨S1x4096, x0⟩, ⟨S1x4096, x1⟩, ⟨S1x4096, x2⟩, ⟨S1x4096, x3⟩] h (ix2 g c) 3 (by show (3 : Nat) < 4; omega) S1x4096 x3 rfl rfl 3 rfl (ix2 0 c) hoff (by show 3 + 0 = g.val; omega)

/-- Four one-matrix stacks stacked: matrix `g` of the stack is the one matrix of piece `g`. -/
theorem stack4_mats_apply (x0 x1 x2 x3 : S1x4096x4096.Idx → EReal)
    (h : Shape.Concatenates [S1x4096x4096, S1x4096x4096, S1x4096x4096, S1x4096x4096] S4x4096x4096 0) (g : Fin 4) (r k : Fin 4096) :
    concatenate S4x4096x4096 0 [⟨S1x4096x4096, x0⟩, ⟨S1x4096x4096, x1⟩, ⟨S1x4096x4096, x2⟩, ⟨S1x4096x4096, x3⟩] h (ix3 g r k)
      = if g.val = 0 then x0 (ix3 0 r k) else if g.val = 1 then x1 (ix3 0 r k) else if g.val = 2 then x2 (ix3 0 r k) else x3 (ix3 0 r k) := by
  have hoff : ∀ b : Fin S1x4096x4096.rank, b.cast (rfl : S1x4096x4096.rank = S4x4096x4096.rank) ≠ 0 →
      ((ix3 (0 : Fin 1) r k : S1x4096x4096.Idx) b).val = ((ix3 g r k : S4x4096x4096.Idx) (b.cast rfl)).val := fun b hb => by
    match b with
    | ⟨0, _⟩ => exact absurd rfl hb
    | ⟨1, _⟩ => rfl
    | ⟨2, _⟩ => rfl
  have hg := g.isLt
  by_cases h0 : g.val = 0
  · rw [if_pos h0]
    exact concatenate_apply_piece (t := S4x4096x4096) 0 [⟨S1x4096x4096, x0⟩, ⟨S1x4096x4096, x1⟩, ⟨S1x4096x4096, x2⟩, ⟨S1x4096x4096, x3⟩] h (ix3 g r k) 0 (by show (0 : Nat) < 4; omega) S1x4096x4096 x0 rfl rfl 0 rfl (ix3 0 r k) hoff (by show 0 + 0 = g.val; omega)
  rw [if_neg h0]
  by_cases h1 : g.val = 1
  · rw [if_pos h1]
    exact concatenate_apply_piece (t := S4x4096x4096) 0 [⟨S1x4096x4096, x0⟩, ⟨S1x4096x4096, x1⟩, ⟨S1x4096x4096, x2⟩, ⟨S1x4096x4096, x3⟩] h (ix3 g r k) 1 (by show (1 : Nat) < 4; omega) S1x4096x4096 x1 rfl rfl 1 rfl (ix3 0 r k) hoff (by show 1 + 0 = g.val; omega)
  rw [if_neg h1]
  by_cases h2 : g.val = 2
  · rw [if_pos h2]
    exact concatenate_apply_piece (t := S4x4096x4096) 0 [⟨S1x4096x4096, x0⟩, ⟨S1x4096x4096, x1⟩, ⟨S1x4096x4096, x2⟩, ⟨S1x4096x4096, x3⟩] h (ix3 g r k) 2 (by show (2 : Nat) < 4; omega) S1x4096x4096 x2 rfl rfl 2 rfl (ix3 0 r k) hoff (by show 2 + 0 = g.val; omega)
  rw [if_neg h2]
  exact concatenate_apply_piece (t := S4x4096x4096) 0 [⟨S1x4096x4096, x0⟩, ⟨S1x4096x4096, x1⟩, ⟨S1x4096x4096, x2⟩, ⟨S1x4096x4096, x3⟩] h (ix3 g r k) 3 (by show (3 : Nat) < 4; omega) S1x4096x4096 x3 rfl rfl 3 rfl (ix3 0 r k) hoff (by show 3 + 0 = g.val; omega)

/-- Two column halves joined: a column of the left half or, past it, of the right half. -/
theorem join_cols_apply (a b : S12288x2048.Idx → EReal)
    (h : Shape.Concatenates [S12288x2048, S12288x2048] S12288x4096 1) (r : Fin 12288) (k : Fin 4096) :
    concatenate S12288x4096 1 [⟨S12288x2048, a⟩, ⟨S12288x2048, b⟩] h (ix2 r k)
      = if hk : k.val < 2048 then a (ix2 r ⟨k.val, hk⟩) else b (ix2 r ⟨k.val - 2048, by have := k.isLt; omega⟩) := by
  by_cases hk : k.val < 2048
  · rw [dif_pos hk]
    exact concatenate_pair_apply_left _ a b h (ix2 r k) rfl (ix2 r ⟨k.val, hk⟩) fun c => by
      match c with
      | ⟨0, _⟩ => rfl
      | ⟨1, _⟩ => rfl
  · rw [dif_neg hk]
    exact concatenate_pair_apply_right _ a b h (ix2 r k) rfl rfl (ix2 r ⟨k.val - 2048, by have := k.isLt; omega⟩)
      (fun c hc => by
        match c with
        | ⟨0, _⟩ => rfl
        | ⟨1, _⟩ => exact absurd rfl hc)
      (by show k.val - 2048 + 2048 = k.val; omega)

/-! ## The stacked biases -/

/-- A summed-bias row: gate `g`'s (reset or update) slots of the two bias vectors, added. -/
theorem bias_sum_row (bih bhh : SB.Idx → EReal) (g : Fin 3) (hg : g.val < 2)
    (hb : S4096.BroadcastsInDim S1x4096 ![1]) (h1 : S12288.Slices ![0] S8192) (h2 : S8192.Slices ![g.val * 4096] S4096)
    (c : Fin 4096) :
    broadcastInDim S1x4096 ![1] hb (extractStridedSlice S4096 ![g.val * 4096]
        (addf (F := Ideal) (φ := .f32) (extractStridedSlice S8192 ![0] bih h1) (extractStridedSlice S8192 ![0] bhh h1)) h2) (ix2 0 c)
      = bih (ix1 (grow g c)) + bhh (ix1 (grow g c)) := by
  have hc := c.isLt
  refine (row_of_vec_apply _ hb 0 c).trans ?_
  refine (slice1_apply (g.val * 4096) _ h2 c ⟨g.val * 4096 + c.val, by omega⟩ rfl).trans ?_
  refine congrArg₂ (· + ·) ?_ ?_
  · exact slice1_apply 0 bih h1 _ (grow g c) (by show g.val * 4096 + c.val = 0 + (g.val * 4096 + c.val); omega)
  · exact slice1_apply 0 bhh h1 _ (grow g c) (by show g.val * 4096 + c.val = 0 + (g.val * 4096 + c.val); omega)

/-- A candidate-gate bias row: the third gate's slots of one bias vector. -/
theorem bias_row (b : SB.Idx → EReal) (hb : S4096.BroadcastsInDim S1x4096 ![1]) (h : S12288.Slices ![8192] S4096) (c : Fin 4096) :
    broadcastInDim S1x4096 ![1] hb (extractStridedSlice S4096 ![8192] b h) (ix2 0 c) = b (ix1 (grow 2 c)) := by
  refine (row_of_vec_apply _ hb 0 c).trans ?_
  exact slice1_apply 8192 b h c (grow 2 c) (by show 2 * 4096 + c.val = 8192 + c.val; omega)

theorem v28_eq (V0 : Valuation τ sig (Elt Ideal)) :
    (StableHlo.after (hostOps0 (F := Ideal)) V0 (Proc.devRef .tc main_v28) : SB4.Idx → EReal)
      = Cert.Gru.fusedB (V0 (Proc.devRef .tc main_arg2)) (V0 (Proc.devRef .tc main_arg4)) := by
  after_results_vec
  funext i
  obtain ⟨g, c, rfl⟩ : ∃ (g : Fin 4) (c : Fin 4096), i = ix2 g c := ⟨i 0, i 1, eq_ix2 i⟩
  refine (stack4_rows_apply _ _ _ _ _ g c).trans ?_
  unfold Cert.Gru.fusedB
  show _ = if g.val = 0 then _ else if g.val = 1 then _ else if g.val = 2 then _ else _
  by_cases h0 : g.val = 0
  · rw [if_pos h0, if_pos h0]
    after_results_vec
    exact bias_sum_row _ _ 0 (by decide) _ _ _ c
  rw [if_neg h0, if_neg h0]
  by_cases h1 : g.val = 1
  · rw [if_pos h1, if_pos h1]
    after_results_vec
    exact bias_sum_row _ _ 1 (by decide) _ _ _ c
  rw [if_neg h1, if_neg h1]
  by_cases h2 : g.val = 2
  · rw [if_pos h2, if_pos h2]
    after_results_vec
    exact bias_row _ _ _ c
  rw [if_neg h2, if_neg h2]
  after_results_vec
  exact bias_row _ _ _ c

/-! ## The stacked weights -/

/-- The input weights with their column halves exchanged: column `k` is the weights' column `swp k`. -/
theorem swapped_cols_apply (Wih : SW.Idx → EReal) (a b : S12288x2048.Idx → EReal)
    (hc : Shape.Concatenates [S12288x2048, S12288x2048] S12288x4096 1)
    (ha : ∀ (r : Fin 12288) (j : Fin 2048) (k' : Fin 4096), k'.val = 2048 + j.val → a (ix2 r j) = Wih (ix2 r k'))
    (hb : ∀ (r : Fin 12288) (j : Fin 2048) (k' : Fin 4096), k'.val = 0 + j.val → b (ix2 r j) = Wih (ix2 r k'))
    (r : Fin 12288) (k : Fin 4096) :
    concatenate S12288x4096 1 [⟨S12288x2048, a⟩, ⟨S12288x2048, b⟩] hc (ix2 r k) = Wih (ix2 r (swp k)) := by
  have hk4 := k.isLt
  refine (join_cols_apply a b hc r k).trans ?_
  by_cases hk : k.val < 2048
  · rw [dif_pos hk]
    exact ha r ⟨k.val, hk⟩ (swp k) (by show (k.val + 2048) % 4096 = 2048 + k.val; omega)
  · rw [dif_neg hk]
    exact hb r ⟨k.val - 2048, by omega⟩ (swp k) (by show (k.val + 2048) % 4096 = 0 + (k.val - 2048); omega)

/-- A summed-weights matrix: gate `g`'s (reset or update) rows of the two weight matrices, added. -/
theorem weight_sum_mat (W3 Whh : SW.Idx → EReal) (g : Fin 3) (hg : g.val < 2)
    (hb : S4096x4096.BroadcastsInDim S1x4096x4096 ![1, 2]) (hs : S8192x4096.Slices ![g.val * 4096, 0] S4096x4096)
    (h1 : S12288x4096.Slices ![0, 0] S8192x4096) (r k : Fin 4096) :
    broadcastInDim S1x4096x4096 ![1, 2] hb (extractStridedSlice S4096x4096 ![g.val * 4096, 0]
        (addf (F := Ideal) (φ := .f32) (extractStridedSlice S8192x4096 ![0, 0] W3 h1) (extractStridedSlice S8192x4096 ![0, 0] Whh h1)) hs)
        (ix3 0 r k)
      = W3 (ix2 (grow g r) k) + Whh (ix2 (grow g r) k) := by
  have hr := r.isLt
  refine (stack_of_mat_apply _ hb 0 r k).trans ?_
  refine (slice2_axis0_apply (g.val * 4096) _ hs r k ⟨g.val * 4096 + r.val, by omega⟩ rfl).trans ?_
  refine congrArg₂ (· + ·) ?_ ?_
  · exact slice2_axis0_apply 0 W3 h1 _ k (grow g r) (by show g.val * 4096 + r.val = 0 + (g.val * 4096 + r.val); omega)
  · exact slice2_axis0_apply 0 Whh h1 _ k (grow g r) (by show g.val * 4096 + r.val = 0 + (g.val * 4096 + r.val); omega)

/-- A candidate-gate matrix: the third gate's rows of one weight matrix. -/
theorem weight_mat (W : SW.Idx → EReal) (hb : S4096x4096.BroadcastsInDim S1x4096x4096 ![1, 2])
    (h : S12288x4096.Slices ![8192, 0] S4096x4096) (r k : Fin 4096) :
    broadcastInDim S1x4096x4096 ![1, 2] hb (extractStridedSlice S4096x4096 ![8192, 0] W h) (ix3 0 r k) = W (ix2 (grow 2 r) k) := by
  refine (stack_of_mat_apply _ hb 0 r k).trans ?_
  exact slice2_axis0_apply 8192 W h r k (grow 2 r) (by show 2 * 4096 + r.val = 8192 + r.val; omega)

/-- The stack in the matrix unit's format: the same numbers. -/
theorem stack4_mats_bf16_apply (x0 x1 x2 x3 : S1x4096x4096.Idx → EReal)
    (h : Shape.Concatenates [S1x4096x4096, S1x4096x4096, S1x4096x4096, S1x4096x4096] S4x4096x4096 0)
    (hb : FTy.bf16.bits < FTy.f32.bits) (g : Fin 4) (r k : Fin 4096) :
    (truncf (F := Ideal) (s := S4x4096x4096) (φ := .f32) .bf16
        (concatenate S4x4096x4096 0 [⟨S1x4096x4096, x0⟩, ⟨S1x4096x4096, x1⟩, ⟨S1x4096x4096, x2⟩, ⟨S1x4096x4096, x3⟩] h) hb) (ix3 g r k)
      = if g.val = 0 then x0 (ix3 0 r k) else if g.val = 1 then x1 (ix3 0 r k) else if g.val = 2 then x2 (ix3 0 r k) else x3 (ix3 0 r k) :=
  stack4_mats_apply x0 x1 x2 x3 h g r k

theorem v16_eq (V0 : Valuation τ sig (Elt Ideal)) :
    (StableHlo.after (hostOps0 (F := Ideal)) V0 (Proc.devRef .tc main_v16) : SW4.Idx → EReal)
      = Cert.Gru.fusedW (V0 (Proc.devRef .tc main_arg1)) (V0 (Proc.devRef .tc main_arg3)) := by
  after_results_vec
  funext i
  obtain ⟨g, r, k, rfl⟩ : ∃ (g : Fin 4) (r k : Fin 4096), i = ix3 g r k := ⟨i 0, i 1, i 2, eq_ix3 i⟩
  refine (stack4_mats_bf16_apply _ _ _ _ _ _ g r k).trans ?_
  unfold Cert.Gru.fusedW
  show _ = if g.val = 0 then _ else if g.val = 1 then _ else if g.val = 2 then _ else _
  by_cases h0 : g.val = 0
  · rw [if_pos h0, if_pos h0]
    after_results_vec
    refine (weight_sum_mat _ _ 0 (by decide) _ _ _ r k).trans ?_
    refine congrArg (· + _) ?_
    refine swapped_cols_apply _ _ _ _ (fun r' j k' hk' => ?_) (fun r' j k' hk' => ?_) _ k
    · after_results_vec
      exact slice2_axis1_apply 2048 _ _ r' j k' hk'
    · after_results_vec
      exact slice2_axis1_apply 0 _ _ r' j k' hk'
  rw [if_neg h0, if_neg h0]
  by_cases h1 : g.val = 1
  · rw [if_pos h1, if_pos h1]
    after_results_vec
    refine (weight_sum_mat _ _ 1 (by decide) _ _ _ r k).trans ?_
    refine congrArg (· + _) ?_
    refine swapped_cols_apply _ _ _ _ (fun r' j k' hk' => ?_) (fun r' j k' hk' => ?_) _ k
    · after_results_vec
      exact slice2_axis1_apply 2048 _ _ r' j k' hk'
    · after_results_vec
      exact slice2_axis1_apply 0 _ _ r' j k' hk'
  rw [if_neg h1, if_neg h1]
  by_cases h2 : g.val = 2
  · rw [if_pos h2, if_pos h2]
    after_results_vec
    refine (weight_mat _ _ _ r k).trans ?_
    refine swapped_cols_apply _ _ _ _ (fun r' j k' hk' => ?_) (fun r' j k' hk' => ?_) _ k
    · after_results_vec
      exact slice2_axis1_apply 2048 _ _ r' j k' hk'
    · after_results_vec
      exact slice2_axis1_apply 0 _ _ r' j k' hk'
  rw [if_neg h2, if_neg h2]
  after_results_vec
  exact weight_mat _ _ _ r k

end Cert.KernelIdeal.HostVals
end
-- ==== Proof.LibChunkSum.lean ====
/-
  A finite sum taken chunk by chunk.

  The first `n * B` numbers are `n` consecutive chunks of `B` consecutive numbers, position `j` of chunk `c` being
  the number `c * B + j`; in a commutative monoid a sum over all of them is the sum over the chunks of each chunk's
  sum.  And a sum over nine terms is the nine added one after the other onto zero, from the left — the shape an
  accumulator that starts at zero and takes nine partial sums in turn ends with.
-/
import Mathlib.Algebra.BigOperators.Fin
import Mathlib.Logic.Equiv.Fin.Basic

namespace Cert.ChunkSum

variable {M : Type*} [AddCommMonoid M]

/-- The sum over `Fin (n * B)` is the sum over the `n` chunks of the sum over each chunk's `B` positions. -/
theorem sum_fin_chunks (n B : ℕ) (G : Fin (n * B) → M) :
    ∑ k : Fin (n * B), G k
      = ∑ c : Fin n, ∑ j : Fin B, G ⟨c.val * B + j.val, by
          have hc := c.isLt; have hj := j.isLt
          have h1 : c.val * B + j.val < (c.val + 1) * B := by rw [Nat.succ_mul]; omega
          exact lt_of_lt_of_le h1 (Nat.mul_le_mul_right B hc)⟩ := by
  rw [← Equiv.sum_comp finProdFinEquiv G, Fintype.sum_prod_type]
  refine Finset.sum_congr rfl fun c _ => Finset.sum_congr rfl fun j _ => congrArg G (Fin.ext ?_)
  show j.val + B * c.val = c.val * B + j.val
  rw [Nat.mul_comm, Nat.add_comm]

/-- Nine terms added one after the other onto zero, from the left, are their sum. -/
theorem sum_fin_nine (s : Fin 9 → M) :
    ∑ c : Fin 9, s c = ((((((((0 + s 0) + s 1) + s 2) + s 3) + s 4) + s 5) + s 6) + s 7) + s 8 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_zero]
  rfl

end Cert.ChunkSum
-- ==== Proof.FusedLaw.lean ====
import proofs.«119031_j6846177870362_2_alg».proof.Proof.SpecK
import proofs.«119031_j6846177870362_2_alg».proof.Proof.LibChunkSum

noncomputable section

/-! # The round computed from the four stacked operands is the fused arrangement

The 4096 columns are four consecutive slabs of 1024, so a gate's accumulator — the four slabs' partial products
added onto zero in order — is the whole product `Σ_k h(k) · W4(g, c, k)` (a sum taken chunk by chunk; `0 + a = a`).
Reading the stacked weights and biases at the four literal gates gives the fused arrangement's terms: gates 0 and 1
the summed weights and summed biases of the reset and update gates, gate 2 the candidate's input weights with the
columns swapped, gate 3 its state weights. Only the commutative-monoid laws of addition are used. -/

namespace Cert.Gru

open Idealize.ShloMosaic Idealize.ShloMosaic.ValueIdx

/-- A sum over the 4096 columns is the four slabs' sums added onto zero in order. -/
theorem sum_four_slabs {M : Type} [AddCommMonoid M] (G : Fin 4096 → M) :
    ∑ k : Fin 4096, G k
      = (((0 + ∑ kk : Fin 1024, G (slabCol 0 kk)) + ∑ kk : Fin 1024, G (slabCol 1 kk))
          + ∑ kk : Fin 1024, G (slabCol 2 kk)) + ∑ kk : Fin 1024, G (slabCol 3 kk) := by
  refine (Cert.ChunkSum.sum_fin_chunks 4 1024 G).trans ?_
  rw [Fin.sum_univ_four, zero_add]
  rfl

/-- A gate's accumulator is the whole product of the state's row with the gate's weight row. -/
theorem acc4_eq_sum (hb : SH.Idx → EReal) (w4 : SW4.Idx → EReal) (g : Fin 4) (b c : Fin 4096) :
    acc4 hb w4 g b c = ∑ k : Fin 4096, hb (ix2 b k) * w4 (ix3 g c k) :=
  (sum_four_slabs (fun k => hb (ix2 b k) * w4 (ix3 g c k))).symm

/-! ## The stacked operands at the four literal gates -/

theorem fusedW_0 (Wih Whh : SW.Idx → EReal) (c k : Fin 4096) :
    fusedW Wih Whh (ix3 0 c k) = Wih (ix2 (grow 0 c) (swp k)) + Whh (ix2 (grow 0 c) k) := by
  unfold fusedW
  exact if_pos rfl

theorem fusedW_1 (Wih Whh : SW.Idx → EReal) (c k : Fin 4096) :
    fusedW Wih Whh (ix3 1 c k) = Wih (ix2 (grow 1 c) (swp k)) + Whh (ix2 (grow 1 c) k) := by
  unfold fusedW
  exact (if_neg (by show ¬ ((1 : ℕ) = 0); decide)).trans (if_pos rfl)

theorem fusedW_2 (Wih Whh : SW.Idx → EReal) (c k : Fin 4096) :
    fusedW Wih Whh (ix3 2 c k) = Wih (ix2 (grow 2 c) (swp k)) := by
  unfold fusedW
  exact (if_neg (by show ¬ ((2 : ℕ) = 0); decide)).trans ((if_neg (by show ¬ ((2 : ℕ) = 1); decide)).trans (if_pos rfl))

theorem fusedW_3 (Wih Whh : SW.Idx → EReal) (c k : Fin 4096) :
    fusedW Wih Whh (ix3 3 c k) = Whh (ix2 (grow 2 c) k) := by
  unfold fusedW
  exact (if_neg (by show ¬ ((3 : ℕ) = 0); decide)).trans ((if_neg (by show ¬ ((3 : ℕ) = 1); decide)).trans (if_neg (by show ¬ ((3 : ℕ) = 2); decide)))

theorem fusedB_0 (bih bhh : SB.Idx → EReal) (c : Fin 4096) :
    fusedB bih bhh (ix2 0 c) = bih (ix1 (grow 0 c)) + bhh (ix1 (grow 0 c)) := by
  unfold fusedB
  exact if_pos rfl

theorem fusedB_1 (bih bhh : SB.Idx → EReal) (c : Fin 4096) :
    fusedB bih bhh (ix2 1 c) = bih (ix1 (grow 1 c)) + bhh (ix1 (grow 1 c)) := by
  unfold fusedB
  exact (if_neg (by show ¬ ((1 : ℕ) = 0); decide)).trans (if_pos rfl)

theorem fusedB_2 (bih bhh : SB.Idx → EReal) (c : Fin 4096) :
    fusedB bih bhh (ix2 2 c) = bih (ix1 (grow 2 c)) := by
  unfold fusedB
  exact (if_neg (by show ¬ ((2 : ℕ) = 0); decide)).trans ((if_neg (by show ¬ ((2 : ℕ) = 1); decide)).trans (if_pos rfl))

theorem fusedB_3 (bih bhh : SB.Idx → EReal) (c : Fin 4096) :
    fusedB bih bhh (ix2 3 c) = bhh (ix1 (grow 2 c)) := by
  unfold fusedB
  exact (if_neg (by show ¬ ((3 : ℕ) = 0); decide)).trans ((if_neg (by show ¬ ((3 : ℕ) = 1); decide)).trans (if_neg (by show ¬ ((3 : ℕ) = 2); decide)))

/-! ## The round -/

theorem kerRound4_fused (h : SH.Idx → EReal) (Wih : SW.Idx → EReal) (bih : SB.Idx → EReal) (Whh : SW.Idx → EReal)
    (bhh : SB.Idx → EReal) : kerRound4 h h (fusedW Wih Whh) (fusedB bih bhh) = kerRound h Wih bih Whh bhh := by
  funext i
  have A0 : acc4 h (fusedW Wih Whh) 0 (i 0) (i 1)
      = ∑ k : Fin 4096, h (ix2 (i 0) k) * (Wih (ix2 (grow 0 (i 1)) (swp k)) + Whh (ix2 (grow 0 (i 1)) k)) :=
    (acc4_eq_sum h (fusedW Wih Whh) 0 (i 0) (i 1)).trans
      (Finset.sum_congr rfl fun k _ => congrArg (fun t => h (ix2 (i 0) k) * t) (fusedW_0 Wih Whh (i 1) k))
  have A1 : acc4 h (fusedW Wih Whh) 1 (i 0) (i 1)
      = ∑ k : Fin 4096, h (ix2 (i 0) k) * (Wih (ix2 (grow 1 (i 1)) (swp k)) + Whh (ix2 (grow 1 (i 1)) k)) :=
    (acc4_eq_sum h (fusedW Wih Whh) 1 (i 0) (i 1)).trans
      (Finset.sum_congr rfl fun k _ => congrArg (fun t => h (ix2 (i 0) k) * t) (fusedW_1 Wih Whh (i 1) k))
  have A2 : acc4 h (fusedW Wih Whh) 2 (i 0) (i 1)
      = ∑ k : Fin 4096, h (ix2 (i 0) k) * Wih (ix2 (grow 2 (i 1)) (swp k)) :=
    (acc4_eq_sum h (fusedW Wih Whh) 2 (i 0) (i 1)).trans
      (Finset.sum_congr rfl fun k _ => congrArg (fun t => h (ix2 (i 0) k) * t) (fusedW_2 Wih Whh (i 1) k))
  have A3 : acc4 h (fusedW Wih Whh) 3 (i 0) (i 1)
      = ∑ k : Fin 4096, h (ix2 (i 0) k) * Whh (ix2 (grow 2 (i 1)) k) :=
    (acc4_eq_sum h (fusedW Wih Whh) 3 (i 0) (i 1)).trans
      (Finset.sum_congr rfl fun k _ => congrArg (fun t => h (ix2 (i 0) k) * t) (fusedW_3 Wih Whh (i 1) k))
  have B0 : fusedB bih bhh (ix2 0 (i 1)) = bih (ix1 (grow 0 (i 1))) + bhh (ix1 (grow 0 (i 1))) := fusedB_0 bih bhh (i 1)
  have B1 : fusedB bih bhh (ix2 1 (i 1)) = bih (ix1 (grow 1 (i 1))) + bhh (ix1 (grow 1 (i 1))) := fusedB_1 bih bhh (i 1)
  have B2 : fusedB bih bhh (ix2 2 (i 1)) = bih (ix1 (grow 2 (i 1))) := fusedB_2 bih bhh (i 1)
  have B3 : fusedB bih bhh (ix2 3 (i 1)) = bhh (ix1 (grow 2 (i 1))) := fusedB_3 bih bhh (i 1)
  show kerRound4 h h (fusedW Wih Whh) (fusedB bih bhh) i = kerRound h Wih bih Whh bhh i
  simp only [kerRound4, kerRound]
  rw [A0, A1, A2, A3, B0, B1, B2, B3]

end Cert.Gru

end
-- ==== Proof.KI.ValueChain.lean ====
import proofs.«119031_j6846177870362_2_alg».proof.Proof.KI.HostVals
import proofs.«119031_j6846177870362_2_alg».proof.Proof.Gen.KernelIdeal.Regions
import proofs.«119031_j6846177870362_2_alg».proof.Proof.FusedLaw

set_option maxRecDepth 16384

noncomputable section

/-! # The result buffer as a function of the arguments, over any three boundary valuations

The program is: host operations (flatten the state, stack the weights and biases), round 1's region, one host
operation (the new state copied in the matrix unit's format), round 2's region, the read-out's host operations. Let
`X0` be the buffers' contents at launch, `X2` after round 1's region, `X4` after round 2's region. If each region
leaves in its output the fused round of the four operands it was entered with, and leaves the buffers read later
(the stacked weights and biases, the read-out's arguments) as it found them, then the result buffer is the
specification's two fused rounds and read-out of the arguments. -/

namespace Cert.KernelIdeal.ValueChain

open Cert.KernelIdeal Cert.KernelIdeal.Gen
open Idealize.ShloMosaic Idealize.ShloMosaic.TcCoe Idealize.ShloMosaic.ValueIdx
open Idealize.ShloMosaic.StableHlo Idealize.SL.Sem
open Cert.Gru

theorem kerRound4_congr {a a' b b' : SH.Idx → EReal} {w w' : SW4.Idx → EReal} {v v' : SB4.Idx → EReal}
    (ha : a = a') (hb : b = b') (hw : w = w') (hv : v = v') : kerRound4 a b w v = kerRound4 a' b' w' v' := by
  subst ha hb hw hv; rfl

theorem readout_congr {h h' : SH.Idx → EReal} {fcw fcw' : SFW.Idx → EReal} {fcb fcb' : SFB.Idx → EReal}
    (hh : h = h') (hw : fcw = fcw') (hb : fcb = fcb') : readout h fcw fcb = readout h' fcw' fcb' := by
  subst hh hw hb; rfl

theorem chain (X0 X2 X4 : Valuation τ sig (Elt Ideal))
    (r0 : (X2 (Proc.devRef .tc main_v30) : SH.Idx → EReal)
      = kerRound4 (StableHlo.after (hostOps0 (F := Ideal)) X0 (Proc.devRef .tc main_v29))
          (StableHlo.after (hostOps0 (F := Ideal)) X0 (Proc.devRef .tc main_v0))
          (StableHlo.after (hostOps0 (F := Ideal)) X0 (Proc.devRef .tc main_v16))
          (StableHlo.after (hostOps0 (F := Ideal)) X0 (Proc.devRef .tc main_v28)))
    (k16 : X2 (Proc.devRef .tc main_v16) = StableHlo.after (hostOps0 (F := Ideal)) X0 (Proc.devRef .tc main_v16))
    (k28 : X2 (Proc.devRef .tc main_v28) = StableHlo.after (hostOps0 (F := Ideal)) X0 (Proc.devRef .tc main_v28))
    (k5 : X2 (Proc.devRef .tc main_arg5) = StableHlo.after (hostOps0 (F := Ideal)) X0 (Proc.devRef .tc main_arg5))
    (k6 : X2 (Proc.devRef .tc main_arg6) = StableHlo.after (hostOps0 (F := Ideal)) X0 (Proc.devRef .tc main_arg6))
    (r1 : (X4 (Proc.devRef .tc main_v32) : SH.Idx → EReal)
      = kerRound4 (StableHlo.after (hostOps1 (F := Ideal)) X2 (Proc.devRef .tc main_v31))
          (StableHlo.after (hostOps1 (F := Ideal)) X2 (Proc.devRef .tc main_v30))
          (StableHlo.after (hostOps1 (F := Ideal)) X2 (Proc.devRef .tc main_v16))
          (StableHlo.after (hostOps1 (F := Ideal)) X2 (Proc.devRef .tc main_v28)))
    (l5 : X4 (Proc.devRef .tc main_arg5) = StableHlo.after (hostOps1 (F := Ideal)) X2 (Proc.devRef .tc main_arg5))
    (l6 : X4 (Proc.devRef .tc main_arg6) = StableHlo.after (hostOps1 (F := Ideal)) X2 (Proc.devRef .tc main_arg6)) :
    (StableHlo.after (hostOps2 (F := Ideal)) X4 (Proc.devRef .tc main_v37) : SO.Idx → EReal)
      = kerSpec (X0 (Proc.devRef .tc main_arg0)) (X0 (Proc.devRef .tc main_arg1)) (X0 (Proc.devRef .tc main_arg2))
          (X0 (Proc.devRef .tc main_arg3)) (X0 (Proc.devRef .tc main_arg4)) (X0 (Proc.devRef .tc main_arg5))
          (X0 (Proc.devRef .tc main_arg6)) := by
  -- what round 1 is entered with
  have e29 := HostVals.v29_eq X0
  have e0 := HostVals.v0_eq X0
  have e16 := HostVals.v16_eq X0
  have e28 := HostVals.v28_eq X0
  -- round 1's output is the fused round of the flattened state
  have R1 : (X2 (Proc.devRef .tc main_v30) : SH.Idx → EReal)
      = kerRound (flat (X0 (Proc.devRef .tc main_arg0))) (X0 (Proc.devRef .tc main_arg1)) (X0 (Proc.devRef .tc main_arg2))
          (X0 (Proc.devRef .tc main_arg3)) (X0 (Proc.devRef .tc main_arg4)) :=
    r0.trans ((kerRound4_congr e29 e0 e16 e28).trans (kerRound4_fused _ _ _ _ _))
  -- what round 2 is entered with
  have f31 := HostVals.v31_eq X2
  have f30 : StableHlo.after (hostOps1 (F := Ideal)) X2 (Proc.devRef .tc main_v30) = X2 (Proc.devRef .tc main_v30) :=
    StableHlo.after_of_writes_sub hostOps1 _ hostOps1_writes (r := main_v30) (by decide)
  have f16 : StableHlo.after (hostOps1 (F := Ideal)) X2 (Proc.devRef .tc main_v16) = X2 (Proc.devRef .tc main_v16) :=
    StableHlo.after_of_writes_sub hostOps1 _ hostOps1_writes (r := main_v16) (by decide)
  have f28 : StableHlo.after (hostOps1 (F := Ideal)) X2 (Proc.devRef .tc main_v28) = X2 (Proc.devRef .tc main_v28) :=
    StableHlo.after_of_writes_sub hostOps1 _ hostOps1_writes (r := main_v28) (by decide)
  -- round 2's output is the fused round of round 1's
  have R2 : (X4 (Proc.devRef .tc main_v32) : SH.Idx → EReal)
      = kerRound (kerRound (flat (X0 (Proc.devRef .tc main_arg0))) (X0 (Proc.devRef .tc main_arg1))
            (X0 (Proc.devRef .tc main_arg2)) (X0 (Proc.devRef .tc main_arg3)) (X0 (Proc.devRef .tc main_arg4)))
          (X0 (Proc.devRef .tc main_arg1)) (X0 (Proc.devRef .tc main_arg2)) (X0 (Proc.devRef .tc main_arg3))
          (X0 (Proc.devRef .tc main_arg4)) :=
    r1.trans ((kerRound4_congr (f31.trans R1) (f30.trans R1) (f16.trans (k16.trans e16)) (f28.trans (k28.trans e28))).trans
      (kerRound4_fused _ _ _ _ _))
  -- the read-out's two arguments are as launched
  have g5 : X4 (Proc.devRef .tc main_arg5) = X0 (Proc.devRef .tc main_arg5) :=
    l5.trans ((StableHlo.after_of_writes_sub hostOps1 _ hostOps1_writes (r := main_arg5) (by decide)).trans
      (k5.trans (StableHlo.after_of_writes_sub hostOps0 _ hostOps0_writes (r := main_arg5) (by decide))))
  have g6 : X4 (Proc.devRef .tc main_arg6) = X0 (Proc.devRef .tc main_arg6) :=
    l6.trans ((StableHlo.after_of_writes_sub hostOps1 _ hostOps1_writes (r := main_arg6) (by decide)).trans
      (k6.trans (StableHlo.after_of_writes_sub hostOps0 _ hostOps0_writes (r := main_arg6) (by decide))))
  exact (HostVals.v37_eq X4).trans (readout_congr R2 g5 g6)

end Cert.KernelIdeal.ValueChain

end
-- ==== Proof.KI.MainValue.lean ====
import proofs.«119031_j6846177870362_2_alg».proof.Proof.KI.MainRun
import proofs.«119031_j6846177870362_2_alg».proof.Proof.KI.ValueChain

set_option maxRecDepth 16384

noncomputable section

/-! # The kernel program's result buffer is the fused specification of the arguments

The boundary valuations of the whole program's run are instances of the three valuations of the value chain: a
region's output array is what its proof data leaves after the last grid point, an input array of a region is never
written by it, and a buffer that is no array of a region keeps its contents. The two regions' final contents — the
fused round of the four operands the region was entered with — are taken as hypotheses here. -/

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Gru

variable (m : (ℓ : Loc nD τ sig) → Buf (Elt Ideal) ℓ) (ρ : Dev nD → PrngReg)

/-- Round 1's region leaves the stacked weights as it found them: they are an input array. -/
theorem W2_v16 (c : Dev nD) : W2 m ρ c (Proc.devRef .tc main_v16) = W1 m ρ c (Proc.devRef .tc main_v16) :=
  (W2_arr m ρ c 2).trans (((Rgn0.dat (V1 m ρ) c).arrAt_in 2 rfl cfg0.N).trans (Rgn0.A_eq (V1 m ρ) c 2))

/-- Round 1's region leaves the stacked biases as it found them: they are an input array. -/
theorem W2_v28 (c : Dev nD) : W2 m ρ c (Proc.devRef .tc main_v28) = W1 m ρ c (Proc.devRef .tc main_v28) :=
  (W2_arr m ρ c 3).trans (((Rgn0.dat (V1 m ρ) c).arrAt_in 3 rfl cfg0.N).trans (Rgn0.A_eq (V1 m ρ) c 3))

/-- The result buffer, given what each region leaves in its output array. -/
theorem result_eq_of
    (h0 : ∀ (V : (c : Dev nD) → (b : Ref sig .tc) → Buf (Elt Ideal) ((c : Thread nD τ).loc b)) (c : Dev nD),
      ((Rgn0.dat V c).arrAt 4 cfg0.N : SH.Idx → EReal)
        = kerRound4 (V c main_v29) (V c main_v0) (V c main_v16) (V c main_v28))
    (h1 : ∀ (V : (c : Dev nD) → (b : Ref sig .tc) → Buf (Elt Ideal) ((c : Thread nD τ).loc b)) (c : Dev nD),
      ((Rgn1.dat V c).arrAt 4 cfg1.N : SH.Idx → EReal)
        = kerRound4 (V c main_v31) (V c main_v30) (V c main_v16) (V c main_v28))
    (c : Dev nD) :
    (W5 m ρ c (Proc.devRef .tc main_v37) : SO.Idx → EReal)
      = kerSpec (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) :=
  ValueChain.chain (W0 m ρ c) (W2 m ρ c) (W4 m ρ c)
    ((W2_arr m ρ c 4).trans (h0 (V1 m ρ) c))
    (W2_v16 m ρ c) (W2_v28 m ρ c)
    (W2_of_ne m ρ c main_arg5 (by decide)) (W2_of_ne m ρ c main_arg6 (by decide))
    ((W4_arr m ρ c 4).trans (h1 (V3 m ρ) c))
    (W4_of_ne m ρ c main_arg5 (by decide)) (W4_of_ne m ρ c main_arg6 (by decide))

end Cert.KernelIdeal.Whole

end
-- ==== Proof.KI.R0Steps.lean ====
import proofs.«119031_j6846177870362_2_alg».proof.Proof.Gen.KernelIdeal.Skeleton
import Idealize.ShloMosaic.Lib.Pipeline.FrameBody
import Idealize.ShloMosaic.Lib.Pipeline.Value

set_option maxRecDepth 16384

noncomputable section

namespace Cert.KernelIdeal.Rgn0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's arithmetic at one grid point, as pure functions of the staged blocks

An accumulator's update is the accumulator plus the product of the state block with one gate's slab of the staged
weight block; the gate expression takes the four accumulators, the four rows of the staged bias block and the state block. -/

/-- The weights of gate `j` within the staged weight block, and its bias row within the staged bias block, as the body loads them. -/
def wslab0 (x2 : Vec F S4x512x1024 .bf16) : Vec F S1x512x1024 .bf16 :=
  View.ld x2 (Rect.unit (s := S4x512x1024) ![0, 0, 0] S1x512x1024.size inb_S4x512x1024_S1x512x1024_0_0_0)
def brow0 (x3 : Vec F S4x512 .f32) : Vec F S1x512 .f32 :=
  View.ld x3 (Rect.unit (s := S4x512) ![0, 0] S1x512.size inb_S4x512_S1x512_0_0)
def wslab1 (x2 : Vec F S4x512x1024 .bf16) : Vec F S1x512x1024 .bf16 :=
  View.ld x2 (Rect.unit (s := S4x512x1024) ![1, 0, 0] S1x512x1024.size inb_S4x512x1024_S1x512x1024_1_0_0)
def brow1 (x3 : Vec F S4x512 .f32) : Vec F S1x512 .f32 :=
  View.ld x3 (Rect.unit (s := S4x512) ![1, 0] S1x512.size inb_S4x512_S1x512_1_0)
def wslab2 (x2 : Vec F S4x512x1024 .bf16) : Vec F S1x512x1024 .bf16 :=
  View.ld x2 (Rect.unit (s := S4x512x1024) ![2, 0, 0] S1x512x1024.size inb_S4x512x1024_S1x512x1024_2_0_0)
def brow2 (x3 : Vec F S4x512 .f32) : Vec F S1x512 .f32 :=
  View.ld x3 (Rect.unit (s := S4x512) ![2, 0] S1x512.size inb_S4x512_S1x512_2_0)
def wslab3 (x2 : Vec F S4x512x1024 .bf16) : Vec F S1x512x1024 .bf16 :=
  View.ld x2 (Rect.unit (s := S4x512x1024) ![3, 0, 0] S1x512x1024.size inb_S4x512x1024_S1x512x1024_3_0_0)
def brow3 (x3 : Vec F S4x512 .f32) : Vec F S1x512 .f32 :=
  View.ld x3 (Rect.unit (s := S4x512) ![3, 0] S1x512.size inb_S4x512_S1x512_3_0)

/-- One slab's update of each accumulator, and the gate expression. -/
def acc0 (x0 : Vec F S2048x1024 .bf16) (x2 : Vec F S4x512x1024 .bf16) (a : Vec F S2048x512 .f32) : Vec F S2048x512 .f32 :=
  k0_pay9 x0 a (wslab0 x2)
def acc1 (x0 : Vec F S2048x1024 .bf16) (x2 : Vec F S4x512x1024 .bf16) (a : Vec F S2048x512 .f32) : Vec F S2048x512 .f32 :=
  k0_pay10 x0 a (wslab1 x2)
def acc2 (x0 : Vec F S2048x1024 .bf16) (x2 : Vec F S4x512x1024 .bf16) (a : Vec F S2048x512 .f32) : Vec F S2048x512 .f32 :=
  k0_pay1 (k0_pay11 x0 a (wslab2 x2))
def acc3 (x0 : Vec F S2048x1024 .bf16) (x2 : Vec F S4x512x1024 .bf16) (a : Vec F S2048x512 .f32) : Vec F S2048x512 .f32 :=
  k0_pay2 (k0_pay8 x0) a (wslab3 x2)
def gate (x1 : Vec F S2048x512 .f32) (x3 : Vec F S4x512 .f32) (a0 a1 a2 a3 : Vec F S2048x512 .f32) : Vec F S2048x512 .f32 :=
  k0_pay3 (brow0 x3) (brow1 x3) (brow2 x3) (brow3 x3) a0 a1 a2 a3 x1

end Cert.KernelIdeal.Rgn0

end
-- ==== Proof.KI.R0Pieces.lean ====
import proofs.«119031_j6846177870362_2_alg».proof.Proof.KI.R0Frame
import proofs.«119031_j6846177870362_2_alg».proof.Proof.KI.R0Steps
import Idealize.ShloMosaic.Lib.Pipeline.Value

set_option maxRecDepth 16384

noncomputable section

namespace Cert.KernelIdeal.Rgn0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # What each kind of point leaves, as values

The runs' found pieces read back: every buffer the body stores into is stored whole, so what it holds afterwards is the
last store's payload; an accumulator's payload is the accumulator as it was plus the product of the state block with one
slab's weights; at a first slab "as it was" is the zero block just stored; at a last slab the output's payload is the gate
expression of the four updated accumulators, the four bias rows and the state block. -/

theorem hz2 : (![0, 0] : Fin 2 → Nat) = fun _ => 0 := funext fun a => by fin_cases a <;> rfl

/-- A whole accumulator buffer read back is what it holds. -/
theorem rdS_0 (h : (scM_0 : Memref sig .tc .vmem S2048x512 .f32).IsWhole) (x : Vec F S2048x512 .f32) :
    View.read (Elt F) (View.whole cc0_scratch0) (h.unread x) = x := h.read_unread x
theorem rdS_1 (h : (scM_1 : Memref sig .tc .vmem S2048x512 .f32).IsWhole) (x : Vec F S2048x512 .f32) :
    View.read (Elt F) (View.whole cc0_scratch1) (h.unread x) = x := h.read_unread x
theorem rdS_2 (h : (scM_2 : Memref sig .tc .vmem S2048x512 .f32).IsWhole) (x : Vec F S2048x512 .f32) :
    View.read (Elt F) (View.whole cc0_scratch2) (h.unread x) = x := h.read_unread x
theorem rdS_3 (h : (scM_3 : Memref sig .tc .vmem S2048x512 .f32).IsWhole) (x : Vec F S2048x512 .f32) :
    View.read (Elt F) (View.whole cc0_scratch3) (h.unread x) = x := h.read_unread x

theorem stB_0 (c : Dev nD) (t : Fin cfg0.N) (h0 : ¬cond_0 (grid0.coords t)) (h1 : ¬cond_1 (grid0.coords t)) (xs : St F) :
    VS_0.read (Elt F) (VS_0.writes (Elt F) VS_0.junk (runB V c t h0 h1 xs).2.1) = acc0 (iblk V c 0 t) (iblk V c 2 t) xs.2.1 := by
  rw [View.read_writes_eq_canon _ _ _ (scover_B_0 V c t h0 h1 xs)]
  unfold runB kernelRun_B
  dsimp only
  (try sl_unfold_words)
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stA_0 (c : Dev nD) (t : Fin cfg0.N) (h0 : cond_0 (grid0.coords t)) (h1 : ¬cond_1 (grid0.coords t)) :
    VS_0.read (Elt F) (VS_0.writes (Elt F) VS_0.junk (runA V c t h0 h1).2.1) = acc0 (iblk V c 0 t) (iblk V c 2 t) k0_pay4 := by
  rw [View.read_writes_eq_canon _ _ _ (scover_A_0 V c t h0 h1)]
  unfold runA kernelRun_A
  dsimp only
  sl_unfold_words
  rw [View.canon_cons_unit_zero (S := S2048x512) hz2, View.readCov_unit_zero (S := S2048x512) _ hz2]
  simp only [View.readAt_eq_ld, Memref.IsWhole.read_unread, rdS_0, rdS_1, rdS_2, rdS_3, View.ld_unit_zero (S := S2048x512) hz2, View.ld_unit_zero (S := S2048x1024) hz2]
  rfl

theorem stC_0 (c : Dev nD) (t : Fin cfg0.N) (h0 : ¬cond_0 (grid0.coords t)) (h1 : cond_1 (grid0.coords t)) (xs : St F) :
    VS_0.read (Elt F) (VS_0.writes (Elt F) VS_0.junk (runC V c t h0 h1 xs).2.1) = acc0 (iblk V c 0 t) (iblk V c 2 t) xs.2.1 := by
  rw [View.read_writes_eq_canon _ _ _ (scover_C_0 V c t h0 h1 xs)]
  unfold runC kernelRun_C
  dsimp only
  sl_unfold_words
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stB_1 (c : Dev nD) (t : Fin cfg0.N) (h0 : ¬cond_0 (grid0.coords t)) (h1 : ¬cond_1 (grid0.coords t)) (xs : St F) :
    VS_1.read (Elt F) (VS_1.writes (Elt F) VS_1.junk (runB V c t h0 h1 xs).2.2.1) = acc1 (iblk V c 0 t) (iblk V c 2 t) xs.2.2.1 := by
  rw [View.read_writes_eq_canon _ _ _ (scover_B_1 V c t h0 h1 xs)]
  unfold runB kernelRun_B
  dsimp only
  (try sl_unfold_words)
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stA_1 (c : Dev nD) (t : Fin cfg0.N) (h0 : cond_0 (grid0.coords t)) (h1 : ¬cond_1 (grid0.coords t)) :
    VS_1.read (Elt F) (VS_1.writes (Elt F) VS_1.junk (runA V c t h0 h1).2.2.1) = acc1 (iblk V c 0 t) (iblk V c 2 t) k0_pay5 := by
  rw [View.read_writes_eq_canon _ _ _ (scover_A_1 V c t h0 h1)]
  unfold runA kernelRun_A
  dsimp only
  sl_unfold_words
  rw [View.canon_cons_unit_zero (S := S2048x512) hz2, View.readCov_unit_zero (S := S2048x512) _ hz2]
  simp only [View.readAt_eq_ld, Memref.IsWhole.read_unread, rdS_0, rdS_1, rdS_2, rdS_3, View.ld_unit_zero (S := S2048x512) hz2, View.ld_unit_zero (S := S2048x1024) hz2]
  rfl

theorem stC_1 (c : Dev nD) (t : Fin cfg0.N) (h0 : ¬cond_0 (grid0.coords t)) (h1 : cond_1 (grid0.coords t)) (xs : St F) :
    VS_1.read (Elt F) (VS_1.writes (Elt F) VS_1.junk (runC V c t h0 h1 xs).2.2.1) = acc1 (iblk V c 0 t) (iblk V c 2 t) xs.2.2.1 := by
  rw [View.read_writes_eq_canon _ _ _ (scover_C_1 V c t h0 h1 xs)]
  unfold runC kernelRun_C
  dsimp only
  sl_unfold_words
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stB_2 (c : Dev nD) (t : Fin cfg0.N) (h0 : ¬cond_0 (grid0.coords t)) (h1 : ¬cond_1 (grid0.coords t)) (xs : St F) :
    VS_2.read (Elt F) (VS_2.writes (Elt F) VS_2.junk (runB V c t h0 h1 xs).2.2.2.1) = acc2 (iblk V c 0 t) (iblk V c 2 t) xs.2.2.2.1 := by
  rw [View.read_writes_eq_canon _ _ _ (scover_B_2 V c t h0 h1 xs)]
  unfold runB kernelRun_B
  dsimp only
  (try sl_unfold_words)
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stA_2 (c : Dev nD) (t : Fin cfg0.N) (h0 : cond_0 (grid0.coords t)) (h1 : ¬cond_1 (grid0.coords t)) :
    VS_2.read (Elt F) (VS_2.writes (Elt F) VS_2.junk (runA V c t h0 h1).2.2.2.1) = acc2 (iblk V c 0 t) (iblk V c 2 t) k0_pay6 := by
  rw [View.read_writes_eq_canon _ _ _ (scover_A_2 V c t h0 h1)]
  unfold runA kernelRun_A
  dsimp only
  sl_unfold_words
  rw [View.canon_cons_unit_zero (S := S2048x512) hz2, View.readCov_unit_zero (S := S2048x512) _ hz2]
  simp only [View.readAt_eq_ld, Memref.IsWhole.read_unread, rdS_0, rdS_1, rdS_2, rdS_3, View.ld_unit_zero (S := S2048x512) hz2, View.ld_unit_zero (S := S2048x1024) hz2]
  rfl

theorem stC_2 (c : Dev nD) (t : Fin cfg0.N) (h0 : ¬cond_0 (grid0.coords t)) (h1 : cond_1 (grid0.coords t)) (xs : St F) :
    VS_2.read (Elt F) (VS_2.writes (Elt F) VS_2.junk (runC V c t h0 h1 xs).2.2.2.1) = acc2 (iblk V c 0 t) (iblk V c 2 t) xs.2.2.2.1 := by
  rw [View.read_writes_eq_canon _ _ _ (scover_C_2 V c t h0 h1 xs)]
  unfold runC kernelRun_C
  dsimp only
  sl_unfold_words
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stB_3 (c : Dev nD) (t : Fin cfg0.N) (h0 : ¬cond_0 (grid0.coords t)) (h1 : ¬cond_1 (grid0.coords t)) (xs : St F) :
    VS_3.read (Elt F) (VS_3.writes (Elt F) VS_3.junk (runB V c t h0 h1 xs).2.2.2.2.1) = acc3 (iblk V c 0 t) (iblk V c 2 t) xs.2.2.2.2 := by
  rw [View.read_writes_eq_canon _ _ _ (scover_B_3 V c t h0 h1 xs)]
  unfold runB kernelRun_B
  dsimp only
  (try sl_unfold_words)
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stA_3 (c : Dev nD) (t : Fin cfg0.N) (h0 : cond_0 (grid0.coords t)) (h1 : ¬cond_1 (grid0.coords t)) :
    VS_3.read (Elt F) (VS_3.writes (Elt F) VS_3.junk (runA V c t h0 h1).2.2.2.2.1) = acc3 (iblk V c 0 t) (iblk V c 2 t) k0_pay7 := by
  rw [View.read_writes_eq_canon _ _ _ (scover_A_3 V c t h0 h1)]
  unfold runA kernelRun_A
  dsimp only
  sl_unfold_words
  rw [View.canon_cons_unit_zero (S := S2048x512) hz2, View.readCov_unit_zero (S := S2048x512) _ hz2]
  simp only [View.readAt_eq_ld, Memref.IsWhole.read_unread, rdS_0, rdS_1, rdS_2, rdS_3, View.ld_unit_zero (S := S2048x512) hz2, View.ld_unit_zero (S := S2048x1024) hz2]
  rfl

theorem stC_3 (c : Dev nD) (t : Fin cfg0.N) (h0 : ¬cond_0 (grid0.coords t)) (h1 : cond_1 (grid0.coords t)) (xs : St F) :
    VS_3.read (Elt F) (VS_3.writes (Elt F) VS_3.junk (runC V c t h0 h1 xs).2.2.2.2.1) = acc3 (iblk V c 0 t) (iblk V c 2 t) xs.2.2.2.2 := by
  rw [View.read_writes_eq_canon _ _ _ (scover_C_3 V c t h0 h1 xs)]
  unfold runC kernelRun_C
  dsimp only
  sl_unfold_words
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stC_out (c : Dev nD) (t : Fin cfg0.N) (h0 : ¬cond_0 (grid0.coords t)) (h1 : cond_1 (grid0.coords t)) (xs : St F) :
    VO_4.read (Elt F) (VO_4.writes (Elt F) VO_4.junk (runC V c t h0 h1 xs).1) = gate (iblk V c 1 t) (iblk V c 3 t)
      (acc0 (iblk V c 0 t) (iblk V c 2 t) xs.2.1) (acc1 (iblk V c 0 t) (iblk V c 2 t) xs.2.2.1)
      (acc2 (iblk V c 0 t) (iblk V c 2 t) xs.2.2.2.1) (acc3 (iblk V c 0 t) (iblk V c 2 t) xs.2.2.2.2) := by
  rw [View.read_writes_eq_canon _ _ _ (cover_C_4 V c t h0 h1 xs)]
  unfold runC kernelRun_C
  dsimp only
  sl_unfold_words
  rw [View.canon_unit_zero hz2]
  simp only [View.readCov_unit_zero (S := S2048x512) _ hz2]
  simp only [View.readAt_eq_ld, Memref.IsWhole.read_unread, rdS_0, rdS_1, rdS_2, rdS_3, View.ld_unit_zero (S := S2048x512) hz2, View.ld_unit_zero (S := S2048x1024) hz2]
  rfl

end Cert.KernelIdeal.Rgn0

end
-- ==== Proof.KI.R0Idx.lean ====
import proofs.«119031_j6846177870362_2_alg».proof.Proof.KI.R0Runs

set_option maxRecDepth 16384

noncomputable section

namespace Cert.KernelIdeal.Rgn0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Where each window's block sits at a grid point

Point `t` is slab `t % 4` of output block `t / 4`; output block `g` is row block `g / 8`, column block `g % 8`. -/

theorem idx_facts : ∀ t : Fin cfg0.N,
    win0_0.index t (0 : Fin 2) = t.val / 4 / 8 ∧ win0_0.index t (1 : Fin 2) = t.val % 4
    ∧ win0_1.index t (0 : Fin 2) = t.val / 4 / 8 ∧ win0_1.index t (1 : Fin 2) = t.val / 4 % 8
    ∧ win0_2.index t (0 : Fin 3) = 0 ∧ win0_2.index t (1 : Fin 3) = t.val / 4 % 8 ∧ win0_2.index t (2 : Fin 3) = t.val % 4
    ∧ win0_3.index t (0 : Fin 2) = 0 ∧ win0_3.index t (1 : Fin 2) = t.val / 4 % 8
    ∧ win0_4.index t (0 : Fin 2) = t.val / 4 / 8 ∧ win0_4.index t (1 : Fin 2) = t.val / 4 % 8 :=
  (by decide +kernel : ∀ t : Fin grid0.N, _)

end Cert.KernelIdeal.Rgn0

end
-- ==== Proof.KI.R0Blocks.lean ====
import proofs.«119031_j6846177870362_2_alg».proof.Proof.KI.R0Idx
import Idealize.ShloMosaic.Lib.Pipeline.Value
import Idealize.ShloMosaic.Lib.ValueIdx

set_option maxRecDepth 16384

noncomputable section

namespace Cert.KernelIdeal.Rgn0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! # The blocks of round 1's windows, by coordinates

Grid point `t` works on row block `t / 4 / 8` (2048 rows), column block `t / 4 % 8` (512 columns) and slab `t % 4`
(1024 columns of the contraction). Each window's block at `t`, read at a position inside the block, is its array at
the block's offset plus the position; the output's blocks, written back at the last slab of each group of four, tile
the whole output. -/

theorem t_lt (t : Fin cfg0.N) : t.val < 64 := Nat.lt_of_lt_of_eq t.isLt (Gen.N_0 : cfg0.N = 64)

/-- Row `p` of point `t`'s row block, in the array. -/
def rowOf (t : Fin cfg0.N) (p : Fin 2048) : Fin 4096 :=
  ⟨t.val / 4 / 8 * 2048 + p.val, by have := t_lt t; have := p.isLt; omega⟩
/-- Column `q` of point `t`'s column block, in the array. -/
def colOf (t : Fin cfg0.N) (q : Fin 512) : Fin 4096 :=
  ⟨t.val / 4 % 8 * 512 + q.val, by have := q.isLt; omega⟩
/-- Column `kk` of point `t`'s slab of the contraction, in the array. -/
def kOf (t : Fin cfg0.N) (kk : Fin 1024) : Fin 4096 :=
  ⟨t.val % 4 * 1024 + kk.val, by have := kk.isLt; omega⟩

/-- The state in the matrix unit's format: rows of the row block, columns of the slab. -/
theorem iblk_0_apply (c : Dev nD) (t : Fin cfg0.N) (p : Fin 2048) (kk : Fin 1024) :
    (iblk V c 0 t : S2048x1024.Idx → Elt F .bf16) (ix2 p kk) = V c main_v29 (ix2 (rowOf t p) (kOf t kk)) := by
  obtain ⟨e00, e01, e10, e11, e20, e21, e22, e30, e31, e40, e41⟩ := idx_facts t
  unfold iblk
  rw [View.read_apply]
  show V c main_v29 _ = V c main_v29 _
  refine congrArg (V c main_v29) (funext fun a => Fin.ext ?_)
  match a with
  | ⟨0, _⟩ => show win0_0.index t (0 : Fin 2) * 2048 + 1 * p.val = t.val / 4 / 8 * 2048 + p.val; rw [e00]; omega
  | ⟨1, _⟩ => show win0_0.index t (1 : Fin 2) * 1024 + 1 * kk.val = t.val % 4 * 1024 + kk.val; rw [e01]; omega

/-- The state itself: rows of the row block, columns of the column block. -/
theorem iblk_1_apply (c : Dev nD) (t : Fin cfg0.N) (p : Fin 2048) (q : Fin 512) :
    (iblk V c 1 t : S2048x512.Idx → Elt F .f32) (ix2 p q) = V c main_v0 (ix2 (rowOf t p) (colOf t q)) := by
  obtain ⟨e00, e01, e10, e11, e20, e21, e22, e30, e31, e40, e41⟩ := idx_facts t
  unfold iblk
  rw [View.read_apply]
  show V c main_v0 _ = V c main_v0 _
  refine congrArg (V c main_v0) (funext fun a => Fin.ext ?_)
  match a with
  | ⟨0, _⟩ => show win0_1.index t (0 : Fin 2) * 2048 + 1 * p.val = t.val / 4 / 8 * 2048 + p.val; rw [e10]; omega
  | ⟨1, _⟩ => show win0_1.index t (1 : Fin 2) * 512 + 1 * q.val = t.val / 4 % 8 * 512 + q.val; rw [e11]; omega

/-- The stacked weights: all four matrices, rows of the column block, columns of the slab. -/
theorem iblk_2_apply (c : Dev nD) (t : Fin cfg0.N) (g : Fin 4) (q : Fin 512) (kk : Fin 1024) :
    (iblk V c 2 t : S4x512x1024.Idx → Elt F .bf16) (ix3 g q kk) = V c main_v16 (ix3 g (colOf t q) (kOf t kk)) := by
  obtain ⟨e00, e01, e10, e11, e20, e21, e22, e30, e31, e40, e41⟩ := idx_facts t
  unfold iblk
  rw [View.read_apply]
  show V c main_v16 _ = V c main_v16 _
  refine congrArg (V c main_v16) (funext fun a => Fin.ext ?_)
  match a with
  | ⟨0, _⟩ => show win0_2.index t (0 : Fin 3) * 4 + 1 * g.val = g.val; rw [e20]; omega
  | ⟨1, _⟩ => show win0_2.index t (1 : Fin 3) * 512 + 1 * q.val = t.val / 4 % 8 * 512 + q.val; rw [e21]; omega
  | ⟨2, _⟩ => show win0_2.index t (2 : Fin 3) * 1024 + 1 * kk.val = t.val % 4 * 1024 + kk.val; rw [e22]; omega

/-- The stacked biases: all four rows, columns of the column block. -/
theorem iblk_3_apply (c : Dev nD) (t : Fin cfg0.N) (g : Fin 4) (q : Fin 512) :
    (iblk V c 3 t : S4x512.Idx → Elt F .f32) (ix2 g q) = V c main_v28 (ix2 g (colOf t q)) := by
  obtain ⟨e00, e01, e10, e11, e20, e21, e22, e30, e31, e40, e41⟩ := idx_facts t
  unfold iblk
  rw [View.read_apply]
  show V c main_v28 _ = V c main_v28 _
  refine congrArg (V c main_v28) (funext fun a => Fin.ext ?_)
  match a with
  | ⟨0, _⟩ => show win0_3.index t (0 : Fin 2) * 4 + 1 * g.val = g.val; rw [e30]; omega
  | ⟨1, _⟩ => show win0_3.index t (1 : Fin 2) * 512 + 1 * q.val = t.val / 4 % 8 * 512 + q.val; rw [e31]; omega

/-- A whole-array function read through the output's block at `t`: rows of the row block, columns of the column block. -/
theorem blk4_read (G : S4096x4096.Idx → Elt F .f32) (t : Fin cfg0.N) (p : Fin 2048) (q : Fin 512) :
    (((cfg0.win 4).blk t).view.read (Elt F) G : S2048x512.Idx → Elt F .f32) (ix2 p q) = G (ix2 (rowOf t p) (colOf t q)) := by
  obtain ⟨e00, e01, e10, e11, e20, e21, e22, e30, e31, e40, e41⟩ := idx_facts t
  rw [View.read_apply]
  show G _ = G _
  refine congrArg G (funext fun a => Fin.ext ?_)
  match a with
  | ⟨0, _⟩ => show win0_4.index t (0 : Fin 2) * 2048 + 1 * p.val = t.val / 4 / 8 * 2048 + p.val; rw [e40]; omega
  | ⟨1, _⟩ => show win0_4.index t (1 : Fin 2) * 512 + 1 * q.val = t.val / 4 % 8 * 512 + q.val; rw [e41]; omega

/-- An index of the output is in point `t`'s block iff each coordinate is in the block's range on its axis. -/
theorem mem_blk4 (t : Fin cfg0.N) (i : S4096x4096.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v30).slice (win0_4.rect t)).set ↔ _
  rw [View.set_slice_whole, Rect.mem_set_unit]
  exact Iff.rfl

/-- Every index of the output lies in the block some point writes back: the last slab's point of its row and column
    blocks. -/
theorem cover4 (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hlt : ((i 0).val / 2048 * 8 + (i 1).val / 512) * 4 + 3 < cfg0.N :=
    Nat.lt_of_lt_of_eq (by omega : ((i 0).val / 2048 * 8 + (i 1).val / 512) * 4 + 3 < 64) (Gen.N_0 : cfg0.N = 64).symm
  refine ⟨⟨((i 0).val / 2048 * 8 + (i 1).val / 512) * 4 + 3, hlt⟩, (flush0_4 _).2 (by show (((i 0).val / 2048 * 8 + (i 1).val / 512) * 4 + 3) % 4 = 3; omega), ?_⟩
  obtain ⟨e00, e01, e10, e11, e20, e21, e22, e30, e31, e40, e41⟩ := idx_facts (⟨((i 0).val / 2048 * 8 + (i 1).val / 512) * 4 + 3, hlt⟩ : Fin cfg0.N)
  rw [mem_blk4]
  intro a
  match a with
  | ⟨0, _⟩ =>
    show win0_4.index _ (0 : Fin 2) * 2048 ≤ (i 0).val ∧ (i 0).val < win0_4.index _ (0 : Fin 2) * 2048 + 2048
    rw [e40]
    show (((i 0).val / 2048 * 8 + (i 1).val / 512) * 4 + 3) / 4 / 8 * 2048 ≤ (i 0).val ∧ (i 0).val < (((i 0).val / 2048 * 8 + (i 1).val / 512) * 4 + 3) / 4 / 8 * 2048 + 2048
    omega
  | ⟨1, _⟩ =>
    show win0_4.index _ (1 : Fin 2) * 512 ≤ (i 1).val ∧ (i 1).val < win0_4.index _ (1 : Fin 2) * 512 + 512
    rw [e41]
    show (((i 0).val / 2048 * 8 + (i 1).val / 512) * 4 + 3) / 4 % 8 * 512 ≤ (i 1).val ∧ (i 1).val < (((i 0).val / 2048 * 8 + (i 1).val / 512) * 4 + 3) / 4 % 8 * 512 + 512
    omega

end Cert.KernelIdeal.Rgn0

end
-- ==== Proof.KI.Payload.lean ====
import proofs.«119031_j6846177870362_2_alg».proof.Proof.Gen.KernelIdeal.Skeleton
import proofs.«119031_j6846177870362_2_alg».proof.Proof.SpecK
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Payload

open Cert.KernelIdeal Cert.KernelIdeal.Gen
open Idealize.ShloMosaic Idealize.ShloMosaic.ValueIdx
open Cert.Gru

/-! # The round kernel's arithmetic, read at an index

A slab's matrix product into a zero accumulator is the sum over the slab's 1024 columns of the state's entry times the
weight's; an accumulator's update adds it to what was there; the gates' formula is applied entry by entry, the bias
rows spread over the 2048 rows of the block. -/

/-- The word `0x3F800000` is the number one. -/
theorem ofBits_one : Ideal.ofBits .f32 0x3F800000#32 = 1 := by
  simp [Ideal.ofBits, Ideal.ieee, -EReal.coe_mul]; norm_num

theorem mm_lhs0 (i : S2048x512.Idx) (t : dot_S2048x1024_S512x1024_S2048x512_1_1_0_0_n_n.contr.Idx) :
    (dot_S2048x1024_S512x1024_S2048x512_1_1_0_0_n_n.lhsIdx i t 0).val = (i 0).val := by
  unfold DotDims.lhsIdx
  rw [dif_neg (show ¬(0 : Fin S2048x1024.rank) ∈ dot_S2048x1024_S512x1024_S2048x512_1_1_0_0_n_n.lhsBatch by decide), dif_pos (show (0 : Fin S2048x1024.rank) ∈ dot_S2048x1024_S512x1024_S2048x512_1_1_0_0_n_n.lhsNonContracting by decide)]
  rfl
theorem mm_lhs1 (i : S2048x512.Idx) (t : dot_S2048x1024_S512x1024_S2048x512_1_1_0_0_n_n.contr.Idx) :
    (dot_S2048x1024_S512x1024_S2048x512_1_1_0_0_n_n.lhsIdx i t 1).val = (t ⟨0, by decide⟩).val :=
  dot_S2048x1024_S512x1024_S2048x512_1_1_0_0_n_n.lhsIdx_val_of_single rfl i t
theorem mm_rhs0 (i : S2048x512.Idx) (t : dot_S2048x1024_S512x1024_S2048x512_1_1_0_0_n_n.contr.Idx) :
    (dot_S2048x1024_S512x1024_S2048x512_1_1_0_0_n_n.rhsIdx i t 0).val = (i 1).val := by
  unfold DotDims.rhsIdx
  rw [dif_neg (show ¬(0 : Fin S512x1024.rank) ∈ dot_S2048x1024_S512x1024_S2048x512_1_1_0_0_n_n.rhsBatch by decide), dif_pos (show (0 : Fin S512x1024.rank) ∈ dot_S2048x1024_S512x1024_S2048x512_1_1_0_0_n_n.rhsNonContracting by decide)]
  rfl
theorem mm_rhs1 (i : S2048x512.Idx) (t : dot_S2048x1024_S512x1024_S2048x512_1_1_0_0_n_n.contr.Idx) :
    (dot_S2048x1024_S512x1024_S2048x512_1_1_0_0_n_n.rhsIdx i t 1).val = (t ⟨0, by decide⟩).val :=
  dot_S2048x1024_S512x1024_S2048x512_1_1_0_0_n_n.rhsIdx_val_of_single rfl i t

/-- A slab's matrix product into the zero accumulator, at row `p`, column `q`: the state's row times the weight's row. -/
theorem slab_matmul_apply (lhs : FVec Ideal S2048x1024 .bf16) (rhs : FVec Ideal S512x1024 .bf16) (p : Fin 2048) (q : Fin 512) :
    matmul dot_S2048x1024_S512x1024_S2048x512_1_1_0_0_n_n none lhs rhs (constant (F := Ideal) S2048x512 .f32 0x00000000#32) (ix2 p q)
      = ∑ kk : Fin 1024, lhs (ix2 p kk) * rhs (ix2 q kk) := by
  simp only [matmul]
  rw [Ideal.matmul_constant_zero_apply, ← Equiv.sum_comp (ValueIdx.contrEquiv1 dot_S2048x1024_S512x1024_S2048x512_1_1_0_0_n_n 1024 rfl rfl).symm]
  refine Finset.sum_congr rfl fun k _ => ?_
  have hk := ValueIdx.contrEquiv1_symm_val dot_S2048x1024_S512x1024_S2048x512_1_1_0_0_n_n 1024 rfl rfl k
  have el : dot_S2048x1024_S512x1024_S2048x512_1_1_0_0_n_n.lhsIdx (ix2 p q) ((ValueIdx.contrEquiv1 dot_S2048x1024_S512x1024_S2048x512_1_1_0_0_n_n 1024 rfl rfl).symm k) = ix2 p k := funext fun a => Fin.ext (by
    match a with
    | ⟨0, _⟩ => exact mm_lhs0 _ _
    | ⟨1, _⟩ => exact (mm_lhs1 _ _).trans hk)
  have er : dot_S2048x1024_S512x1024_S2048x512_1_1_0_0_n_n.rhsIdx (ix2 p q) ((ValueIdx.contrEquiv1 dot_S2048x1024_S512x1024_S2048x512_1_1_0_0_n_n 1024 rfl rfl).symm k) = ix2 q k := funext fun a => Fin.ext (by
    match a with
    | ⟨0, _⟩ => exact mm_rhs0 _ _
    | ⟨1, _⟩ => exact (mm_rhs1 _ _).trans hk)
  rw [el, er]

/-- An accumulator's update at an index: what was there plus the slab's product. The state block is loaded as it
    is, the weight slab with its leading unit axis dropped. -/
theorem acc_update_apply (v3 : FVec Ideal S2048x1024 .bf16) (v5 : FVec Ideal S2048x512 .f32) (v6 : FVec Ideal S1x512x1024 .bf16)
    (p : Fin 2048) (q : Fin 512) :
    (addf (F := Ideal) v5 (matmul dot_S2048x1024_S512x1024_S2048x512_1_1_0_0_n_n none
        (shapeCast S2048x1024 v3 shapeCasts_S2048x1024_S2048x1024) (shapeCast S512x1024 v6 shapeCasts_S1x512x1024_S512x1024)
        (constant (F := Ideal) S2048x512 .f32 0x00000000#32))) (ix2 p q)
      = v5 (ix2 p q) + ∑ kk : Fin 1024, v3 (ix2 p kk) * v6 (ix3 0 q kk) := by
  show v5 (ix2 p q) + matmul dot_S2048x1024_S512x1024_S2048x512_1_1_0_0_n_n none _ _ _ (ix2 p q) = _
  refine congrArg (v5 (ix2 p q) + ·) ?_
  rw [shapeCast_self]
  refine (slab_matmul_apply v3 _ p q).trans (Finset.sum_congr rfl fun kk _ => congrArg (v3 (ix2 p kk) * ·) ?_)
  exact shapeCast_1ab_ab_apply v6 shapeCasts_S1x512x1024_S512x1024 q kk

/-- A bias row through its two casts and spread over the block's rows: the row's entry at the column. -/
theorem bias_spread_apply (v : FVec Ideal S1x512 .f32) (p : Fin 2048) (q : Fin 512) :
    broadcastTo S2048x512 (shapeCast S1x512 (shapeCast S512 v shapeCasts_S1x512_S512) shapeCasts_S512_S1x512) broadcasts_S1x512_S2048x512 (ix2 p q) = v (ix2 0 q) :=
  (broadcastTo_1b_ab_apply _ broadcasts_S1x512_S2048x512 p q).trans
    ((shapeCast_a_1a_apply _ shapeCasts_S512_S1x512 0 q).trans (shapeCast_1a_a_apply v shapeCasts_S1x512_S512 q))

/-! ## The arithmetic of the first round's kernel -/

theorem k0_pay8_eq (v3 : Vec Ideal S2048x1024 .bf16) : k0_pay8 v3 = v3 := by
  unfold k0_pay8
  exact shapeCast_self v3 _

theorem k0_pay9_apply (v3 : Vec Ideal S2048x1024 .bf16) (v5 : Vec Ideal S2048x512 .f32) (v6 : Vec Ideal S1x512x1024 .bf16)
    (p : Fin 2048) (q : Fin 512) :
    k0_pay9 v3 v5 v6 (ix2 p q) = v5 (ix2 p q) + ∑ kk : Fin 1024, v3 (ix2 p kk) * v6 (ix3 0 q kk) := by
  unfold k0_pay9 k0_pay8
  refine (congrFun (shapeCast_self _ shapeCasts_S2048x512_S2048x512) (ix2 p q)).trans ?_
  exact acc_update_apply v3 v5 v6 p q

theorem k0_pay10_apply (v3 : Vec Ideal S2048x1024 .bf16) (v13 : Vec Ideal S2048x512 .f32) (v14 : Vec Ideal S1x512x1024 .bf16)
    (p : Fin 2048) (q : Fin 512) :
    k0_pay10 v3 v13 v14 (ix2 p q) = v13 (ix2 p q) + ∑ kk : Fin 1024, v3 (ix2 p kk) * v14 (ix3 0 q kk) := by
  unfold k0_pay10 k0_pay8
  refine (congrFun (shapeCast_self _ shapeCasts_S2048x512_S2048x512) (ix2 p q)).trans ?_
  exact acc_update_apply v3 v13 v14 p q

theorem k0_pay11_apply (v3 : Vec Ideal S2048x1024 .bf16) (v21 : Vec Ideal S2048x512 .f32) (v22 : Vec Ideal S1x512x1024 .bf16)
    (p : Fin 2048) (q : Fin 512) :
    k0_pay11 v3 v21 v22 (ix2 p q) = v21 (ix2 p q) + ∑ kk : Fin 1024, v3 (ix2 p kk) * v22 (ix3 0 q kk) := by
  unfold k0_pay11 k0_pay8
  exact acc_update_apply v3 v21 v22 p q

theorem k0_pay1_pay11_apply (v3 : Vec Ideal S2048x1024 .bf16) (v21 : Vec Ideal S2048x512 .f32) (v22 : Vec Ideal S1x512x1024 .bf16)
    (p : Fin 2048) (q : Fin 512) :
    k0_pay1 (k0_pay11 v3 v21 v22) (ix2 p q) = v21 (ix2 p q) + ∑ kk : Fin 1024, v3 (ix2 p kk) * v22 (ix3 0 q kk) := by
  unfold k0_pay1
  refine (congrFun (shapeCast_self _ shapeCasts_S2048x512_S2048x512) (ix2 p q)).trans ?_
  exact k0_pay11_apply v3 v21 v22 p q

theorem k0_pay2_pay8_apply (v3 : Vec Ideal S2048x1024 .bf16) (v29 : Vec Ideal S2048x512 .f32) (v30 : Vec Ideal S1x512x1024 .bf16)
    (p : Fin 2048) (q : Fin 512) :
    k0_pay2 (k0_pay8 v3) v29 v30 (ix2 p q) = v29 (ix2 p q) + ∑ kk : Fin 1024, v3 (ix2 p kk) * v30 (ix3 0 q kk) := by
  unfold k0_pay2 k0_pay8
  refine (congrFun (shapeCast_self _ shapeCasts_S2048x512_S2048x512) (ix2 p q)).trans ?_
  exact acc_update_apply v3 v29 v30 p q

theorem k0_pay4_apply (i : S2048x512.Idx) : k0_pay4 (F := Ideal) i = 0 := by
  unfold k0_pay4
  refine (congrFun (shapeCast_self _ shapeCasts_S2048x512_S2048x512) i).trans ?_
  exact Ideal.ofBits_zero_f32
theorem k0_pay5_apply (i : S2048x512.Idx) : k0_pay5 (F := Ideal) i = 0 := by
  unfold k0_pay5
  refine (congrFun (shapeCast_self _ shapeCasts_S2048x512_S2048x512) i).trans ?_
  exact Ideal.ofBits_zero_f32
theorem k0_pay6_apply (i : S2048x512.Idx) : k0_pay6 (F := Ideal) i = 0 := by
  unfold k0_pay6
  refine (congrFun (shapeCast_self _ shapeCasts_S2048x512_S2048x512) i).trans ?_
  exact Ideal.ofBits_zero_f32
theorem k0_pay7_apply (i : S2048x512.Idx) : k0_pay7 (F := Ideal) i = 0 := by
  unfold k0_pay7
  refine (congrFun (shapeCast_self _ shapeCasts_S2048x512_S2048x512) i).trans ?_
  exact Ideal.ofBits_zero_f32

/-- The gates at an index: reset `r`, update `z`, candidate `n`, new state `(1 − z) · n + z · h`. -/
theorem k0_pay3_apply (v40 v43 v46 v49 : Vec Ideal S1x512 .f32) (v52 v56 v60 v63 v69 : Vec Ideal S2048x512 .f32)
    (p : Fin 2048) (q : Fin 512) :
    k0_pay3 v40 v43 v46 v49 v52 v56 v60 v63 v69 (ix2 p q)
      = (1 - Ideal.logistic (v56 (ix2 p q) + v43 (ix2 0 q)))
          * Ideal.tanh (v60 (ix2 p q) + v46 (ix2 0 q)
              + Ideal.logistic (v52 (ix2 p q) + v40 (ix2 0 q)) * (v63 (ix2 p q) + v49 (ix2 0 q)))
        + Ideal.logistic (v56 (ix2 p q) + v43 (ix2 0 q)) * v69 (ix2 p q) := by
  have e40 := bias_spread_apply v40 p q
  have e43 := bias_spread_apply v43 p q
  have e46 := bias_spread_apply v46 p q
  have e49 := bias_spread_apply v49 p q
  have e69 : shapeCast S2048x512 v69 shapeCasts_S2048x512_S2048x512 (ix2 p q) = v69 (ix2 p q) :=
    congrFun (shapeCast_self v69 _) _
  unfold k0_pay3
  show (Ideal.ofBits .f32 0x3F800000#32 - Ideal.logistic (v56 (ix2 p q) + broadcastTo S2048x512 (shapeCast S1x512 (shapeCast S512 v43 shapeCasts_S1x512_S512) shapeCasts_S512_S1x512) broadcasts_S1x512_S2048x512 (ix2 p q)))
          * Ideal.tanh (v60 (ix2 p q) + broadcastTo S2048x512 (shapeCast S1x512 (shapeCast S512 v46 shapeCasts_S1x512_S512) shapeCasts_S512_S1x512) broadcasts_S1x512_S2048x512 (ix2 p q)
              + Ideal.logistic (v52 (ix2 p q) + broadcastTo S2048x512 (shapeCast S1x512 (shapeCast S512 v40 shapeCasts_S1x512_S512) shapeCasts_S512_S1x512) broadcasts_S1x512_S2048x512 (ix2 p q)) * (v63 (ix2 p q) + broadcastTo S2048x512 (shapeCast S1x512 (shapeCast S512 v49 shapeCasts_S1x512_S512) shapeCasts_S512_S1x512) broadcasts_S1x512_S2048x512 (ix2 p q)))
        + Ideal.logistic (v56 (ix2 p q) + broadcastTo S2048x512 (shapeCast S1x512 (shapeCast S512 v43 shapeCasts_S1x512_S512) shapeCasts_S512_S1x512) broadcasts_S1x512_S2048x512 (ix2 p q)) * shapeCast S2048x512 v69 shapeCasts_S2048x512_S2048x512 (ix2 p q) = _
  rw [e40, e43, e46, e49, e69, ofBits_one]

/-! ## The arithmetic of the second round's kernel (the same terms under its own names) -/

theorem k1_pay8_eq (v3 : Vec Ideal S2048x1024 .bf16) : k1_pay8 v3 = v3 := by
  unfold k1_pay8
  exact shapeCast_self v3 _

theorem k1_pay9_apply (v3 : Vec Ideal S2048x1024 .bf16) (v5 : Vec Ideal S2048x512 .f32) (v6 : Vec Ideal S1x512x1024 .bf16)
    (p : Fin 2048) (q : Fin 512) :
    k1_pay9 v3 v5 v6 (ix2 p q) = v5 (ix2 p q) + ∑ kk : Fin 1024, v3 (ix2 p kk) * v6 (ix3 0 q kk) := by
  unfold k1_pay9 k1_pay8
  refine (congrFun (shapeCast_self _ shapeCasts_S2048x512_S2048x512) (ix2 p q)).trans ?_
  exact acc_update_apply v3 v5 v6 p q

theorem k1_pay10_apply (v3 : Vec Ideal S2048x1024 .bf16) (v13 : Vec Ideal S2048x512 .f32) (v14 : Vec Ideal S1x512x1024 .bf16)
    (p : Fin 2048) (q : Fin 512) :
    k1_pay10 v3 v13 v14 (ix2 p q) = v13 (ix2 p q) + ∑ kk : Fin 1024, v3 (ix2 p kk) * v14 (ix3 0 q kk) := by
  unfold k1_pay10 k1_pay8
  refine (congrFun (shapeCast_self _ shapeCasts_S2048x512_S2048x512) (ix2 p q)).trans ?_
  exact acc_update_apply v3 v13 v14 p q

theorem k1_pay11_apply (v3 : Vec Ideal S2048x1024 .bf16) (v21 : Vec Ideal S2048x512 .f32) (v22 : Vec Ideal S1x512x1024 .bf16)
    (p : Fin 2048) (q : Fin 512) :
    k1_pay11 v3 v21 v22 (ix2 p q) = v21 (ix2 p q) + ∑ kk : Fin 1024, v3 (ix2 p kk) * v22 (ix3 0 q kk) := by
  unfold k1_pay11 k1_pay8
  exact acc_update_apply v3 v21 v22 p q

theorem k1_pay1_pay11_apply (v3 : Vec Ideal S2048x1024 .bf16) (v21 : Vec Ideal S2048x512 .f32) (v22 : Vec Ideal S1x512x1024 .bf16)
    (p : Fin 2048) (q : Fin 512) :
    k1_pay1 (k1_pay11 v3 v21 v22) (ix2 p q) = v21 (ix2 p q) + ∑ kk : Fin 1024, v3 (ix2 p kk) * v22 (ix3 0 q kk) := by
  unfold k1_pay1
  refine (congrFun (shapeCast_self _ shapeCasts_S2048x512_S2048x512) (ix2 p q)).trans ?_
  exact k1_pay11_apply v3 v21 v22 p q

theorem k1_pay2_pay8_apply (v3 : Vec Ideal S2048x1024 .bf16) (v29 : Vec Ideal S2048x512 .f32) (v30 : Vec Ideal S1x512x1024 .bf16)
    (p : Fin 2048) (q : Fin 512) :
    k1_pay2 (k1_pay8 v3) v29 v30 (ix2 p q) = v29 (ix2 p q) + ∑ kk : Fin 1024, v3 (ix2 p kk) * v30 (ix3 0 q kk) := by
  unfold k1_pay2 k1_pay8
  refine (congrFun (shapeCast_self _ shapeCasts_S2048x512_S2048x512) (ix2 p q)).trans ?_
  exact acc_update_apply v3 v29 v30 p q

theorem k1_pay4_apply (i : S2048x512.Idx) : k1_pay4 (F := Ideal) i = 0 := by
  unfold k1_pay4
  refine (congrFun (shapeCast_self _ shapeCasts_S2048x512_S2048x512) i).trans ?_
  exact Ideal.ofBits_zero_f32
theorem k1_pay5_apply (i : S2048x512.Idx) : k1_pay5 (F := Ideal) i = 0 := by
  unfold k1_pay5
  refine (congrFun (shapeCast_self _ shapeCasts_S2048x512_S2048x512) i).trans ?_
  exact Ideal.ofBits_zero_f32
theorem k1_pay6_apply (i : S2048x512.Idx) : k1_pay6 (F := Ideal) i = 0 := by
  unfold k1_pay6
  refine (congrFun (shapeCast_self _ shapeCasts_S2048x512_S2048x512) i).trans ?_
  exact Ideal.ofBits_zero_f32
theorem k1_pay7_apply (i : S2048x512.Idx) : k1_pay7 (F := Ideal) i = 0 := by
  unfold k1_pay7
  refine (congrFun (shapeCast_self _ shapeCasts_S2048x512_S2048x512) i).trans ?_
  exact Ideal.ofBits_zero_f32

/-- The gates at an index: reset `r`, update `z`, candidate `n`, new state `(1 − z) · n + z · h`. -/
theorem k1_pay3_apply (v40 v43 v46 v49 : Vec Ideal S1x512 .f32) (v52 v56 v60 v63 v69 : Vec Ideal S2048x512 .f32)
    (p : Fin 2048) (q : Fin 512) :
    k1_pay3 v40 v43 v46 v49 v52 v56 v60 v63 v69 (ix2 p q)
      = (1 - Ideal.logistic (v56 (ix2 p q) + v43 (ix2 0 q)))
          * Ideal.tanh (v60 (ix2 p q) + v46 (ix2 0 q)
              + Ideal.logistic (v52 (ix2 p q) + v40 (ix2 0 q)) * (v63 (ix2 p q) + v49 (ix2 0 q)))
        + Ideal.logistic (v56 (ix2 p q) + v43 (ix2 0 q)) * v69 (ix2 p q) := by
  have e40 := bias_spread_apply v40 p q
  have e43 := bias_spread_apply v43 p q
  have e46 := bias_spread_apply v46 p q
  have e49 := bias_spread_apply v49 p q
  have e69 : shapeCast S2048x512 v69 shapeCasts_S2048x512_S2048x512 (ix2 p q) = v69 (ix2 p q) :=
    congrFun (shapeCast_self v69 _) _
  unfold k1_pay3
  show (Ideal.ofBits .f32 0x3F800000#32 - Ideal.logistic (v56 (ix2 p q) + broadcastTo S2048x512 (shapeCast S1x512 (shapeCast S512 v43 shapeCasts_S1x512_S512) shapeCasts_S512_S1x512) broadcasts_S1x512_S2048x512 (ix2 p q)))
          * Ideal.tanh (v60 (ix2 p q) + broadcastTo S2048x512 (shapeCast S1x512 (shapeCast S512 v46 shapeCasts_S1x512_S512) shapeCasts_S512_S1x512) broadcasts_S1x512_S2048x512 (ix2 p q)
              + Ideal.logistic (v52 (ix2 p q) + broadcastTo S2048x512 (shapeCast S1x512 (shapeCast S512 v40 shapeCasts_S1x512_S512) shapeCasts_S512_S1x512) broadcasts_S1x512_S2048x512 (ix2 p q)) * (v63 (ix2 p q) + broadcastTo S2048x512 (shapeCast S1x512 (shapeCast S512 v49 shapeCasts_S1x512_S512) shapeCasts_S512_S1x512) broadcasts_S1x512_S2048x512 (ix2 p q)))
        + Ideal.logistic (v56 (ix2 p q) + broadcastTo S2048x512 (shapeCast S1x512 (shapeCast S512 v43 shapeCasts_S1x512_S512) shapeCasts_S512_S1x512) broadcasts_S1x512_S2048x512 (ix2 p q)) * shapeCast S2048x512 v69 shapeCasts_S2048x512_S2048x512 (ix2 p q) = _
  rw [e40, e43, e46, e49, e69, ofBits_one]

end Cert.KernelIdeal.Payload
end
-- ==== Proof.KI.R0AccVal.lean ====
import proofs.«119031_j6846177870362_2_alg».proof.Proof.KI.R0Steps
import proofs.«119031_j6846177870362_2_alg».proof.Proof.KI.Payload

set_option maxRecDepth 16384

noncomputable section

namespace Cert.KernelIdeal.Rgn0

open Cert.KernelIdeal Cert.KernelIdeal.Gen
open Idealize.ShloMosaic Idealize.ShloMosaic.ValueIdx
open Cert.Gru

variable {F : FTy → Type} [FloatOps F]

/-! # Round 1's arithmetic at a grid point, read at an index

Gate `j`'s slab of the staged weight block is the block's matrix `j`; its bias row is the block's row `j`. So an
accumulator's update at `(p, q)` adds the sum over the slab's columns of the state's entry times matrix `j`'s entry
at row `q`, and the gate expression at `(p, q)` is the gates' formula of the four accumulators there, the four bias
rows at column `q` and the state there. -/

theorem wslab0_apply (x2 : Vec F S4x512x1024 .bf16) (q : Fin 512) (kk : Fin 1024) :
    wslab0 x2 (ix3 (0 : Fin 1) q kk) = x2 (ix3 (0 : Fin 4) q kk) := by
  unfold wslab0
  show x2 _ = x2 _
  refine congrArg x2 (funext fun a => Fin.ext ?_)
  match a with
  | ⟨0, _⟩ => show 0 + 1 * 0 = 0; omega
  | ⟨1, _⟩ => show 0 + 1 * q.val = q.val; omega
  | ⟨2, _⟩ => show 0 + 1 * kk.val = kk.val; omega

theorem brow0_apply (x3 : Vec F S4x512 .f32) (q : Fin 512) :
    brow0 x3 (ix2 (0 : Fin 1) q) = x3 (ix2 (0 : Fin 4) q) := by
  unfold brow0
  show x3 _ = x3 _
  refine congrArg x3 (funext fun a => Fin.ext ?_)
  match a with
  | ⟨0, _⟩ => show 0 + 1 * 0 = 0; omega
  | ⟨1, _⟩ => show 0 + 1 * q.val = q.val; omega

theorem wslab1_apply (x2 : Vec F S4x512x1024 .bf16) (q : Fin 512) (kk : Fin 1024) :
    wslab1 x2 (ix3 (0 : Fin 1) q kk) = x2 (ix3 (1 : Fin 4) q kk) := by
  unfold wslab1
  show x2 _ = x2 _
  refine congrArg x2 (funext fun a => Fin.ext ?_)
  match a with
  | ⟨0, _⟩ => show 1 + 1 * 0 = 1; omega
  | ⟨1, _⟩ => show 0 + 1 * q.val = q.val; omega
  | ⟨2, _⟩ => show 0 + 1 * kk.val = kk.val; omega

theorem brow1_apply (x3 : Vec F S4x512 .f32) (q : Fin 512) :
    brow1 x3 (ix2 (0 : Fin 1) q) = x3 (ix2 (1 : Fin 4) q) := by
  unfold brow1
  show x3 _ = x3 _
  refine congrArg x3 (funext fun a => Fin.ext ?_)
  match a with
  | ⟨0, _⟩ => show 1 + 1 * 0 = 1; omega
  | ⟨1, _⟩ => show 0 + 1 * q.val = q.val; omega

theorem wslab2_apply (x2 : Vec F S4x512x1024 .bf16) (q : Fin 512) (kk : Fin 1024) :
    wslab2 x2 (ix3 (0 : Fin 1) q kk) = x2 (ix3 (2 : Fin 4) q kk) := by
  unfold wslab2
  show x2 _ = x2 _
  refine congrArg x2 (funext fun a => Fin.ext ?_)
  match a with
  | ⟨0, _⟩ => show 2 + 1 * 0 = 2; omega
  | ⟨1, _⟩ => show 0 + 1 * q.val = q.val; omega
  | ⟨2, _⟩ => show 0 + 1 * kk.val = kk.val; omega

theorem brow2_apply (x3 : Vec F S4x512 .f32) (q : Fin 512) :
    brow2 x3 (ix2 (0 : Fin 1) q) = x3 (ix2 (2 : Fin 4) q) := by
  unfold brow2
  show x3 _ = x3 _
  refine congrArg x3 (funext fun a => Fin.ext ?_)
  match a with
  | ⟨0, _⟩ => show 2 + 1 * 0 = 2; omega
  | ⟨1, _⟩ => show 0 + 1 * q.val = q.val; omega

theorem wslab3_apply (x2 : Vec F S4x512x1024 .bf16) (q : Fin 512) (kk : Fin 1024) :
    wslab3 x2 (ix3 (0 : Fin 1) q kk) = x2 (ix3 (3 : Fin 4) q kk) := by
  unfold wslab3
  show x2 _ = x2 _
  refine congrArg x2 (funext fun a => Fin.ext ?_)
  match a with
  | ⟨0, _⟩ => show 3 + 1 * 0 = 3; omega
  | ⟨1, _⟩ => show 0 + 1 * q.val = q.val; omega
  | ⟨2, _⟩ => show 0 + 1 * kk.val = kk.val; omega

theorem brow3_apply (x3 : Vec F S4x512 .f32) (q : Fin 512) :
    brow3 x3 (ix2 (0 : Fin 1) q) = x3 (ix2 (3 : Fin 4) q) := by
  unfold brow3
  show x3 _ = x3 _
  refine congrArg x3 (funext fun a => Fin.ext ?_)
  match a with
  | ⟨0, _⟩ => show 3 + 1 * 0 = 3; omega
  | ⟨1, _⟩ => show 0 + 1 * q.val = q.val; omega

/-! ## The four accumulators -/

theorem acc0_apply (x0 : Vec Ideal S2048x1024 .bf16) (x2 : Vec Ideal S4x512x1024 .bf16) (a : Vec Ideal S2048x512 .f32)
    (p : Fin 2048) (q : Fin 512) :
    acc0 x0 x2 a (ix2 p q) = a (ix2 p q) + ∑ kk : Fin 1024, x0 (ix2 p kk) * x2 (ix3 (0 : Fin 4) q kk) := by
  unfold acc0
  refine (Payload.k0_pay9_apply x0 a (wslab0 x2) p q).trans ?_
  refine congrArg (a (ix2 p q) + ·) (Finset.sum_congr rfl fun kk _ => congrArg (x0 (ix2 p kk) * ·) ?_)
  exact wslab0_apply x2 q kk

theorem acc1_apply (x0 : Vec Ideal S2048x1024 .bf16) (x2 : Vec Ideal S4x512x1024 .bf16) (a : Vec Ideal S2048x512 .f32)
    (p : Fin 2048) (q : Fin 512) :
    acc1 x0 x2 a (ix2 p q) = a (ix2 p q) + ∑ kk : Fin 1024, x0 (ix2 p kk) * x2 (ix3 (1 : Fin 4) q kk) := by
  unfold acc1
  refine (Payload.k0_pay10_apply x0 a (wslab1 x2) p q).trans ?_
  refine congrArg (a (ix2 p q) + ·) (Finset.sum_congr rfl fun kk _ => congrArg (x0 (ix2 p kk) * ·) ?_)
  exact wslab1_apply x2 q kk

theorem acc2_apply (x0 : Vec Ideal S2048x1024 .bf16) (x2 : Vec Ideal S4x512x1024 .bf16) (a : Vec Ideal S2048x512 .f32)
    (p : Fin 2048) (q : Fin 512) :
    acc2 x0 x2 a (ix2 p q) = a (ix2 p q) + ∑ kk : Fin 1024, x0 (ix2 p kk) * x2 (ix3 (2 : Fin 4) q kk) := by
  unfold acc2
  refine (Payload.k0_pay1_pay11_apply x0 a (wslab2 x2) p q).trans ?_
  refine congrArg (a (ix2 p q) + ·) (Finset.sum_congr rfl fun kk _ => congrArg (x0 (ix2 p kk) * ·) ?_)
  exact wslab2_apply x2 q kk

theorem acc3_apply (x0 : Vec Ideal S2048x1024 .bf16) (x2 : Vec Ideal S4x512x1024 .bf16) (a : Vec Ideal S2048x512 .f32)
    (p : Fin 2048) (q : Fin 512) :
    acc3 x0 x2 a (ix2 p q) = a (ix2 p q) + ∑ kk : Fin 1024, x0 (ix2 p kk) * x2 (ix3 (3 : Fin 4) q kk) := by
  unfold acc3
  refine (Payload.k0_pay2_pay8_apply x0 a (wslab3 x2) p q).trans ?_
  refine congrArg (a (ix2 p q) + ·) (Finset.sum_congr rfl fun kk _ => congrArg (x0 (ix2 p kk) * ·) ?_)
  exact wslab3_apply x2 q kk

/-! ## The gates -/

theorem gate_apply (x1 : Vec Ideal S2048x512 .f32) (x3 : Vec Ideal S4x512 .f32) (a0 a1 a2 a3 : Vec Ideal S2048x512 .f32)
    (p : Fin 2048) (q : Fin 512) :
    gate x1 x3 a0 a1 a2 a3 (ix2 p q)
      = (1 - Ideal.logistic (a1 (ix2 p q) + x3 (ix2 1 q)))
          * Ideal.tanh (a2 (ix2 p q) + x3 (ix2 2 q) + Ideal.logistic (a0 (ix2 p q) + x3 (ix2 0 q)) * (a3 (ix2 p q) + x3 (ix2 3 q)))
        + Ideal.logistic (a1 (ix2 p q) + x3 (ix2 1 q)) * x1 (ix2 p q) := by
  unfold gate
  refine (Payload.k0_pay3_apply (brow0 x3) (brow1 x3) (brow2 x3) (brow3 x3) a0 a1 a2 a3 x1 p q).trans ?_
  rw [brow0_apply x3 q, brow1_apply x3 q, brow2_apply x3 q, brow3_apply x3 q]

end Cert.KernelIdeal.Rgn0

end
-- ==== Proof.KI.R0Final.lean ====
import proofs.«119031_j6846177870362_2_alg».proof.Proof.KI.R0Pieces
import proofs.«119031_j6846177870362_2_alg».proof.Proof.KI.R0Blocks
import proofs.«119031_j6846177870362_2_alg».proof.Proof.KI.R0AccVal
import proofs.«119031_j6846177870362_2_alg».proof.Proof.SpecK

set_option maxRecDepth 16384

noncomputable section

namespace Cert.KernelIdeal.Rgn0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Gru Idealize.ShloMosaic.ValueIdx Cert.KernelIdeal.Payload

variable (V : (c : Dev nD) → (b : Ref sig .tc) → Buf (Elt Ideal) ((c : Thread nD τ).loc b))

/-! # What the region leaves in its output array, over the extended reals

Within a group of four grid points (the four slabs of one output block) each accumulator goes 0 + d₀, + d₁, + d₂, + d₃,
`d_k` the product of the state's slab `k` with the gate's slab `k`; at the fourth point the gate expression of the four
sums is stored, and the pipeline writes the block back. So the array ends holding the fused round of the four operand arrays. -/

/-- Equal positions, equal contents. -/
theorem outsAt_congr (c : Dev nD) {n n' : ℕ} (e : n = n') (hn : n < cfg0.N) (hn' : n' < cfg0.N) :
    outsAt V c n hn = outsAt V c n' hn' := by subst e; rfl

/-- The product of a state block with gate `j`'s slab of a weight block, at row `p`, column `q`; and the one at point `t`. -/
def slabProd (x0 : Vec Ideal S2048x1024 .bf16) (x2 : Vec Ideal S4x512x1024 .bf16) (j : Fin 4) (p : Fin 2048) (q : Fin 512) : EReal :=
  ∑ kk : Fin 1024, x0 (ix2 p kk) * x2 (ix3 j q kk)
def dAt (c : Dev nD) (t : Fin cfg0.N) (j : Fin 4) (p : Fin 2048) (q : Fin 512) : EReal :=
  slabProd (iblk V c 0 t) (iblk V c 2 t) j p q

/-! ## One point's effect on each accumulator, at an index -/

/-- A first slab: accumulator 0 restarts from zero. -/
theorem stepA_0 (c : Dev nD) (t : Fin cfg0.N) (h0 : t.val % 4 = 0) (h1 : ¬t.val % 4 = 3) (p : Fin 2048) (q : Fin 512) :
    (outsAt V c t.val t.isLt).2.1 (ix2 p q) = 0 + dAt V c t 0 p q := by
  rw [outsAt_A V c t h0 h1]
  unfold stA
  dsimp only
  rw [stA_0]
  refine (acc0_apply _ _ _ p q).trans ?_
  exact congrArg (· + dAt V c t 0 p q) (k0_pay4_apply _)

/-- An inner slab: accumulator 0 gains the slab's product. -/
theorem stepB_0 (c : Dev nD) (t t' : Fin cfg0.N) (ht : t'.val + 1 = t.val) (h0 : ¬t.val % 4 = 0) (h1 : ¬t.val % 4 = 3)
    (p : Fin 2048) (q : Fin 512) :
    (outsAt V c t.val t.isLt).2.1 (ix2 p q) = (outsAt V c t'.val t'.isLt).2.1 (ix2 p q) + dAt V c t 0 p q := by
  rw [outsAt_B V c t h0 h1, outsAt_congr V c (show t.val - 1 = t'.val by omega) _ t'.isLt]
  unfold stB
  dsimp only
  rw [stB_0]
  exact acc0_apply _ _ _ p q

/-- A last slab: accumulator 0 gains the slab's product. -/
theorem stepC_0 (c : Dev nD) (t t' : Fin cfg0.N) (ht : t'.val + 1 = t.val) (h0 : ¬t.val % 4 = 0) (h1 : t.val % 4 = 3)
    (p : Fin 2048) (q : Fin 512) :
    (outsAt V c t.val t.isLt).2.1 (ix2 p q) = (outsAt V c t'.val t'.isLt).2.1 (ix2 p q) + dAt V c t 0 p q := by
  rw [outsAt_C V c t h0 h1, outsAt_congr V c (show t.val - 1 = t'.val by omega) _ t'.isLt]
  unfold stC
  dsimp only
  rw [stC_0]
  exact acc0_apply _ _ _ p q

/-- A first slab: accumulator 1 restarts from zero. -/
theorem stepA_1 (c : Dev nD) (t : Fin cfg0.N) (h0 : t.val % 4 = 0) (h1 : ¬t.val % 4 = 3) (p : Fin 2048) (q : Fin 512) :
    (outsAt V c t.val t.isLt).2.2.1 (ix2 p q) = 0 + dAt V c t 1 p q := by
  rw [outsAt_A V c t h0 h1]
  unfold stA
  dsimp only
  rw [stA_1]
  refine (acc1_apply _ _ _ p q).trans ?_
  exact congrArg (· + dAt V c t 1 p q) (k0_pay5_apply _)

/-- An inner slab: accumulator 1 gains the slab's product. -/
theorem stepB_1 (c : Dev nD) (t t' : Fin cfg0.N) (ht : t'.val + 1 = t.val) (h0 : ¬t.val % 4 = 0) (h1 : ¬t.val % 4 = 3)
    (p : Fin 2048) (q : Fin 512) :
    (outsAt V c t.val t.isLt).2.2.1 (ix2 p q) = (outsAt V c t'.val t'.isLt).2.2.1 (ix2 p q) + dAt V c t 1 p q := by
  rw [outsAt_B V c t h0 h1, outsAt_congr V c (show t.val - 1 = t'.val by omega) _ t'.isLt]
  unfold stB
  dsimp only
  rw [stB_1]
  exact acc1_apply _ _ _ p q

/-- A last slab: accumulator 1 gains the slab's product. -/
theorem stepC_1 (c : Dev nD) (t t' : Fin cfg0.N) (ht : t'.val + 1 = t.val) (h0 : ¬t.val % 4 = 0) (h1 : t.val % 4 = 3)
    (p : Fin 2048) (q : Fin 512) :
    (outsAt V c t.val t.isLt).2.2.1 (ix2 p q) = (outsAt V c t'.val t'.isLt).2.2.1 (ix2 p q) + dAt V c t 1 p q := by
  rw [outsAt_C V c t h0 h1, outsAt_congr V c (show t.val - 1 = t'.val by omega) _ t'.isLt]
  unfold stC
  dsimp only
  rw [stC_1]
  exact acc1_apply _ _ _ p q

/-- A first slab: accumulator 2 restarts from zero. -/
theorem stepA_2 (c : Dev nD) (t : Fin cfg0.N) (h0 : t.val % 4 = 0) (h1 : ¬t.val % 4 = 3) (p : Fin 2048) (q : Fin 512) :
    (outsAt V c t.val t.isLt).2.2.2.1 (ix2 p q) = 0 + dAt V c t 2 p q := by
  rw [outsAt_A V c t h0 h1]
  unfold stA
  dsimp only
  rw [stA_2]
  refine (acc2_apply _ _ _ p q).trans ?_
  exact congrArg (· + dAt V c t 2 p q) (k0_pay6_apply _)

/-- An inner slab: accumulator 2 gains the slab's product. -/
theorem stepB_2 (c : Dev nD) (t t' : Fin cfg0.N) (ht : t'.val + 1 = t.val) (h0 : ¬t.val % 4 = 0) (h1 : ¬t.val % 4 = 3)
    (p : Fin 2048) (q : Fin 512) :
    (outsAt V c t.val t.isLt).2.2.2.1 (ix2 p q) = (outsAt V c t'.val t'.isLt).2.2.2.1 (ix2 p q) + dAt V c t 2 p q := by
  rw [outsAt_B V c t h0 h1, outsAt_congr V c (show t.val - 1 = t'.val by omega) _ t'.isLt]
  unfold stB
  dsimp only
  rw [stB_2]
  exact acc2_apply _ _ _ p q

/-- A last slab: accumulator 2 gains the slab's product. -/
theorem stepC_2 (c : Dev nD) (t t' : Fin cfg0.N) (ht : t'.val + 1 = t.val) (h0 : ¬t.val % 4 = 0) (h1 : t.val % 4 = 3)
    (p : Fin 2048) (q : Fin 512) :
    (outsAt V c t.val t.isLt).2.2.2.1 (ix2 p q) = (outsAt V c t'.val t'.isLt).2.2.2.1 (ix2 p q) + dAt V c t 2 p q := by
  rw [outsAt_C V c t h0 h1, outsAt_congr V c (show t.val - 1 = t'.val by omega) _ t'.isLt]
  unfold stC
  dsimp only
  rw [stC_2]
  exact acc2_apply _ _ _ p q

/-- A first slab: accumulator 3 restarts from zero. -/
theorem stepA_3 (c : Dev nD) (t : Fin cfg0.N) (h0 : t.val % 4 = 0) (h1 : ¬t.val % 4 = 3) (p : Fin 2048) (q : Fin 512) :
    (outsAt V c t.val t.isLt).2.2.2.2 (ix2 p q) = 0 + dAt V c t 3 p q := by
  rw [outsAt_A V c t h0 h1]
  unfold stA
  dsimp only
  rw [stA_3]
  refine (acc3_apply _ _ _ p q).trans ?_
  exact congrArg (· + dAt V c t 3 p q) (k0_pay7_apply _)

/-- An inner slab: accumulator 3 gains the slab's product. -/
theorem stepB_3 (c : Dev nD) (t t' : Fin cfg0.N) (ht : t'.val + 1 = t.val) (h0 : ¬t.val % 4 = 0) (h1 : ¬t.val % 4 = 3)
    (p : Fin 2048) (q : Fin 512) :
    (outsAt V c t.val t.isLt).2.2.2.2 (ix2 p q) = (outsAt V c t'.val t'.isLt).2.2.2.2 (ix2 p q) + dAt V c t 3 p q := by
  rw [outsAt_B V c t h0 h1, outsAt_congr V c (show t.val - 1 = t'.val by omega) _ t'.isLt]
  unfold stB
  dsimp only
  rw [stB_3]
  exact acc3_apply _ _ _ p q

/-- A last slab: accumulator 3 gains the slab's product. -/
theorem stepC_3 (c : Dev nD) (t t' : Fin cfg0.N) (ht : t'.val + 1 = t.val) (h0 : ¬t.val % 4 = 0) (h1 : t.val % 4 = 3)
    (p : Fin 2048) (q : Fin 512) :
    (outsAt V c t.val t.isLt).2.2.2.2 (ix2 p q) = (outsAt V c t'.val t'.isLt).2.2.2.2 (ix2 p q) + dAt V c t 3 p q := by
  rw [outsAt_C V c t h0 h1, outsAt_congr V c (show t.val - 1 = t'.val by omega) _ t'.isLt]
  unfold stC
  dsimp only
  rw [stC_3]
  exact acc3_apply _ _ _ p q

/-- At a last slab the output's staging buffer holds the gate expression of the four accumulators as they now stand. -/
theorem outC (c : Dev nD) (t : Fin cfg0.N) (h0 : ¬t.val % 4 = 0) (h1 : t.val % 4 = 3) :
    (outsAt V c t.val t.isLt).1 = gate (iblk V c 1 t) (iblk V c 3 t) (outsAt V c t.val t.isLt).2.1 (outsAt V c t.val t.isLt).2.2.1
      (outsAt V c t.val t.isLt).2.2.2.1 (outsAt V c t.val t.isLt).2.2.2.2 := by
  rw [outsAt_C V c t h0 h1]
  unfold stC
  dsimp only
  exact (stC_out V c t _ _ _).trans (congr (congr (congr (congrArg (gate (iblk V c 1 t) (iblk V c 3 t)) (stC_0 V c t _ _ _).symm)
    (stC_1 V c t _ _ _).symm) (stC_2 V c t _ _ _).symm) (stC_3 V c t _ _ _).symm)

/-! ## A group of four points -/

/-- Slab `k` of output block `g`. -/
def pt (g : Fin 16) (k : Fin 4) : Fin cfg0.N :=
  ⟨4 * g.val + k.val, Nat.lt_of_lt_of_eq (by have := g.isLt; have := k.isLt; omega) (N_0 : cfg0.N = 64).symm⟩

/-- The slab product at a point of block `g`, in the operand arrays' own coordinates. -/
theorem dAt_eq (c : Dev nD) (g : Fin 16) (k : Fin 4) (j : Fin 4) (p : Fin 2048) (q : Fin 512) :
    dAt V c (pt g k) j p q = slabDot (V c main_v29) (V c main_v16) j (rowOf (pt g 3) p) (colOf (pt g 3) q) k := by
  unfold dAt slabProd slabDot
  refine Finset.sum_congr rfl fun kk _ => ?_
  have hk := k.isLt
  have e1 : rowOf (pt g k) p = rowOf (pt g 3) p := Fin.ext (by
    show (4 * g.val + k.val) / 4 / 8 * 2048 + p.val = (4 * g.val + 3) / 4 / 8 * 2048 + p.val; omega)
  have e2 : colOf (pt g k) q = colOf (pt g 3) q := Fin.ext (by
    show (4 * g.val + k.val) / 4 % 8 * 512 + q.val = (4 * g.val + 3) / 4 % 8 * 512 + q.val; omega)
  have e3 : kOf (pt g k) kk = slabCol k kk := Fin.ext (by
    show (4 * g.val + k.val) % 4 * 1024 + kk.val = k.val * 1024 + kk.val; omega)
  rw [iblk_0_apply, iblk_2_apply, e1, e2, e3]

/-! ## After the fourth slab of block `g` each accumulator is the four slab products added up from zero in order -/

theorem acc_last_0 (c : Dev nD) (g : Fin 16) (p : Fin 2048) (q : Fin 512) :
    (outsAt V c (pt g 3).val (pt g 3).isLt).2.1 (ix2 p q)
      = acc4 (V c main_v29) (V c main_v16) 0 (rowOf (pt g 3) p) (colOf (pt g 3) q) := by
  have m0 : (pt g 0).val % 4 = 0 := by show (4 * g.val + 0) % 4 = 0; omega
  have m1 : (pt g 1).val % 4 = 1 := by show (4 * g.val + 1) % 4 = 1; omega
  have m2 : (pt g 2).val % 4 = 2 := by show (4 * g.val + 2) % 4 = 2; omega
  have m3 : (pt g 3).val % 4 = 3 := by show (4 * g.val + 3) % 4 = 3; omega
  have s3 := stepC_0 V c (pt g 3) (pt g 2) (by show 4 * g.val + 2 + 1 = 4 * g.val + 3; omega) (by omega) m3 p q
  have s2 := stepB_0 V c (pt g 2) (pt g 1) (by show 4 * g.val + 1 + 1 = 4 * g.val + 2; omega) (by omega) (by omega) p q
  have s1 := stepB_0 V c (pt g 1) (pt g 0) (by show 4 * g.val + 0 + 1 = 4 * g.val + 1; omega) (by omega) (by omega) p q
  have s0 := stepA_0 V c (pt g 0) m0 (by omega) p q
  rw [s3, s2, s1, s0, dAt_eq, dAt_eq, dAt_eq, dAt_eq]
  first | done | rfl

theorem acc_last_1 (c : Dev nD) (g : Fin 16) (p : Fin 2048) (q : Fin 512) :
    (outsAt V c (pt g 3).val (pt g 3).isLt).2.2.1 (ix2 p q)
      = acc4 (V c main_v29) (V c main_v16) 1 (rowOf (pt g 3) p) (colOf (pt g 3) q) := by
  have m0 : (pt g 0).val % 4 = 0 := by show (4 * g.val + 0) % 4 = 0; omega
  have m1 : (pt g 1).val % 4 = 1 := by show (4 * g.val + 1) % 4 = 1; omega
  have m2 : (pt g 2).val % 4 = 2 := by show (4 * g.val + 2) % 4 = 2; omega
  have m3 : (pt g 3).val % 4 = 3 := by show (4 * g.val + 3) % 4 = 3; omega
  have s3 := stepC_1 V c (pt g 3) (pt g 2) (by show 4 * g.val + 2 + 1 = 4 * g.val + 3; omega) (by omega) m3 p q
  have s2 := stepB_1 V c (pt g 2) (pt g 1) (by show 4 * g.val + 1 + 1 = 4 * g.val + 2; omega) (by omega) (by omega) p q
  have s1 := stepB_1 V c (pt g 1) (pt g 0) (by show 4 * g.val + 0 + 1 = 4 * g.val + 1; omega) (by omega) (by omega) p q
  have s0 := stepA_1 V c (pt g 0) m0 (by omega) p q
  rw [s3, s2, s1, s0, dAt_eq, dAt_eq, dAt_eq, dAt_eq]
  first | done | rfl

theorem acc_last_2 (c : Dev nD) (g : Fin 16) (p : Fin 2048) (q : Fin 512) :
    (outsAt V c (pt g 3).val (pt g 3).isLt).2.2.2.1 (ix2 p q)
      = acc4 (V c main_v29) (V c main_v16) 2 (rowOf (pt g 3) p) (colOf (pt g 3) q) := by
  have m0 : (pt g 0).val % 4 = 0 := by show (4 * g.val + 0) % 4 = 0; omega
  have m1 : (pt g 1).val % 4 = 1 := by show (4 * g.val + 1) % 4 = 1; omega
  have m2 : (pt g 2).val % 4 = 2 := by show (4 * g.val + 2) % 4 = 2; omega
  have m3 : (pt g 3).val % 4 = 3 := by show (4 * g.val + 3) % 4 = 3; omega
  have s3 := stepC_2 V c (pt g 3) (pt g 2) (by show 4 * g.val + 2 + 1 = 4 * g.val + 3; omega) (by omega) m3 p q
  have s2 := stepB_2 V c (pt g 2) (pt g 1) (by show 4 * g.val + 1 + 1 = 4 * g.val + 2; omega) (by omega) (by omega) p q
  have s1 := stepB_2 V c (pt g 1) (pt g 0) (by show 4 * g.val + 0 + 1 = 4 * g.val + 1; omega) (by omega) (by omega) p q
  have s0 := stepA_2 V c (pt g 0) m0 (by omega) p q
  rw [s3, s2, s1, s0, dAt_eq, dAt_eq, dAt_eq, dAt_eq]
  first | done | rfl

theorem acc_last_3 (c : Dev nD) (g : Fin 16) (p : Fin 2048) (q : Fin 512) :
    (outsAt V c (pt g 3).val (pt g 3).isLt).2.2.2.2 (ix2 p q)
      = acc4 (V c main_v29) (V c main_v16) 3 (rowOf (pt g 3) p) (colOf (pt g 3) q) := by
  have m0 : (pt g 0).val % 4 = 0 := by show (4 * g.val + 0) % 4 = 0; omega
  have m1 : (pt g 1).val % 4 = 1 := by show (4 * g.val + 1) % 4 = 1; omega
  have m2 : (pt g 2).val % 4 = 2 := by show (4 * g.val + 2) % 4 = 2; omega
  have m3 : (pt g 3).val % 4 = 3 := by show (4 * g.val + 3) % 4 = 3; omega
  have s3 := stepC_3 V c (pt g 3) (pt g 2) (by show 4 * g.val + 2 + 1 = 4 * g.val + 3; omega) (by omega) m3 p q
  have s2 := stepB_3 V c (pt g 2) (pt g 1) (by show 4 * g.val + 1 + 1 = 4 * g.val + 2; omega) (by omega) (by omega) p q
  have s1 := stepB_3 V c (pt g 1) (pt g 0) (by show 4 * g.val + 0 + 1 = 4 * g.val + 1; omega) (by omega) (by omega) p q
  have s0 := stepA_3 V c (pt g 0) m0 (by omega) p q
  rw [s3, s2, s1, s0, dAt_eq, dAt_eq, dAt_eq, dAt_eq]
  first | done | rfl

/-- The fused round of the region's four operand arrays, as contents of its output array. -/
abbrev G (c : Dev nD) : Buf (Elt Ideal) ((c : Thread nD τ).loc main_v30) :=
  kerRound4 (V c main_v29) (V c main_v0) (V c main_v16) (V c main_v28)

/-- What a write-back writes: at a last slab, the block of the fused round. -/
theorem flushed_eq (c : Dev nD) (t : Fin cfg0.N) (hf : (cfg0.win 4).flush t = true) :
    (dat V c).flushed 4 t = ((cfg0.win 4).blk t).view.read (Elt Ideal) (G V c) := by
  have h3 : t.val % 4 = 3 := (flush0_4 t).mp hf
  have hN : t.val < 64 := t_lt t
  obtain ⟨g, rfl⟩ : ∃ g : Fin 16, t = pt g 3 := ⟨⟨t.val / 4, by omega⟩, Fin.ext (by show t.val = 4 * (t.val / 4) + 3; omega)⟩
  show (cfg0.win 4).cut (grid0.coords (pt g 3)) ((dat V c).after 4 (pt g 3)) = _
  rw [after_4, outC V c (pt g 3) (by omega) h3]
  refine funext fun (y : S2048x512.Idx) => ?_
  obtain ⟨p, q, rfl⟩ : ∃ (p : Fin 2048) (q : Fin 512), y = ix2 p q := ⟨y 0, y 1, eq_ix2 y⟩
  refine Eq.trans ?_ (blk4_read (G V c) (pt g 3) p q).symm
  show gate _ _ _ _ _ _ (ix2 p q) = _
  refine (gate_apply _ _ _ _ _ _ p q).trans ?_
  rw [acc_last_0, acc_last_1, acc_last_2, acc_last_3, iblk_1_apply, iblk_3_apply, iblk_3_apply, iblk_3_apply, iblk_3_apply]
  first | done | rfl

/-- The output array after the region: the fused round of the four operand arrays as the region found them. -/
theorem final (c : Dev nD) : (dat V c).arrAt 4 cfg0.N = G V c :=
  (dat V c).arrAt_eq_of_cover 4 (G V c) (flushed_eq V c) cover4

/-- The same, spelt out. -/
theorem final_spec (c : Dev nD) :
    ((dat V c).arrAt 4 cfg0.N : SH.Idx → EReal) = kerRound4 (V c main_v29) (V c main_v0) (V c main_v16) (V c main_v28) :=
  final V c

end Cert.KernelIdeal.Rgn0

end
-- ==== Proof.KI.R1Steps.lean ====
import proofs.«119031_j6846177870362_2_alg».proof.Proof.Gen.KernelIdeal.Skeleton
import Idealize.ShloMosaic.Lib.Pipeline.FrameBody
import Idealize.ShloMosaic.Lib.Pipeline.Value

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's arithmetic at one grid point, as pure functions of the staged blocks

An accumulator's update is the accumulator plus the product of the state block with one gate's slab of the staged
weight block; the gate expression takes the four accumulators, the four rows of the staged bias block and the state block. -/

/-- The weights of gate `j` within the staged weight block, and its bias row within the staged bias block, as the body loads them. -/
def wslab0 (x2 : Vec F S4x512x1024 .bf16) : Vec F S1x512x1024 .bf16 :=
  View.ld x2 (Rect.unit (s := S4x512x1024) ![0, 0, 0] S1x512x1024.size inb_S4x512x1024_S1x512x1024_0_0_0)
def brow0 (x3 : Vec F S4x512 .f32) : Vec F S1x512 .f32 :=
  View.ld x3 (Rect.unit (s := S4x512) ![0, 0] S1x512.size inb_S4x512_S1x512_0_0)
def wslab1 (x2 : Vec F S4x512x1024 .bf16) : Vec F S1x512x1024 .bf16 :=
  View.ld x2 (Rect.unit (s := S4x512x1024) ![1, 0, 0] S1x512x1024.size inb_S4x512x1024_S1x512x1024_1_0_0)
def brow1 (x3 : Vec F S4x512 .f32) : Vec F S1x512 .f32 :=
  View.ld x3 (Rect.unit (s := S4x512) ![1, 0] S1x512.size inb_S4x512_S1x512_1_0)
def wslab2 (x2 : Vec F S4x512x1024 .bf16) : Vec F S1x512x1024 .bf16 :=
  View.ld x2 (Rect.unit (s := S4x512x1024) ![2, 0, 0] S1x512x1024.size inb_S4x512x1024_S1x512x1024_2_0_0)
def brow2 (x3 : Vec F S4x512 .f32) : Vec F S1x512 .f32 :=
  View.ld x3 (Rect.unit (s := S4x512) ![2, 0] S1x512.size inb_S4x512_S1x512_2_0)
def wslab3 (x2 : Vec F S4x512x1024 .bf16) : Vec F S1x512x1024 .bf16 :=
  View.ld x2 (Rect.unit (s := S4x512x1024) ![3, 0, 0] S1x512x1024.size inb_S4x512x1024_S1x512x1024_3_0_0)
def brow3 (x3 : Vec F S4x512 .f32) : Vec F S1x512 .f32 :=
  View.ld x3 (Rect.unit (s := S4x512) ![3, 0] S1x512.size inb_S4x512_S1x512_3_0)

/-- One slab's update of each accumulator, and the gate expression. -/
def acc0 (x0 : Vec F S2048x1024 .bf16) (x2 : Vec F S4x512x1024 .bf16) (a : Vec F S2048x512 .f32) : Vec F S2048x512 .f32 :=
  k1_pay9 x0 a (wslab0 x2)
def acc1 (x0 : Vec F S2048x1024 .bf16) (x2 : Vec F S4x512x1024 .bf16) (a : Vec F S2048x512 .f32) : Vec F S2048x512 .f32 :=
  k1_pay10 x0 a (wslab1 x2)
def acc2 (x0 : Vec F S2048x1024 .bf16) (x2 : Vec F S4x512x1024 .bf16) (a : Vec F S2048x512 .f32) : Vec F S2048x512 .f32 :=
  k1_pay1 (k1_pay11 x0 a (wslab2 x2))
def acc3 (x0 : Vec F S2048x1024 .bf16) (x2 : Vec F S4x512x1024 .bf16) (a : Vec F S2048x512 .f32) : Vec F S2048x512 .f32 :=
  k1_pay2 (k1_pay8 x0) a (wslab3 x2)
def gate (x1 : Vec F S2048x512 .f32) (x3 : Vec F S4x512 .f32) (a0 a1 a2 a3 : Vec F S2048x512 .f32) : Vec F S2048x512 .f32 :=
  k1_pay3 (brow0 x3) (brow1 x3) (brow2 x3) (brow3 x3) a0 a1 a2 a3 x1

end Cert.KernelIdeal.Rgn1

end
-- ==== Proof.KI.R1Pieces.lean ====
import proofs.«119031_j6846177870362_2_alg».proof.Proof.KI.R1Frame
import proofs.«119031_j6846177870362_2_alg».proof.Proof.KI.R1Steps
import Idealize.ShloMosaic.Lib.Pipeline.Value

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # What each kind of point leaves, as values

The runs' found pieces read back: every buffer the body stores into is stored whole, so what it holds afterwards is the
last store's payload; an accumulator's payload is the accumulator as it was plus the product of the state block with one
slab's weights; at a first slab "as it was" is the zero block just stored; at a last slab the output's payload is the gate
expression of the four updated accumulators, the four bias rows and the state block. -/

theorem hz2 : (![0, 0] : Fin 2 → Nat) = fun _ => 0 := funext fun a => by fin_cases a <;> rfl

/-- A whole accumulator buffer read back is what it holds. -/
theorem rdS_0 (h : (scM_0 : Memref sig .tc .vmem S2048x512 .f32).IsWhole) (x : Vec F S2048x512 .f32) :
    View.read (Elt F) (View.whole cc1_scratch0) (h.unread x) = x := h.read_unread x
theorem rdS_1 (h : (scM_1 : Memref sig .tc .vmem S2048x512 .f32).IsWhole) (x : Vec F S2048x512 .f32) :
    View.read (Elt F) (View.whole cc1_scratch1) (h.unread x) = x := h.read_unread x
theorem rdS_2 (h : (scM_2 : Memref sig .tc .vmem S2048x512 .f32).IsWhole) (x : Vec F S2048x512 .f32) :
    View.read (Elt F) (View.whole cc1_scratch2) (h.unread x) = x := h.read_unread x
theorem rdS_3 (h : (scM_3 : Memref sig .tc .vmem S2048x512 .f32).IsWhole) (x : Vec F S2048x512 .f32) :
    View.read (Elt F) (View.whole cc1_scratch3) (h.unread x) = x := h.read_unread x

theorem stB_0 (c : Dev nD) (t : Fin cfg1.N) (h0 : ¬cond_0 (grid1.coords t)) (h1 : ¬cond_1 (grid1.coords t)) (xs : St F) :
    VS_0.read (Elt F) (VS_0.writes (Elt F) VS_0.junk (runB V c t h0 h1 xs).2.1) = acc0 (iblk V c 0 t) (iblk V c 2 t) xs.2.1 := by
  rw [View.read_writes_eq_canon _ _ _ (scover_B_0 V c t h0 h1 xs)]
  unfold runB kernelRun_B
  dsimp only
  (try sl_unfold_words)
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stA_0 (c : Dev nD) (t : Fin cfg1.N) (h0 : cond_0 (grid1.coords t)) (h1 : ¬cond_1 (grid1.coords t)) :
    VS_0.read (Elt F) (VS_0.writes (Elt F) VS_0.junk (runA V c t h0 h1).2.1) = acc0 (iblk V c 0 t) (iblk V c 2 t) k1_pay4 := by
  rw [View.read_writes_eq_canon _ _ _ (scover_A_0 V c t h0 h1)]
  unfold runA kernelRun_A
  dsimp only
  sl_unfold_words
  rw [View.canon_cons_unit_zero (S := S2048x512) hz2, View.readCov_unit_zero (S := S2048x512) _ hz2]
  simp only [View.readAt_eq_ld, Memref.IsWhole.read_unread, rdS_0, rdS_1, rdS_2, rdS_3, View.ld_unit_zero (S := S2048x512) hz2, View.ld_unit_zero (S := S2048x1024) hz2]
  rfl

theorem stC_0 (c : Dev nD) (t : Fin cfg1.N) (h0 : ¬cond_0 (grid1.coords t)) (h1 : cond_1 (grid1.coords t)) (xs : St F) :
    VS_0.read (Elt F) (VS_0.writes (Elt F) VS_0.junk (runC V c t h0 h1 xs).2.1) = acc0 (iblk V c 0 t) (iblk V c 2 t) xs.2.1 := by
  rw [View.read_writes_eq_canon _ _ _ (scover_C_0 V c t h0 h1 xs)]
  unfold runC kernelRun_C
  dsimp only
  sl_unfold_words
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stB_1 (c : Dev nD) (t : Fin cfg1.N) (h0 : ¬cond_0 (grid1.coords t)) (h1 : ¬cond_1 (grid1.coords t)) (xs : St F) :
    VS_1.read (Elt F) (VS_1.writes (Elt F) VS_1.junk (runB V c t h0 h1 xs).2.2.1) = acc1 (iblk V c 0 t) (iblk V c 2 t) xs.2.2.1 := by
  rw [View.read_writes_eq_canon _ _ _ (scover_B_1 V c t h0 h1 xs)]
  unfold runB kernelRun_B
  dsimp only
  (try sl_unfold_words)
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stA_1 (c : Dev nD) (t : Fin cfg1.N) (h0 : cond_0 (grid1.coords t)) (h1 : ¬cond_1 (grid1.coords t)) :
    VS_1.read (Elt F) (VS_1.writes (Elt F) VS_1.junk (runA V c t h0 h1).2.2.1) = acc1 (iblk V c 0 t) (iblk V c 2 t) k1_pay5 := by
  rw [View.read_writes_eq_canon _ _ _ (scover_A_1 V c t h0 h1)]
  unfold runA kernelRun_A
  dsimp only
  sl_unfold_words
  rw [View.canon_cons_unit_zero (S := S2048x512) hz2, View.readCov_unit_zero (S := S2048x512) _ hz2]
  simp only [View.readAt_eq_ld, Memref.IsWhole.read_unread, rdS_0, rdS_1, rdS_2, rdS_3, View.ld_unit_zero (S := S2048x512) hz2, View.ld_unit_zero (S := S2048x1024) hz2]
  rfl

theorem stC_1 (c : Dev nD) (t : Fin cfg1.N) (h0 : ¬cond_0 (grid1.coords t)) (h1 : cond_1 (grid1.coords t)) (xs : St F) :
    VS_1.read (Elt F) (VS_1.writes (Elt F) VS_1.junk (runC V c t h0 h1 xs).2.2.1) = acc1 (iblk V c 0 t) (iblk V c 2 t) xs.2.2.1 := by
  rw [View.read_writes_eq_canon _ _ _ (scover_C_1 V c t h0 h1 xs)]
  unfold runC kernelRun_C
  dsimp only
  sl_unfold_words
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stB_2 (c : Dev nD) (t : Fin cfg1.N) (h0 : ¬cond_0 (grid1.coords t)) (h1 : ¬cond_1 (grid1.coords t)) (xs : St F) :
    VS_2.read (Elt F) (VS_2.writes (Elt F) VS_2.junk (runB V c t h0 h1 xs).2.2.2.1) = acc2 (iblk V c 0 t) (iblk V c 2 t) xs.2.2.2.1 := by
  rw [View.read_writes_eq_canon _ _ _ (scover_B_2 V c t h0 h1 xs)]
  unfold runB kernelRun_B
  dsimp only
  (try sl_unfold_words)
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stA_2 (c : Dev nD) (t : Fin cfg1.N) (h0 : cond_0 (grid1.coords t)) (h1 : ¬cond_1 (grid1.coords t)) :
    VS_2.read (Elt F) (VS_2.writes (Elt F) VS_2.junk (runA V c t h0 h1).2.2.2.1) = acc2 (iblk V c 0 t) (iblk V c 2 t) k1_pay6 := by
  rw [View.read_writes_eq_canon _ _ _ (scover_A_2 V c t h0 h1)]
  unfold runA kernelRun_A
  dsimp only
  sl_unfold_words
  rw [View.canon_cons_unit_zero (S := S2048x512) hz2, View.readCov_unit_zero (S := S2048x512) _ hz2]
  simp only [View.readAt_eq_ld, Memref.IsWhole.read_unread, rdS_0, rdS_1, rdS_2, rdS_3, View.ld_unit_zero (S := S2048x512) hz2, View.ld_unit_zero (S := S2048x1024) hz2]
  rfl

theorem stC_2 (c : Dev nD) (t : Fin cfg1.N) (h0 : ¬cond_0 (grid1.coords t)) (h1 : cond_1 (grid1.coords t)) (xs : St F) :
    VS_2.read (Elt F) (VS_2.writes (Elt F) VS_2.junk (runC V c t h0 h1 xs).2.2.2.1) = acc2 (iblk V c 0 t) (iblk V c 2 t) xs.2.2.2.1 := by
  rw [View.read_writes_eq_canon _ _ _ (scover_C_2 V c t h0 h1 xs)]
  unfold runC kernelRun_C
  dsimp only
  sl_unfold_words
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stB_3 (c : Dev nD) (t : Fin cfg1.N) (h0 : ¬cond_0 (grid1.coords t)) (h1 : ¬cond_1 (grid1.coords t)) (xs : St F) :
    VS_3.read (Elt F) (VS_3.writes (Elt F) VS_3.junk (runB V c t h0 h1 xs).2.2.2.2.1) = acc3 (iblk V c 0 t) (iblk V c 2 t) xs.2.2.2.2 := by
  rw [View.read_writes_eq_canon _ _ _ (scover_B_3 V c t h0 h1 xs)]
  unfold runB kernelRun_B
  dsimp only
  (try sl_unfold_words)
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stA_3 (c : Dev nD) (t : Fin cfg1.N) (h0 : cond_0 (grid1.coords t)) (h1 : ¬cond_1 (grid1.coords t)) :
    VS_3.read (Elt F) (VS_3.writes (Elt F) VS_3.junk (runA V c t h0 h1).2.2.2.2.1) = acc3 (iblk V c 0 t) (iblk V c 2 t) k1_pay7 := by
  rw [View.read_writes_eq_canon _ _ _ (scover_A_3 V c t h0 h1)]
  unfold runA kernelRun_A
  dsimp only
  sl_unfold_words
  rw [View.canon_cons_unit_zero (S := S2048x512) hz2, View.readCov_unit_zero (S := S2048x512) _ hz2]
  simp only [View.readAt_eq_ld, Memref.IsWhole.read_unread, rdS_0, rdS_1, rdS_2, rdS_3, View.ld_unit_zero (S := S2048x512) hz2, View.ld_unit_zero (S := S2048x1024) hz2]
  rfl

theorem stC_3 (c : Dev nD) (t : Fin cfg1.N) (h0 : ¬cond_0 (grid1.coords t)) (h1 : cond_1 (grid1.coords t)) (xs : St F) :
    VS_3.read (Elt F) (VS_3.writes (Elt F) VS_3.junk (runC V c t h0 h1 xs).2.2.2.2.1) = acc3 (iblk V c 0 t) (iblk V c 2 t) xs.2.2.2.2 := by
  rw [View.read_writes_eq_canon _ _ _ (scover_C_3 V c t h0 h1 xs)]
  unfold runC kernelRun_C
  dsimp only
  sl_unfold_words
  rw [View.canon_unit_zero hz2]
  simp only [View.readAt_eq_ld, Memref.IsWhole.read_unread, rdS_0, rdS_1, rdS_2, rdS_3, View.ld_unit_zero (S := S2048x512) hz2, View.ld_unit_zero (S := S2048x1024) hz2]
  rfl

theorem stC_out (c : Dev nD) (t : Fin cfg1.N) (h0 : ¬cond_0 (grid1.coords t)) (h1 : cond_1 (grid1.coords t)) (xs : St F) :
    VO_4.read (Elt F) (VO_4.writes (Elt F) VO_4.junk (runC V c t h0 h1 xs).1) = gate (iblk V c 1 t) (iblk V c 3 t)
      (acc0 (iblk V c 0 t) (iblk V c 2 t) xs.2.1) (acc1 (iblk V c 0 t) (iblk V c 2 t) xs.2.2.1)
      (acc2 (iblk V c 0 t) (iblk V c 2 t) xs.2.2.2.1) (acc3 (iblk V c 0 t) (iblk V c 2 t) xs.2.2.2.2) := by
  rw [View.read_writes_eq_canon _ _ _ (cover_C_4 V c t h0 h1 xs)]
  unfold runC kernelRun_C
  dsimp only
  sl_unfold_words
  rw [View.canon_unit_zero hz2]
  simp only [View.readCov_unit_zero (S := S2048x512) _ hz2]
  simp only [View.readAt_eq_ld, Memref.IsWhole.read_unread, rdS_0, rdS_1, rdS_2, rdS_3, View.ld_unit_zero (S := S2048x512) hz2, View.ld_unit_zero (S := S2048x1024) hz2]
  rfl

end Cert.KernelIdeal.Rgn1

end
-- ==== Proof.KI.R1Idx.lean ====
import proofs.«119031_j6846177870362_2_alg».proof.Proof.KI.R1Runs

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Where each window's block sits at a grid point

Point `t` is slab `t % 4` of output block `t / 4`; output block `g` is row block `g / 8`, column block `g % 8`. -/

theorem idx_facts : ∀ t : Fin cfg1.N,
    win1_0.index t (0 : Fin 2) = t.val / 4 / 8 ∧ win1_0.index t (1 : Fin 2) = t.val % 4
    ∧ win1_1.index t (0 : Fin 2) = t.val / 4 / 8 ∧ win1_1.index t (1 : Fin 2) = t.val / 4 % 8
    ∧ win1_2.index t (0 : Fin 3) = 0 ∧ win1_2.index t (1 : Fin 3) = t.val / 4 % 8 ∧ win1_2.index t (2 : Fin 3) = t.val % 4
    ∧ win1_3.index t (0 : Fin 2) = 0 ∧ win1_3.index t (1 : Fin 2) = t.val / 4 % 8
    ∧ win1_4.index t (0 : Fin 2) = t.val / 4 / 8 ∧ win1_4.index t (1 : Fin 2) = t.val / 4 % 8 :=
  (by decide +kernel : ∀ t : Fin grid1.N, _)

end Cert.KernelIdeal.Rgn1

end
-- ==== Proof.KI.R1Blocks.lean ====
import proofs.«119031_j6846177870362_2_alg».proof.Proof.KI.R1Idx
import Idealize.ShloMosaic.Lib.Pipeline.Value
import Idealize.ShloMosaic.Lib.ValueIdx

set_option maxRecDepth 16384

noncomputable section

namespace Cert.KernelIdeal.Rgn1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! # The blocks of round 2's windows, by coordinates

Grid point `t` works on row block `t / 4 / 8` (2048 rows), column block `t / 4 % 8` (512 columns) and slab `t % 4`
(1024 columns of the contraction). Each window's block at `t`, read at a position inside the block, is its array at
the block's offset plus the position; the output's blocks, written back at the last slab of each group of four, tile
the whole output. -/

theorem t_lt (t : Fin cfg1.N) : t.val < 64 := Nat.lt_of_lt_of_eq t.isLt (Gen.N_1 : cfg1.N = 64)

/-- Row `p` of point `t`'s row block, in the array. -/
def rowOf (t : Fin cfg1.N) (p : Fin 2048) : Fin 4096 :=
  ⟨t.val / 4 / 8 * 2048 + p.val, by have := t_lt t; have := p.isLt; omega⟩
/-- Column `q` of point `t`'s column block, in the array. -/
def colOf (t : Fin cfg1.N) (q : Fin 512) : Fin 4096 :=
  ⟨t.val / 4 % 8 * 512 + q.val, by have := q.isLt; omega⟩
/-- Column `kk` of point `t`'s slab of the contraction, in the array. -/
def kOf (t : Fin cfg1.N) (kk : Fin 1024) : Fin 4096 :=
  ⟨t.val % 4 * 1024 + kk.val, by have := kk.isLt; omega⟩

/-- The state in the matrix unit's format: rows of the row block, columns of the slab. -/
theorem iblk_0_apply (c : Dev nD) (t : Fin cfg1.N) (p : Fin 2048) (kk : Fin 1024) :
    (iblk V c 0 t : S2048x1024.Idx → Elt F .bf16) (ix2 p kk) = V c main_v31 (ix2 (rowOf t p) (kOf t kk)) := by
  obtain ⟨e00, e01, e10, e11, e20, e21, e22, e30, e31, e40, e41⟩ := idx_facts t
  unfold iblk
  rw [View.read_apply]
  show V c main_v31 _ = V c main_v31 _
  refine congrArg (V c main_v31) (funext fun a => Fin.ext ?_)
  match a with
  | ⟨0, _⟩ => show win1_0.index t (0 : Fin 2) * 2048 + 1 * p.val = t.val / 4 / 8 * 2048 + p.val; rw [e00]; omega
  | ⟨1, _⟩ => show win1_0.index t (1 : Fin 2) * 1024 + 1 * kk.val = t.val % 4 * 1024 + kk.val; rw [e01]; omega

/-- The state itself: rows of the row block, columns of the column block. -/
theorem iblk_1_apply (c : Dev nD) (t : Fin cfg1.N) (p : Fin 2048) (q : Fin 512) :
    (iblk V c 1 t : S2048x512.Idx → Elt F .f32) (ix2 p q) = V c main_v30 (ix2 (rowOf t p) (colOf t q)) := by
  obtain ⟨e00, e01, e10, e11, e20, e21, e22, e30, e31, e40, e41⟩ := idx_facts t
  unfold iblk
  rw [View.read_apply]
  show V c main_v30 _ = V c main_v30 _
  refine congrArg (V c main_v30) (funext fun a => Fin.ext ?_)
  match a with
  | ⟨0, _⟩ => show win1_1.index t (0 : Fin 2) * 2048 + 1 * p.val = t.val / 4 / 8 * 2048 + p.val; rw [e10]; omega
  | ⟨1, _⟩ => show win1_1.index t (1 : Fin 2) * 512 + 1 * q.val = t.val / 4 % 8 * 512 + q.val; rw [e11]; omega

/-- The stacked weights: all four matrices, rows of the column block, columns of the slab. -/
theorem iblk_2_apply (c : Dev nD) (t : Fin cfg1.N) (g : Fin 4) (q : Fin 512) (kk : Fin 1024) :
    (iblk V c 2 t : S4x512x1024.Idx → Elt F .bf16) (ix3 g q kk) = V c main_v16 (ix3 g (colOf t q) (kOf t kk)) := by
  obtain ⟨e00, e01, e10, e11, e20, e21, e22, e30, e31, e40, e41⟩ := idx_facts t
  unfold iblk
  rw [View.read_apply]
  show V c main_v16 _ = V c main_v16 _
  refine congrArg (V c main_v16) (funext fun a => Fin.ext ?_)
  match a with
  | ⟨0, _⟩ => show win1_2.index t (0 : Fin 3) * 4 + 1 * g.val = g.val; rw [e20]; omega
  | ⟨1, _⟩ => show win1_2.index t (1 : Fin 3) * 512 + 1 * q.val = t.val / 4 % 8 * 512 + q.val; rw [e21]; omega
  | ⟨2, _⟩ => show win1_2.index t (2 : Fin 3) * 1024 + 1 * kk.val = t.val % 4 * 1024 + kk.val; rw [e22]; omega

/-- The stacked biases: all four rows, columns of the column block. -/
theorem iblk_3_apply (c : Dev nD) (t : Fin cfg1.N) (g : Fin 4) (q : Fin 512) :
    (iblk V c 3 t : S4x512.Idx → Elt F .f32) (ix2 g q) = V c main_v28 (ix2 g (colOf t q)) := by
  obtain ⟨e00, e01, e10, e11, e20, e21, e22, e30, e31, e40, e41⟩ := idx_facts t
  unfold iblk
  rw [View.read_apply]
  show V c main_v28 _ = V c main_v28 _
  refine congrArg (V c main_v28) (funext fun a => Fin.ext ?_)
  match a with
  | ⟨0, _⟩ => show win1_3.index t (0 : Fin 2) * 4 + 1 * g.val = g.val; rw [e30]; omega
  | ⟨1, _⟩ => show win1_3.index t (1 : Fin 2) * 512 + 1 * q.val = t.val / 4 % 8 * 512 + q.val; rw [e31]; omega

/-- A whole-array function read through the output's block at `t`: rows of the row block, columns of the column block. -/
theorem blk4_read (G : S4096x4096.Idx → Elt F .f32) (t : Fin cfg1.N) (p : Fin 2048) (q : Fin 512) :
    (((cfg1.win 4).blk t).view.read (Elt F) G : S2048x512.Idx → Elt F .f32) (ix2 p q) = G (ix2 (rowOf t p) (colOf t q)) := by
  obtain ⟨e00, e01, e10, e11, e20, e21, e22, e30, e31, e40, e41⟩ := idx_facts t
  rw [View.read_apply]
  show G _ = G _
  refine congrArg G (funext fun a => Fin.ext ?_)
  match a with
  | ⟨0, _⟩ => show win1_4.index t (0 : Fin 2) * 2048 + 1 * p.val = t.val / 4 / 8 * 2048 + p.val; rw [e40]; omega
  | ⟨1, _⟩ => show win1_4.index t (1 : Fin 2) * 512 + 1 * q.val = t.val / 4 % 8 * 512 + q.val; rw [e41]; omega

/-- An index of the output is in point `t`'s block iff each coordinate is in the block's range on its axis. -/
theorem mem_blk4 (t : Fin cfg1.N) (i : S4096x4096.Idx) :
    i ∈ ((cfg1.win 4).blk t).view.set ↔ ∀ a : Fin 2, win1_4.index t a * S2048x512.size a ≤ (i a).val ∧ (i a).val < win1_4.index t a * S2048x512.size a + S2048x512.size a := by
  show i ∈ ((View.whole main_v32).slice (win1_4.rect t)).set ↔ _
  rw [View.set_slice_whole, Rect.mem_set_unit]
  exact Iff.rfl

/-- Every index of the output lies in the block some point writes back: the last slab's point of its row and column
    blocks. -/
theorem cover4 (i : S4096x4096.Idx) :
    ∃ t : Fin cfg1.N, (cfg1.win 4).flush t = true ∧ i ∈ ((cfg1.win 4).blk t).view.set := by
  have hi0 : (i 0).val < 4096 := (i 0).isLt
  have hi1 : (i 1).val < 4096 := (i 1).isLt
  have hlt : ((i 0).val / 2048 * 8 + (i 1).val / 512) * 4 + 3 < cfg1.N :=
    Nat.lt_of_lt_of_eq (by omega : ((i 0).val / 2048 * 8 + (i 1).val / 512) * 4 + 3 < 64) (Gen.N_1 : cfg1.N = 64).symm
  refine ⟨⟨((i 0).val / 2048 * 8 + (i 1).val / 512) * 4 + 3, hlt⟩, (flush1_4 _).2 (by show (((i 0).val / 2048 * 8 + (i 1).val / 512) * 4 + 3) % 4 = 3; omega), ?_⟩
  obtain ⟨e00, e01, e10, e11, e20, e21, e22, e30, e31, e40, e41⟩ := idx_facts (⟨((i 0).val / 2048 * 8 + (i 1).val / 512) * 4 + 3, hlt⟩ : Fin cfg1.N)
  rw [mem_blk4]
  intro a
  match a with
  | ⟨0, _⟩ =>
    show win1_4.index _ (0 : Fin 2) * 2048 ≤ (i 0).val ∧ (i 0).val < win1_4.index _ (0 : Fin 2) * 2048 + 2048
    rw [e40]
    show (((i 0).val / 2048 * 8 + (i 1).val / 512) * 4 + 3) / 4 / 8 * 2048 ≤ (i 0).val ∧ (i 0).val < (((i 0).val / 2048 * 8 + (i 1).val / 512) * 4 + 3) / 4 / 8 * 2048 + 2048
    omega
  | ⟨1, _⟩ =>
    show win1_4.index _ (1 : Fin 2) * 512 ≤ (i 1).val ∧ (i 1).val < win1_4.index _ (1 : Fin 2) * 512 + 512
    rw [e41]
    show (((i 0).val / 2048 * 8 + (i 1).val / 512) * 4 + 3) / 4 % 8 * 512 ≤ (i 1).val ∧ (i 1).val < (((i 0).val / 2048 * 8 + (i 1).val / 512) * 4 + 3) / 4 % 8 * 512 + 512
    omega

end Cert.KernelIdeal.Rgn1

end
-- ==== Proof.KI.R1AccVal.lean ====
import proofs.«119031_j6846177870362_2_alg».proof.Proof.KI.R1Steps
import proofs.«119031_j6846177870362_2_alg».proof.Proof.KI.Payload

set_option maxRecDepth 16384

noncomputable section

namespace Cert.KernelIdeal.Rgn1

open Cert.KernelIdeal Cert.KernelIdeal.Gen
open Idealize.ShloMosaic Idealize.ShloMosaic.ValueIdx
open Cert.Gru

variable {F : FTy → Type} [FloatOps F]

/-! # Round 2's arithmetic at a grid point, read at an index

Gate `j`'s slab of the staged weight block is the block's matrix `j`; its bias row is the block's row `j`. So an
accumulator's update at `(p, q)` adds the sum over the slab's columns of the state's entry times matrix `j`'s entry
at row `q`, and the gate expression at `(p, q)` is the gates' formula of the four accumulators there, the four bias
rows at column `q` and the state there. -/

theorem wslab0_apply (x2 : Vec F S4x512x1024 .bf16) (q : Fin 512) (kk : Fin 1024) :
    wslab0 x2 (ix3 (0 : Fin 1) q kk) = x2 (ix3 (0 : Fin 4) q kk) := by
  unfold wslab0
  show x2 _ = x2 _
  refine congrArg x2 (funext fun a => Fin.ext ?_)
  match a with
  | ⟨0, _⟩ => show 0 + 1 * 0 = 0; omega
  | ⟨1, _⟩ => show 0 + 1 * q.val = q.val; omega
  | ⟨2, _⟩ => show 0 + 1 * kk.val = kk.val; omega

theorem brow0_apply (x3 : Vec F S4x512 .f32) (q : Fin 512) :
    brow0 x3 (ix2 (0 : Fin 1) q) = x3 (ix2 (0 : Fin 4) q) := by
  unfold brow0
  show x3 _ = x3 _
  refine congrArg x3 (funext fun a => Fin.ext ?_)
  match a with
  | ⟨0, _⟩ => show 0 + 1 * 0 = 0; omega
  | ⟨1, _⟩ => show 0 + 1 * q.val = q.val; omega

theorem wslab1_apply (x2 : Vec F S4x512x1024 .bf16) (q : Fin 512) (kk : Fin 1024) :
    wslab1 x2 (ix3 (0 : Fin 1) q kk) = x2 (ix3 (1 : Fin 4) q kk) := by
  unfold wslab1
  show x2 _ = x2 _
  refine congrArg x2 (funext fun a => Fin.ext ?_)
  match a with
  | ⟨0, _⟩ => show 1 + 1 * 0 = 1; omega
  | ⟨1, _⟩ => show 0 + 1 * q.val = q.val; omega
  | ⟨2, _⟩ => show 0 + 1 * kk.val = kk.val; omega

theorem brow1_apply (x3 : Vec F S4x512 .f32) (q : Fin 512) :
    brow1 x3 (ix2 (0 : Fin 1) q) = x3 (ix2 (1 : Fin 4) q) := by
  unfold brow1
  show x3 _ = x3 _
  refine congrArg x3 (funext fun a => Fin.ext ?_)
  match a with
  | ⟨0, _⟩ => show 1 + 1 * 0 = 1; omega
  | ⟨1, _⟩ => show 0 + 1 * q.val = q.val; omega

theorem wslab2_apply (x2 : Vec F S4x512x1024 .bf16) (q : Fin 512) (kk : Fin 1024) :
    wslab2 x2 (ix3 (0 : Fin 1) q kk) = x2 (ix3 (2 : Fin 4) q kk) := by
  unfold wslab2
  show x2 _ = x2 _
  refine congrArg x2 (funext fun a => Fin.ext ?_)
  match a with
  | ⟨0, _⟩ => show 2 + 1 * 0 = 2; omega
  | ⟨1, _⟩ => show 0 + 1 * q.val = q.val; omega
  | ⟨2, _⟩ => show 0 + 1 * kk.val = kk.val; omega

theorem brow2_apply (x3 : Vec F S4x512 .f32) (q : Fin 512) :
    brow2 x3 (ix2 (0 : Fin 1) q) = x3 (ix2 (2 : Fin 4) q) := by
  unfold brow2
  show x3 _ = x3 _
  refine congrArg x3 (funext fun a => Fin.ext ?_)
  match a with
  | ⟨0, _⟩ => show 2 + 1 * 0 = 2; omega
  | ⟨1, _⟩ => show 0 + 1 * q.val = q.val; omega

theorem wslab3_apply (x2 : Vec F S4x512x1024 .bf16) (q : Fin 512) (kk : Fin 1024) :
    wslab3 x2 (ix3 (0 : Fin 1) q kk) = x2 (ix3 (3 : Fin 4) q kk) := by
  unfold wslab3
  show x2 _ = x2 _
  refine congrArg x2 (funext fun a => Fin.ext ?_)
  match a with
  | ⟨0, _⟩ => show 3 + 1 * 0 = 3; omega
  | ⟨1, _⟩ => show 0 + 1 * q.val = q.val; omega
  | ⟨2, _⟩ => show 0 + 1 * kk.val = kk.val; omega

theorem brow3_apply (x3 : Vec F S4x512 .f32) (q : Fin 512) :
    brow3 x3 (ix2 (0 : Fin 1) q) = x3 (ix2 (3 : Fin 4) q) := by
  unfold brow3
  show x3 _ = x3 _
  refine congrArg x3 (funext fun a => Fin.ext ?_)
  match a with
  | ⟨0, _⟩ => show 3 + 1 * 0 = 3; omega
  | ⟨1, _⟩ => show 0 + 1 * q.val = q.val; omega

/-! ## The four accumulators -/

theorem acc0_apply (x0 : Vec Ideal S2048x1024 .bf16) (x2 : Vec Ideal S4x512x1024 .bf16) (a : Vec Ideal S2048x512 .f32)
    (p : Fin 2048) (q : Fin 512) :
    acc0 x0 x2 a (ix2 p q) = a (ix2 p q) + ∑ kk : Fin 1024, x0 (ix2 p kk) * x2 (ix3 (0 : Fin 4) q kk) := by
  unfold acc0
  refine (Payload.k1_pay9_apply x0 a (wslab0 x2) p q).trans ?_
  refine congrArg (a (ix2 p q) + ·) (Finset.sum_congr rfl fun kk _ => congrArg (x0 (ix2 p kk) * ·) ?_)
  exact wslab0_apply x2 q kk

theorem acc1_apply (x0 : Vec Ideal S2048x1024 .bf16) (x2 : Vec Ideal S4x512x1024 .bf16) (a : Vec Ideal S2048x512 .f32)
    (p : Fin 2048) (q : Fin 512) :
    acc1 x0 x2 a (ix2 p q) = a (ix2 p q) + ∑ kk : Fin 1024, x0 (ix2 p kk) * x2 (ix3 (1 : Fin 4) q kk) := by
  unfold acc1
  refine (Payload.k1_pay10_apply x0 a (wslab1 x2) p q).trans ?_
  refine congrArg (a (ix2 p q) + ·) (Finset.sum_congr rfl fun kk _ => congrArg (x0 (ix2 p kk) * ·) ?_)
  exact wslab1_apply x2 q kk

theorem acc2_apply (x0 : Vec Ideal S2048x1024 .bf16) (x2 : Vec Ideal S4x512x1024 .bf16) (a : Vec Ideal S2048x512 .f32)
    (p : Fin 2048) (q : Fin 512) :
    acc2 x0 x2 a (ix2 p q) = a (ix2 p q) + ∑ kk : Fin 1024, x0 (ix2 p kk) * x2 (ix3 (2 : Fin 4) q kk) := by
  unfold acc2
  refine (Payload.k1_pay1_pay11_apply x0 a (wslab2 x2) p q).trans ?_
  refine congrArg (a (ix2 p q) + ·) (Finset.sum_congr rfl fun kk _ => congrArg (x0 (ix2 p kk) * ·) ?_)
  exact wslab2_apply x2 q kk

theorem acc3_apply (x0 : Vec Ideal S2048x1024 .bf16) (x2 : Vec Ideal S4x512x1024 .bf16) (a : Vec Ideal S2048x512 .f32)
    (p : Fin 2048) (q : Fin 512) :
    acc3 x0 x2 a (ix2 p q) = a (ix2 p q) + ∑ kk : Fin 1024, x0 (ix2 p kk) * x2 (ix3 (3 : Fin 4) q kk) := by
  unfold acc3
  refine (Payload.k1_pay2_pay8_apply x0 a (wslab3 x2) p q).trans ?_
  refine congrArg (a (ix2 p q) + ·) (Finset.sum_congr rfl fun kk _ => congrArg (x0 (ix2 p kk) * ·) ?_)
  exact wslab3_apply x2 q kk

/-! ## The gates -/

theorem gate_apply (x1 : Vec Ideal S2048x512 .f32) (x3 : Vec Ideal S4x512 .f32) (a0 a1 a2 a3 : Vec Ideal S2048x512 .f32)
    (p : Fin 2048) (q : Fin 512) :
    gate x1 x3 a0 a1 a2 a3 (ix2 p q)
      = (1 - Ideal.logistic (a1 (ix2 p q) + x3 (ix2 1 q)))
          * Ideal.tanh (a2 (ix2 p q) + x3 (ix2 2 q) + Ideal.logistic (a0 (ix2 p q) + x3 (ix2 0 q)) * (a3 (ix2 p q) + x3 (ix2 3 q)))
        + Ideal.logistic (a1 (ix2 p q) + x3 (ix2 1 q)) * x1 (ix2 p q) := by
  unfold gate
  refine (Payload.k1_pay3_apply (brow0 x3) (brow1 x3) (brow2 x3) (brow3 x3) a0 a1 a2 a3 x1 p q).trans ?_
  rw [brow0_apply x3 q, brow1_apply x3 q, brow2_apply x3 q, brow3_apply x3 q]

end Cert.KernelIdeal.Rgn1

end
-- ==== Proof.KI.R1Final.lean ====
import proofs.«119031_j6846177870362_2_alg».proof.Proof.KI.R1Pieces
import proofs.«119031_j6846177870362_2_alg».proof.Proof.KI.R1Blocks
import proofs.«119031_j6846177870362_2_alg».proof.Proof.KI.R1AccVal
import proofs.«119031_j6846177870362_2_alg».proof.Proof.SpecK

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Gru Idealize.ShloMosaic.ValueIdx Cert.KernelIdeal.Payload

variable (V : (c : Dev nD) → (b : Ref sig .tc) → Buf (Elt Ideal) ((c : Thread nD τ).loc b))

/-! # What the region leaves in its output array, over the extended reals

Within a group of four grid points (the four slabs of one output block) each accumulator goes 0 + d₀, + d₁, + d₂, + d₃,
`d_k` the product of the state's slab `k` with the gate's slab `k`; at the fourth point the gate expression of the four
sums is stored, and the pipeline writes the block back. So the array ends holding the fused round of the four operand arrays. -/

/-- Equal positions, equal contents. -/
theorem outsAt_congr (c : Dev nD) {n n' : ℕ} (e : n = n') (hn : n < cfg1.N) (hn' : n' < cfg1.N) :
    outsAt V c n hn = outsAt V c n' hn' := by subst e; rfl

/-- The product of a state block with gate `j`'s slab of a weight block, at row `p`, column `q`; and the one at point `t`. -/
def slabProd (x0 : Vec Ideal S2048x1024 .bf16) (x2 : Vec Ideal S4x512x1024 .bf16) (j : Fin 4) (p : Fin 2048) (q : Fin 512) : EReal :=
  ∑ kk : Fin 1024, x0 (ix2 p kk) * x2 (ix3 j q kk)
def dAt (c : Dev nD) (t : Fin cfg1.N) (j : Fin 4) (p : Fin 2048) (q : Fin 512) : EReal :=
  slabProd (iblk V c 0 t) (iblk V c 2 t) j p q

/-! ## One point's effect on each accumulator, at an index -/

/-- A first slab: accumulator 0 restarts from zero. -/
theorem stepA_0 (c : Dev nD) (t : Fin cfg1.N) (h0 : t.val % 4 = 0) (h1 : ¬t.val % 4 = 3) (p : Fin 2048) (q : Fin 512) :
    (outsAt V c t.val t.isLt).2.1 (ix2 p q) = 0 + dAt V c t 0 p q := by
  rw [outsAt_A V c t h0 h1]
  unfold stA
  dsimp only
  rw [stA_0]
  refine (acc0_apply _ _ _ p q).trans ?_
  exact congrArg (· + dAt V c t 0 p q) (k1_pay4_apply _)

/-- An inner slab: accumulator 0 gains the slab's product. -/
theorem stepB_0 (c : Dev nD) (t t' : Fin cfg1.N) (ht : t'.val + 1 = t.val) (h0 : ¬t.val % 4 = 0) (h1 : ¬t.val % 4 = 3)
    (p : Fin 2048) (q : Fin 512) :
    (outsAt V c t.val t.isLt).2.1 (ix2 p q) = (outsAt V c t'.val t'.isLt).2.1 (ix2 p q) + dAt V c t 0 p q := by
  rw [outsAt_B V c t h0 h1, outsAt_congr V c (show t.val - 1 = t'.val by omega) _ t'.isLt]
  unfold stB
  dsimp only
  rw [stB_0]
  exact acc0_apply _ _ _ p q

/-- A last slab: accumulator 0 gains the slab's product. -/
theorem stepC_0 (c : Dev nD) (t t' : Fin cfg1.N) (ht : t'.val + 1 = t.val) (h0 : ¬t.val % 4 = 0) (h1 : t.val % 4 = 3)
    (p : Fin 2048) (q : Fin 512) :
    (outsAt V c t.val t.isLt).2.1 (ix2 p q) = (outsAt V c t'.val t'.isLt).2.1 (ix2 p q) + dAt V c t 0 p q := by
  rw [outsAt_C V c t h0 h1, outsAt_congr V c (show t.val - 1 = t'.val by omega) _ t'.isLt]
  unfold stC
  dsimp only
  rw [stC_0]
  exact acc0_apply _ _ _ p q

/-- A first slab: accumulator 1 restarts from zero. -/
theorem stepA_1 (c : Dev nD) (t : Fin cfg1.N) (h0 : t.val % 4 = 0) (h1 : ¬t.val % 4 = 3) (p : Fin 2048) (q : Fin 512) :
    (outsAt V c t.val t.isLt).2.2.1 (ix2 p q) = 0 + dAt V c t 1 p q := by
  rw [outsAt_A V c t h0 h1]
  unfold stA
  dsimp only
  rw [stA_1]
  refine (acc1_apply _ _ _ p q).trans ?_
  exact congrArg (· + dAt V c t 1 p q) (k1_pay5_apply _)

/-- An inner slab: accumulator 1 gains the slab's product. -/
theorem stepB_1 (c : Dev nD) (t t' : Fin cfg1.N) (ht : t'.val + 1 = t.val) (h0 : ¬t.val % 4 = 0) (h1 : ¬t.val % 4 = 3)
    (p : Fin 2048) (q : Fin 512) :
    (outsAt V c t.val t.isLt).2.2.1 (ix2 p q) = (outsAt V c t'.val t'.isLt).2.2.1 (ix2 p q) + dAt V c t 1 p q := by
  rw [outsAt_B V c t h0 h1, outsAt_congr V c (show t.val - 1 = t'.val by omega) _ t'.isLt]
  unfold stB
  dsimp only
  rw [stB_1]
  exact acc1_apply _ _ _ p q

/-- A last slab: accumulator 1 gains the slab's product. -/
theorem stepC_1 (c : Dev nD) (t t' : Fin cfg1.N) (ht : t'.val + 1 = t.val) (h0 : ¬t.val % 4 = 0) (h1 : t.val % 4 = 3)
    (p : Fin 2048) (q : Fin 512) :
    (outsAt V c t.val t.isLt).2.2.1 (ix2 p q) = (outsAt V c t'.val t'.isLt).2.2.1 (ix2 p q) + dAt V c t 1 p q := by
  rw [outsAt_C V c t h0 h1, outsAt_congr V c (show t.val - 1 = t'.val by omega) _ t'.isLt]
  unfold stC
  dsimp only
  rw [stC_1]
  exact acc1_apply _ _ _ p q

/-- A first slab: accumulator 2 restarts from zero. -/
theorem stepA_2 (c : Dev nD) (t : Fin cfg1.N) (h0 : t.val % 4 = 0) (h1 : ¬t.val % 4 = 3) (p : Fin 2048) (q : Fin 512) :
    (outsAt V c t.val t.isLt).2.2.2.1 (ix2 p q) = 0 + dAt V c t 2 p q := by
  rw [outsAt_A V c t h0 h1]
  unfold stA
  dsimp only
  rw [stA_2]
  refine (acc2_apply _ _ _ p q).trans ?_
  exact congrArg (· + dAt V c t 2 p q) (k1_pay6_apply _)

/-- An inner slab: accumulator 2 gains the slab's product. -/
theorem stepB_2 (c : Dev nD) (t t' : Fin cfg1.N) (ht : t'.val + 1 = t.val) (h0 : ¬t.val % 4 = 0) (h1 : ¬t.val % 4 = 3)
    (p : Fin 2048) (q : Fin 512) :
    (outsAt V c t.val t.isLt).2.2.2.1 (ix2 p q) = (outsAt V c t'.val t'.isLt).2.2.2.1 (ix2 p q) + dAt V c t 2 p q := by
  rw [outsAt_B V c t h0 h1, outsAt_congr V c (show t.val - 1 = t'.val by omega) _ t'.isLt]
  unfold stB
  dsimp only
  rw [stB_2]
  exact acc2_apply _ _ _ p q

/-- A last slab: accumulator 2 gains the slab's product. -/
theorem stepC_2 (c : Dev nD) (t t' : Fin cfg1.N) (ht : t'.val + 1 = t.val) (h0 : ¬t.val % 4 = 0) (h1 : t.val % 4 = 3)
    (p : Fin 2048) (q : Fin 512) :
    (outsAt V c t.val t.isLt).2.2.2.1 (ix2 p q) = (outsAt V c t'.val t'.isLt).2.2.2.1 (ix2 p q) + dAt V c t 2 p q := by
  rw [outsAt_C V c t h0 h1, outsAt_congr V c (show t.val - 1 = t'.val by omega) _ t'.isLt]
  unfold stC
  dsimp only
  rw [stC_2]
  exact acc2_apply _ _ _ p q

/-- A first slab: accumulator 3 restarts from zero. -/
theorem stepA_3 (c : Dev nD) (t : Fin cfg1.N) (h0 : t.val % 4 = 0) (h1 : ¬t.val % 4 = 3) (p : Fin 2048) (q : Fin 512) :
    (outsAt V c t.val t.isLt).2.2.2.2 (ix2 p q) = 0 + dAt V c t 3 p q := by
  rw [outsAt_A V c t h0 h1]
  unfold stA
  dsimp only
  rw [stA_3]
  refine (acc3_apply _ _ _ p q).trans ?_
  exact congrArg (· + dAt V c t 3 p q) (k1_pay7_apply _)

/-- An inner slab: accumulator 3 gains the slab's product. -/
theorem stepB_3 (c : Dev nD) (t t' : Fin cfg1.N) (ht : t'.val + 1 = t.val) (h0 : ¬t.val % 4 = 0) (h1 : ¬t.val % 4 = 3)
    (p : Fin 2048) (q : Fin 512) :
    (outsAt V c t.val t.isLt).2.2.2.2 (ix2 p q) = (outsAt V c t'.val t'.isLt).2.2.2.2 (ix2 p q) + dAt V c t 3 p q := by
  rw [outsAt_B V c t h0 h1, outsAt_congr V c (show t.val - 1 = t'.val by omega) _ t'.isLt]
  unfold stB
  dsimp only
  rw [stB_3]
  exact acc3_apply _ _ _ p q

/-- A last slab: accumulator 3 gains the slab's product. -/
theorem stepC_3 (c : Dev nD) (t t' : Fin cfg1.N) (ht : t'.val + 1 = t.val) (h0 : ¬t.val % 4 = 0) (h1 : t.val % 4 = 3)
    (p : Fin 2048) (q : Fin 512) :
    (outsAt V c t.val t.isLt).2.2.2.2 (ix2 p q) = (outsAt V c t'.val t'.isLt).2.2.2.2 (ix2 p q) + dAt V c t 3 p q := by
  rw [outsAt_C V c t h0 h1, outsAt_congr V c (show t.val - 1 = t'.val by omega) _ t'.isLt]
  unfold stC
  dsimp only
  rw [stC_3]
  exact acc3_apply _ _ _ p q

/-- At a last slab the output's staging buffer holds the gate expression of the four accumulators as they now stand. -/
theorem outC (c : Dev nD) (t : Fin cfg1.N) (h0 : ¬t.val % 4 = 0) (h1 : t.val % 4 = 3) :
    (outsAt V c t.val t.isLt).1 = gate (iblk V c 1 t) (iblk V c 3 t) (outsAt V c t.val t.isLt).2.1 (outsAt V c t.val t.isLt).2.2.1
      (outsAt V c t.val t.isLt).2.2.2.1 (outsAt V c t.val t.isLt).2.2.2.2 := by
  rw [outsAt_C V c t h0 h1]
  unfold stC
  dsimp only
  exact (stC_out V c t _ _ _).trans (congr (congr (congr (congrArg (gate (iblk V c 1 t) (iblk V c 3 t)) (stC_0 V c t _ _ _).symm)
    (stC_1 V c t _ _ _).symm) (stC_2 V c t _ _ _).symm) (stC_3 V c t _ _ _).symm)

/-! ## A group of four points -/

/-- Slab `k` of output block `g`. -/
def pt (g : Fin 16) (k : Fin 4) : Fin cfg1.N :=
  ⟨4 * g.val + k.val, Nat.lt_of_lt_of_eq (by have := g.isLt; have := k.isLt; omega) (N_1 : cfg1.N = 64).symm⟩

/-- The slab product at a point of block `g`, in the operand arrays' own coordinates. -/
theorem dAt_eq (c : Dev nD) (g : Fin 16) (k : Fin 4) (j : Fin 4) (p : Fin 2048) (q : Fin 512) :
    dAt V c (pt g k) j p q = slabDot (V c main_v31) (V c main_v16) j (rowOf (pt g 3) p) (colOf (pt g 3) q) k := by
  unfold dAt slabProd slabDot
  refine Finset.sum_congr rfl fun kk _ => ?_
  have hk := k.isLt
  have e1 : rowOf (pt g k) p = rowOf (pt g 3) p := Fin.ext (by
    show (4 * g.val + k.val) / 4 / 8 * 2048 + p.val = (4 * g.val + 3) / 4 / 8 * 2048 + p.val; omega)
  have e2 : colOf (pt g k) q = colOf (pt g 3) q := Fin.ext (by
    show (4 * g.val + k.val) / 4 % 8 * 512 + q.val = (4 * g.val + 3) / 4 % 8 * 512 + q.val; omega)
  have e3 : kOf (pt g k) kk = slabCol k kk := Fin.ext (by
    show (4 * g.val + k.val) % 4 * 1024 + kk.val = k.val * 1024 + kk.val; omega)
  rw [iblk_0_apply, iblk_2_apply, e1, e2, e3]

/-! ## After the fourth slab of block `g` each accumulator is the four slab products added up from zero in order -/

theorem acc_last_0 (c : Dev nD) (g : Fin 16) (p : Fin 2048) (q : Fin 512) :
    (outsAt V c (pt g 3).val (pt g 3).isLt).2.1 (ix2 p q)
      = acc4 (V c main_v31) (V c main_v16) 0 (rowOf (pt g 3) p) (colOf (pt g 3) q) := by
  have m0 : (pt g 0).val % 4 = 0 := by show (4 * g.val + 0) % 4 = 0; omega
  have m1 : (pt g 1).val % 4 = 1 := by show (4 * g.val + 1) % 4 = 1; omega
  have m2 : (pt g 2).val % 4 = 2 := by show (4 * g.val + 2) % 4 = 2; omega
  have m3 : (pt g 3).val % 4 = 3 := by show (4 * g.val + 3) % 4 = 3; omega
  have s3 := stepC_0 V c (pt g 3) (pt g 2) (by show 4 * g.val + 2 + 1 = 4 * g.val + 3; omega) (by omega) m3 p q
  have s2 := stepB_0 V c (pt g 2) (pt g 1) (by show 4 * g.val + 1 + 1 = 4 * g.val + 2; omega) (by omega) (by omega) p q
  have s1 := stepB_0 V c (pt g 1) (pt g 0) (by show 4 * g.val + 0 + 1 = 4 * g.val + 1; omega) (by omega) (by omega) p q
  have s0 := stepA_0 V c (pt g 0) m0 (by omega) p q
  rw [s3, s2, s1, s0, dAt_eq, dAt_eq, dAt_eq, dAt_eq]
  first | done | rfl

theorem acc_last_1 (c : Dev nD) (g : Fin 16) (p : Fin 2048) (q : Fin 512) :
    (outsAt V c (pt g 3).val (pt g 3).isLt).2.2.1 (ix2 p q)
      = acc4 (V c main_v31) (V c main_v16) 1 (rowOf (pt g 3) p) (colOf (pt g 3) q) := by
  have m0 : (pt g 0).val % 4 = 0 := by show (4 * g.val + 0) % 4 = 0; omega
  have m1 : (pt g 1).val % 4 = 1 := by show (4 * g.val + 1) % 4 = 1; omega
  have m2 : (pt g 2).val % 4 = 2 := by show (4 * g.val + 2) % 4 = 2; omega
  have m3 : (pt g 3).val % 4 = 3 := by show (4 * g.val + 3) % 4 = 3; omega
  have s3 := stepC_1 V c (pt g 3) (pt g 2) (by show 4 * g.val + 2 + 1 = 4 * g.val + 3; omega) (by omega) m3 p q
  have s2 := stepB_1 V c (pt g 2) (pt g 1) (by show 4 * g.val + 1 + 1 = 4 * g.val + 2; omega) (by omega) (by omega) p q
  have s1 := stepB_1 V c (pt g 1) (pt g 0) (by show 4 * g.val + 0 + 1 = 4 * g.val + 1; omega) (by omega) (by omega) p q
  have s0 := stepA_1 V c (pt g 0) m0 (by omega) p q
  rw [s3, s2, s1, s0, dAt_eq, dAt_eq, dAt_eq, dAt_eq]
  first | done | rfl

theorem acc_last_2 (c : Dev nD) (g : Fin 16) (p : Fin 2048) (q : Fin 512) :
    (outsAt V c (pt g 3).val (pt g 3).isLt).2.2.2.1 (ix2 p q)
      = acc4 (V c main_v31) (V c main_v16) 2 (rowOf (pt g 3) p) (colOf (pt g 3) q) := by
  have m0 : (pt g 0).val % 4 = 0 := by show (4 * g.val + 0) % 4 = 0; omega
  have m1 : (pt g 1).val % 4 = 1 := by show (4 * g.val + 1) % 4 = 1; omega
  have m2 : (pt g 2).val % 4 = 2 := by show (4 * g.val + 2) % 4 = 2; omega
  have m3 : (pt g 3).val % 4 = 3 := by show (4 * g.val + 3) % 4 = 3; omega
  have s3 := stepC_2 V c (pt g 3) (pt g 2) (by show 4 * g.val + 2 + 1 = 4 * g.val + 3; omega) (by omega) m3 p q
  have s2 := stepB_2 V c (pt g 2) (pt g 1) (by show 4 * g.val + 1 + 1 = 4 * g.val + 2; omega) (by omega) (by omega) p q
  have s1 := stepB_2 V c (pt g 1) (pt g 0) (by show 4 * g.val + 0 + 1 = 4 * g.val + 1; omega) (by omega) (by omega) p q
  have s0 := stepA_2 V c (pt g 0) m0 (by omega) p q
  rw [s3, s2, s1, s0, dAt_eq, dAt_eq, dAt_eq, dAt_eq]
  first | done | rfl

theorem acc_last_3 (c : Dev nD) (g : Fin 16) (p : Fin 2048) (q : Fin 512) :
    (outsAt V c (pt g 3).val (pt g 3).isLt).2.2.2.2 (ix2 p q)
      = acc4 (V c main_v31) (V c main_v16) 3 (rowOf (pt g 3) p) (colOf (pt g 3) q) := by
  have m0 : (pt g 0).val % 4 = 0 := by show (4 * g.val + 0) % 4 = 0; omega
  have m1 : (pt g 1).val % 4 = 1 := by show (4 * g.val + 1) % 4 = 1; omega
  have m2 : (pt g 2).val % 4 = 2 := by show (4 * g.val + 2) % 4 = 2; omega
  have m3 : (pt g 3).val % 4 = 3 := by show (4 * g.val + 3) % 4 = 3; omega
  have s3 := stepC_3 V c (pt g 3) (pt g 2) (by show 4 * g.val + 2 + 1 = 4 * g.val + 3; omega) (by omega) m3 p q
  have s2 := stepB_3 V c (pt g 2) (pt g 1) (by show 4 * g.val + 1 + 1 = 4 * g.val + 2; omega) (by omega) (by omega) p q
  have s1 := stepB_3 V c (pt g 1) (pt g 0) (by show 4 * g.val + 0 + 1 = 4 * g.val + 1; omega) (by omega) (by omega) p q
  have s0 := stepA_3 V c (pt g 0) m0 (by omega) p q
  rw [s3, s2, s1, s0, dAt_eq, dAt_eq, dAt_eq, dAt_eq]
  first | done | rfl

/-- The fused round of the region's four operand arrays, as contents of its output array. -/
abbrev G (c : Dev nD) : Buf (Elt Ideal) ((c : Thread nD τ).loc main_v32) :=
  kerRound4 (V c main_v31) (V c main_v30) (V c main_v16) (V c main_v28)

/-- What a write-back writes: at a last slab, the block of the fused round. -/
theorem flushed_eq (c : Dev nD) (t : Fin cfg1.N) (hf : (cfg1.win 4).flush t = true) :
    (dat V c).flushed 4 t = ((cfg1.win 4).blk t).view.read (Elt Ideal) (G V c) := by
  have h3 : t.val % 4 = 3 := (flush1_4 t).mp hf
  have hN : t.val < 64 := t_lt t
  obtain ⟨g, rfl⟩ : ∃ g : Fin 16, t = pt g 3 := ⟨⟨t.val / 4, by omega⟩, Fin.ext (by show t.val = 4 * (t.val / 4) + 3; omega)⟩
  show (cfg1.win 4).cut (grid1.coords (pt g 3)) ((dat V c).after 4 (pt g 3)) = _
  rw [after_4, outC V c (pt g 3) (by omega) h3]
  refine funext fun (y : S2048x512.Idx) => ?_
  obtain ⟨p, q, rfl⟩ : ∃ (p : Fin 2048) (q : Fin 512), y = ix2 p q := ⟨y 0, y 1, eq_ix2 y⟩
  refine Eq.trans ?_ (blk4_read (G V c) (pt g 3) p q).symm
  show gate _ _ _ _ _ _ (ix2 p q) = _
  refine (gate_apply _ _ _ _ _ _ p q).trans ?_
  rw [acc_last_0, acc_last_1, acc_last_2, acc_last_3, iblk_1_apply, iblk_3_apply, iblk_3_apply, iblk_3_apply, iblk_3_apply]
  first | done | rfl

/-- The output array after the region: the fused round of the four operand arrays as the region found them. -/
theorem final (c : Dev nD) : (dat V c).arrAt 4 cfg1.N = G V c :=
  (dat V c).arrAt_eq_of_cover 4 (G V c) (flushed_eq V c) cover4

/-- The same, spelt out. -/
theorem final_spec (c : Dev nD) :
    ((dat V c).arrAt 4 cfg1.N : SH.Idx → EReal) = kerRound4 (V c main_v31) (V c main_v30) (V c main_v16) (V c main_v28) :=
  final V c

end Cert.KernelIdeal.Rgn1

end
-- ==== Proof.RefHelp.lean ====
import proofs.«119031_j6846177870362_2_alg».proof.Proof.Gen.ReferenceIdeal.Read
import proofs.«119031_j6846177870362_2_alg».proof.Proof.Spec

noncomputable section

/-! # The reference program read at an index: the pieces both rounds share

The reference keeps a sample's state as one row of 4096 numbers. Three facts are used by both rounds: the
reshape of the argument is the flattened state; a row cut into its two halves and joined in the other order is
the row read at the half-swapped position; the word `0x3F800000` is the number one. -/

namespace Cert.ReferenceIdeal.RefValue

open Cert.ReferenceIdeal Cert.ReferenceIdeal.Gen Cert.ReferenceIdeal.Read Idealize.ShloMosaic Idealize.ShloMosaic.ValueIdx Cert.Gru

/-- The word `0x3F800000` denotes the number one. -/
theorem ofBits_one : Ideal.ofBits .f32 0x3F800000#32 = 1 := by
  simp [Ideal.ofBits, Ideal.ieee, -EReal.coe_mul]; norm_num

/-- Columns 2048 … 4095 of a row followed by its columns 0 … 2047: at column `k` this is the row at column
    `(k + 2048) mod 4096`. Below 2048 the joined row reads the first piece, which starts at column 2048; from 2048
    on it reads the second piece at `k − 2048`, which starts at column 0. -/
theorem swap_apply (h : (⟨S4096x4096, .f32⟩ : BufTy).Contents (Elt Ideal)) (b k : Fin 4096) :
    concatenate S4096x4096 1 [⟨S4096x2048, extractStridedSlice S4096x2048 ![0, 2048] h slices_S4096x4096_S4096x2048_0_2048⟩,
      ⟨S4096x2048, extractStridedSlice S4096x2048 ![0, 0] h slices_S4096x4096_S4096x2048_0_0⟩]
      concatenates_S4096x2048_S4096x2048_S4096x4096_d1 (ix2 b k) = h (ix2 b (swp k)) := by
  by_cases hk : k.val < 2048
  · refine (concatenate_pair_apply_left 1 _ _ concatenates_S4096x2048_S4096x2048_S4096x4096_d1 (ix2 b k) rfl
      (ix2 b (⟨k.val, hk⟩ : Fin 2048)) (fun a => by match a with | ⟨0, _⟩ => rfl | ⟨1, _⟩ => rfl)).trans ?_
    exact extractStridedSlice_apply ![0, 2048] h slices_S4096x4096_S4096x2048_0_2048 (ix2 b (⟨k.val, hk⟩ : Fin 2048)) (ix2 b (swp k)) (fun a => by
      match a with
      | ⟨0, _⟩ => show b.val = 0 + b.val; omega
      | ⟨1, _⟩ => show (k.val + 2048) % 4096 = 2048 + k.val; omega)
  · have hk2 : k.val - 2048 < 2048 := by have := k.isLt; omega
    refine (concatenate_pair_apply_right 1 _ _ concatenates_S4096x2048_S4096x2048_S4096x4096_d1 (ix2 b k) rfl rfl
      (ix2 b (⟨k.val - 2048, hk2⟩ : Fin 2048)) (fun a ha => by
        match a with
        | ⟨0, _⟩ => rfl
        | ⟨1, _⟩ => exact absurd rfl ha) (by show (k.val - 2048) + 2048 = k.val; omega)).trans ?_
    exact extractStridedSlice_apply ![0, 0] h slices_S4096x4096_S4096x2048_0_0 (ix2 b (⟨k.val - 2048, hk2⟩ : Fin 2048)) (ix2 b (swp k)) (fun a => by
      match a with
      | ⟨0, _⟩ => show b.val = 0 + b.val; omega
      | ⟨1, _⟩ => show (k.val + 2048) % 4096 = 0 + (k.val - 2048); omega)

/-- The reshape of the `[4096, 2, 2048]` argument to `[4096, 4096]` is the flattened state: row-major position
    `n · 2048 + q` of a sample's row is feature `q` of node `n`. -/
theorem v0_eq (x0 : (⟨S4096x2x2048, .f32⟩ : BufTy).Contents (Elt Ideal)) :
    val_main_v0 (F := Ideal) x0 = flat x0 := by
  funext i
  rw [val_main_v0_apply]
  refine congrArg x0 (funext fun a => Fin.ext ?_)
  have h0 : (i 0).val < 4096 := (i 0).isLt
  have h1 : (i 1).val < 4096 := (i 1).isLt
  match a with
  | ⟨0, _⟩ => show ((i 0).val * 4096 + (i 1).val) / 4096 = (i 0).val; omega
  | ⟨1, _⟩ => show ((i 0).val * 4096 + (i 1).val) / 2048 % 2 = (i 1).val / 2048; omega
  | ⟨2, _⟩ => show ((i 0).val * 4096 + (i 1).val) % 2048 = (i 1).val % 2048; omega

end Cert.ReferenceIdeal.RefValue

end
-- ==== Proof.RefRound1.lean ====
import proofs.«119031_j6846177870362_2_alg».proof.Proof.RefHelp

noncomputable section

/-! # Round one of the reference, read at an index

The reference computes round one as: the half-swapped state times the transposed input weights plus the input bias
(`gi`), the state times the transposed state weights plus the state bias (`gh`), each cut into three column
blocks of 4096 (the reset, update and candidate gates), and the gate arithmetic entry by entry. Read at entry
`(b, c)`, column `g · 4096 + c` of `gi` is the sum over `k` of the swapped state times row `g · 4096 + c` of
the weights: the textbook round of the specification. -/

namespace Cert.ReferenceIdeal.RefValue

open Cert.ReferenceIdeal Cert.ReferenceIdeal.Gen Cert.ReferenceIdeal.Read Idealize.ShloMosaic Idealize.ShloMosaic.ValueIdx Cert.Gru

variable (x0 : (⟨S4096x2x2048, .f32⟩ : BufTy).Contents (Elt Ideal))
  (x1 : (⟨S12288x4096, .f32⟩ : BufTy).Contents (Elt Ideal)) (x2 : (⟨S12288, .f32⟩ : BufTy).Contents (Elt Ideal))
  (x3 : (⟨S12288x4096, .f32⟩ : BufTy).Contents (Elt Ideal)) (x4 : (⟨S12288, .f32⟩ : BufTy).Contents (Elt Ideal))

/-- The swapped state of round one at column `k` is the flattened argument at the swapped column. -/
theorem v3_apply (b k : Fin 4096) : val_main_v3 (F := Ideal) x0 (ix2 b k) = flat x0 (ix2 b (swp k)) := by
  rw [← v0_eq]
  unfold val_main_v3 val_main_v1 val_main_v2
  generalize val_main_v0 (F := Ideal) x0 = h
  exact swap_apply h b k

/-- Round one's input product: entry `(b, j)` is the swapped state's row `b` against row `j` of the input weights. -/
theorem v5_apply (b : Fin 4096) (j : Fin 12288) :
    val_main_v5 (F := Ideal) x0 x1 (ix2 b j) = ∑ k : Fin 4096, flat x0 (ix2 b (swp k)) * x1 (ix2 j k) := by
  rw [val_main_v5_apply]
  refine Finset.sum_congr rfl fun k _ => ?_
  have el : lidx_main_v5 (ix2 b j) k = ix2 b k :=
    funext fun a => Fin.ext (by match a with | ⟨0, _⟩ => rfl | ⟨1, _⟩ => rfl)
  have er : idx_main_v4 (ridx_main_v5 (ix2 b j) k) = ix2 j k :=
    funext fun a => Fin.ext (by match a with | ⟨0, _⟩ => rfl | ⟨1, _⟩ => rfl)
  rw [val_main_v4_apply, el, er, v3_apply]

/-- The input bias spread over the samples: entry `(b, j)` is entry `j` of the bias. -/
theorem v7_apply (b : Fin 4096) (j : Fin 12288) : val_main_v7 (F := Ideal) x2 (ix2 b j) = x2 (ix1 j) := by
  rw [val_main_v7_apply, val_main_v6_apply]
  exact congrArg x2 (funext fun a => Fin.ext (by match a with | ⟨0, _⟩ => rfl))

/-- Round one's input pre-activations `swap(h) · Wihᵀ + bih` at `(b, j)`. -/
theorem v8_apply (b : Fin 4096) (j : Fin 12288) :
    val_main_v8 (F := Ideal) x0 x1 x2 (ix2 b j)
      = (∑ k : Fin 4096, flat x0 (ix2 b (swp k)) * x1 (ix2 j k)) + x2 (ix1 j) := by
  rw [val_main_v8_apply, v5_apply, v7_apply, Ideal.addf_def]

/-- Round one's state product: entry `(b, j)` is the state's row `b` against row `j` of the state weights. -/
theorem v10_apply (b : Fin 4096) (j : Fin 12288) :
    val_main_v10 (F := Ideal) x0 x3 (ix2 b j) = ∑ k : Fin 4096, flat x0 (ix2 b k) * x3 (ix2 j k) := by
  rw [val_main_v10_apply]
  refine Finset.sum_congr rfl fun k _ => ?_
  have el : lidx_main_v10 (ix2 b j) k = ix2 b k :=
    funext fun a => Fin.ext (by match a with | ⟨0, _⟩ => rfl | ⟨1, _⟩ => rfl)
  have er : idx_main_v9 (ridx_main_v10 (ix2 b j) k) = ix2 j k :=
    funext fun a => Fin.ext (by match a with | ⟨0, _⟩ => rfl | ⟨1, _⟩ => rfl)
  rw [val_main_v9_apply, el, er, v0_eq]

/-- The state bias spread over the samples. -/
theorem v12_apply (b : Fin 4096) (j : Fin 12288) : val_main_v12 (F := Ideal) x4 (ix2 b j) = x4 (ix1 j) := by
  rw [val_main_v12_apply, val_main_v11_apply]
  exact congrArg x4 (funext fun a => Fin.ext (by match a with | ⟨0, _⟩ => rfl))

/-- Round one's state pre-activations `h · Whhᵀ + bhh` at `(b, j)`. -/
theorem v13_apply (b : Fin 4096) (j : Fin 12288) :
    val_main_v13 (F := Ideal) x0 x3 x4 (ix2 b j)
      = (∑ k : Fin 4096, flat x0 (ix2 b k) * x3 (ix2 j k)) + x4 (ix1 j) := by
  rw [val_main_v13_apply, v10_apply, v12_apply, Ideal.addf_def]

/-- A column `c` of the slice starting at column `g · 4096` of a `[4096, 12288]` array is column `g · 4096 + c`:
    the three slices of the pre-activations are the three gates' rows of the stacked weights. -/
theorem gate0 (b c : Fin 4096) : idx_main_v14 (ix2 b c) = ix2 b (grow 0 c) :=
  funext fun a => Fin.ext (by
    match a with
    | ⟨0, _⟩ => rfl
    | ⟨1, _⟩ => show c.val = 0 * 4096 + c.val; omega)
theorem gate1 (b c : Fin 4096) : idx_main_v15 (ix2 b c) = ix2 b (grow 1 c) :=
  funext fun a => Fin.ext (by
    match a with
    | ⟨0, _⟩ => rfl
    | ⟨1, _⟩ => show 4096 + c.val = 1 * 4096 + c.val; omega)
theorem gate2 (b c : Fin 4096) : idx_main_v16 (ix2 b c) = ix2 b (grow 2 c) :=
  funext fun a => Fin.ext (by
    match a with
    | ⟨0, _⟩ => rfl
    | ⟨1, _⟩ => show 8192 + c.val = 2 * 4096 + c.val; omega)

theorem gate0h (b c : Fin 4096) : idx_main_v17 (ix2 b c) = ix2 b (grow 0 c) :=
  funext fun a => Fin.ext (by
    match a with
    | ⟨0, _⟩ => rfl
    | ⟨1, _⟩ => show c.val = 0 * 4096 + c.val; omega)
theorem gate1h (b c : Fin 4096) : idx_main_v18 (ix2 b c) = ix2 b (grow 1 c) :=
  funext fun a => Fin.ext (by
    match a with
    | ⟨0, _⟩ => rfl
    | ⟨1, _⟩ => show 4096 + c.val = 1 * 4096 + c.val; omega)
theorem gate2h (b c : Fin 4096) : idx_main_v19 (ix2 b c) = ix2 b (grow 2 c) :=
  funext fun a => Fin.ext (by
    match a with
    | ⟨0, _⟩ => rfl
    | ⟨1, _⟩ => show 8192 + c.val = 2 * 4096 + c.val; omega)

/-- Round one: the buffer holding the state after it is the textbook round applied to the flattened argument. The
    reference spells each gate's sigmoid as negate, exponential, add one, divide one by it, which is the logistic
    function; its three slices of each pre-activation array are the three gates. -/
theorem round1 : val_main_v41 (F := Ideal) x0 x1 x2 x3 x4 = refRound (flat x0) x1 x2 x3 x4 := by
  funext i
  obtain ⟨b, c, rfl⟩ : ∃ (b c : Fin 4096), i = ix2 b c := ⟨i 0, i 1, eq_ix2 i⟩
  rw [val_main_v41_apply, val_main_v39_apply, val_main_v40_apply, val_main_v38_apply, val_main_v37_apply,
    val_main_cst_3_apply, val_main_v36_apply, val_main_v35_apply, val_main_v34_apply, val_main_v33_apply,
    val_main_v32_apply, val_main_cst_2_apply, val_main_v31_apply, val_main_v30_apply, val_main_cst_1_apply,
    val_main_v29_apply, val_main_v28_apply, val_main_v27_apply, val_main_v26_apply, val_main_v25_apply,
    val_main_cst_0_apply, val_main_v24_apply, val_main_v23_apply, val_main_cst_apply, val_main_v22_apply,
    val_main_v21_apply, val_main_v20_apply,
    val_main_v14_apply, val_main_v15_apply, val_main_v16_apply, val_main_v17_apply, val_main_v18_apply,
    val_main_v19_apply, gate0, gate1, gate2, gate0h, gate1h, gate2h, v0_eq]
  simp only [v8_apply, v13_apply, Ideal.addf_def, Ideal.mulf_def, Ideal.subf_def, Ideal.hostDivf_def,
    Ideal.hostUnary_exp_def, Ideal.hostUnary_tanh_def, Ideal.hostNegf_def, Ideal.negf_def, Ideal.ofBits_def, ofBits_one]
  rfl

end Cert.ReferenceIdeal.RefValue

end
-- ==== Proof.RefRound2.lean ====
import proofs.«119031_j6846177870362_2_alg».proof.Proof.RefHelp

noncomputable section

/-! # Round two of the reference, read at an index

Round two repeats round one's operations on the state that round one left: the same two matrix products, the same
three column blocks, the same gate arithmetic. Read at entry `(b, c)` it is the textbook round of the specification
applied to round one's result array, whatever that array is. -/

namespace Cert.ReferenceIdeal.RefValue

open Cert.ReferenceIdeal Cert.ReferenceIdeal.Gen Cert.ReferenceIdeal.Read Idealize.ShloMosaic Idealize.ShloMosaic.ValueIdx Cert.Gru

variable (x0 : (⟨S4096x2x2048, .f32⟩ : BufTy).Contents (Elt Ideal))
  (x1 : (⟨S12288x4096, .f32⟩ : BufTy).Contents (Elt Ideal)) (x2 : (⟨S12288, .f32⟩ : BufTy).Contents (Elt Ideal))
  (x3 : (⟨S12288x4096, .f32⟩ : BufTy).Contents (Elt Ideal)) (x4 : (⟨S12288, .f32⟩ : BufTy).Contents (Elt Ideal))

/-- The swapped state of round two at column `k` is round one's result at the swapped column. -/
theorem v44_apply (b k : Fin 4096) :
    val_main_v44 (F := Ideal) x0 x1 x2 x3 x4 (ix2 b k) = val_main_v41 (F := Ideal) x0 x1 x2 x3 x4 (ix2 b (swp k)) := by
  unfold val_main_v44 val_main_v42 val_main_v43
  generalize val_main_v41 (F := Ideal) x0 x1 x2 x3 x4 = h
  exact swap_apply h b k

/-- Round two's input product: entry `(b, j)` is the swapped state's row `b` against row `j` of the input weights. -/
theorem v46_apply (b : Fin 4096) (j : Fin 12288) :
    val_main_v46 (F := Ideal) x0 x1 x2 x3 x4 (ix2 b j)
      = ∑ k : Fin 4096, val_main_v41 (F := Ideal) x0 x1 x2 x3 x4 (ix2 b (swp k)) * x1 (ix2 j k) := by
  rw [val_main_v46_apply]
  refine Finset.sum_congr rfl fun k _ => ?_
  have el : lidx_main_v46 (ix2 b j) k = ix2 b k :=
    funext fun a => Fin.ext (by match a with | ⟨0, _⟩ => rfl | ⟨1, _⟩ => rfl)
  have er : idx_main_v45 (ridx_main_v46 (ix2 b j) k) = ix2 j k :=
    funext fun a => Fin.ext (by match a with | ⟨0, _⟩ => rfl | ⟨1, _⟩ => rfl)
  rw [val_main_v45_apply, el, er, v44_apply]

/-- The input bias spread over the samples: entry `(b, j)` is entry `j` of the bias. -/
theorem v48_apply (b : Fin 4096) (j : Fin 12288) : val_main_v48 (F := Ideal) x2 (ix2 b j) = x2 (ix1 j) := by
  rw [val_main_v48_apply, val_main_v47_apply]
  exact congrArg x2 (funext fun a => Fin.ext (by match a with | ⟨0, _⟩ => rfl))

/-- Round two's input pre-activations at `(b, j)`. -/
theorem v49_apply (b : Fin 4096) (j : Fin 12288) :
    val_main_v49 (F := Ideal) x0 x1 x2 x3 x4 (ix2 b j)
      = (∑ k : Fin 4096, val_main_v41 (F := Ideal) x0 x1 x2 x3 x4 (ix2 b (swp k)) * x1 (ix2 j k)) + x2 (ix1 j) := by
  rw [val_main_v49_apply, v46_apply, v48_apply, Ideal.addf_def]

/-- Round two's state product: entry `(b, j)` is the state's row `b` against row `j` of the state weights. -/
theorem v51_apply (b : Fin 4096) (j : Fin 12288) :
    val_main_v51 (F := Ideal) x0 x1 x2 x3 x4 (ix2 b j)
      = ∑ k : Fin 4096, val_main_v41 (F := Ideal) x0 x1 x2 x3 x4 (ix2 b k) * x3 (ix2 j k) := by
  rw [val_main_v51_apply]
  refine Finset.sum_congr rfl fun k _ => ?_
  have el : lidx_main_v51 (ix2 b j) k = ix2 b k :=
    funext fun a => Fin.ext (by match a with | ⟨0, _⟩ => rfl | ⟨1, _⟩ => rfl)
  have er : idx_main_v50 (ridx_main_v51 (ix2 b j) k) = ix2 j k :=
    funext fun a => Fin.ext (by match a with | ⟨0, _⟩ => rfl | ⟨1, _⟩ => rfl)
  rw [val_main_v50_apply, el, er]

/-- The state bias spread over the samples. -/
theorem v53_apply (b : Fin 4096) (j : Fin 12288) : val_main_v53 (F := Ideal) x4 (ix2 b j) = x4 (ix1 j) := by
  rw [val_main_v53_apply, val_main_v52_apply]
  exact congrArg x4 (funext fun a => Fin.ext (by match a with | ⟨0, _⟩ => rfl))

/-- Round two's state pre-activations at `(b, j)`. -/
theorem v54_apply (b : Fin 4096) (j : Fin 12288) :
    val_main_v54 (F := Ideal) x0 x1 x2 x3 x4 (ix2 b j)
      = (∑ k : Fin 4096, val_main_v41 (F := Ideal) x0 x1 x2 x3 x4 (ix2 b k) * x3 (ix2 j k)) + x4 (ix1 j) := by
  rw [val_main_v54_apply, v51_apply, v53_apply, Ideal.addf_def]

/-- Column `c` of the slice starting at column `g · 4096` is column `g · 4096 + c`: the three slices of each
    pre-activation array are the three gates' rows of the stacked weights. -/
theorem gate0i (b c : Fin 4096) : idx_main_v55 (ix2 b c) = ix2 b (grow 0 c) :=
  funext fun a => Fin.ext (by
    match a with
    | ⟨0, _⟩ => rfl
    | ⟨1, _⟩ => show c.val = 0 * 4096 + c.val; omega)
theorem gate1i (b c : Fin 4096) : idx_main_v56 (ix2 b c) = ix2 b (grow 1 c) :=
  funext fun a => Fin.ext (by
    match a with
    | ⟨0, _⟩ => rfl
    | ⟨1, _⟩ => show 4096 + c.val = 1 * 4096 + c.val; omega)
theorem gate2i (b c : Fin 4096) : idx_main_v57 (ix2 b c) = ix2 b (grow 2 c) :=
  funext fun a => Fin.ext (by
    match a with
    | ⟨0, _⟩ => rfl
    | ⟨1, _⟩ => show 8192 + c.val = 2 * 4096 + c.val; omega)
theorem gate0s (b c : Fin 4096) : idx_main_v58 (ix2 b c) = ix2 b (grow 0 c) :=
  funext fun a => Fin.ext (by
    match a with
    | ⟨0, _⟩ => rfl
    | ⟨1, _⟩ => show c.val = 0 * 4096 + c.val; omega)
theorem gate1s (b c : Fin 4096) : idx_main_v59 (ix2 b c) = ix2 b (grow 1 c) :=
  funext fun a => Fin.ext (by
    match a with
    | ⟨0, _⟩ => rfl
    | ⟨1, _⟩ => show 4096 + c.val = 1 * 4096 + c.val; omega)
theorem gate2s (b c : Fin 4096) : idx_main_v60 (ix2 b c) = ix2 b (grow 2 c) :=
  funext fun a => Fin.ext (by
    match a with
    | ⟨0, _⟩ => rfl
    | ⟨1, _⟩ => show 8192 + c.val = 2 * 4096 + c.val; omega)

/-- Round two: the buffer holding the state after it is the textbook round applied to round one's result. -/
theorem round2 : val_main_v82 (F := Ideal) x0 x1 x2 x3 x4
    = refRound (val_main_v41 (F := Ideal) x0 x1 x2 x3 x4) x1 x2 x3 x4 := by
  funext i
  obtain ⟨b, c, rfl⟩ : ∃ (b c : Fin 4096), i = ix2 b c := ⟨i 0, i 1, eq_ix2 i⟩
  rw [val_main_v82_apply, val_main_v80_apply, val_main_v81_apply, val_main_v79_apply, val_main_v78_apply,
    val_main_cst_8_apply, val_main_v77_apply, val_main_v76_apply, val_main_v75_apply, val_main_v74_apply,
    val_main_v73_apply, val_main_cst_7_apply, val_main_v72_apply, val_main_v71_apply, val_main_cst_6_apply,
    val_main_v70_apply, val_main_v69_apply, val_main_v68_apply, val_main_v67_apply, val_main_v66_apply,
    val_main_cst_5_apply, val_main_v65_apply, val_main_v64_apply, val_main_cst_4_apply, val_main_v63_apply,
    val_main_v62_apply, val_main_v61_apply,
    val_main_v55_apply, val_main_v56_apply, val_main_v57_apply, val_main_v58_apply, val_main_v59_apply,
    val_main_v60_apply, gate0i, gate1i, gate2i, gate0s, gate1s, gate2s]
  simp only [v49_apply, v54_apply, Ideal.addf_def, Ideal.mulf_def, Ideal.subf_def, Ideal.hostDivf_def,
    Ideal.hostUnary_exp_def, Ideal.hostUnary_tanh_def, Ideal.hostNegf_def, Ideal.negf_def, Ideal.ofBits_def, ofBits_one]
  generalize val_main_v41 (F := Ideal) x0 x1 x2 x3 x4 = h
  rfl

end Cert.ReferenceIdeal.RefValue

end
-- ==== Proof.RefSide.lean ====
import proofs.«119031_j6846177870362_2_alg».proof.Defs
import proofs.«119031_j6846177870362_2_alg».proof.Proof.Gen.Pre_finite_inputs
import proofs.«119031_j6846177870362_2_alg».proof.Proof.RefRound1
import proofs.«119031_j6846177870362_2_alg».proof.Proof.RefRound2

noncomputable section

/-! # The reference program computes the textbook specification

Round one's result array is the textbook round of the flattened argument, round two's is the textbook round of
that, and the last three operations are the linear read-out of round two's state: the product with the transposed
read-out weights (one output unit, so one column) plus the one-entry bias spread over the samples. So the value
the reference's run leaves in its result buffer is `refSpec` of the seven arguments, and the run leaves the
arguments as they were. -/

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx Cert.Gru

variable (x0 : (⟨S4096x2x2048, .f32⟩ : BufTy).Contents (Elt Ideal))
  (x1 : (⟨S12288x4096, .f32⟩ : BufTy).Contents (Elt Ideal)) (x2 : (⟨S12288, .f32⟩ : BufTy).Contents (Elt Ideal))
  (x3 : (⟨S12288x4096, .f32⟩ : BufTy).Contents (Elt Ideal)) (x4 : (⟨S12288, .f32⟩ : BufTy).Contents (Elt Ideal))
  (x5 : (⟨S1x4096, .f32⟩ : BufTy).Contents (Elt Ideal)) (x6 : (⟨S1, .f32⟩ : BufTy).Contents (Elt Ideal))

/-- The state after both rounds is two textbook rounds of the flattened argument. -/
theorem state2 : val_main_v82 (F := Ideal) x0 x1 x2 x3 x4
    = refRound (refRound (flat x0) x1 x2 x3 x4) x1 x2 x3 x4 := by
  rw [round2, round1]

/-- The read-out of a state array by the reference's last operations: entry `(b, 0)` of the product with the
    transposed weights is the state's row `b` against the weights' one row, and the bias is its one entry. -/
theorem readout_apply (b : Fin 4096) (o : Fin 1) :
    val_main_v87 (F := Ideal) x0 x1 x2 x3 x4 x5 x6 (ix2 b o)
      = (∑ k : Fin 4096, val_main_v82 (F := Ideal) x0 x1 x2 x3 x4 (ix2 b k) * x5 (ix2 0 k)) + x6 (ix1 0) := by
  obtain rfl : o = 0 := Subsingleton.elim _ _
  rw [val_main_v87_apply, val_main_v84_apply, val_main_v86_apply, val_main_v85_apply, Ideal.addf_def]
  refine congrArg₂ (· + ·) (Finset.sum_congr rfl fun k _ => ?_)
    (congrArg x6 (funext fun a => Fin.ext (by match a with | ⟨0, _⟩ => rfl)))
  have el : lidx_main_v84 (ix2 b (0 : Fin 1)) k = ix2 b k :=
    funext fun a => Fin.ext (by match a with | ⟨0, _⟩ => rfl | ⟨1, _⟩ => rfl)
  have er : idx_main_v83 (ridx_main_v84 (ix2 b (0 : Fin 1)) k) = ix2 (0 : Fin 1) k :=
    funext fun a => Fin.ext (by match a with | ⟨0, _⟩ => rfl | ⟨1, _⟩ => rfl)
  rw [val_main_v83_apply, el, er]

/-- The reference's result, as a function of its seven arguments, is the textbook specification. -/
theorem result_eq : val_main_v87 (F := Ideal) x0 x1 x2 x3 x4 x5 x6 = refSpec x0 x1 x2 x3 x4 x5 x6 := by
  funext i
  obtain ⟨b, o, rfl⟩ : ∃ (b : Fin 4096) (o : Fin 1), i = ix2 b o := ⟨i 0, i 1, eq_ix2 i⟩
  rw [readout_apply, state2]
  rfl

/-- The reference runs to the end from any memory and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference's run ends with the textbook specification of the launch arguments in its result buffer and the
    arguments unchanged. -/
theorem ref_run (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v87) = refSpec (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)) :=
  (θ_run Cert.ReferenceIdeal.defs _ _).mono
    (fun _ h c => ⟨(h c).1.trans ((val_main_v87_eq m' c).trans (result_eq _ _ _ _ _ _ _)), (h c).2⟩)
    (Cert.ReferenceIdeal.Value.run (F := Ideal) m' ρ')

end Cert.ReferenceIdeal.RefValue

end
-- ==== Proof.RoundLaw.lean ====
import proofs.«119031_j6846177870362_2_alg».proof.Proof.Spec

noncomputable section

/-! # The fused arrangement of a round equals the textbook one on real-valued arrays

Three facts carry the equality. The half swap is an involution of the 4096 positions, so a sum over the
positions may be re-indexed through it: `Σ_k h(swp k) · W(k) = Σ_k h(k) · W(swp k)`. A product distributes over a
sum when the three numbers are real (it need not at the infinities of the extended reals, which is where the
hypotheses are used): `Σ_k h(k) · (a(k) + b(k)) = Σ_k h(k) · a(k) + Σ_k h(k) · b(k)`. Addition is commutative and
associative: `(A + B) + (p + q) = (A + p) + (B + q)`. A round maps real-valued arrays to a real-valued array
(finite sums, products, differences of reals are real, and the logistic function and the hyperbolic tangent of a
real are real), so the equality of one round carries over to two rounds and the read-out. -/

namespace Cert.Gru

open Idealize.ShloMosaic Idealize.ShloMosaic.ValueIdx

/-! ## Real elements of the extended reals are closed under the operations of a round -/

theorem real_add {a b : EReal} (ha : ∃ x : ℝ, a = (x : EReal)) (hb : ∃ y : ℝ, b = (y : EReal)) :
    ∃ z : ℝ, a + b = (z : EReal) := by
  obtain ⟨x, rfl⟩ := ha
  obtain ⟨y, rfl⟩ := hb
  exact ⟨x + y, (EReal.coe_add x y).symm⟩

theorem real_mul {a b : EReal} (ha : ∃ x : ℝ, a = (x : EReal)) (hb : ∃ y : ℝ, b = (y : EReal)) :
    ∃ z : ℝ, a * b = (z : EReal) := by
  obtain ⟨x, rfl⟩ := ha
  obtain ⟨y, rfl⟩ := hb
  exact ⟨x * y, (EReal.coe_mul x y).symm⟩

theorem real_sub {a b : EReal} (ha : ∃ x : ℝ, a = (x : EReal)) (hb : ∃ y : ℝ, b = (y : EReal)) :
    ∃ z : ℝ, a - b = (z : EReal) := by
  obtain ⟨x, rfl⟩ := ha
  obtain ⟨y, rfl⟩ := hb
  exact ⟨x - y, (EReal.coe_sub x y).symm⟩

theorem real_one : ∃ z : ℝ, (1 : EReal) = (z : EReal) := ⟨1, EReal.coe_one.symm⟩

theorem real_logistic {a : EReal} (ha : ∃ x : ℝ, a = (x : EReal)) :
    ∃ z : ℝ, Ideal.logistic a = (z : EReal) := by
  obtain ⟨x, rfl⟩ := ha
  exact ⟨(1 + Real.exp (-x))⁻¹, Ideal.logistic_coe x⟩

theorem real_tanh {a : EReal} (ha : ∃ x : ℝ, a = (x : EReal)) :
    ∃ z : ℝ, Ideal.tanh a = (z : EReal) := by
  obtain ⟨x, rfl⟩ := ha
  exact ⟨Real.tanh x, Ideal.tanh_coe x⟩

/-- A finite sum of real elements is a real element. -/
theorem real_sum {K : Type} [Fintype K] (f : K → EReal) (hf : ∀ k, ∃ x : ℝ, f k = (x : EReal)) :
    ∃ z : ℝ, ∑ k, f k = (z : EReal) := by
  classical
  have key : ∀ s : Finset K, ∃ z : ℝ, ∑ k ∈ s, f k = (z : EReal) := by
    intro s
    refine Finset.induction_on s ?_ ?_
    · exact ⟨0, by rw [Finset.sum_empty, EReal.coe_zero]⟩
    · intro a s has ih
      rw [Finset.sum_insert has]
      exact real_add (hf a) ih
  exact key Finset.univ

/-! ## The three rearrangements -/

/-- The half swap is an involution. -/
theorem swp_swp (k : Fin 4096) : swp (swp k) = k := by
  apply Fin.ext
  have hk : k.val < 4096 := k.isLt
  show ((k.val + 2048) % 4096 + 2048) % 4096 = k.val
  omega

/-- The half swap as a permutation of the positions. -/
def swpEquiv : Fin 4096 ≃ Fin 4096 := ⟨swp, swp, swp_swp, swp_swp⟩

/-- A sum over the positions may be taken through the half swap. -/
theorem sum_swp {M : Type} [AddCommMonoid M] (f : Fin 4096 → M) : ∑ k, f (swp k) = ∑ k, f k :=
  Equiv.sum_comp swpEquiv f

/-- The swap moved from the state onto the weights' columns. -/
theorem sum_swap_state (x w : Fin 4096 → EReal) : ∑ k, x (swp k) * w k = ∑ k, x k * w (swp k) := by
  rw [← sum_swp (fun k => x k * w (swp k))]
  refine Finset.sum_congr rfl fun k _ => ?_
  rw [swp_swp]

/-- One product with the sum of two real weight rows is the sum of the two products. -/
theorem sum_mul_add {K : Type} [Fintype K] (x a b : K → EReal) (hx : ∀ k, ∃ r : ℝ, x k = (r : EReal))
    (ha : ∀ k, ∃ r : ℝ, a k = (r : EReal)) (hb : ∀ k, ∃ r : ℝ, b k = (r : EReal)) :
    ∑ k, x k * (a k + b k) = ∑ k, x k * a k + ∑ k, x k * b k := by
  rw [← Finset.sum_add_distrib]
  refine Finset.sum_congr rfl fun k _ => ?_
  obtain ⟨r, hr⟩ := hx k
  obtain ⟨s, hs⟩ := ha k
  obtain ⟨t, ht⟩ := hb k
  rw [hr, hs, ht, ← EReal.coe_add, ← EReal.coe_mul, ← EReal.coe_mul, ← EReal.coe_mul, ← EReal.coe_add, mul_add]

/-! ## The arrays -/

theorem flat_real {f : SF.Idx → EReal} (hf : IsReal f) : IsReal (flat f) := fun _ => hf _

theorem refRound_real {h : SH.Idx → EReal} {Wih : SW.Idx → EReal} {bih : SB.Idx → EReal} {Whh : SW.Idx → EReal}
    {bhh : SB.Idx → EReal} (hh : IsReal h) (h1 : IsReal Wih) (h2 : IsReal bih) (h3 : IsReal Whh) (h4 : IsReal bhh) :
    IsReal (refRound h Wih bih Whh bhh) := by
  intro i
  have gi : ∀ g : Fin 3, ∃ z : ℝ,
      (∑ k : Fin 4096, h (ix2 (i 0) (swp k)) * Wih (ix2 (grow g (i 1)) k)) + bih (ix1 (grow g (i 1))) = (z : EReal) :=
    fun g => real_add (real_sum _ fun k => real_mul (hh _) (h1 _)) (h2 _)
  have gh : ∀ g : Fin 3, ∃ z : ℝ,
      (∑ k : Fin 4096, h (ix2 (i 0) k) * Whh (ix2 (grow g (i 1)) k)) + bhh (ix1 (grow g (i 1))) = (z : EReal) :=
    fun g => real_add (real_sum _ fun k => real_mul (hh _) (h3 _)) (h4 _)
  show ∃ x : ℝ, refRound h Wih bih Whh bhh i = (x : EReal)
  simp only [refRound]
  exact real_add
    (real_mul (real_sub real_one (real_logistic (real_add (gi 1) (gh 1))))
      (real_tanh (real_add (gi 2) (real_mul (real_logistic (real_add (gi 0) (gh 0))) (gh 2)))))
    (real_mul (real_logistic (real_add (gi 1) (gh 1))) (hh i))

theorem kerRound_eq_refRound {h : SH.Idx → EReal} {Wih : SW.Idx → EReal} {bih : SB.Idx → EReal} {Whh : SW.Idx → EReal}
    {bhh : SB.Idx → EReal} (hh : IsReal h) (h1 : IsReal Wih) (h2 : IsReal bih) (h3 : IsReal Whh) (h4 : IsReal bhh) :
    kerRound h Wih bih Whh bhh = refRound h Wih bih Whh bhh := by
  funext i
  -- the candidate gate's input product: the swap moved back onto the state
  have eI : ∀ g : Fin 3, (∑ k : Fin 4096, h (ix2 (i 0) k) * Wih (ix2 (grow g (i 1)) (swp k)))
      = ∑ k : Fin 4096, h (ix2 (i 0) (swp k)) * Wih (ix2 (grow g (i 1)) k) :=
    fun g => (sum_swap_state (fun k => h (ix2 (i 0) k)) (fun k => Wih (ix2 (grow g (i 1)) k))).symm
  -- the reset and update gates: the merged product and the merged bias split into the textbook's two terms
  have eG : ∀ g : Fin 3,
      (∑ k : Fin 4096, h (ix2 (i 0) k) * (Wih (ix2 (grow g (i 1)) (swp k)) + Whh (ix2 (grow g (i 1)) k)))
          + (bih (ix1 (grow g (i 1))) + bhh (ix1 (grow g (i 1))))
        = ((∑ k : Fin 4096, h (ix2 (i 0) (swp k)) * Wih (ix2 (grow g (i 1)) k)) + bih (ix1 (grow g (i 1))))
          + ((∑ k : Fin 4096, h (ix2 (i 0) k) * Whh (ix2 (grow g (i 1)) k)) + bhh (ix1 (grow g (i 1)))) := by
    intro g
    rw [sum_mul_add (fun k => h (ix2 (i 0) k)) (fun k => Wih (ix2 (grow g (i 1)) (swp k)))
      (fun k => Whh (ix2 (grow g (i 1)) k)) (fun _ => hh _) (fun _ => h1 _) (fun _ => h3 _), eI g, add_add_add_comm]
  show kerRound h Wih bih Whh bhh i = refRound h Wih bih Whh bhh i
  simp only [kerRound, refRound]
  rw [eG 0, eG 1, eI 2]

theorem kerSpec_eq_refSpec {f : SF.Idx → EReal} {Wih : SW.Idx → EReal} {bih : SB.Idx → EReal} {Whh : SW.Idx → EReal}
    {bhh : SB.Idx → EReal} {fcw : SFW.Idx → EReal} {fcb : SFB.Idx → EReal} (hf : IsReal f) (h1 : IsReal Wih)
    (h2 : IsReal bih) (h3 : IsReal Whh) (h4 : IsReal bhh) :
    kerSpec f Wih bih Whh bhh fcw fcb = refSpec f Wih bih Whh bhh fcw fcb := by
  unfold kerSpec refSpec
  rw [kerRound_eq_refRound (flat_real hf) h1 h2 h3 h4,
    kerRound_eq_refRound (refRound_real (flat_real hf) h1 h2 h3 h4) h1 h2 h3 h4]

end Cert.Gru

end
-- ==== Proof.Finite.lean ====
import proofs.«119031_j6846177870362_2_alg».proof.Proof.Spec
import proofs.«119031_j6846177870362_2_alg».proof.Pre_finite_inputs
import Idealize.ShloMosaic.Lib.ReduceAll

noncomputable section

/-! # From the stated precondition to real-valued arguments

The precondition is the conjunction, over the seven arguments, of "every entry's absolute value is below
`+∞`". At the ideal instance an entry is an extended real `x`, its absolute value is `max x (−x)`, and the word
`0x7F800000` denotes `⊤`; `max x (−x) < ⊤` excludes `x = ⊤` and `x = ⊥`, so `x` is a real number. -/

namespace Cert.Gru

open Idealize.ShloMosaic Idealize.ShloMosaic.ValueIdx

/-- The scalar shape has one index. -/
instance : Subsingleton Cert.Pre_finite_inputs.S_.Idx := ⟨fun _ _ => funext fun d => d.elim0⟩

/-- The word of `+∞` denotes the top element. -/
theorem inf_word : Ideal.ofBits .f32 0x7F800000#32 = (⊤ : EReal) := by
  simp [Ideal.ofBits, Ideal.ieee]

/-- An extended real whose absolute value compares below `+∞` is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => exact absurd h (by simp [Ideal.cmp])
  | coe r => exact ⟨r, rfl⟩
  | top => exact absurd h (by simp [Ideal.cmp])

/-- One argument's conjunct: if "all entries have absolute value below `+∞`" came out 1, every entry is real. -/
theorem all_real {S : Shape} {axes : List (Fin S.rank)} (x : FVec Ideal S .f32)
    (d : Fin Cert.Pre_finite_inputs.S_.rank → Fin S.rank) (hb : Cert.Pre_finite_inputs.S_.BroadcastsInDim S d)
    (hr : S.ReducesTo axes Cert.Pre_finite_inputs.S_) (hu : 0 < Cert.Pre_finite_inputs.S_.numel)
    (e : Host.reduce IntOp.andi
        (cmpf .olt (Host.absf x) (broadcastInDim S d hb (constant (F := Ideal) Cert.Pre_finite_inputs.S_ .f32 0x7F800000#32)))
        (constantI Cert.Pre_finite_inputs.S_ 1 1#1) hr hu ix0 = 1#1) :
    ∀ i, ∃ r : ℝ, x i = (r : EReal) := fun i =>
  real_of_abs_lt (x i) (Host.reduce_andi_all _ _ hr hu ix0 e i)

variable [hP : Cert.Pre_finite_inputs.Facts]

/-- The precondition makes the state and the four gate arrays real-valued. -/
theorem args_real (x0 : FVec Ideal Cert.Pre_finite_inputs.S4096x2x2048 .f32)
    (x1 : FVec Ideal Cert.Pre_finite_inputs.S12288x4096 .f32) (x2 : FVec Ideal Cert.Pre_finite_inputs.S12288 .f32)
    (x3 : FVec Ideal Cert.Pre_finite_inputs.S12288x4096 .f32) (x4 : FVec Ideal Cert.Pre_finite_inputs.S12288 .f32)
    (x5 : FVec Ideal Cert.Pre_finite_inputs.S1x4096 .f32) (x6 : FVec Ideal Cert.Pre_finite_inputs.S1 .f32)
    (h : Cert.Pre_finite_inputs.fn (F := Ideal) x0 x1 x2 x3 x4 x5 x6 = fun _ => 1#1) :
    IsReal (S := SF) x0 ∧ IsReal (S := SW) x1 ∧ IsReal (S := SB) x2 ∧ IsReal (S := SW) x3 ∧ IsReal (S := SB) x4 := by
  have h0 := congrFun h ix0
  dsimp only [Cert.Pre_finite_inputs.fn, Cert.Pre_finite_inputs.fn_part1] at h0
  obtain ⟨h0, -⟩ := IntOp.andi_eq_one.1 h0
  obtain ⟨h0, -⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real x0 _ _ _ _ e0, all_real x1 _ _ _ _ e1, all_real x2 _ _ _ _ e2, all_real x3 _ _ _ _ e3,
    all_real x4 _ _ _ _ e4⟩

end Cert.Gru

end
-- ==== Proof.lean ====
/-
  Two rounds of a two-node gated recurrent update and a linear read-out: the fused kernel against the textbook reference,
  over the extended reals, for finite inputs.

  The kernel program builds, on the host, four stacked weight matrices (the reset and the update gates' input and state
  weights ADDED, the input weights' columns half-swapped so that the swap of the state need never be formed; the
  candidate's two matrices kept apart) and four bias rows; each round is one kernel region over a 2 × 8 × 4 grid whose
  last axis walks the four 1024-wide slabs of the contraction, four accumulators carried from slab to slab and the gates
  applied at the fourth; a last host stretch applies the read-out. The reference forms the swapped state, multiplies it
  and the state by the two weight matrices, adds the biases, and applies the gates.

  * The frames (each program runs to the end, faults nowhere, leaves its arguments as launched): the two kernel programs
    through a segment-by-segment run of @main — host stretch, region, host stretch, region, host stretch — each region
    entered with the accumulators at anything and left with them forgotten, its body run once per kind of grid point
    (first, inner, last slab); the reference through its straight-line run.
  * The values: a region's output array is the fused round of its four operand arrays (the accumulators are the slab
    products added up from zero in order; the written-back blocks tile the array); the host stretches compute the stacked
    operands and the read-out; the four-slab sum is the whole contraction; with every entry real, a sum against added
    weights is the sum of the two sums, a sum over the swapped state is the sum against the swapped weights, and every
    round's result is real again — so the two programs' results agree entry by entry.
  * The idealization rewrote nothing, so its conjunct is trivial.
-/
import proofs.«119031_j6846177870362_2_alg».proof.Defs
import proofs.«119031_j6846177870362_2_alg».proof.Proof.Gen.Kernel
import proofs.«119031_j6846177870362_2_alg».proof.Proof.Gen.KernelIdeal
import proofs.«119031_j6846177870362_2_alg».proof.Proof.Gen.ReferenceIdeal
import proofs.«119031_j6846177870362_2_alg».proof.Proof.Gen.Pre_finite_inputs
import proofs.«119031_j6846177870362_2_alg».proof.Proof.K.MainRun
import proofs.«119031_j6846177870362_2_alg».proof.Proof.KI.MainRun
import proofs.«119031_j6846177870362_2_alg».proof.Proof.KI.MainValue
import proofs.«119031_j6846177870362_2_alg».proof.Proof.KI.R0Final
import proofs.«119031_j6846177870362_2_alg».proof.Proof.KI.R1Final
import proofs.«119031_j6846177870362_2_alg».proof.Proof.RefSide
import proofs.«119031_j6846177870362_2_alg».proof.Proof.RoundLaw
import proofs.«119031_j6846177870362_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Whole.frame m ρ
theorem frame_ki : Cert.frame_KernelIdeal := fun m ρ _ => Cert.KernelIdeal.Whole.frame m ρ

/-- The kernel program's result buffer is the fused arrangement of the arguments; on real arguments that is the textbook
    arrangement, which the reference's result buffer holds. -/
theorem algebraic : Cert.algebraic_KernelIdeal_ReferenceIdeal := by
  intro m ρ m' ρ' hpre hagree
  refine ⟨fun c => Cert.Gru.refSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Whole.run (F := Ideal) m ρ)
    have hr := Cert.Gru.args_real _ _ _ _ _ _ _ (hpre c)
    exact (Cert.KernelIdeal.Whole.result_eq_of m ρ (fun V c => Cert.KernelIdeal.Rgn0.final_spec V c) (fun V c => Cert.KernelIdeal.Rgn1.final_spec V c) c).trans
      (Cert.Gru.kerSpec_eq_refSpec hr.1 hr.2.1 hr.2.2.1 hr.2.2.2.1 hr.2.2.2.2)
  · refine (θ_run Cert.ReferenceIdeal.defs _ _).mono (fun r h c => ⟨?_, (h c).2⟩)
      (Cert.ReferenceIdeal.RefValue.ref_run m' ρ')
    rw [(h c).1, (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
